-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S4096x32 : Shape := ⟨2, ![4096, 32]⟩
abbrev S128x128 : Shape := ⟨2, ![128, 128]⟩
abbrev S128x32 : Shape := ⟨2, ![128, 32]⟩
abbrev S4 : Shape := ⟨1, ![4]⟩
abbrev S32x128 : Shape := ⟨2, ![32, 128]⟩
abbrev S1 : Shape := ⟨1, ![1]⟩
abbrev S_ : Shape := ⟨0, ![]⟩
abbrev S16 : Shape := ⟨1, ![16]⟩
abbrev S1x128 : Shape := ⟨2, ![1, 128]⟩
abbrev S128 : Shape := ⟨1, ![128]⟩
abbrev S1x16 : Shape := ⟨2, ![1, 16]⟩
abbrev S32x32 : Shape := ⟨2, ![32, 32]⟩
abbrev S32x12288 : Shape := ⟨2, ![32, 12288]⟩
abbrev S512x128 : Shape := ⟨2, ![512, 128]⟩
abbrev S32x4096 : Shape := ⟨2, ![32, 4096]⟩
abbrev S32x512 : Shape := ⟨2, ![32, 512]⟩
abbrev S32x16384 : Shape := ⟨2, ![32, 16384]⟩
abbrev S16384x32 : Shape := ⟨2, ![16384, 32]⟩

abbrev nBuf : Table → Nat
  | .hbm => 6
  | .local .tc .vmem => 18
  | .local .scVector .vmem => 2
  | _ => 0

abbrev bufTy : (tb : Table) → Fin (nBuf tb) → BufTy
  | .hbm, ⟨0, _⟩ => ⟨S16384x2048, .f32⟩
  | .hbm, ⟨1, _⟩ => ⟨S4096x32, .f32⟩
  | .hbm, ⟨2, _⟩ => ⟨S32x12288, .f32⟩
  | .hbm, ⟨3, _⟩ => ⟨S32x4096, .f32⟩
  | .hbm, ⟨4, _⟩ => ⟨S32x16384, .f32⟩
  | .hbm, ⟨5, _⟩ => ⟨S16384x32, .f32⟩
  | .local .tc .vmem, ⟨0, _⟩ => ⟨S512x128, .f32⟩
  | .local .tc .vmem, ⟨1, _⟩ => ⟨S512x128, .f32⟩
  | .local .tc .vmem, ⟨2, _⟩ => ⟨S512x128, .f32⟩
  | .local .tc .vmem, ⟨3, _⟩ => ⟨S512x128, .f32⟩
  | .local .tc .vmem, ⟨4, _⟩ => ⟨S512x128, .f32⟩
  | .local .tc .vmem, ⟨5, _⟩ => ⟨S512x128, .f32⟩
  | .local .tc .vmem, ⟨6, _⟩ => ⟨S512x128, .f32⟩
  | .local .tc .vmem, ⟨7, _⟩ => ⟨S512x128, .f32⟩
  | .local .tc .vmem, ⟨8, _⟩ => ⟨S512x128, .f32⟩
  | .local .tc .vmem, ⟨9, _⟩ => ⟨S512x128, .f32⟩
  | .local .tc .vmem, ⟨10, _⟩ => ⟨S512x128, .f32⟩
  | .local .tc .vmem, ⟨11, _⟩ => ⟨S512x128, .f32⟩
  | .local .tc .vmem, ⟨12, _⟩ => ⟨S512x128, .f32⟩
  | .local .tc .vmem, ⟨13, _⟩ => ⟨S512x128, .f32⟩
  | .local .tc .vmem, ⟨14, _⟩ => ⟨S512x128, .f32⟩
  | .local .tc .vmem, ⟨15, _⟩ => ⟨S512x128, .f32⟩
  | .local .tc .vmem, ⟨16, _⟩ => ⟨S32x4096, .f32⟩
  | .local .tc .vmem, ⟨17, _⟩ => ⟨S32x4096, .f32⟩
  | .local .scVector .vmem, ⟨0, _⟩ => ⟨S128x128, .f32⟩
  | .local .scVector .vmem, ⟨1, _⟩ => ⟨S128x32, .f32⟩
  | _, _ => ⟨S16384x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc0_scratch0 : Ref sig .scVector := ⟨.vmem, 0, rfl⟩
abbrev cc0_scratch1 : Ref sig .scVector := ⟨.vmem, 1, rfl⟩
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c12288_i32 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c12288_i32 v2
  let v4 : BitVec 32 := Scalar.addi v3 c0_i32
  let c0_i32_3 : BitVec 32 := 0#32
  ![v4.toNat, 0]
@[reducible] def k0_t1_loop : Scf.Loop 32 :=
  let c0_i32_46 : BitVec 32 := 0#32
  let c32_i32_47 : BitVec 32 := 32#32
  let v71 : BitVec 32 := Scalar.addi c0_i32_46 c32_i32_47
  let c1_i32_48 : BitVec 32 := 1#32
  ⟨c0_i32_46, v71, c1_i32_48⟩
def k0_off2 (k0_t1 : Fin k0_t1_loop.trips) : Fin 2 → Nat :=
  let c0_i32_46 : BitVec 32 := 0#32
  let c1_i32_48 : BitVec 32 := 1#32
  let arg8 : BitVec 32 := Scf.iv c0_i32_46 c1_i32_48 k0_t1
  let c0_i32_153 : BitVec 32 := 0#32
  ![arg8.toNat, 0]
def k0_off3 (k0_t1 : Fin k0_t1_loop.trips) : Fin 2 → Nat :=
  let c0_i32_46 : BitVec 32 := 0#32
  let c1_i32_48 : BitVec 32 := 1#32
  let arg8 : BitVec 32 := Scf.iv c0_i32_46 c1_i32_48 k0_t1
  let c0_i32_154 : BitVec 32 := 0#32
  ![arg8.toNat, 0]
def k0_off4 (k0_t1 : Fin k0_t1_loop.trips) : Fin 2 → Nat :=
  let c0_i32_46 : BitVec 32 := 0#32
  let c1_i32_48 : BitVec 32 := 1#32
  let arg8 : BitVec 32 := Scf.iv c0_i32_46 c1_i32_48 k0_t1
  let c0_i32_155 : BitVec 32 := 0#32
  ![arg8.toNat, 0]
def k0_off5 (k0_t1 : Fin k0_t1_loop.trips) : Fin 2 → Nat :=
  let c0_i32_46 : BitVec 32 := 0#32
  let c1_i32_48 : BitVec 32 := 1#32
  let arg8 : BitVec 32 := Scf.iv c0_i32_46 c1_i32_48 k0_t1
  let c0_i32_156 : BitVec 32 := 0#32
  ![arg8.toNat, 0]
def k0_off6 (k0_t1 : Fin k0_t1_loop.trips) : Fin 2 → Nat :=
  let c0_i32_46 : BitVec 32 := 0#32
  let c1_i32_48 : BitVec 32 := 1#32
  let arg8 : BitVec 32 := Scf.iv c0_i32_46 c1_i32_48 k0_t1
  let v166 : Index := Scalar.indexCast arg8
  let c0 : Index := 0#32
  ![v166.toNat, 0]
def k0_off7 (k0_t1 : Fin k0_t1_loop.trips) : Fin 2 → Nat :=
  let c0_i32_46 : BitVec 32 := 0#32
  let c1_i32_48 : BitVec 32 := 1#32
  let arg8 : BitVec 32 := Scf.iv c0_i32_46 c1_i32_48 k0_t1
  let c0_i32_157 : BitVec 32 := 0#32
  ![arg8.toNat, 0]
def k0_off8 (k0_t1 : Fin k0_t1_loop.trips) : Fin 2 → Nat :=
  let c0_i32_46 : BitVec 32 := 0#32
  let c1_i32_48 : BitVec 32 := 1#32
  let arg8 : BitVec 32 := Scf.iv c0_i32_46 c1_i32_48 k0_t1
  let c0_i32_158 : BitVec 32 := 0#32
  ![arg8.toNat, 0]
def k0_off9 (k0_t1 : Fin k0_t1_loop.trips) : Fin 2 → Nat :=
  let c0_i32_46 : BitVec 32 := 0#32
  let c1_i32_48 : BitVec 32 := 1#32
  let arg8 : BitVec 32 := Scf.iv c0_i32_46 c1_i32_48 k0_t1
  let c0_i32_159 : BitVec 32 := 0#32
  ![arg8.toNat, 0]
def k0_off10 (k0_t1 : Fin k0_t1_loop.trips) : Fin 2 → Nat :=
  let c0_i32_46 : BitVec 32 := 0#32
  let c1_i32_48 : BitVec 32 := 1#32
  let arg8 : BitVec 32 := Scf.iv c0_i32_46 c1_i32_48 k0_t1
  let c0_i32_160 : BitVec 32 := 0#32
  ![arg8.toNat, 0]
def k0_off11 (k0_t1 : Fin k0_t1_loop.trips) : Fin 2 → Nat :=
  let c0_i32_46 : BitVec 32 := 0#32
  let c1_i32_48 : BitVec 32 := 1#32
  let arg8 : BitVec 32 := Scf.iv c0_i32_46 c1_i32_48 k0_t1
  let v185 : Index := Scalar.indexCast arg8
  let c16 : Index := 16#32
  ![v185.toNat, 16]
def k0_off12 (i : grid0.Coords) (c0_i32_51 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32_50 : BitVec 32 := 128#32
  let v72 : BitVec 32 := Scalar.muli v1 c128_i32_50
  let v73 : BitVec 32 := Scalar.addi v72 c0_i32_51
  let c0_i32_55 : BitVec 32 := 0#32
  ![v73.toNat, 0]
def k0_off13 (i : grid0.Coords) (c32_i32 : BitVec 32) : Fin 2 → Nat :=
  let c12288_i32 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c12288_i32 v2
  let v11 : BitVec 32 := Scalar.addi v3 c32_i32
  let c0_i32_62 : BitVec 32 := 0#32
  ![v11.toNat, 0]
@[reducible] def k0_t2_loop : Scf.Loop 32 :=
  let c32_i32_68 : BitVec 32 := 32#32
  let c32_i32_69 : BitVec 32 := 32#32
  let v86 : BitVec 32 := Scalar.addi c32_i32_68 c32_i32_69
  let c1_i32_70 : BitVec 32 := 1#32
  ⟨c32_i32_68, v86, c1_i32_70⟩
def k0_off14 (k0_t2 : Fin k0_t2_loop.trips) : Fin 2 → Nat :=
  let c32_i32_68 : BitVec 32 := 32#32
  let c1_i32_70 : BitVec 32 := 1#32
  let arg8 : BitVec 32 := Scf.iv c32_i32_68 c1_i32_70 k0_t2
  let c0_i32_153 : BitVec 32 := 0#32
  ![arg8.toNat, 0]
def k0_off15 (k0_t2 : Fin k0_t2_loop.trips) : Fin 2 → Nat :=
  let c32_i32_68 : BitVec 32 := 32#32
  let c1_i32_70 : BitVec 32 := 1#32
  let arg8 : BitVec 32 := Scf.iv c32_i32_68 c1_i32_70 k0_t2
  let v166 : Index := Scalar.indexCast arg8
  let c0 : Index := 0#32
  ![v166.toNat, 0]
def k0_off16 (k0_t2 : Fin k0_t2_loop.trips) : Fin 2 → Nat :=
  let c32_i32_68 : BitVec 32 := 32#32
  let c1_i32_70 : BitVec 32 := 1#32
  let arg8 : BitVec 32 := Scf.iv c32_i32_68 c1_i32_70 k0_t2
  let v185 : Index := Scalar.indexCast arg8
  let c16 : Index := 16#32
  ![v185.toNat, 16]
@[reducible] def k0_t3_loop : Scf.Loop 32 :=
  let c64_i32_90 : BitVec 32 := 64#32
  let c32_i32_91 : BitVec 32 := 32#32
  let v101 : BitVec 32 := Scalar.addi c64_i32_90 c32_i32_91
  let c1_i32_92 : BitVec 32 := 1#32
  ⟨c64_i32_90, v101, c1_i32_92⟩
def k0_off17 (k0_t3 : Fin k0_t3_loop.trips) : Fin 2 → Nat :=
  let c64_i32_90 : BitVec 32 := 64#32
  let c1_i32_92 : BitVec 32 := 1#32
  let arg8 : BitVec 32 := Scf.iv c64_i32_90 c1_i32_92 k0_t3
  let c0_i32_153 : BitVec 32 := 0#32
  ![arg8.toNat, 0]
def k0_off18 (k0_t3 : Fin k0_t3_loop.trips) : Fin 2 → Nat :=
  let c64_i32_90 : BitVec 32 := 64#32
  let c1_i32_92 : BitVec 32 := 1#32
  let arg8 : BitVec 32 := Scf.iv c64_i32_90 c1_i32_92 k0_t3
  let v166 : Index := Scalar.indexCast arg8
  let c0 : Index := 0#32
  ![v166.toNat, 0]
def k0_off19 (k0_t3 : Fin k0_t3_loop.trips) : Fin 2 → Nat :=
  let c64_i32_90 : BitVec 32 := 64#32
  let c1_i32_92 : BitVec 32 := 1#32
  let arg8 : BitVec 32 := Scf.iv c64_i32_90 c1_i32_92 k0_t3
  let v185 : Index := Scalar.indexCast arg8
  let c16 : Index := 16#32
  ![v185.toNat, 16]
@[reducible] def k0_t4_loop : Scf.Loop 32 :=
  let c96_i32_112 : BitVec 32 := 96#32
  let c32_i32_113 : BitVec 32 := 32#32
  let v116 : BitVec 32 := Scalar.addi c96_i32_112 c32_i32_113
  let c1_i32_114 : BitVec 32 := 1#32
  ⟨c96_i32_112, v116, c1_i32_114⟩
def k0_off20 (k0_t4 : Fin k0_t4_loop.trips) : Fin 2 → Nat :=
  let c96_i32_112 : BitVec 32 := 96#32
  let c1_i32_114 : BitVec 32 := 1#32
  let arg8 : BitVec 32 := Scf.iv c96_i32_112 c1_i32_114 k0_t4
  let c0_i32_153 : BitVec 32 := 0#32
  ![arg8.toNat, 0]

def k0_chk1 (v36 : IVec S16 32) : Prop :=
  (∀ a x, ((![v36] : Fin 1 → IVec S16 32) a x).toNat < S128.size a) ∧
  (∀ a x, ((![v36] : Fin 1 → IVec S16 32) a x).toNat < S128.size a) ∧
  (∀ a x, ((![v36] : Fin 1 → IVec S16 32) a x).toNat < S128.size a) ∧
  (∀ a x, ((![v36] : Fin 1 → IVec S16 32) a x).toNat < S128.size a)
instance k0_chk1.dec : ∀ (v36 : IVec S16 32), Decidable (k0_chk1 v36) := fun v36 => decidable_of_iff' _ (Iff.of_eq (k0_chk1.eq_1 v36))
theorem k0_idx1_inb : ∀ (v36 : IVec S16 32) (k0_hw1 : k0_chk1 v36), ∀ a x, ((![v36] : Fin 1 → IVec S16 32) a x).toNat < S128.size a := fun v36 k0_hw1 => k0_hw1.1
theorem k0_idx9_inb : ∀ (v36 : IVec S16 32) (k0_hw1 : k0_chk1 v36), ∀ a x, ((![v36] : Fin 1 → IVec S16 32) a x).toNat < S128.size a := fun v36 k0_hw1 => k0_hw1.2.1
theorem k0_idx17_inb : ∀ (v36 : IVec S16 32) (k0_hw1 : k0_chk1 v36), ∀ a x, ((![v36] : Fin 1 → IVec S16 32) a x).toNat < S128.size a := fun v36 k0_hw1 => k0_hw1.2.2.1
theorem k0_idx25_inb : ∀ (v36 : IVec S16 32) (k0_hw1 : k0_chk1 v36), ∀ a x, ((![v36] : Fin 1 → IVec S16 32) a x).toNat < S128.size a := fun v36 k0_hw1 => k0_hw1.2.2.2

def k0_chk2 (v40 : IVec S16 32) : Prop :=
  (∀ a x, ((![v40] : Fin 1 → IVec S16 32) a x).toNat < S128.size a) ∧
  (∀ a x, ((![v40] : Fin 1 → IVec S16 32) a x).toNat < S128.size a) ∧
  (∀ a x, ((![v40] : Fin 1 → IVec S16 32) a x).toNat < S128.size a) ∧
  (∀ a x, ((![v40] : Fin 1 → IVec S16 32) a x).toNat < S128.size a)
instance k0_chk2.dec : ∀ (v40 : IVec S16 32), Decidable (k0_chk2 v40) := fun v40 => decidable_of_iff' _ (Iff.of_eq (k0_chk2.eq_1 v40))
theorem k0_idx2_inb : ∀ (v40 : IVec S16 32) (k0_hw2 : k0_chk2 v40), ∀ a x, ((![v40] : Fin 1 → IVec S16 32) a x).toNat < S128.size a := fun v40 k0_hw2 => k0_hw2.1
theorem k0_idx10_inb : ∀ (v40 : IVec S16 32) (k0_hw2 : k0_chk2 v40), ∀ a x, ((![v40] : Fin 1 → IVec S16 32) a x).toNat < S128.size a := fun v40 k0_hw2 => k0_hw2.2.1
theorem k0_idx18_inb : ∀ (v40 : IVec S16 32) (k0_hw2 : k0_chk2 v40), ∀ a x, ((![v40] : Fin 1 → IVec S16 32) a x).toNat < S128.size a := fun v40 k0_hw2 => k0_hw2.2.2.1
theorem k0_idx26_inb : ∀ (v40 : IVec S16 32) (k0_hw2 : k0_chk2 v40), ∀ a x, ((![v40] : Fin 1 → IVec S16 32) a x).toNat < S128.size a := fun v40 k0_hw2 => k0_hw2.2.2.2

def k0_chk3 (v44 : IVec S16 32) : Prop :=
  (∀ a x, ((![v44] : Fin 1 → IVec S16 32) a x).toNat < S128.size a) ∧
  (∀ a x, ((![v44] : Fin 1 → IVec S16 32) a x).toNat < S128.size a) ∧
  (∀ a x, ((![v44] : Fin 1 → IVec S16 32) a x).toNat < S128.size a) ∧
  (∀ a x, ((![v44] : Fin 1 → IVec S16 32) a x).toNat < S128.size a)
instance k0_chk3.dec : ∀ (v44 : IVec S16 32), Decidable (k0_chk3 v44) := fun v44 => decidable_of_iff' _ (Iff.of_eq (k0_chk3.eq_1 v44))
theorem k0_idx3_inb : ∀ (v44 : IVec S16 32) (k0_hw3 : k0_chk3 v44), ∀ a x, ((![v44] : Fin 1 → IVec S16 32) a x).toNat < S128.size a := fun v44 k0_hw3 => k0_hw3.1
theorem k0_idx11_inb : ∀ (v44 : IVec S16 32) (k0_hw3 : k0_chk3 v44), ∀ a x, ((![v44] : Fin 1 → IVec S16 32) a x).toNat < S128.size a := fun v44 k0_hw3 => k0_hw3.2.1
theorem k0_idx19_inb : ∀ (v44 : IVec S16 32) (k0_hw3 : k0_chk3 v44), ∀ a x, ((![v44] : Fin 1 → IVec S16 32) a x).toNat < S128.size a := fun v44 k0_hw3 => k0_hw3.2.2.1
theorem k0_idx27_inb : ∀ (v44 : IVec S16 32) (k0_hw3 : k0_chk3 v44), ∀ a x, ((![v44] : Fin 1 → IVec S16 32) a x).toNat < S128.size a := fun v44 k0_hw3 => k0_hw3.2.2.2

def k0_chk4 (v48 : IVec S16 32) : Prop :=
  (∀ a x, ((![v48] : Fin 1 → IVec S16 32) a x).toNat < S128.size a) ∧
  (∀ a x, ((![v48] : Fin 1 → IVec S16 32) a x).toNat < S128.size a) ∧
  (∀ a x, ((![v48] : Fin 1 → IVec S16 32) a x).toNat < S128.size a) ∧
  (∀ a x, ((![v48] : Fin 1 → IVec S16 32) a x).toNat < S128.size a)
instance k0_chk4.dec : ∀ (v48 : IVec S16 32), Decidable (k0_chk4 v48) := fun v48 => decidable_of_iff' _ (Iff.of_eq (k0_chk4.eq_1 v48))
theorem k0_idx4_inb : ∀ (v48 : IVec S16 32) (k0_hw4 : k0_chk4 v48), ∀ a x, ((![v48] : Fin 1 → IVec S16 32) a x).toNat < S128.size a := fun v48 k0_hw4 => k0_hw4.1
theorem k0_idx12_inb : ∀ (v48 : IVec S16 32) (k0_hw4 : k0_chk4 v48), ∀ a x, ((![v48] : Fin 1 → IVec S16 32) a x).toNat < S128.size a := fun v48 k0_hw4 => k0_hw4.2.1
theorem k0_idx20_inb : ∀ (v48 : IVec S16 32) (k0_hw4 : k0_chk4 v48), ∀ a x, ((![v48] : Fin 1 → IVec S16 32) a x).toNat < S128.size a := fun v48 k0_hw4 => k0_hw4.2.2.1
theorem k0_idx28_inb : ∀ (v48 : IVec S16 32) (k0_hw4 : k0_chk4 v48), ∀ a x, ((![v48] : Fin 1 → IVec S16 32) a x).toNat < S128.size a := fun v48 k0_hw4 => k0_hw4.2.2.2
def k0_off21 (k0_t4 : Fin k0_t4_loop.trips) : Fin 2 → Nat :=
  let c96_i32_112 : BitVec 32 := 96#32
  let c1_i32_114 : BitVec 32 := 1#32
  let arg8 : BitVec 32 := Scf.iv c96_i32_112 c1_i32_114 k0_t4
  let v166 : Index := Scalar.indexCast arg8
  let c0 : Index := 0#32
  ![v166.toNat, 0]

def k0_chk5 (v52 : IVec S16 32) : Prop :=
  (∀ a x, ((![v52] : Fin 1 → IVec S16 32) a x).toNat < S128.size a) ∧
  (∀ a x, ((![v52] : Fin 1 → IVec S16 32) a x).toNat < S128.size a) ∧
  (∀ a x, ((![v52] : Fin 1 → IVec S16 32) a x).toNat < S128.size a) ∧
  (∀ a x, ((![v52] : Fin 1 → IVec S16 32) a x).toNat < S128.size a)
instance k0_chk5.dec : ∀ (v52 : IVec S16 32), Decidable (k0_chk5 v52) := fun v52 => decidable_of_iff' _ (Iff.of_eq (k0_chk5.eq_1 v52))
theorem k0_idx5_inb : ∀ (v52 : IVec S16 32) (k0_hw5 : k0_chk5 v52), ∀ a x, ((![v52] : Fin 1 → IVec S16 32) a x).toNat < S128.size a := fun v52 k0_hw5 => k0_hw5.1
theorem k0_idx13_inb : ∀ (v52 : IVec S16 32) (k0_hw5 : k0_chk5 v52), ∀ a x, ((![v52] : Fin 1 → IVec S16 32) a x).toNat < S128.size a := fun v52 k0_hw5 => k0_hw5.2.1
theorem k0_idx21_inb : ∀ (v52 : IVec S16 32) (k0_hw5 : k0_chk5 v52), ∀ a x, ((![v52] : Fin 1 → IVec S16 32) a x).toNat < S128.size a := fun v52 k0_hw5 => k0_hw5.2.2.1
theorem k0_idx29_inb : ∀ (v52 : IVec S16 32) (k0_hw5 : k0_chk5 v52), ∀ a x, ((![v52] : Fin 1 → IVec S16 32) a x).toNat < S128.size a := fun v52 k0_hw5 => k0_hw5.2.2.2

def k0_chk6 (v56 : IVec S16 32) : Prop :=
  (∀ a x, ((![v56] : Fin 1 → IVec S16 32) a x).toNat < S128.size a) ∧
  (∀ a x, ((![v56] : Fin 1 → IVec S16 32) a x).toNat < S128.size a) ∧
  (∀ a x, ((![v56] : Fin 1 → IVec S16 32) a x).toNat < S128.size a) ∧
  (∀ a x, ((![v56] : Fin 1 → IVec S16 32) a x).toNat < S128.size a)
instance k0_chk6.dec : ∀ (v56 : IVec S16 32), Decidable (k0_chk6 v56) := fun v56 => decidable_of_iff' _ (Iff.of_eq (k0_chk6.eq_1 v56))
theorem k0_idx6_inb : ∀ (v56 : IVec S16 32) (k0_hw6 : k0_chk6 v56), ∀ a x, ((![v56] : Fin 1 → IVec S16 32) a x).toNat < S128.size a := fun v56 k0_hw6 => k0_hw6.1
theorem k0_idx14_inb : ∀ (v56 : IVec S16 32) (k0_hw6 : k0_chk6 v56), ∀ a x, ((![v56] : Fin 1 → IVec S16 32) a x).toNat < S128.size a := fun v56 k0_hw6 => k0_hw6.2.1
theorem k0_idx22_inb : ∀ (v56 : IVec S16 32) (k0_hw6 : k0_chk6 v56), ∀ a x, ((![v56] : Fin 1 → IVec S16 32) a x).toNat < S128.size a := fun v56 k0_hw6 => k0_hw6.2.2.1
theorem k0_idx30_inb : ∀ (v56 : IVec S16 32) (k0_hw6 : k0_chk6 v56), ∀ a x, ((![v56] : Fin 1 → IVec S16 32) a x).toNat < S128.size a := fun v56 k0_hw6 => k0_hw6.2.2.2

def k0_chk7 (v60 : IVec S16 32) : Prop :=
  (∀ a x, ((![v60] : Fin 1 → IVec S16 32) a x).toNat < S128.size a) ∧
  (∀ a x, ((![v60] : Fin 1 → IVec S16 32) a x).toNat < S128.size a) ∧
  (∀ a x, ((![v60] : Fin 1 → IVec S16 32) a x).toNat < S128.size a) ∧
  (∀ a x, ((![v60] : Fin 1 → IVec S16 32) a x).toNat < S128.size a)
instance k0_chk7.dec : ∀ (v60 : IVec S16 32), Decidable (k0_chk7 v60) := fun v60 => decidable_of_iff' _ (Iff.of_eq (k0_chk7.eq_1 v60))
theorem k0_idx7_inb : ∀ (v60 : IVec S16 32) (k0_hw7 : k0_chk7 v60), ∀ a x, ((![v60] : Fin 1 → IVec S16 32) a x).toNat < S128.size a := fun v60 k0_hw7 => k0_hw7.1
theorem k0_idx15_inb : ∀ (v60 : IVec S16 32) (k0_hw7 : k0_chk7 v60), ∀ a x, ((![v60] : Fin 1 → IVec S16 32) a x).toNat < S128.size a := fun v60 k0_hw7 => k0_hw7.2.1
theorem k0_idx23_inb : ∀ (v60 : IVec S16 32) (k0_hw7 : k0_chk7 v60), ∀ a x, ((![v60] : Fin 1 → IVec S16 32) a x).toNat < S128.size a := fun v60 k0_hw7 => k0_hw7.2.2.1
theorem k0_idx31_inb : ∀ (v60 : IVec S16 32) (k0_hw7 : k0_chk7 v60), ∀ a x, ((![v60] : Fin 1 → IVec S16 32) a x).toNat < S128.size a := fun v60 k0_hw7 => k0_hw7.2.2.2

def k0_chk8 (v64 : IVec S16 32) : Prop :=
  (∀ a x, ((![v64] : Fin 1 → IVec S16 32) a x).toNat < S128.size a) ∧
  (∀ a x, ((![v64] : Fin 1 → IVec S16 32) a x).toNat < S128.size a) ∧
  (∀ a x, ((![v64] : Fin 1 → IVec S16 32) a x).toNat < S128.size a) ∧
  (∀ a x, ((![v64] : Fin 1 → IVec S16 32) a x).toNat < S128.size a)
instance k0_chk8.dec : ∀ (v64 : IVec S16 32), Decidable (k0_chk8 v64) := fun v64 => decidable_of_iff' _ (Iff.of_eq (k0_chk8.eq_1 v64))
theorem k0_idx8_inb : ∀ (v64 : IVec S16 32) (k0_hw8 : k0_chk8 v64), ∀ a x, ((![v64] : Fin 1 → IVec S16 32) a x).toNat < S128.size a := fun v64 k0_hw8 => k0_hw8.1
theorem k0_idx16_inb : ∀ (v64 : IVec S16 32) (k0_hw8 : k0_chk8 v64), ∀ a x, ((![v64] : Fin 1 → IVec S16 32) a x).toNat < S128.size a := fun v64 k0_hw8 => k0_hw8.2.1
theorem k0_idx24_inb : ∀ (v64 : IVec S16 32) (k0_hw8 : k0_chk8 v64), ∀ a x, ((![v64] : Fin 1 → IVec S16 32) a x).toNat < S128.size a := fun v64 k0_hw8 => k0_hw8.2.2.1
theorem k0_idx32_inb : ∀ (v64 : IVec S16 32) (k0_hw8 : k0_chk8 v64), ∀ a x, ((![v64] : Fin 1 → IVec S16 32) a x).toNat < S128.size a := fun v64 k0_hw8 => k0_hw8.2.2.2
def k0_off22 (k0_t4 : Fin k0_t4_loop.trips) : Fin 2 → Nat :=
  let c96_i32_112 : BitVec 32 := 96#32
  let c1_i32_114 : BitVec 32 := 1#32
  let arg8 : BitVec 32 := Scf.iv c96_i32_112 c1_i32_114 k0_t4
  let v185 : Index := Scalar.indexCast arg8
  let c16 : Index := 16#32
  ![v185.toNat, 16]
abbrev grid1 : Pipeline.Grid := ⟨1, ![3], ![false]⟩

def cc1_transform_0 (i : grid1.Coords) : Fin 2 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let c0_i32 : BitVec 32 := 0#32
  let c0_i32_0 : BitVec 32 := 0#32
  ![v1.toNat, c0_i32.toNat]

def cc1_transform_6 (i : grid1.Coords) : Fin 2 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S32x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S128x128_S32x128_0_0 : ∀ a, (![0, 0] : Fin 2 → Nat) a + S32x128.size a ≤ S128x128.size a
  inb_S4_S1_0 : ∀ a, (![0] : Fin 1 → Nat) a + S1.size a ≤ S4.size a
  squeezes_S1_S_ : S1.Squeezes S_
  inb_S128x128_S32x128_32_0 : ∀ a, (![32, 0] : Fin 2 → Nat) a + S32x128.size a ≤ S128x128.size a
  inb_S4_S1_1 : ∀ a, (![1] : Fin 1 → Nat) a + S1.size a ≤ S4.size a
  inb_S128x128_S32x128_64_0 : ∀ a, (![64, 0] : Fin 2 → Nat) a + S32x128.size a ≤ S128x128.size a
  inb_S4_S1_2 : ∀ a, (![2] : Fin 1 → Nat) a + S1.size a ≤ S4.size a
  inb_S128x128_S32x128_96_0 : ∀ a, (![96, 0] : Fin 2 → Nat) a + S32x128.size a ≤ S128x128.size a
  inb_S4_S1_3 : ∀ a, (![3] : Fin 1 → Nat) a + S1.size a ≤ S4.size a
  iota_S16_d0_w32_scVector : S16.Iotas .scVector 32 [0]
  squeezes_S1x128_S128 : S1x128.Squeezes S128
  h_S128 : 0 < S128.numel
  h_S1x16 : 0 < S1x16.numel
  shapeCasts_S1x16_S16 : S1x16.ShapeCasts S16
  shapeCasts_S16_S1x16 : S16.ShapeCasts S1x16
  inb_S128x32_S32x32_0_0 : ∀ a, (![0, 0] : Fin 2 → Nat) a + S32x32.size a ≤ S128x32.size a
  inb_S128x32_S32x32_32_0 : ∀ a, (![32, 0] : Fin 2 → Nat) a + S32x32.size a ≤ S128x32.size a
  inb_S128x32_S32x32_64_0 : ∀ a, (![64, 0] : Fin 2 → Nat) a + S32x32.size a ≤ S128x32.size a
  inb_S128x32_S32x32_96_0 : ∀ a, (![96, 0] : Fin 2 → Nat) a + S32x32.size a ≤ S128x32.size a
  iota_S128x32_d0_w32 : S128x32.Iotas .tc 32 [0]
  iota_S128x32_d1_w32 : S128x32.Iotas .tc 32 [1]
  natLt_1_32 : 1 < 32
  inb_S512x128_S512x128_0_0 : ∀ a, (![0, 0] : Fin 2 → Nat) a + S512x128.size a ≤ S512x128.size a
  h_S512x128 : 0 < S512x128.numel
  inb_S32x4096_S32x512_0_0 : ∀ a, (![0, 0] : Fin 2 → Nat) a + S32x512.size a ≤ S32x4096.size a
  h_S32x512 : 0 < S32x512.numel
  inb_S32x4096_S32x512_0_512 : ∀ a, (![0, 512] : Fin 2 → Nat) a + S32x512.size a ≤ S32x4096.size a
  inb_S32x4096_S32x512_0_1024 : ∀ a, (![0, 1024] : Fin 2 → Nat) a + S32x512.size a ≤ S32x4096.size a
  inb_S32x4096_S32x512_0_1536 : ∀ a, (![0, 1536] : Fin 2 → Nat) a + S32x512.size a ≤ S32x4096.size a
  inb_S32x4096_S32x512_0_2048 : ∀ a, (![0, 2048] : Fin 2 → Nat) a + S32x512.size a ≤ S32x4096.size a
  inb_S32x4096_S32x512_0_2560 : ∀ a, (![0, 2560] : Fin 2 → Nat) a + S32x512.size a ≤ S32x4096.size a
  inb_S32x4096_S32x512_0_3072 : ∀ a, (![0, 3072] : Fin 2 → Nat) a + S32x512.size a ≤ S32x4096.size a
  inb_S32x4096_S32x512_0_3584 : ∀ a, (![0, 3584] : Fin 2 → Nat) a + S32x512.size a ≤ S32x4096.size a
  transposes_S4096x32_S32x4096_1_0 : S4096x32.Transposes [1, 0] S32x4096
  concatenates_S32x12288_S32x4096_S32x16384_d1 : Shape.Concatenates [S32x12288, S32x4096] S32x16384 1
  transposes_S32x16384_S16384x32_1_0 : S32x16384.Transposes [1, 0] S16384x32
  dot_S128x32_S512x128_S32x512_0_1_1_0_n_n_wf : DotDims.WF S128x32 S512x128 S32x512 [0] [1] [1] [0] [] []
  hcc0_scratch2 : 0 + S4.numel ≤ 26
  hcc0_scratch3 : 4 + S4.numel ≤ 26
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (32 * r.val))) a + S32x128.size a ≤ S16384x2048.size a
  k0_t1_ok : k0_t1_loop.OK
  k0_off2_inb : ∀ k0_t1 : Fin k0_t1_loop.trips, ∀ a, (k0_off2 k0_t1) a + S1x128.size a ≤ S128x128.size a
  k0_off3_inb : ∀ k0_t1 : Fin k0_t1_loop.trips, ∀ a, (k0_off3 k0_t1) a + S1x128.size a ≤ S128x128.size a
  k0_off4_inb : ∀ k0_t1 : Fin k0_t1_loop.trips, ∀ a, (k0_off4 k0_t1) a + S1x128.size a ≤ S128x128.size a
  k0_off5_inb : ∀ k0_t1 : Fin k0_t1_loop.trips, ∀ a, (k0_off5 k0_t1) a + S1x128.size a ≤ S128x128.size a
  k0_off6_inb : ∀ k0_t1 : Fin k0_t1_loop.trips, ∀ a, (k0_off6 k0_t1) a + S1x16.size a ≤ S128x32.size a
  k0_off7_inb : ∀ k0_t1 : Fin k0_t1_loop.trips, ∀ a, (k0_off7 k0_t1) a + S1x128.size a ≤ S128x128.size a
  k0_off8_inb : ∀ k0_t1 : Fin k0_t1_loop.trips, ∀ a, (k0_off8 k0_t1) a + S1x128.size a ≤ S128x128.size a
  k0_off9_inb : ∀ k0_t1 : Fin k0_t1_loop.trips, ∀ a, (k0_off9 k0_t1) a + S1x128.size a ≤ S128x128.size a
  k0_off10_inb : ∀ k0_t1 : Fin k0_t1_loop.trips, ∀ a, (k0_off10 k0_t1) a + S1x128.size a ≤ S128x128.size a
  k0_off11_inb : ∀ k0_t1 : Fin k0_t1_loop.trips, ∀ a, (k0_off11 k0_t1) a + S1x16.size a ≤ S128x32.size a
  k0_off12_inb : ∀ i : grid0.Coords, ∀ (r : Fin 4), ∀ a, (k0_off12 i (BitVec.ofNat 32 (32 * r.val))) a + S32x32.size a ≤ S4096x32.size a
  k0_off13_inb : ∀ i : grid0.Coords, ∀ (r : Fin 3), ∀ a, (k0_off13 i (BitVec.ofNat 32 (32 + 32 * r.val))) a + S32x128.size a ≤ S16384x2048.size a
  k0_t2_ok : k0_t2_loop.OK
  k0_off14_inb : ∀ k0_t2 : Fin k0_t2_loop.trips, ∀ a, (k0_off14 k0_t2) a + S1x128.size a ≤ S128x128.size a
  k0_off15_inb : ∀ k0_t2 : Fin k0_t2_loop.trips, ∀ a, (k0_off15 k0_t2) a + S1x16.size a ≤ S128x32.size a
  k0_off16_inb : ∀ k0_t2 : Fin k0_t2_loop.trips, ∀ a, (k0_off16 k0_t2) a + S1x16.size a ≤ S128x32.size a
  k0_t3_ok : k0_t3_loop.OK
  k0_off17_inb : ∀ k0_t3 : Fin k0_t3_loop.trips, ∀ a, (k0_off17 k0_t3) a + S1x128.size a ≤ S128x128.size a
  k0_off18_inb : ∀ k0_t3 : Fin k0_t3_loop.trips, ∀ a, (k0_off18 k0_t3) a + S1x16.size a ≤ S128x32.size a
  k0_off19_inb : ∀ k0_t3 : Fin k0_t3_loop.trips, ∀ a, (k0_off19 k0_t3) a + S1x16.size a ≤ S128x32.size a
  k0_t4_ok : k0_t4_loop.OK
  k0_off20_inb : ∀ k0_t4 : Fin k0_t4_loop.trips, ∀ a, (k0_off20 k0_t4) a + S1x128.size a ≤ S128x128.size a
  k0_off21_inb : ∀ k0_t4 : Fin k0_t4_loop.trips, ∀ a, (k0_off21 k0_t4) a + S1x16.size a ≤ S128x32.size a
  k0_off22_inb : ∀ k0_t4 : Fin k0_t4_loop.trips, ∀ a, (k0_off22 k0_t4) a + S1x16.size a ≤ S128x32.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S16384x2048.size a
  hwx1_0 : ∀ i : grid1.Coords, EltTy.bits .f32 = 32 ∨ (Rect.block (s := S16384x2048) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S16384x2048.size a
  hwx1_1 : ∀ i : grid1.Coords, EltTy.bits .f32 = 32 ∨ (Rect.block (s := S16384x2048) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S16384x2048.size a
  hwx1_2 : ∀ i : grid1.Coords, EltTy.bits .f32 = 32 ∨ (Rect.block (s := S16384x2048) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S16384x2048.size a
  hwx1_3 : ∀ i : grid1.Coords, EltTy.bits .f32 = 32 ∨ (Rect.block (s := S16384x2048) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S16384x2048.size a
  hwx1_4 : ∀ i : grid1.Coords, EltTy.bits .f32 = 32 ∨ (Rect.block (s := S16384x2048) S512x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S16384x2048.size a
  hwx1_5 : ∀ i : grid1.Coords, EltTy.bits .f32 = 32 ∨ (Rect.block (s := S16384x2048) S512x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x128.size a ≤ S16384x2048.size a
  hwx1_6 : ∀ i : grid1.Coords, EltTy.bits .f32 = 32 ∨ (Rect.block (s := S16384x2048) S512x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S16384x2048.size a
  hwx1_7 : ∀ i : grid1.Coords, EltTy.bits .f32 = 32 ∨ (Rect.block (s := S16384x2048) S512x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S32x4096.size a ≤ S32x12288.size a
  hwx1_8 : ∀ i : grid1.Coords, EltTy.bits .f32 = 32 ∨ (Rect.block (s := S32x12288) S32x4096.size (cc1_transform_8 i) (hinb1_8 i)).WholeWords (EltTy.packing .f32)

variable [Facts₀]

abbrev cc0_scratch2 : DmaSems sig S4 := SemArray.consecutive 0 S4 hcc0_scratch2
abbrev cc0_scratch3 : DmaSems sig S4 := SemArray.consecutive 4 S4 hcc0_scratch3
def dot_S128x32_S512x128_S32x512_0_1_1_0_n_n : DotDims S128x32 S512x128 S32x512 where
  lhsContracting := [0]
  rhsContracting := [1]
  lhsNonContracting := [1]
  rhsNonContracting := [0]
  lhsBatch := []
  rhsBatch := []
  wf := dot_S128x32_S512x128_S32x512_0_1_1_0_n_n_wf

abbrev win1_0 : Pipeline.Window sig grid1 :=
  Pipeline.Window.ofSpec (Memref.whole main_arg0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S512x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S512x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg0) S512x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg0) S512x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v1) S32x4096.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S32x4 : Shape := ⟨2, ![32, 4]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S16384x128 : Shape := ⟨2, ![16384, 128]⟩
abbrev S16384x32x4 : Shape := ⟨3, ![16384, 32, 4]⟩
abbrev S16384x32 : Shape := ⟨2, ![16384, 32]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S32x4, .i32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S1, .i32⟩
  | .hbm, ⟨12, _⟩ => ⟨S_, .i32⟩
  | .hbm, ⟨13, _⟩ => ⟨S128x1, .i32⟩
  | .hbm, ⟨14, _⟩ => ⟨S128x1, .i1⟩
  | .hbm, ⟨15, _⟩ => ⟨S1x1, .i32⟩
  | .hbm, ⟨16, _⟩ => ⟨S128x1, .i32⟩
  | .hbm, ⟨17, _⟩ => ⟨S128x1, .i1⟩
  | .hbm, ⟨18, _⟩ => ⟨S128x1, .i1⟩
  | .hbm, ⟨19, _⟩ => ⟨S_, .i1⟩
  | .hbm, ⟨20, _⟩ => ⟨S128, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x32x4, .f32⟩
  | .hbm, ⟨27, _⟩ => ⟨S_, .f32⟩
  | .hbm, ⟨28, _⟩ => ⟨S16384x32, .f32⟩
  | .hbm, ⟨29, _⟩ => ⟨S_, .f32⟩
  | .hbm, ⟨30, _⟩ => ⟨S16384x32, .f32⟩
  | .hbm, ⟨31, _⟩ => ⟨S16384x32, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩
abbrev main_v5 : Ref sig .tc := ⟨.hbm, 31, rfl⟩

abbrev nD : Nat := 1
abbrev τ : Topo := Topo.v7x

variable {F : FTy → Type} [FloatOps F]

class Facts₀ : Prop where
  shapeCasts_S32x4_S128 : S32x4.ShapeCasts S128
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  reducesTo_S128x1_S128_d1 : S128x1.ReducesTo [1] S128
  h_S_ : 0 < S_.numel
  bcast_S128_S16384x128_1 : S128.BroadcastsInDim S16384x128 (![1] : Fin 1 → Fin S16384x128.rank)
  bcast_S_S16384x128 : S_.BroadcastsInDim S16384x128 (![] : Fin 0 → Fin S16384x128.rank)
  shapeCasts_S16384x128_S16384x32x4 : S16384x128.ShapeCasts S16384x32x4
  reducesTo_S16384x32x4_S16384x32_d2 : S16384x32x4.ReducesTo [2] S16384x32
  bcast_S_S16384x32 : S_.BroadcastsInDim S16384x32 (![] : Fin 0 → Fin S16384x32.rank)
  gather_S16384x2048_S128x1_S16384x128_0_1_n_n_1_1_163841_wf : GatherDims.WF S16384x2048 S128x1 S16384x128 [0] [1] [] [1] [] 1 ![16384, 1]

variable [Facts₀]

def gather_S16384x2048_S128x1_S16384x128_0_1_n_n_1_1_163841 : GatherDims S16384x2048 S128x1 S16384x128 where
  offsetDims := [0]
  collapsedSliceDims := [1]
  operandBatchingDims := []
  startIndicesBatchingDims := []
  startIndexMap := [1]
  indexVectorDim := 1
  sliceSizes := ![16384, 1]
  wf := gather_S16384x2048_S128x1_S16384x128_0_1_n_n_1_1_163841_wf

class Facts : Prop extends Facts₀ where

variable [Facts]
-- ==== Proof.CommonI.lean ====
/-
  The program as the launch theorem for SparseCore programs sees it, and the ghost state every part of
  the frame proof shares: the rounds of the four launch handshakes, the rounds of the TensorCore
  pipeline's staging semaphores, and the counters of the vector subcores' own copies.
-/
import proofs.«213435_g4140348473474_cont_8to1_b_470_36_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«213435_g4140348473474_cont_8to1_b_470_36_alg».proof.Proof.Gen.KernelIdeal
import proofs.«213435_g4140348473474_cont_8to1_b_470_36_alg».proof.Proof.Gen.KernelIdeal.Skeleton
import proofs.«213435_g4140348473474_cont_8to1_b_470_36_alg».proof.Proof.Gen.KernelIdeal.Launch
import proofs.«213435_g4140348473474_cont_8to1_b_470_36_alg».proof.Proof.Gen.KernelIdeal.Points

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := UH × (UR × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance ER_landsIn : (ER : Emb UR 𝕄).LandsIn (upEmb : UEmb _ 𝕄) := by unfold ER; infer_instance

end Cert.KernelIdeal.Pf

end
-- ==== Proof.TileDefsI.lean ====
import proofs.«213435_g4140348473474_cont_8to1_b_470_36_alg».proof.Proof.CommonI

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The task's memrefs, spelt as the body slices them -/

local notation "xW" => (Memref.whole Cert.KernelIdeal.main_arg0_scv : Memref Cert.KernelIdeal.sig Kind.scVector Space.hbm Cert.KernelIdeal.S16384x2048 EltTy.f32)
local notation "oW" => (Memref.whole Cert.KernelIdeal.main_v0_scv : Memref Cert.KernelIdeal.sig Kind.scVector Space.hbm Cert.KernelIdeal.S4096x32 EltTy.f32)
local notation "xB" => (Memref.whole Cert.KernelIdeal.cc0_scratch0 : Memref Cert.KernelIdeal.sig Kind.scVector Space.vmem Cert.KernelIdeal.S128x128 EltTy.f32)
local notation "oB" => (Memref.whole Cert.KernelIdeal.cc0_scratch1 : Memref Cert.KernelIdeal.sig Kind.scVector Space.vmem Cert.KernelIdeal.S128x32 EltTy.f32)

abbrev xLoc (d : Dev nD) : Loc nD τ sig := (SparseCore.T d).loc main_arg0
abbrev oLoc (d : Dev nD) : Loc nD τ sig := (SparseCore.T d).loc main_v0

abbrev cV (L : grid0.Coords) : Fin τ.nSC := (L 0).castLE hcore0
abbrev jV (L : grid0.Coords) : Fin τ.nSub := (L 1).castLE hsub0

/-- Chunk `k` of the task's 128 rows of the argument: 32 rows, the first 128 columns. -/
abbrev xS0 (L : grid0.Coords) : Memref sig .scVector .hbm S32x128 .f32 := (xW).slice (Rect.unit (s := S16384x2048) (k0_off1 L 0#32) S32x128.size (k0_off1_inb L 0)) (fun _ => rfl)
abbrev xS1 (L : grid0.Coords) : Memref sig .scVector .hbm S32x128 .f32 := (xW).slice (Rect.unit (s := S16384x2048) (k0_off1 L 32#32) S32x128.size (k0_off1_inb L 1)) (fun _ => rfl)
abbrev xS2 (L : grid0.Coords) : Memref sig .scVector .hbm S32x128 .f32 := (xW).slice (Rect.unit (s := S16384x2048) (k0_off1 L 64#32) S32x128.size (k0_off1_inb L 2)) (fun _ => rfl)
abbrev xS3 (L : grid0.Coords) : Memref sig .scVector .hbm S32x128 .f32 := (xW).slice (Rect.unit (s := S16384x2048) (k0_off1 L 96#32) S32x128.size (k0_off1_inb L 3)) (fun _ => rfl)
/-- The four 32-row slices of the row scratch. -/
abbrev xD0 : Memref sig .scVector .vmem S32x128 .f32 := (xB).slice (Rect.unit (s := S128x128) ![0, 0] S32x128.size inb_S128x128_S32x128_0_0) (fun _ => rfl)
abbrev xD1 : Memref sig .scVector .vmem S32x128 .f32 := (xB).slice (Rect.unit (s := S128x128) ![32, 0] S32x128.size inb_S128x128_S32x128_32_0) (fun _ => rfl)
abbrev xD2 : Memref sig .scVector .vmem S32x128 .f32 := (xB).slice (Rect.unit (s := S128x128) ![64, 0] S32x128.size inb_S128x128_S32x128_64_0) (fun _ => rfl)
abbrev xD3 : Memref sig .scVector .vmem S32x128 .f32 := (xB).slice (Rect.unit (s := S128x128) ![96, 0] S32x128.size inb_S128x128_S32x128_96_0) (fun _ => rfl)
/-- The four 32-row slices of the result scratch. -/
abbrev oS0 : Memref sig .scVector .vmem S32x32 .f32 := (oB).slice (Rect.unit (s := S128x32) ![0, 0] S32x32.size inb_S128x32_S32x32_0_0) (fun _ => rfl)
abbrev oS1 : Memref sig .scVector .vmem S32x32 .f32 := (oB).slice (Rect.unit (s := S128x32) ![32, 0] S32x32.size inb_S128x32_S32x32_32_0) (fun _ => rfl)
abbrev oS2 : Memref sig .scVector .vmem S32x32 .f32 := (oB).slice (Rect.unit (s := S128x32) ![64, 0] S32x32.size inb_S128x32_S32x32_64_0) (fun _ => rfl)
abbrev oS3 : Memref sig .scVector .vmem S32x32 .f32 := (oB).slice (Rect.unit (s := S128x32) ![96, 0] S32x32.size inb_S128x32_S32x32_96_0) (fun _ => rfl)
/-- Chunk `k` of the task's 128 rows of the result. -/
abbrev oD0 (L : grid0.Coords) : Memref sig .scVector .hbm S32x32 .f32 := (oW).slice (Rect.unit (s := S4096x32) (k0_off12 L 0#32) S32x32.size (k0_off12_inb L 0)) (fun _ => rfl)
abbrev oD1 (L : grid0.Coords) : Memref sig .scVector .hbm S32x32 .f32 := (oW).slice (Rect.unit (s := S4096x32) (k0_off12 L 32#32) S32x32.size (k0_off12_inb L 1)) (fun _ => rfl)
abbrev oD2 (L : grid0.Coords) : Memref sig .scVector .hbm S32x32 .f32 := (oW).slice (Rect.unit (s := S4096x32) (k0_off12 L 64#32) S32x32.size (k0_off12_inb L 2)) (fun _ => rfl)
abbrev oD3 (L : grid0.Coords) : Memref sig .scVector .hbm S32x32 .f32 := (oW).slice (Rect.unit (s := S4096x32) (k0_off12 L 96#32) S32x32.size (k0_off12_inb L 3)) (fun _ => rfl)
/-- The eight semaphores: one per incoming chunk, one per outgoing chunk. -/
abbrev iSem0 : DmaSem sig := ((cc0_scratch2.slice (Rect.unit (s := S4) ![0] S1.size inb_S4_S1_0)).squeeze S_ squeezes_S1_S_).sem
abbrev iSem1 : DmaSem sig := ((cc0_scratch2.slice (Rect.unit (s := S4) ![1] S1.size inb_S4_S1_1)).squeeze S_ squeezes_S1_S_).sem
abbrev iSem2 : DmaSem sig := ((cc0_scratch2.slice (Rect.unit (s := S4) ![2] S1.size inb_S4_S1_2)).squeeze S_ squeezes_S1_S_).sem
abbrev iSem3 : DmaSem sig := ((cc0_scratch2.slice (Rect.unit (s := S4) ![3] S1.size inb_S4_S1_3)).squeeze S_ squeezes_S1_S_).sem
abbrev oSem0 : DmaSem sig := ((cc0_scratch3.slice (Rect.unit (s := S4) ![0] S1.size inb_S4_S1_0)).squeeze S_ squeezes_S1_S_).sem
abbrev oSem1 : DmaSem sig := ((cc0_scratch3.slice (Rect.unit (s := S4) ![1] S1.size inb_S4_S1_1)).squeeze S_ squeezes_S1_S_).sem
abbrev oSem2 : DmaSem sig := ((cc0_scratch3.slice (Rect.unit (s := S4) ![2] S1.size inb_S4_S1_2)).squeeze S_ squeezes_S1_S_).sem
abbrev oSem3 : DmaSem sig := ((cc0_scratch3.slice (Rect.unit (s := S4) ![3] S1.size inb_S4_S1_3)).squeeze S_ squeezes_S1_S_).sem

/-- The coordinates of task `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A task's four chunks of the argument, each exactly its slice's elements, all at the contents `f`. -/
abbrev xChunks (d : Dev nD) (L : grid0.Coords) (f : Buf (Elt F) (xLoc d)) : sProp 𝕄 :=
  iprop(((xS0 L).view.loc (V d (cV L) (jV L)) ↦[(xS0 L).view.set]{fullShare} f)
    ∗ ((xS1 L).view.loc (V d (cV L) (jV L)) ↦[(xS1 L).view.set]{fullShare} f)
    ∗ ((xS2 L).view.loc (V d (cV L) (jV L)) ↦[(xS2 L).view.set]{fullShare} f)
    ∗ ((xS3 L).view.loc (V d (cV L) (jV L)) ↦[(xS3 L).view.set]{fullShare} f))

/-- A task's four chunks of the result, each exactly its slice's elements, all at the contents `f`. -/
abbrev oChunks (d : Dev nD) (L : grid0.Coords) (f : Buf (Elt F) (oLoc d)) : sProp 𝕄 :=
  iprop(((oD0 L).view.loc (V d (cV L) (jV L)) ↦[(oD0 L).view.set]{fullShare} f)
    ∗ ((oD1 L).view.loc (V d (cV L) (jV L)) ↦[(oD1 L).view.set]{fullShare} f)
    ∗ ((oD2 L).view.loc (V d (cV L) (jV L)) ↦[(oD2 L).view.set]{fullShare} f)
    ∗ ((oD3 L).view.loc (V d (cV L) (jV L)) ↦[(oD3 L).view.set]{fullShare} f))

end Cert.KernelIdeal.Pf

end
-- ==== Proof.TileGeoI.lean ====
import proofs.«213435_g4140348473474_cont_8to1_b_470_36_alg».proof.Proof.TileDefsI

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xB" => (Memref.whole Cert.KernelIdeal.cc0_scratch0 : Memref Cert.KernelIdeal.sig Kind.scVector Space.vmem Cert.KernelIdeal.S128x128 EltTy.f32)
local notation "oB" => (Memref.whole Cert.KernelIdeal.cc0_scratch1 : Memref Cert.KernelIdeal.sig Kind.scVector Space.vmem Cert.KernelIdeal.S128x32 EltTy.f32)

/-! ## Rows inside their chunk

The row scratch is 128 rows of 128 entries and the result scratch 128 rows of 32, each handled in four
chunks of 32 rows. A row `r` with `lo ≤ r < lo + 32` lies in the chunk that starts at row `lo`; so does a
run of 16 entries of such a row of the result scratch. -/

/-- A whole row of the row scratch, addressed as a vector of 128, lies in its chunk. -/
theorem xrow_sub {off : Fin 2 → Nat} {inb : ∀ a, off a + S1x128.size a ≤ S128x128.size a} {hr} {lo : Nat}
    {inb' : ∀ a, (![lo, 0] : Fin 2 → Nat) a + S32x128.size a ≤ S128x128.size a} {hr'}
    (h0 : lo ≤ off 0 ∧ off 0 < lo + 32) :
    ((((xB).slice (Rect.unit (s := S128x128) off S1x128.size inb) hr).squeeze S128 squeezes_S1x128_S128).access (Rect.whole S128)).set
      ⊆ ((xB).slice (Rect.unit (s := S128x128) ![lo, 0] S32x128.size inb') hr').view.set := by
  refine (View.set_slice_subset _ _).trans ?_
  show (((View.whole cc0_scratch0).slice (Rect.unit (s := S128x128) off S1x128.size inb)).reshape S128 squeezes_S1x128_S128.numel_eq).set
    ⊆ ((View.whole cc0_scratch0).slice (Rect.unit (s := S128x128) ![lo, 0] S32x128.size inb')).set
  rw [View.set_reshape, View.set_slice_whole, View.set_slice_whole]
  intro i hi
  rw [Rect.mem_set_unit] at hi ⊢
  intro a
  match a with
  | 0 =>
    have h : off 0 ≤ ((i 0 : Fin 128) : ℕ) ∧ ((i 0 : Fin 128) : ℕ) < off 0 + 1 := hi 0
    show lo ≤ ((i 0 : Fin 128) : ℕ) ∧ ((i 0 : Fin 128) : ℕ) < lo + 32
    omega
  | 1 =>
    have h : ((i 1 : Fin 128) : ℕ) < 128 := (i 1).isLt
    show 0 ≤ ((i 1 : Fin 128) : ℕ) ∧ ((i 1 : Fin 128) : ℕ) < 0 + 128
    omega

/-- Sixteen consecutive entries of a row of the result scratch lie in the row's chunk: as a store reaches them, -/
theorem ost_sub {off : Fin 2 → Nat} {inb : ∀ a, off a + S1x16.size a ≤ S128x32.size a} {lo : Nat}
    {inb' : ∀ a, (![lo, 0] : Fin 2 → Nat) a + S32x32.size a ≤ S128x32.size a} {hr'}
    (h0 : lo ≤ off 0 ∧ off 0 < lo + 32) :
    (((oB).access (Rect.unit (s := S128x32) off S1x16.size inb)).setOn Finset.univ)
      ⊆ ((oB).slice (Rect.unit (s := S128x32) ![lo, 0] S32x32.size inb') hr').view.set := by
  show ((View.whole cc0_scratch1).slice (Rect.unit (s := S128x32) off S1x16.size inb)).set
    ⊆ ((View.whole cc0_scratch1).slice (Rect.unit (s := S128x32) ![lo, 0] S32x32.size inb')).set
  rw [View.set_slice_whole, View.set_slice_whole]
  intro i hi
  rw [Rect.mem_set_unit] at hi ⊢
  intro a
  match a with
  | 0 =>
    have h : off 0 ≤ ((i 0 : Fin 128) : ℕ) ∧ ((i 0 : Fin 128) : ℕ) < off 0 + 1 := hi 0
    show lo ≤ ((i 0 : Fin 128) : ℕ) ∧ ((i 0 : Fin 128) : ℕ) < lo + 32
    omega
  | 1 =>
    have h : ((i 1 : Fin 32) : ℕ) < 32 := (i 1).isLt
    show 0 ≤ ((i 1 : Fin 32) : ℕ) ∧ ((i 1 : Fin 32) : ℕ) < 0 + 32
    omega

/-- and as a load reaches them. -/
theorem old_sub {off : Fin 2 → Nat} {inb : ∀ a, off a + S1x16.size a ≤ S128x32.size a} {lo : Nat}
    {inb' : ∀ a, (![lo, 0] : Fin 2 → Nat) a + S32x32.size a ≤ S128x32.size a} {hr'}
    (h0 : lo ≤ off 0 ∧ off 0 < lo + 32) :
    ((oB).view.setOn (Rect.unit (s := S128x32) off S1x16.size inb).toLoadRect.set)
      ⊆ ((oB).slice (Rect.unit (s := S128x32) ![lo, 0] S32x32.size inb') hr').view.set := by
  have e : (oB).view.setOn (Rect.unit (s := S128x32) off S1x16.size inb).toLoadRect.set
      = ((oB).access (Rect.unit (s := S128x32) off S1x16.size inb)).setOn Finset.univ := by
    rw [View.setOn_univ]; exact (View.set_slice _ _).symm
  rw [e]; exact ost_sub h0

end Cert.KernelIdeal.Pf

end
-- ==== Proof.PayLane.lean ====
/- Lane arithmetic of the gather index vectors. Lane `l` of a 16-lane register holds the 32-bit word
   `l * 4 + c` for a small constant `c`; no product or sum here reaches 2^32, so as a natural number
   the word is `4 l + c`, and it stays below 128 whenever `c ≤ 67`. -/
import Idealize.ShloMosaic.PureOps
import Idealize.ShloMosaic.Lib.ValueIdx

noncomputable section

namespace Cert.Pool.Pay

open Idealize.ShloMosaic

/-- The word `l * 4 + c` computed in 32 bits is the number `4 l + c`: nothing wraps. -/
theorem lane_word (l : Fin 16) (c : Nat) (hc : c < 128) :
    (BitVec.ofNat 32 (0 * 16 + l.val) * 4#32 + BitVec.ofNat 32 c).toNat = 4 * l.val + c := by
  have hl := l.isLt
  simp only [BitVec.toNat_add, BitVec.toNat_mul, BitVec.toNat_ofNat, Nat.reducePow, Nat.reduceMod,
    Nat.zero_mul, Nat.zero_add]
  omega

/-- A 16-lane vector of words each below 128 names only positions inside a 128-entry row: the bound in
    the shape the gather's side condition is stated in (one index vector, one axis of extent 128). -/
theorem lanes_inb (v : IVec (⟨1, ![16]⟩ : Shape) 32) (h : ∀ l : Fin 16, (v (ValueIdx.ix1 l)).toNat < 128) :
    ∀ (a : Fin 1) (x : (⟨1, ![16]⟩ : Shape).Idx),
      ((![v] : Fin 1 → IVec (⟨1, ![16]⟩ : Shape) 32) a x).toNat < (⟨1, ![128]⟩ : Shape).size a := by
  intro a x
  obtain rfl : a = 0 := Subsingleton.elim _ _
  obtain ⟨l, rfl⟩ : ∃ l, x = ValueIdx.ix1 l := ⟨x 0, ValueIdx.eq_ix1 x⟩
  exact h l

end Cert.Pool.Pay

end
-- ==== Proof.PayIdx.lean ====
/- The eight gather index vectors of the averaging body, as numbers: lane `l` of vector `c` names
   position `4 l + c` of a 128-entry row, for c = 0, 1, 2, 3, 64, 65, 66, 67. Lanes 0..15 with offsets
   0..3 cover positions 0..63 and with offsets 64..67 positions 64..127, four consecutive positions per
   lane. Each position is below 128, which is the side condition a gather needs. Stated for the program
   read at the extended reals; the index vectors are integer words and do not depend on that reading. -/
import proofs.«213435_g4140348473474_cont_8to1_b_470_36_alg».proof.Proof.Gen.KernelIdeal.Skeleton
import proofs.«213435_g4140348473474_cont_8to1_b_470_36_alg».proof.Proof.PayLane

noncomputable section

namespace Cert.Pool.Pay.KernelIdeal

open Idealize.ShloMosaic

/-- The lane-sequence register the index vectors are built from. -/
abbrev lanes : IVec Cert.KernelIdeal.S16 32 := iota .scVector Cert.KernelIdeal.S16 32 [0] Cert.KernelIdeal.Gen.iota_S16_d0_w32_scVector

/-- Index vector 1, lane `l`: position `4 l + 0`. -/
theorem k0_pay1_toNat (l : Fin 16) : (Cert.KernelIdeal.Gen.k0_pay1 (ValueIdx.ix1 l)).toNat = 4 * l.val + 0 :=
  lane_word l 0 (by decide)

/-- Index vector 2, lane `l`: position `4 l + 1`. -/
theorem k0_pay2_toNat (l : Fin 16) : (Cert.KernelIdeal.Gen.k0_pay2 (ValueIdx.ix1 l)).toNat = 4 * l.val + 1 :=
  lane_word l 1 (by decide)

/-- Index vector 3, lane `l`: position `4 l + 2`. -/
theorem k0_pay3_toNat (l : Fin 16) : (Cert.KernelIdeal.Gen.k0_pay3 (ValueIdx.ix1 l)).toNat = 4 * l.val + 2 :=
  lane_word l 2 (by decide)

/-- Index vector 4, lane `l`: position `4 l + 3`. -/
theorem k0_pay4_toNat (l : Fin 16) : (Cert.KernelIdeal.Gen.k0_pay4 (ValueIdx.ix1 l)).toNat = 4 * l.val + 3 :=
  lane_word l 3 (by decide)

/-- Index vector 5, lane `l`: position `4 l + 64`. -/
theorem k0_pay5_toNat (l : Fin 16) : (Cert.KernelIdeal.Gen.k0_pay5 (ValueIdx.ix1 l)).toNat = 4 * l.val + 64 :=
  lane_word l 64 (by decide)

/-- Index vector 6, lane `l`: position `4 l + 65`. -/
theorem k0_pay6_toNat (l : Fin 16) : (Cert.KernelIdeal.Gen.k0_pay6 (ValueIdx.ix1 l)).toNat = 4 * l.val + 65 :=
  lane_word l 65 (by decide)

/-- Index vector 7, the lane number times four, plus the splat of 66, lane `l`: position `4 l + 66`. -/
theorem k0_pay8_toNat (l : Fin 16) :
    (Cert.KernelIdeal.Gen.k0_pay8 Cert.KernelIdeal.Gen.k0_pay7 66#32 (ValueIdx.ix1 l)).toNat = 4 * l.val + 66 :=
  lane_word l 66 (by decide)

/-- The last index vector, built from the lane sequence, lane `l`: position `4 l + 67`. -/
theorem k0_pay9_toNat (l : Fin 16) : (Cert.KernelIdeal.Gen.k0_pay9 lanes (ValueIdx.ix1 l)).toNat = 4 * l.val + 67 :=
  lane_word l 67 (by decide)

/-- Every position index vector 1 names is inside the 128-entry row it is gathered from. -/
theorem k0_chk1_holds : Cert.KernelIdeal.k0_chk1 (Cert.KernelIdeal.Gen.k0_pay1) := by
  have h : ∀ l : Fin 16, ((Cert.KernelIdeal.Gen.k0_pay1) (ValueIdx.ix1 l)).toNat < 128 := fun l => by
    rw [k0_pay1_toNat l]; have := l.isLt; omega
  exact ⟨lanes_inb _ h, lanes_inb _ h, lanes_inb _ h, lanes_inb _ h⟩

/-- Every position index vector 2 names is inside the 128-entry row it is gathered from. -/
theorem k0_chk2_holds : Cert.KernelIdeal.k0_chk2 (Cert.KernelIdeal.Gen.k0_pay2) := by
  have h : ∀ l : Fin 16, ((Cert.KernelIdeal.Gen.k0_pay2) (ValueIdx.ix1 l)).toNat < 128 := fun l => by
    rw [k0_pay2_toNat l]; have := l.isLt; omega
  exact ⟨lanes_inb _ h, lanes_inb _ h, lanes_inb _ h, lanes_inb _ h⟩

/-- Every position index vector 3 names is inside the 128-entry row it is gathered from. -/
theorem k0_chk3_holds : Cert.KernelIdeal.k0_chk3 (Cert.KernelIdeal.Gen.k0_pay3) := by
  have h : ∀ l : Fin 16, ((Cert.KernelIdeal.Gen.k0_pay3) (ValueIdx.ix1 l)).toNat < 128 := fun l => by
    rw [k0_pay3_toNat l]; have := l.isLt; omega
  exact ⟨lanes_inb _ h, lanes_inb _ h, lanes_inb _ h, lanes_inb _ h⟩

/-- Every position index vector 4 names is inside the 128-entry row it is gathered from. -/
theorem k0_chk4_holds : Cert.KernelIdeal.k0_chk4 (Cert.KernelIdeal.Gen.k0_pay4) := by
  have h : ∀ l : Fin 16, ((Cert.KernelIdeal.Gen.k0_pay4) (ValueIdx.ix1 l)).toNat < 128 := fun l => by
    rw [k0_pay4_toNat l]; have := l.isLt; omega
  exact ⟨lanes_inb _ h, lanes_inb _ h, lanes_inb _ h, lanes_inb _ h⟩

/-- Every position index vector 5 names is inside the 128-entry row it is gathered from. -/
theorem k0_chk5_holds : Cert.KernelIdeal.k0_chk5 (Cert.KernelIdeal.Gen.k0_pay5) := by
  have h : ∀ l : Fin 16, ((Cert.KernelIdeal.Gen.k0_pay5) (ValueIdx.ix1 l)).toNat < 128 := fun l => by
    rw [k0_pay5_toNat l]; have := l.isLt; omega
  exact ⟨lanes_inb _ h, lanes_inb _ h, lanes_inb _ h, lanes_inb _ h⟩

/-- Every position index vector 6 names is inside the 128-entry row it is gathered from. -/
theorem k0_chk6_holds : Cert.KernelIdeal.k0_chk6 (Cert.KernelIdeal.Gen.k0_pay6) := by
  have h : ∀ l : Fin 16, ((Cert.KernelIdeal.Gen.k0_pay6) (ValueIdx.ix1 l)).toNat < 128 := fun l => by
    rw [k0_pay6_toNat l]; have := l.isLt; omega
  exact ⟨lanes_inb _ h, lanes_inb _ h, lanes_inb _ h, lanes_inb _ h⟩

/-- Every position index vector 7 names is inside the 128-entry row it is gathered from. -/
theorem k0_chk7_holds : Cert.KernelIdeal.k0_chk7 (Cert.KernelIdeal.Gen.k0_pay8 Cert.KernelIdeal.Gen.k0_pay7 66#32) := by
  have h : ∀ l : Fin 16, ((Cert.KernelIdeal.Gen.k0_pay8 Cert.KernelIdeal.Gen.k0_pay7 66#32) (ValueIdx.ix1 l)).toNat < 128 := fun l => by
    rw [k0_pay8_toNat l]; have := l.isLt; omega
  exact ⟨lanes_inb _ h, lanes_inb _ h, lanes_inb _ h, lanes_inb _ h⟩

/-- Every position index vector 8 names is inside the 128-entry row it is gathered from. -/
theorem k0_chk8_holds : Cert.KernelIdeal.k0_chk8 (Cert.KernelIdeal.Gen.k0_pay9 lanes) := by
  have h : ∀ l : Fin 16, ((Cert.KernelIdeal.Gen.k0_pay9 lanes) (ValueIdx.ix1 l)).toNat < 128 := fun l => by
    rw [k0_pay9_toNat l]; have := l.isLt; omega
  exact ⟨lanes_inb _ h, lanes_inb _ h, lanes_inb _ h, lanes_inb _ h⟩

end Cert.Pool.Pay.KernelIdeal

end
-- ==== Proof.TileValDefsI.lean ====
import proofs.«213435_g4140348473474_cont_8to1_b_470_36_alg».proof.Proof.TileDefsI
import proofs.«213435_g4140348473474_cont_8to1_b_470_36_alg».proof.Proof.PayIdx

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a task computes, as functions of what its row scratch holds

A task holds 128 rows of the argument (their first 128 entries) in its row scratch. Row `r` of the
result scratch is computed from row `r` of the row scratch alone: entry `g < 16` is the body's first
arithmetic payload of the four gathers at positions `4·lane + 0, 1, 2, 3`, read at lane `g`; entry
`16 + g` is its second payload of the gathers at `4·lane + 64, 65, 66, 67`, read at lane `g`. So entry
`g` of the row is the payload of the four entries `4g, 4g+1, 4g+2, 4g+3` of the scratch row. -/

open Cert.Pool.Pay.KernelIdeal (lanes k0_chk1_holds k0_chk2_holds k0_chk3_holds k0_chk4_holds k0_chk5_holds k0_chk6_holds k0_chk7_holds k0_chk8_holds)

/-- Row `r` of the row scratch as a vector of 128. -/
def xrow (fb : S128x128.Idx → Elt F .f32) (r : Fin 128) : Vec F S128 .f32 :=
  fun c => fb (ValueIdx.ix2 r (c 0 : Fin 128))

/-- The gather of row `r` at the sixteen positions `idx`. -/
def gath (fb : S128x128.Idx → Elt F .f32) (r : Fin 128) (idx : IVec S16 32)
    (h : ∀ a x, ((![idx] : Fin 1 → IVec S16 32) a x).toNat < S128.size a) : Vec F S16 .f32 :=
  loadIdx (xrow fb r) ![idx] h

/-- The result scratch after the task's loops, as a function of the row scratch. -/
def tileOut (fb : S128x128.Idx → Elt F .f32) : S128x32.Idx → Elt F .f32 := fun i =>
  if h : (i 1 : Fin 32).val < 16 then
    k0_pay10 (gath fb (i 0) k0_pay1 (k0_idx1_inb _ k0_chk1_holds)) (gath fb (i 0) k0_pay2 (k0_idx2_inb _ k0_chk2_holds))
      (gath fb (i 0) k0_pay3 (k0_idx3_inb _ k0_chk3_holds)) (gath fb (i 0) k0_pay4 (k0_idx4_inb _ k0_chk4_holds))
      (ValueIdx.ix1 (⟨(i 1 : Fin 32).val, h⟩ : Fin 16))
  else
    k0_pay11 (gath fb (i 0) k0_pay5 (k0_idx5_inb _ k0_chk5_holds)) (gath fb (i 0) k0_pay6 (k0_idx6_inb _ k0_chk6_holds))
      (gath fb (i 0) (k0_pay8 k0_pay7 66#32) (k0_idx7_inb _ k0_chk7_holds)) (gath fb (i 0) (k0_pay9 lanes) (k0_idx8_inb _ k0_chk8_holds))
      (ValueIdx.ix1 (⟨(i 1 : Fin 32).val - 16, by have h2 : ((i 1 : Fin 32) : ℕ) < 32 := (i 1).isLt; omega⟩ : Fin 16))

/-- Rows 12288 .. 16383 of the argument, first 128 entries each, laid out as a row scratch whose every
    row is row `12288 + R`. -/
def xRowOf (X : S16384x2048.Idx → Elt F .f32) (R : Fin 4096) : S128x128.Idx → Elt F .f32 :=
  fun y => X (ValueIdx.ix2 (⟨12288 + R.val, by have := R.isLt; omega⟩ : Fin 16384) (⟨(y 1 : Fin 128).val, by have h2 : ((y 1 : Fin 128) : ℕ) < 128 := (y 1).isLt; omega⟩ : Fin 2048))

/-- The SparseCore part's result, whole: row `R` of the 4096 is computed from row `12288 + R` of the argument. -/
def scOut (X : S16384x2048.Idx → Elt F .f32) : S4096x32.Idx → Elt F .f32 := fun i =>
  tileOut (xRowOf X (i 0)) (ValueIdx.ix2 (0 : Fin 128) (i 1 : Fin 32))

end Cert.KernelIdeal.Pf

end
-- ==== Proof.TileTripI.lean ====
/-
  One task's arithmetic, apart from the program that runs it.

  A task keeps 128 rows of the argument (their first 128 entries) in a row scratch and writes 128 rows of 32
  results into a result scratch, row by row; each row of results depends on the same row of the row scratch only.
  The facts here are about contents, not about the run:

    a chunk written whole reads back as what was written;
    a row of the row scratch, addressed as a one-row slice with its unit axis dropped, is that row;
    two stores of sixteen entries each into row r of the result scratch, of the body's two payloads of gathers of
    row r, make row r what the task computes from the row scratch and leave every other row alone;
    so after rows lo .. lo + k - 1 are right, one more trip makes rows lo .. lo + k right;
    and once 32 rows are right and are copied into a chunk of the result that starts at row R0, that chunk holds
    the whole result's own entries, given that those rows of the row scratch hold rows R0 + 12288 .. of the argument.
-/
import proofs.«213435_g4140348473474_cont_8to1_b_470_36_alg».proof.Proof.TileValDefsI
import Idealize.ShloMosaic.Lib.Writes
import Idealize.ShloMosaic.Lib.Pipeline.Value

noncomputable section

namespace Cert.KernelIdeal.Pf

open Cert.KernelIdeal Cert.KernelIdeal.Gen
open Idealize.ShloMosaic
open Idealize.ShloMosaic.ValueIdx
open Cert.Pool.Pay.KernelIdeal (lanes k0_chk1_holds k0_chk2_holds k0_chk3_holds k0_chk4_holds k0_chk5_holds k0_chk6_holds k0_chk7_holds k0_chk8_holds)

variable {F : FTy → Type} [FloatOps F]

local notation "xW" => (Memref.whole Cert.KernelIdeal.main_arg0_scv : Memref Cert.KernelIdeal.sig Kind.scVector Space.hbm Cert.KernelIdeal.S16384x2048 EltTy.f32)
local notation "oW" => (Memref.whole Cert.KernelIdeal.main_v0_scv : Memref Cert.KernelIdeal.sig Kind.scVector Space.hbm Cert.KernelIdeal.S4096x32 EltTy.f32)
local notation "xB" => (Memref.whole Cert.KernelIdeal.cc0_scratch0 : Memref Cert.KernelIdeal.sig Kind.scVector Space.vmem Cert.KernelIdeal.S128x128 EltTy.f32)
local notation "oB" => (Memref.whole Cert.KernelIdeal.cc0_scratch1 : Memref Cert.KernelIdeal.sig Kind.scVector Space.vmem Cert.KernelIdeal.S128x32 EltTy.f32)

/-! ## A chunk as it landed -/

/-- What one write of a whole shape leaves is read back as what was written. -/
theorem read_landed {sig : RefSig} {κ : Kind} {sp : Space} {s : Shape} {e : EltTy} {Val : EltTy → Type}
    (v : View sig κ sp s e) (f : v.ty.Contents Val) (w : (Rect.whole s).shape.Idx → Val e) :
    v.read Val (v.writes Val f [⟨Rect.whole s, w⟩]) = w := by
  funext x
  have h := View.read_writes_cons_emb v f (Rect.whole s) w [] x
  rwa [Rect.emb_whole_apply] at h

/-! ## A row of the row scratch -/

/-- Row `r` of the row scratch, addressed as the body addresses it (the one-row slice, its unit axis dropped, read
    whole), is the row as a vector of 128. -/
theorem row_read (fb : S128x128.Idx → Elt F .f32) (r : Fin 128) {off : Fin 2 → Nat}
    {inb : ∀ a, off a + S1x128.size a ≤ S128x128.size a} {hr} (h : off = ![r.val, 0]) :
    View.read (Elt F) ((((xB).slice (Rect.unit (s := S128x128) off S1x128.size inb) hr).squeeze S128 squeezes_S1x128_S128).access (Rect.whole S128)) fb
      = xrow fb r := by
  subst h
  funext c
  refine (View.read_apply _ _).trans ((cast_eq _ _).trans ?_)
  unfold xrow
  refine congrArg fb ?_
  show (Rect.unit (s := S128x128) ![r.val, 0] S1x128.size inb).emb
      (Shape.reshapeEquiv squeezes_S1x128_S128.numel_eq ((Rect.whole S128).emb c)) = _
  rw [Rect.emb_whole_apply,
    Shape.reshapeEquiv_eq_of_rowMajor (y := (ix2 (0 : Fin 1) (c 0 : Fin 128) : S1x128.Idx)) _
      (by rw [Shape.rowMajor_val_two, Shape.rowMajor_val_one]; show 0 * 128 + (c 0 : Fin 128).val = _; omega)]
  funext a
  refine Fin.ext ?_
  match a with
  | ⟨0, _⟩ => show r.val + 1 * 0 = r.val; omega
  | ⟨1, _⟩ => show 0 + 1 * (c 0 : Fin 128).val = (c 0 : Fin 128).val; omega

/-! ## Two stores of sixteen entries into one row of the result scratch -/

/-- A store of sixteen entries into row `r` of the result scratch from column `c0` on: the sixteen entries of that
    row take the stored vector, every other entry keeps what it held. -/
theorem write_seg (f : S128x32.Idx → Elt F .f32) (w : S1x16.Idx → Elt F .f32) (r : Fin 128) (c0 : Nat) (hc0 : c0 + 16 ≤ 32)
    {off : Fin 2 → Nat} {inb : ∀ a, off a + S1x16.size a ≤ S128x32.size a} (h : off = ![r.val, c0])
    (a : Fin 128) (b : Fin 32) :
    View.write (Elt F) ((oB).access (Rect.unit (s := S128x32) off S1x16.size inb)) f w Finset.univ (ix2 a b)
      = if hi : a.val = r.val ∧ c0 ≤ b.val ∧ b.val < c0 + 16 then
          w (ix2 (0 : Fin 1) (⟨b.val - c0, by omega⟩ : Fin 16))
        else f (ix2 a b) := by
  subst h
  by_cases hi : a.val = r.val ∧ c0 ≤ b.val ∧ b.val < c0 + 16
  · rw [dif_pos hi]
    have e : (ix2 a b : S128x32.Idx)
        = ((oB).access (Rect.unit (s := S128x32) ![r.val, c0] S1x16.size inb)).emb
            (ix2 (0 : Fin 1) (⟨b.val - c0, by omega⟩ : Fin 16)) := by
      funext x
      refine Fin.ext ?_
      match x with
      | ⟨0, _⟩ => show a.val = r.val + 1 * 0; omega
      | ⟨1, _⟩ => show b.val = c0 + 1 * (b.val - c0); omega
    rw [e, View.write_emb_of_mem _ _ (Finset.mem_univ _)]
    exact cast_eq _ _
  · rw [dif_neg hi]
    refine View.write_of_not_mem _ _ _ fun hm => hi ?_
    obtain ⟨x, -, hx⟩ := Finset.mem_map.mp hm
    have h0 : r.val + 1 * (x 0 : Fin 1).val = a.val := congrArg (fun i : S128x32.Idx => (i 0 : Fin 128).val) hx
    have h1 : c0 + 1 * (x 1 : Fin 16).val = b.val := congrArg (fun i : S128x32.Idx => (i 1 : Fin 32).val) hx
    have hx0 : (x 0 : Fin 1).val < 1 := (x 0).isLt
    have hx1 : (x 1 : Fin 16).val < 16 := (x 1).isLt
    omega

/-- A vector of sixteen laid out as one row of sixteen reads its own entries. -/
theorem row16_apply (w : Vec F S16 .f32) (l : Fin 16) :
    shapeCast S1x16 w shapeCasts_S16_S1x16 (ix2 (0 : Fin 1) l) = w (ix1 l) :=
  shapeCast_apply _ _ _ _ (by rw [Shape.rowMajor_val_one, Shape.rowMajor_val_two]; show l.val = 0 * 16 + l.val; omega)

/-- One trip's two stores, the first of the body's first payload into columns 0 .. 15 of row `r`, the second of its
    second payload into columns 16 .. 31, each payload of four gathers of row `r` of the row scratch: row `r` of the
    result scratch is then what the task computes from the row scratch, and every other row keeps what it held. -/
theorem trip_apply (fb : S128x128.Idx → Elt F .f32) (f : S128x32.Idx → Elt F .f32) (r : Fin 128)
    {off6 off11 : Fin 2 → Nat} {inb6 : ∀ a, off6 a + S1x16.size a ≤ S128x32.size a}
    {inb11 : ∀ a, off11 a + S1x16.size a ≤ S128x32.size a} (h6 : off6 = ![r.val, 0]) (h11 : off11 = ![r.val, 16])
    {row1 row2 row3 row4 row5 row6 row7 row8 : Vec F S128 .f32}
    (e1 : row1 = xrow fb r) (e2 : row2 = xrow fb r) (e3 : row3 = xrow fb r) (e4 : row4 = xrow fb r)
    (e5 : row5 = xrow fb r) (e6 : row6 = xrow fb r) (e7 : row7 = xrow fb r) (e8 : row8 = xrow fb r)
    {i1 i2 i3 i4 i5 i6 i7 i8} (i : S128x32.Idx) :
    View.write (Elt F) ((oB).access (Rect.unit (s := S128x32) off11 S1x16.size inb11))
        (View.write (Elt F) ((oB).access (Rect.unit (s := S128x32) off6 S1x16.size inb6)) f
          (shapeCast S1x16 (k0_pay10 (loadIdx row1 ![k0_pay1] i1) (loadIdx row2 ![k0_pay2] i2) (loadIdx row3 ![k0_pay3] i3)
            (loadIdx row4 ![k0_pay4] i4)) shapeCasts_S16_S1x16) Finset.univ)
        (shapeCast S1x16 (k0_pay11 (loadIdx row5 ![k0_pay5] i5) (loadIdx row6 ![k0_pay6] i6)
          (loadIdx row7 ![k0_pay8 k0_pay7 66#32] i7) (loadIdx row8 ![k0_pay9 lanes] i8)) shapeCasts_S16_S1x16) Finset.univ i
      = if (i 0 : Fin 128).val = r.val then tileOut fb i else f i := by
  subst e1 e2 e3 e4 e5 e6 e7 e8
  obtain ⟨a, b, rfl⟩ : ∃ (a : Fin 128) (b : Fin 32), i = ix2 a b := ⟨i 0, i 1, eq_ix2 i⟩
  have hb : b.val < 32 := b.isLt
  rw [write_seg _ _ r 16 (by omega) h11, write_seg _ _ r 0 (by omega) h6]
  show _ = if a.val = r.val then tileOut fb (ix2 a b) else f (ix2 a b)
  by_cases ha : a.val = r.val
  · obtain rfl : a = r := Fin.ext ha
    rw [if_pos rfl]
    by_cases h16 : b.val < 16
    · rw [dif_neg (by omega), dif_pos ⟨rfl, by omega, by omega⟩, row16_apply]
      unfold tileOut
      rw [dif_pos (show ((ix2 a b : S128x32.Idx) 1 : Fin 32).val < 16 from h16)]
      rfl
    · rw [dif_pos ⟨rfl, by omega, by omega⟩, row16_apply]
      unfold tileOut
      rw [dif_neg (show ¬ ((ix2 a b : S128x32.Idx) 1 : Fin 32).val < 16 from h16)]
      rfl
  · rw [if_neg ha, dif_neg (fun h => ha h.1), dif_neg (fun h => ha h.1)]

/-- Having row `r` right after rows `lo .. lo + k - 1` were right makes rows `lo .. lo + k` right, when `r` is row
    `lo + k` and no other row changed. -/
theorem step_rows (fb : S128x128.Idx → Elt F .f32) (f f' : S128x32.Idx → Elt F .f32) (lo k : Nat) (r : Fin 128)
    (hr : r.val = k + lo)
    (hf : ∀ i : S128x32.Idx, lo ≤ (i 0 : Fin 128).val → (i 0 : Fin 128).val < lo + k → f i = tileOut fb i)
    (hf' : ∀ i : S128x32.Idx, f' i = if (i 0 : Fin 128).val = r.val then tileOut fb i else f i) :
    ∀ i : S128x32.Idx, lo ≤ (i 0 : Fin 128).val → (i 0 : Fin 128).val < lo + (k + 1) → f' i = tileOut fb i := by
  intro i h1 h2
  rw [hf' i]
  split
  · rfl
  · exact hf i h1 (by omega)

/-! ## A chunk of the result after its copy -/

/-- Entry `c` of a result row, from the row of 128 it is computed from. -/
def rowOut (v : Vec F S128 .f32) (c : Fin 32) : Elt F .f32 :=
  if h : c.val < 16 then
    k0_pay10 (loadIdx v ![k0_pay1] (k0_idx1_inb _ k0_chk1_holds)) (loadIdx v ![k0_pay2] (k0_idx2_inb _ k0_chk2_holds))
      (loadIdx v ![k0_pay3] (k0_idx3_inb _ k0_chk3_holds)) (loadIdx v ![k0_pay4] (k0_idx4_inb _ k0_chk4_holds))
      (ix1 (⟨c.val, h⟩ : Fin 16))
  else
    k0_pay11 (loadIdx v ![k0_pay5] (k0_idx5_inb _ k0_chk5_holds)) (loadIdx v ![k0_pay6] (k0_idx6_inb _ k0_chk6_holds))
      (loadIdx v ![k0_pay8 k0_pay7 66#32] (k0_idx7_inb _ k0_chk7_holds)) (loadIdx v ![k0_pay9 lanes] (k0_idx8_inb _ k0_chk8_holds))
      (ix1 (⟨c.val - 16, by have h2 : c.val < 32 := c.isLt; omega⟩ : Fin 16))

/-- An entry of the result scratch depends on the row scratch through one row only. -/
theorem tileOut_eq_rowOut (fb : S128x128.Idx → Elt F .f32) (i : S128x32.Idx) :
    tileOut fb i = rowOut (xrow fb (i 0)) (i 1) := rfl

/-- After the copy of rows `lo .. lo + 31` of the result scratch into a chunk of the result that starts at row `R0`,
    the chunk holds the whole result's own entries there, provided rows `lo .. lo + 31` of the row scratch hold rows
    `R0 + 12288 ..` of the argument and those rows of the result scratch were computed from them. -/
theorem chunk_out (X : S16384x2048.Idx → Elt F .f32) (fz : S4096x32.Idx → Elt F .f32)
    (fb : S128x128.Idx → Elt F .f32) (fo : S128x32.Idx → Elt F .f32) (lo R0 : Nat)
    {offX : Fin 2 → Nat} {inbX : ∀ a, offX a + S32x128.size a ≤ S16384x2048.size a} {hrX}
    {offO : Fin 2 → Nat} {inbO : ∀ a, offO a + S32x32.size a ≤ S4096x32.size a} {hrO}
    {inbD : ∀ a, (![lo, 0] : Fin 2 → Nat) a + S32x128.size a ≤ S128x128.size a} {hrD}
    {inbS : ∀ a, (![lo, 0] : Fin 2 → Nat) a + S32x32.size a ≤ S128x32.size a} {hrS}
    (hX : offX = ![R0 + 12288, 0]) (hO : offO = ![R0, 0])
    (hfb : View.read (Elt F) ((xB).slice (Rect.unit (s := S128x128) ![lo, 0] S32x128.size inbD) hrD).view fb
        = View.read (Elt F) ((xW).slice (Rect.unit (s := S16384x2048) offX S32x128.size inbX) hrX).view X)
    (hfo : ∀ i : S128x32.Idx, lo ≤ (i 0 : Fin 128).val → (i 0 : Fin 128).val < lo + 32 → fo i = tileOut fb i) :
    ∀ x ∈ ((oW).slice (Rect.unit (s := S4096x32) offO S32x32.size inbO) hrO).view.set,
      ((oW).slice (Rect.unit (s := S4096x32) offO S32x32.size inbO) hrO).view.writes (Elt F) fz
          [⟨Rect.whole S32x32, ReadAs.same.apply
            (View.read (Elt F) ((oB).slice (Rect.unit (s := S128x32) ![lo, 0] S32x32.size inbS) hrS).view fo)⟩] x
        = scOut X x := by
  subst hX hO
  intro x hx
  obtain ⟨y, -, rfl⟩ := Finset.mem_map.mp hx
  obtain ⟨p, q, rfl⟩ : ∃ (p : Fin 32) (q : Fin 32), y = ix2 p q := ⟨y 0, y 1, eq_ix2 y⟩
  have hlo : lo + 32 ≤ 128 := inbS 0
  have hR0 : R0 + 32 ≤ 4096 := inbO 0
  have hp : p.val < 32 := p.isLt
  have hL := congrFun (read_landed ((oW).slice (Rect.unit (s := S4096x32) ![R0, 0] S32x32.size inbO) hrO).view fz
    (ReadAs.same.apply
      (View.read (Elt F) ((oB).slice (Rect.unit (s := S128x32) ![lo, 0] S32x32.size inbS) hrS).view fo))) (ix2 p q)
  rw [View.read_apply] at hL
  refine ((cast_eq _ _).symm.trans hL).trans ?_
  show View.read (Elt F) ((oB).slice (Rect.unit (s := S128x32) ![lo, 0] S32x32.size inbS) hrS).view fo (ix2 p q) = _
  refine (View.read_apply _ _).trans ((cast_eq _ _).trans ?_)
  rw [hfo _ (show lo ≤ lo + 1 * p.val by omega) (show lo + 1 * p.val < lo + 32 by omega)]
  unfold scOut
  rw [tileOut_eq_rowOut, tileOut_eq_rowOut]
  have hcol : ((((oB).slice (Rect.unit (s := S128x32) ![lo, 0] S32x32.size inbS) hrS).view.emb (ix2 p q)) 1 : Fin 32)
      = ((ix2 (0 : Fin 128) ((((oW).slice (Rect.unit (s := S4096x32) ![R0, 0] S32x32.size inbO) hrO).view.emb (ix2 p q)) 1 : Fin 32) : S128x32.Idx) 1 : Fin 32) :=
    Fin.ext rfl
  rw [hcol]
  refine congrArg (fun v => rowOut v _) (funext fun c => ?_)
  have h := congrFun hfb (ix2 p (c 0 : Fin 128))
  rw [View.read_apply, View.read_apply] at h
  have h' := ((cast_eq _ _).symm.trans h).trans (cast_eq _ _)
  unfold xrow xRowOf
  refine ((congrArg fb ?_).trans h').trans (congrArg X ?_)
  · funext a
    refine Fin.ext ?_
    match a with
    | ⟨0, _⟩ => rfl
    | ⟨1, _⟩ => show (c 0 : Fin 128).val = 0 + 1 * (c 0 : Fin 128).val; omega
  · funext a
    refine Fin.ext ?_
    match a with
    | ⟨0, _⟩ => show R0 + 12288 + 1 * p.val = 12288 + (R0 + 1 * p.val); omega
    | ⟨1, _⟩ => show 0 + 1 * (c 0 : Fin 128).val = (c 0 : Fin 128).val; omega

end Cert.KernelIdeal.Pf

end
-- ==== Proof.TileI.lean ====
/-
  One task's run, with what it leaves.

  The task fetches its 128 rows of the argument in four chunks of 32 and, for each chunk once it has landed, makes 32
  trips: trip k gathers row lo + k of the row scratch eight times and stores the two payloads of four gathers each
  into row lo + k of the result scratch; then it sends the chunk's 32 rows of results to their place in the result,
  and at the end it waits for the four sends. Between trips the chunk of rows holds the argument's rows as they
  landed, and rows lo .. lo + k - 1 of the result scratch are what the task computes from them. At the end every
  resource is back, the argument's chunks are unchanged, and the four chunks of the result hold, each on its own
  rows, the one function of the whole argument that the specification of this part names.
-/
import proofs.«213435_g4140348473474_cont_8to1_b_470_36_alg».proof.Proof.TileGeoI
import proofs.«213435_g4140348473474_cont_8to1_b_470_36_alg».proof.Proof.TileTripI

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.KernelIdeal.main_arg0_scv : Memref Cert.KernelIdeal.sig Kind.scVector Space.hbm Cert.KernelIdeal.S16384x2048 EltTy.f32)
local notation "oW" => (Memref.whole Cert.KernelIdeal.main_v0_scv : Memref Cert.KernelIdeal.sig Kind.scVector Space.hbm Cert.KernelIdeal.S4096x32 EltTy.f32)
local notation "xB" => (Memref.whole Cert.KernelIdeal.cc0_scratch0 : Memref Cert.KernelIdeal.sig Kind.scVector Space.vmem Cert.KernelIdeal.S128x128 EltTy.f32)
local notation "oB" => (Memref.whole Cert.KernelIdeal.cc0_scratch1 : Memref Cert.KernelIdeal.sig Kind.scVector Space.vmem Cert.KernelIdeal.S128x32 EltTy.f32)

/-- Between trips of the loop over chunk 0, before trip `k`: the chunk of rows holds the argument's rows as they landed, and rows
    `0 .. 0 + k - 1` of the result scratch hold what the task computes from them. -/
def invT0 (m : (ℓ : Loc nD τ sig) → Buf (Elt F) ℓ) (d : Dev nD) (L : grid0.Coords) (k : Nat) (_ : PUnit) : sProp 𝕄 :=
  iprop(∃ fb, ((xD0).view.loc (V d (cV L) (jV L)) ↦[(xD0).view.set]{fullShare} fb)
    ∗ ⌜View.read (Elt F) (xD0).view fb = View.read (Elt F) (xS0 L).view (m (xLoc d))⌝
    ∗ ∃ f, ((oS0).view.loc (V d (cV L) (jV L)) ↦[(oS0).view.set]{fullShare} f)
      ∗ ⌜∀ i : S128x32.Idx, 0 ≤ (i 0 : Fin 128).val → (i 0 : Fin 128).val < 0 + k → f i = tileOut fb i⌝)

/-- Between trips of the loop over chunk 1, before trip `k`: the chunk of rows holds the argument's rows as they landed, and rows
    `32 .. 32 + k - 1` of the result scratch hold what the task computes from them. -/
def invT1 (m : (ℓ : Loc nD τ sig) → Buf (Elt F) ℓ) (d : Dev nD) (L : grid0.Coords) (k : Nat) (_ : PUnit) : sProp 𝕄 :=
  iprop(∃ fb, ((xD1).view.loc (V d (cV L) (jV L)) ↦[(xD1).view.set]{fullShare} fb)
    ∗ ⌜View.read (Elt F) (xD1).view fb = View.read (Elt F) (xS1 L).view (m (xLoc d))⌝
    ∗ ∃ f, ((oS1).view.loc (V d (cV L) (jV L)) ↦[(oS1).view.set]{fullShare} f)
      ∗ ⌜∀ i : S128x32.Idx, 32 ≤ (i 0 : Fin 128).val → (i 0 : Fin 128).val < 32 + k → f i = tileOut fb i⌝)

/-- Between trips of the loop over chunk 2, before trip `k`: the chunk of rows holds the argument's rows as they landed, and rows
    `64 .. 64 + k - 1` of the result scratch hold what the task computes from them. -/
def invT2 (m : (ℓ : Loc nD τ sig) → Buf (Elt F) ℓ) (d : Dev nD) (L : grid0.Coords) (k : Nat) (_ : PUnit) : sProp 𝕄 :=
  iprop(∃ fb, ((xD2).view.loc (V d (cV L) (jV L)) ↦[(xD2).view.set]{fullShare} fb)
    ∗ ⌜View.read (Elt F) (xD2).view fb = View.read (Elt F) (xS2 L).view (m (xLoc d))⌝
    ∗ ∃ f, ((oS2).view.loc (V d (cV L) (jV L)) ↦[(oS2).view.set]{fullShare} f)
      ∗ ⌜∀ i : S128x32.Idx, 64 ≤ (i 0 : Fin 128).val → (i 0 : Fin 128).val < 64 + k → f i = tileOut fb i⌝)

/-- Between trips of the loop over chunk 3, before trip `k`: the chunk of rows holds the argument's rows as they landed, and rows
    `96 .. 96 + k - 1` of the result scratch hold what the task computes from them. -/
def invT3 (m : (ℓ : Loc nD τ sig) → Buf (Elt F) ℓ) (d : Dev nD) (L : grid0.Coords) (k : Nat) (_ : PUnit) : sProp 𝕄 :=
  iprop(∃ fb, ((xD3).view.loc (V d (cV L) (jV L)) ↦[(xD3).view.set]{fullShare} fb)
    ∗ ⌜View.read (Elt F) (xD3).view fb = View.read (Elt F) (xS3 L).view (m (xLoc d))⌝
    ∗ ∃ f, ((oS3).view.loc (V d (cV L) (jV L)) ↦[(oS3).view.set]{fullShare} f)
      ∗ ⌜∀ i : S128x32.Idx, 96 ≤ (i 0 : Fin 128).val → (i 0 : Fin 128).val < 96 + k → f i = tileOut fb i⌝)

section Tile
variable (m : (ℓ : Loc nD τ sig) → Buf (Elt F) ℓ) (d : Dev nD) (L : grid0.Coords)

set_option maxHeartbeats 4000000 in
theorem tile_core (O : CellTallies nD τ sig (HIx 1)) (W : Waits sig (HIx 1))
    (fx : Buf (Elt F) ((V d (cV L) (jV L)).loc cc0_scratch0)) (fo : Buf (Elt F) ((V d (cV L) (jV L)).loc cc0_scratch1)) (fz : Buf (Elt F) (oLoc d)) :
    iprop((Transfers.MayWaits (V d (cV L) (jV L)) (none : HIx 1) O : sProp 𝕄)
        ∗ xChunks d L (m (xLoc d))
        ∗ ((xD0).view.loc (V d (cV L) (jV L)) ↦[(xD0).view.set]{fullShare} fx)
        ∗ ((xD1).view.loc (V d (cV L) (jV L)) ↦[(xD1).view.set]{fullShare} fx)
        ∗ ((xD2).view.loc (V d (cV L) (jV L)) ↦[(xD2).view.set]{fullShare} fx)
        ∗ ((xD3).view.loc (V d (cV L) (jV L)) ↦[(xD3).view.set]{fullShare} fx)
        ∗ ((oS0).view.loc (V d (cV L) (jV L)) ↦[(oS0).view.set]{fullShare} fo)
        ∗ ((oS1).view.loc (V d (cV L) (jV L)) ↦[(oS1).view.set]{fullShare} fo)
        ∗ ((oS2).view.loc (V d (cV L) (jV L)) ↦[(oS2).view.set]{fullShare} fo)
        ∗ ((oS3).view.loc (V d (cV L) (jV L)) ↦[(oS3).view.set]{fullShare} fo)
        ∗ oChunks d L fz
        ∗ semVal ((V d (cV L) (jV L)), SemLoc.dma iSem0) 0 ∗ semVal ((V d (cV L) (jV L)), SemLoc.dma iSem1) 0
        ∗ semVal ((V d (cV L) (jV L)), SemLoc.dma iSem2) 0 ∗ semVal ((V d (cV L) (jV L)), SemLoc.dma iSem3) 0
        ∗ semVal ((V d (cV L) (jV L)), SemLoc.dma oSem0) 0 ∗ semVal ((V d (cV L) (jV L)), SemLoc.dma oSem1) 0
        ∗ semVal ((V d (cV L) (jV L)), SemLoc.dma oSem2) 0 ∗ semVal ((V d (cV L) (jV L)), SemLoc.dma oSem3) 0
        ∗ owes (V d (cV L) (jV L)) O W)
      ⊢ wp frame (wpE (defs₀ (F := F)) 𝒱₀ (V d (cV L) (jV L)) none) Set.univ
          (cc0__sc_body L xW (Memref.isWhole_whole _) oW (Memref.isWhole_whole _) xB (Memref.isWhole_whole _) oB (Memref.isWhole_whole _) cc0_scratch2 cc0_scratch3)
          fun _ => iprop(xChunks d L (m (xLoc d))
            ∗ (∃ f, ((xD0).view.loc (V d (cV L) (jV L)) ↦[(xD0).view.set]{fullShare} f))
            ∗ (∃ f, ((xD1).view.loc (V d (cV L) (jV L)) ↦[(xD1).view.set]{fullShare} f))
            ∗ (∃ f, ((xD2).view.loc (V d (cV L) (jV L)) ↦[(xD2).view.set]{fullShare} f))
            ∗ (∃ f, ((xD3).view.loc (V d (cV L) (jV L)) ↦[(xD3).view.set]{fullShare} f))
            ∗ (∃ f, ((oS0).view.loc (V d (cV L) (jV L)) ↦[(oS0).view.set]{fullShare} f))
            ∗ (∃ f, ((oS1).view.loc (V d (cV L) (jV L)) ↦[(oS1).view.set]{fullShare} f))
            ∗ (∃ f, ((oS2).view.loc (V d (cV L) (jV L)) ↦[(oS2).view.set]{fullShare} f))
            ∗ (∃ f, ((oS3).view.loc (V d (cV L) (jV L)) ↦[(oS3).view.set]{fullShare} f))
            ∗ oChunks d L (scOut (m (xLoc d)))
            ∗ semVal ((V d (cV L) (jV L)), SemLoc.dma iSem0) 0 ∗ semVal ((V d (cV L) (jV L)), SemLoc.dma iSem1) 0
            ∗ semVal ((V d (cV L) (jV L)), SemLoc.dma iSem2) 0 ∗ semVal ((V d (cV L) (jV L)), SemLoc.dma iSem3) 0
            ∗ semVal ((V d (cV L) (jV L)), SemLoc.dma oSem0) 0 ∗ semVal ((V d (cV L) (jV L)), SemLoc.dma oSem1) 0
            ∗ semVal ((V d (cV L) (jV L)), SemLoc.dma oSem2) 0 ∗ semVal ((V d (cV L) (jV L)), SemLoc.dma oSem3) 0
            ∗ ∃ W', ⌜∀ p ∈ W', p ∈ W ∨ p.2 = none⌝ ∗ owes (V d (cV L) (jV L)) O W') := by
  rw [cc0__sc_body_eq_skeleton, cc0__sc_body_skel]
  iintro ⟨Hmw, ⟨Hx0, Hx1, Hx2, Hx3⟩, Hb0, Hb1, Hb2, Hb3, Ho0, Ho1, Ho2, Ho3, ⟨Hz0, Hz1, Hz2, Hz3⟩, Hi0, Hi1, Hi2, Hi3, Hq0, Hq1, Hq2, Hq3, HO⟩
  sl_exec
  sl_for (invT0 (F := F) m d L) $$ [Hb0 Ho0]
  case region =>
    intro k _
    have hk : k.val < 32 := lt_of_lt_of_le k.isLt k0_t1_abs.2.1
    have h_k0_off2 : 0 ≤ (k0_off2 k) 0 ∧ (k0_off2 k) 0 < 0 + 32 := by rw [k0_off2_eq]; exact ⟨by show 0 ≤ k.val; omega, by show k.val < 0 + 32; omega⟩
    have h_k0_off3 : 0 ≤ (k0_off3 k) 0 ∧ (k0_off3 k) 0 < 0 + 32 := by rw [k0_off3_eq]; exact ⟨by show 0 ≤ k.val; omega, by show k.val < 0 + 32; omega⟩
    have h_k0_off4 : 0 ≤ (k0_off4 k) 0 ∧ (k0_off4 k) 0 < 0 + 32 := by rw [k0_off4_eq]; exact ⟨by show 0 ≤ k.val; omega, by show k.val < 0 + 32; omega⟩
    have h_k0_off5 : 0 ≤ (k0_off5 k) 0 ∧ (k0_off5 k) 0 < 0 + 32 := by rw [k0_off5_eq]; exact ⟨by show 0 ≤ k.val; omega, by show k.val < 0 + 32; omega⟩
    have h_k0_off7 : 0 ≤ (k0_off7 k) 0 ∧ (k0_off7 k) 0 < 0 + 32 := by rw [k0_off7_eq]; exact ⟨by show 0 ≤ k.val; omega, by show k.val < 0 + 32; omega⟩
    have h_k0_off8 : 0 ≤ (k0_off8 k) 0 ∧ (k0_off8 k) 0 < 0 + 32 := by rw [k0_off8_eq]; exact ⟨by show 0 ≤ k.val; omega, by show k.val < 0 + 32; omega⟩
    have h_k0_off9 : 0 ≤ (k0_off9 k) 0 ∧ (k0_off9 k) 0 < 0 + 32 := by rw [k0_off9_eq]; exact ⟨by show 0 ≤ k.val; omega, by show k.val < 0 + 32; omega⟩
    have h_k0_off10 : 0 ≤ (k0_off10 k) 0 ∧ (k0_off10 k) 0 < 0 + 32 := by rw [k0_off10_eq]; exact ⟨by show 0 ≤ k.val; omega, by show k.val < 0 + 32; omega⟩
    have h_k0_off6 : 0 ≤ (k0_off6 k) 0 ∧ (k0_off6 k) 0 < 0 + 32 := by rw [k0_off6_eq]; exact ⟨by show 0 ≤ k.val; omega, by show k.val < 0 + 32; omega⟩
    have h_k0_off11 : 0 ≤ (k0_off11 k) 0 ∧ (k0_off11 k) 0 < 0 + 32 := by rw [k0_off11_eq]; exact ⟨by show 0 ≤ k.val; omega, by show k.val < 0 + 32; omega⟩
    unfold invT0
    iintro ⟨%fb, Hb, %hfb, %f, Ho, %hf⟩
    sl_exec
    iapply (SparseCore.wp_vectorLoadIdx 𝒱₀ (V d (cV L) (jV L)) none Set.univ (base := (((xB).slice (Rect.unit (s := S128x128) (k0_off2 k) S1x128.size (k0_off2_inb k)) (fun _ => rfl)).squeeze S128 squeezes_S1x128_S128)) (S := (xD0).view.set) (q := fullShare) (xrow_sub (lo := 0) h_k0_off2)) $$ Hb; iintro Hb
    sl_exec
    iapply (SparseCore.wp_vectorLoadIdx 𝒱₀ (V d (cV L) (jV L)) none Set.univ (base := (((xB).slice (Rect.unit (s := S128x128) (k0_off3 k) S1x128.size (k0_off3_inb k)) (fun _ => rfl)).squeeze S128 squeezes_S1x128_S128)) (S := (xD0).view.set) (q := fullShare) (xrow_sub (lo := 0) h_k0_off3)) $$ Hb; iintro Hb
    sl_exec
    iapply (SparseCore.wp_vectorLoadIdx 𝒱₀ (V d (cV L) (jV L)) none Set.univ (base := (((xB).slice (Rect.unit (s := S128x128) (k0_off4 k) S1x128.size (k0_off4_inb k)) (fun _ => rfl)).squeeze S128 squeezes_S1x128_S128)) (S := (xD0).view.set) (q := fullShare) (xrow_sub (lo := 0) h_k0_off4)) $$ Hb; iintro Hb
    sl_exec
    iapply (SparseCore.wp_vectorLoadIdx 𝒱₀ (V d (cV L) (jV L)) none Set.univ (base := (((xB).slice (Rect.unit (s := S128x128) (k0_off5 k) S1x128.size (k0_off5_inb k)) (fun _ => rfl)).squeeze S128 squeezes_S1x128_S128)) (S := (xD0).view.set) (q := fullShare) (xrow_sub (lo := 0) h_k0_off5)) $$ Hb; iintro Hb
    sl_exec
    iapply (SparseCore.wp_vectorLoadIdx 𝒱₀ (V d (cV L) (jV L)) none Set.univ (base := (((xB).slice (Rect.unit (s := S128x128) (k0_off7 k) S1x128.size (k0_off7_inb k)) (fun _ => rfl)).squeeze S128 squeezes_S1x128_S128)) (S := (xD0).view.set) (q := fullShare) (xrow_sub (lo := 0) h_k0_off7)) $$ Hb; iintro Hb
    sl_exec
    iapply (SparseCore.wp_vectorLoadIdx 𝒱₀ (V d (cV L) (jV L)) none Set.univ (base := (((xB).slice (Rect.unit (s := S128x128) (k0_off8 k) S1x128.size (k0_off8_inb k)) (fun _ => rfl)).squeeze S128 squeezes_S1x128_S128)) (S := (xD0).view.set) (q := fullShare) (xrow_sub (lo := 0) h_k0_off8)) $$ Hb; iintro Hb
    sl_exec
    iapply (SparseCore.wp_vectorLoadIdx 𝒱₀ (V d (cV L) (jV L)) none Set.univ (base := (((xB).slice (Rect.unit (s := S128x128) (k0_off9 k) S1x128.size (k0_off9_inb k)) (fun _ => rfl)).squeeze S128 squeezes_S1x128_S128)) (S := (xD0).view.set) (q := fullShare) (xrow_sub (lo := 0) h_k0_off9)) $$ Hb; iintro Hb
    sl_exec
    iapply (SparseCore.wp_vectorLoadIdx 𝒱₀ (V d (cV L) (jV L)) none Set.univ (base := (((xB).slice (Rect.unit (s := S128x128) (k0_off10 k) S1x128.size (k0_off10_inb k)) (fun _ => rfl)).squeeze S128 squeezes_S1x128_S128)) (S := (xD0).view.set) (q := fullShare) (xrow_sub (lo := 0) h_k0_off10)) $$ Hb; iintro Hb
    sl_exec
    sl_step
    iexists fb
    isplitl [Hb]; · iexact Hb
    isplitr; · ipureintro; exact hfb
    iexists _
    isplitl [Ho]; · iexact Ho
    ipureintro
    exact step_rows fb f _ 0 k.val ⟨k.val, by omega⟩ rfl hf
      (fun i => trip_apply fb f ⟨k.val, by omega⟩ (k0_off6_eq k) (k0_off11_eq k) (row_read fb _ (k0_off2_eq k)) (row_read fb _ (k0_off3_eq k)) (row_read fb _ (k0_off4_eq k)) (row_read fb _ (k0_off5_eq k)) (row_read fb _ (k0_off7_eq k)) (row_read fb _ (k0_off8_eq k)) (row_read fb _ (k0_off9_eq k)) (row_read fb _ (k0_off10_eq k)) i)
  · unfold invT0
    iexists _
    isplitl [Hb0]; · iexact Hb0
    isplitr; · ipureintro; exact read_landed _ _ _
    iexists _
    isplitl [Ho0]; · iexact Ho0
    ipureintro
    intro i h1 h2
    omega
  iintro %_ HI
  unfold invT0
  icases HI with ⟨%fb0', Hb0, %hfb0, %fo0', Ho0, %hfo0⟩
  sl_exec
  sl_for (invT1 (F := F) m d L) $$ [Hb1 Ho1]
  case region =>
    intro k _
    have hk : k.val < 32 := lt_of_lt_of_le k.isLt k0_t2_abs.2.1
    have h_k0_off14 : 32 ≤ (k0_off14 k) 0 ∧ (k0_off14 k) 0 < 32 + 32 := by rw [k0_off14_eq]; exact ⟨by show 32 ≤ k.val + 32; omega, by show k.val + 32 < 32 + 32; omega⟩
    have h_k0_off15 : 32 ≤ (k0_off15 k) 0 ∧ (k0_off15 k) 0 < 32 + 32 := by rw [k0_off15_eq]; exact ⟨by show 32 ≤ k.val + 32; omega, by show k.val + 32 < 32 + 32; omega⟩
    have h_k0_off16 : 32 ≤ (k0_off16 k) 0 ∧ (k0_off16 k) 0 < 32 + 32 := by rw [k0_off16_eq]; exact ⟨by show 32 ≤ k.val + 32; omega, by show k.val + 32 < 32 + 32; omega⟩
    unfold invT1
    iintro ⟨%fb, Hb, %hfb, %f, Ho, %hf⟩
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    sl_step
    iexists fb
    isplitl [Hb]; · iexact Hb
    isplitr; · ipureintro; exact hfb
    iexists _
    isplitl [Ho]; · iexact Ho
    ipureintro
    exact step_rows fb f _ 32 k.val ⟨k.val + 32, by omega⟩ rfl hf
      (fun i => trip_apply fb f ⟨k.val + 32, by omega⟩ (k0_off15_eq k) (k0_off16_eq k) (row_read fb _ (k0_off14_eq k)) (row_read fb _ (k0_off14_eq k)) (row_read fb _ (k0_off14_eq k)) (row_read fb _ (k0_off14_eq k)) (row_read fb _ (k0_off14_eq k)) (row_read fb _ (k0_off14_eq k)) (row_read fb _ (k0_off14_eq k)) (row_read fb _ (k0_off14_eq k)) i)
  · unfold invT1
    iexists _
    isplitl [Hb1]; · iexact Hb1
    isplitr; · ipureintro; exact read_landed _ _ _
    iexists _
    isplitl [Ho1]; · iexact Ho1
    ipureintro
    intro i h1 h2
    omega
  iintro %_ HI
  unfold invT1
  icases HI with ⟨%fb1', Hb1, %hfb1, %fo1', Ho1, %hfo1⟩
  sl_exec
  sl_for (invT2 (F := F) m d L) $$ [Hb2 Ho2]
  case region =>
    intro k _
    have hk : k.val < 32 := lt_of_lt_of_le k.isLt k0_t3_abs.2.1
    have h_k0_off17 : 64 ≤ (k0_off17 k) 0 ∧ (k0_off17 k) 0 < 64 + 32 := by rw [k0_off17_eq]; exact ⟨by show 64 ≤ k.val + 64; omega, by show k.val + 64 < 64 + 32; omega⟩
    have h_k0_off18 : 64 ≤ (k0_off18 k) 0 ∧ (k0_off18 k) 0 < 64 + 32 := by rw [k0_off18_eq]; exact ⟨by show 64 ≤ k.val + 64; omega, by show k.val + 64 < 64 + 32; omega⟩
    have h_k0_off19 : 64 ≤ (k0_off19 k) 0 ∧ (k0_off19 k) 0 < 64 + 32 := by rw [k0_off19_eq]; exact ⟨by show 64 ≤ k.val + 64; omega, by show k.val + 64 < 64 + 32; omega⟩
    unfold invT2
    iintro ⟨%fb, Hb, %hfb, %f, Ho, %hf⟩
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    sl_step
    iexists fb
    isplitl [Hb]; · iexact Hb
    isplitr; · ipureintro; exact hfb
    iexists _
    isplitl [Ho]; · iexact Ho
    ipureintro
    exact step_rows fb f _ 64 k.val ⟨k.val + 64, by omega⟩ rfl hf
      (fun i => trip_apply fb f ⟨k.val + 64, by omega⟩ (k0_off18_eq k) (k0_off19_eq k) (row_read fb _ (k0_off17_eq k)) (row_read fb _ (k0_off17_eq k)) (row_read fb _ (k0_off17_eq k)) (row_read fb _ (k0_off17_eq k)) (row_read fb _ (k0_off17_eq k)) (row_read fb _ (k0_off17_eq k)) (row_read fb _ (k0_off17_eq k)) (row_read fb _ (k0_off17_eq k)) i)
  · unfold invT2
    iexists _
    isplitl [Hb2]; · iexact Hb2
    isplitr; · ipureintro; exact read_landed _ _ _
    iexists _
    isplitl [Ho2]; · iexact Ho2
    ipureintro
    intro i h1 h2
    omega
  iintro %_ HI
  unfold invT2
  icases HI with ⟨%fb2', Hb2, %hfb2, %fo2', Ho2, %hfo2⟩
  sl_exec
  sl_for (invT3 (F := F) m d L) $$ [Hb3 Ho3]
  case region =>
    intro k _
    have hk : k.val < 32 := lt_of_lt_of_le k.isLt k0_t4_abs.2.1
    have h_k0_off20 : 96 ≤ (k0_off20 k) 0 ∧ (k0_off20 k) 0 < 96 + 32 := by rw [k0_off20_eq]; exact ⟨by show 96 ≤ k.val + 96; omega, by show k.val + 96 < 96 + 32; omega⟩
    have h_k0_off21 : 96 ≤ (k0_off21 k) 0 ∧ (k0_off21 k) 0 < 96 + 32 := by rw [k0_off21_eq]; exact ⟨by show 96 ≤ k.val + 96; omega, by show k.val + 96 < 96 + 32; omega⟩
    have h_k0_off22 : 96 ≤ (k0_off22 k) 0 ∧ (k0_off22 k) 0 < 96 + 32 := by rw [k0_off22_eq]; exact ⟨by show 96 ≤ k.val + 96; omega, by show k.val + 96 < 96 + 32; omega⟩
    unfold invT3
    iintro ⟨%fb, Hb, %hfb, %f, Ho, %hf⟩
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    sl_step
    iexists fb
    isplitl [Hb]; · iexact Hb
    isplitr; · ipureintro; exact hfb
    iexists _
    isplitl [Ho]; · iexact Ho
    ipureintro
    exact step_rows fb f _ 96 k.val ⟨k.val + 96, by omega⟩ rfl hf
      (fun i => trip_apply fb f ⟨k.val + 96, by omega⟩ (k0_off21_eq k) (k0_off22_eq k) (row_read fb _ (k0_off20_eq k)) (row_read fb _ (k0_off20_eq k)) (row_read fb _ (k0_off20_eq k)) (row_read fb _ (k0_off20_eq k)) (row_read fb _ (k0_off20_eq k)) (row_read fb _ (k0_off20_eq k)) (row_read fb _ (k0_off20_eq k)) (row_read fb _ (k0_off20_eq k)) i)
  · unfold invT3
    iexists _
    isplitl [Hb3]; · iexact Hb3
    isplitr; · ipureintro; exact read_landed _ _ _
    iexists _
    isplitl [Ho3]; · iexact Ho3
    ipureintro
    intro i h1 h2
    omega
  iintro %_ HI
  unfold invT3
  icases HI with ⟨%fb3', Hb3, %hfb3, %fo3', Ho3, %hfo3⟩
  sl_exec
  sl_step
  have ht0 : Scf.trips k0_t1_loop.lb k0_t1_loop.ub k0_t1_loop.st = 32 := by decide
  have ht1 : Scf.trips k0_t2_loop.lb k0_t2_loop.ub k0_t2_loop.st = 32 := by decide
  have ht2 : Scf.trips k0_t3_loop.lb k0_t3_loop.ub k0_t3_loop.st = 32 := by decide
  have ht3 : Scf.trips k0_t4_loop.lb k0_t4_loop.ub k0_t4_loop.st = 32 := by decide
  isplitl [Hx0 Hx1 Hx2 Hx3]
  · isplitl [Hx0]; · iexact Hx0
    isplitl [Hx1]; · iexact Hx1
    isplitl [Hx2]; · iexact Hx2
    iexact Hx3
  isplitl [Hb0]; · iexists _; iexact Hb0
  isplitl [Hb1]; · iexists _; iexact Hb1
  isplitl [Hb2]; · iexists _; iexact Hb2
  isplitl [Hb3]; · iexists _; iexact Hb3
  isplitl [Ho0]; · iexists _; iexact Ho0
  isplitl [Ho1]; · iexists _; iexact Ho1
  isplitl [Ho2]; · iexists _; iexact Ho2
  isplitl [Ho3]; · iexists _; iexact Ho3
  isplitl [Hz0 Hz1 Hz2 Hz3]
  · isplitl [Hz0]
    · iapply (Entails.of_eq (pointsTo_congr (chunk_out (m (xLoc d)) fz fb0' fo0' 0 (256 * (L 1).val + 128 * (L 0).val + 32 * (0 : Fin 4).val)
        (k0_off1_eq L 0) (k0_off12_eq L 0) hfb0 (fun i h1 h2 => hfo0 i h1 (by omega)))))
      iexact Hz0
    isplitl [Hz1]
    · iapply (Entails.of_eq (pointsTo_congr (chunk_out (m (xLoc d)) fz fb1' fo1' 32 (256 * (L 1).val + 128 * (L 0).val + 32 * (1 : Fin 4).val)
        (k0_off1_eq L 1) (k0_off12_eq L 1) hfb1 (fun i h1 h2 => hfo1 i h1 (by omega)))))
      iexact Hz1
    isplitl [Hz2]
    · iapply (Entails.of_eq (pointsTo_congr (chunk_out (m (xLoc d)) fz fb2' fo2' 64 (256 * (L 1).val + 128 * (L 0).val + 32 * (2 : Fin 4).val)
        (k0_off1_eq L 2) (k0_off12_eq L 2) hfb2 (fun i h1 h2 => hfo2 i h1 (by omega)))))
      iexact Hz2
    iapply (Entails.of_eq (pointsTo_congr (chunk_out (m (xLoc d)) fz fb3' fo3' 96 (256 * (L 1).val + 128 * (L 0).val + 32 * (3 : Fin 4).val)
      (k0_off1_eq L 3) (k0_off12_eq L 3) hfb3 (fun i h1 h2 => hfo3 i h1 (by omega)))))
    iexact Hz3
  isplitl [Hi0]; · iexact Hi0
  isplitl [Hi1]; · iexact Hi1
  isplitl [Hi2]; · iexact Hi2
  isplitl [Hi3]; · iexact Hi3
  isplitl [Hq0]; · iexact Hq0
  isplitl [Hq1]; · iexact Hq1
  isplitl [Hq2]; · iexact Hq2
  isplitl [Hq3]; · iexact Hq3
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.KernelIdeal.Pf

end
-- ==== Proof.ChunksI.lean ====
/- The rows each task moves, as rectangles. Task (c, s), for a core c < 2 and a subcore s < 16, owns 128
   consecutive rows, in four chunks of 32. Chunk k of its part of the result is rows
   256 s + 128 c + 32 k .. + 32 of the 4096 × 32 result, all 32 columns; chunk k of its part of the
   argument is rows 256 s + 128 c + 32 k + 12288 .. + 32 of the 16384 × 2048 argument, columns 0 .. 127.
   The body spells each chunk's first row through 32-bit arithmetic; here it is the plain number. -/
import proofs.«213435_g4140348473474_cont_8to1_b_470_36_alg».proof.Proof.TileDefsI

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Unit-stride rectangles of one size at equal offsets have the same elements. -/
theorem unit_set_congr {s : Shape} {off off' size : Fin s.rank → Nat} {inb : ∀ a, off a + size a ≤ s.size a}
    {inb' : ∀ a, off' a + size a ≤ s.size a} (h : off = off') :
    (Rect.unit off size inb).set = (Rect.unit off' size inb').set := by
  subst h; rfl

omit [FloatOps F] in
theorem xRect_inb (L : grid0.Coords) (k : Fin 4) :
    ∀ a, (![256 * (L 1).val + 128 * (L 0).val + 32 * k.val + 12288, 0] : Fin 2 → Nat) a + S32x128.size a
      ≤ S16384x2048.size a := by
  intro a
  have h := k0_off1_inb L k a
  rw [k0_off1_eq L k] at h
  exact h

omit [FloatOps F] in
theorem oRect_inb (L : grid0.Coords) (k : Fin 4) :
    ∀ a, (![256 * (L 1).val + 128 * (L 0).val + 32 * k.val, 0] : Fin 2 → Nat) a + S32x32.size a
      ≤ S4096x32.size a := by
  intro a
  have h := k0_off12_inb L k a
  rw [k0_off12_eq L k] at h
  exact h

/-- Chunk `k` of task `L`'s rows of the argument: 32 rows from 256 s + 128 c + 32 k + 12288, columns 0 .. 127. -/
abbrev xRect (L : grid0.Coords) (k : Fin 4) : Rect S16384x2048 :=
  Rect.unit (s := S16384x2048) ![256 * (L 1).val + 128 * (L 0).val + 32 * k.val + 12288, 0] S32x128.size
    (xRect_inb L k)

/-- Chunk `k` of task `L`'s rows of the result: 32 rows from 256 s + 128 c + 32 k, all 32 columns. -/
abbrev oRect (L : grid0.Coords) (k : Fin 4) : Rect S4096x32 :=
  Rect.unit (s := S4096x32) ![256 * (L 1).val + 128 * (L 0).val + 32 * k.val, 0] S32x32.size (oRect_inb L k)

omit [FloatOps F] in
/-- Chunk 0 of a task's rows of the argument is that rectangle. -/
theorem set_xS0 (L : grid0.Coords) : (xS0 L).view.set = (xRect L 0).set := by
  show ((View.whole main_arg0_scv).slice
      (Rect.unit (s := S16384x2048) (k0_off1 L 0#32) S32x128.size (k0_off1_inb L 0))).set = _
  rw [View.set_slice_whole]
  exact unit_set_congr (k0_off1_eq L 0)

omit [FloatOps F] in
/-- Chunk 1 of a task's rows of the argument is that rectangle. -/
theorem set_xS1 (L : grid0.Coords) : (xS1 L).view.set = (xRect L 1).set := by
  show ((View.whole main_arg0_scv).slice
      (Rect.unit (s := S16384x2048) (k0_off1 L 32#32) S32x128.size (k0_off1_inb L 1))).set = _
  rw [View.set_slice_whole]
  exact unit_set_congr (k0_off1_eq L 1)

omit [FloatOps F] in
/-- Chunk 2 of a task's rows of the argument is that rectangle. -/
theorem set_xS2 (L : grid0.Coords) : (xS2 L).view.set = (xRect L 2).set := by
  show ((View.whole main_arg0_scv).slice
      (Rect.unit (s := S16384x2048) (k0_off1 L 64#32) S32x128.size (k0_off1_inb L 2))).set = _
  rw [View.set_slice_whole]
  exact unit_set_congr (k0_off1_eq L 2)

omit [FloatOps F] in
/-- Chunk 3 of a task's rows of the argument is that rectangle. -/
theorem set_xS3 (L : grid0.Coords) : (xS3 L).view.set = (xRect L 3).set := by
  show ((View.whole main_arg0_scv).slice
      (Rect.unit (s := S16384x2048) (k0_off1 L 96#32) S32x128.size (k0_off1_inb L 3))).set = _
  rw [View.set_slice_whole]
  exact unit_set_congr (k0_off1_eq L 3)

omit [FloatOps F] in
/-- Chunk 0 of a task's rows of the result is that rectangle. -/
theorem set_oD0 (L : grid0.Coords) : (oD0 L).view.set = (oRect L 0).set := by
  show ((View.whole main_v0_scv).slice
      (Rect.unit (s := S4096x32) (k0_off12 L 0#32) S32x32.size (k0_off12_inb L 0))).set = _
  rw [View.set_slice_whole]
  exact unit_set_congr (k0_off12_eq L 0)

omit [FloatOps F] in
/-- Chunk 1 of a task's rows of the result is that rectangle. -/
theorem set_oD1 (L : grid0.Coords) : (oD1 L).view.set = (oRect L 1).set := by
  show ((View.whole main_v0_scv).slice
      (Rect.unit (s := S4096x32) (k0_off12 L 32#32) S32x32.size (k0_off12_inb L 1))).set = _
  rw [View.set_slice_whole]
  exact unit_set_congr (k0_off12_eq L 1)

omit [FloatOps F] in
/-- Chunk 2 of a task's rows of the result is that rectangle. -/
theorem set_oD2 (L : grid0.Coords) : (oD2 L).view.set = (oRect L 2).set := by
  show ((View.whole main_v0_scv).slice
      (Rect.unit (s := S4096x32) (k0_off12 L 64#32) S32x32.size (k0_off12_inb L 2))).set = _
  rw [View.set_slice_whole]
  exact unit_set_congr (k0_off12_eq L 2)

omit [FloatOps F] in
/-- Chunk 3 of a task's rows of the result is that rectangle. -/
theorem set_oD3 (L : grid0.Coords) : (oD3 L).view.set = (oRect L 3).set := by
  show ((View.whole main_v0_scv).slice
      (Rect.unit (s := S4096x32) (k0_off12 L 96#32) S32x32.size (k0_off12_inb L 3))).set = _
  rw [View.set_slice_whole]
  exact unit_set_congr (k0_off12_eq L 3)

end Cert.KernelIdeal.Pf

end
-- ==== Proof.ChunksIGeo.lean ====
/- The 128 chunks of the result — task (c, s), chunk k, rows 256 s + 128 c + 32 k .. + 32 — are the 128
   equal parts 32 j .. 32 j + 32 of the 4096 rows, with j = 8 s + 4 c + k running over 0 .. 127 exactly
   once: they are pairwise disjoint and together they are every entry of the result. The 128 chunks of
   the argument are the same rows shifted by 12288, restricted to the first 128 columns: pairwise
   disjoint, and not the whole argument. -/
import proofs.«213435_g4140348473474_cont_8to1_b_470_36_alg».proof.Proof.ChunksI

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The chunks are indexed by core, subcore and chunk number. -/
abbrev ChunkIx : Type := Fin 2 × Fin 16 × Fin 4

/-- The elements of the result that chunk `t` holds. -/
abbrev oSet (t : ChunkIx) : Finset S4096x32.Idx := (oRect (coordsV t.1 t.2.1) t.2.2).set

/-- The elements of the argument that chunk `t` holds. -/
abbrev xSet (t : ChunkIx) : Finset S16384x2048.Idx := (xRect (coordsV t.1 t.2.1) t.2.2).set

omit [FloatOps F] in
/-- Two different chunk indices differ in one of the three numbers. -/
theorem chunkIx_ne {t t' : ChunkIx} (h : t ≠ t') :
    t.1.val ≠ t'.1.val ∨ t.2.1.val ≠ t'.2.1.val ∨ t.2.2.val ≠ t'.2.2.val := by
  by_contra hcon
  simp only [ne_eq, not_or, not_not] at hcon
  exact h (Prod.ext (Fin.ext hcon.1) (Prod.ext (Fin.ext hcon.2.1) (Fin.ext hcon.2.2)))

omit [FloatOps F] in
/-- Different chunks of the result share no row. -/
theorem oSet_disjoint {t t' : ChunkIx} (h : t ≠ t') : Disjoint (oSet t) (oSet t') := by
  refine Rect.unit_disjoint (0 : Fin 2) ?_
  have hne := chunkIx_ne h
  show 256 * t.2.1.val + 128 * t.1.val + 32 * t.2.2.val + 32 ≤ 256 * t'.2.1.val + 128 * t'.1.val + 32 * t'.2.2.val
    ∨ 256 * t'.2.1.val + 128 * t'.1.val + 32 * t'.2.2.val + 32 ≤ 256 * t.2.1.val + 128 * t.1.val + 32 * t.2.2.val
  omega

omit [FloatOps F] in
/-- Different chunks of the argument share no row. -/
theorem xSet_disjoint {t t' : ChunkIx} (h : t ≠ t') : Disjoint (xSet t) (xSet t') := by
  refine Rect.unit_disjoint (0 : Fin 2) ?_
  have hne := chunkIx_ne h
  show 256 * t.2.1.val + 128 * t.1.val + 32 * t.2.2.val + 12288 + 32
      ≤ 256 * t'.2.1.val + 128 * t'.1.val + 32 * t'.2.2.val + 12288
    ∨ 256 * t'.2.1.val + 128 * t'.1.val + 32 * t'.2.2.val + 12288 + 32
      ≤ 256 * t.2.1.val + 128 * t.1.val + 32 * t.2.2.val + 12288
  omega

omit [FloatOps F] in
/-- Every entry of the result lies in a chunk: row r is in chunk (r / 128 mod 2, r / 256, r / 32 mod 4). -/
theorem oSet_cover : (Finset.univ : Finset ChunkIx).biUnion oSet = Finset.univ := by
  ext x
  simp only [Finset.mem_biUnion, Finset.mem_univ, true_and, iff_true]
  have hx0 : (x 0).val < 4096 := (x 0).isLt
  have hx1 : (x 1).val < 32 := (x 1).isLt
  refine ⟨(⟨(x 0).val / 128 % 2, by omega⟩, ⟨(x 0).val / 256, by omega⟩, ⟨(x 0).val / 32 % 4, by omega⟩),
    Rect.mem_set_unit.mpr (Fin.forall_fin_two.mpr ⟨?_, ?_⟩)⟩
  · show 256 * ((x 0).val / 256) + 128 * ((x 0).val / 128 % 2) + 32 * ((x 0).val / 32 % 4) ≤ (x 0).val
      ∧ (x 0).val < 256 * ((x 0).val / 256) + 128 * ((x 0).val / 128 % 2) + 32 * ((x 0).val / 32 % 4) + 32
    omega
  · show 0 ≤ (x 1).val ∧ (x 1).val < 0 + 32
    omega

end Cert.KernelIdeal.Pf

end
-- ==== Proof.ChunksIPts.lean ====
/- Splitting the whole result, and the whole argument, into the 32 tasks' chunks and joining them again.
   Ownership of an array splits along any family of pairwise disjoint sets of its elements. The 128
   chunks of the result are pairwise disjoint and cover it, so owning the result is the same as owning,
   for each core and each subcore, that task's four chunks. The 128 chunks of the argument are pairwise
   disjoint and leave a remainder (every row outside 12288 .. 16383 and every column from 128 on), so
   owning the argument is owning the tasks' chunks together with that remainder. Contents matter only on
   the set owned, so chunks held at contents that agree with one array there join to that array. -/
import proofs.«213435_g4140348473474_cont_8to1_b_470_36_alg».proof.Proof.ChunksIGeo
import Idealize.ShloMosaic.Rules.PointsTo

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A separating conjunction over four indices, written out. -/
theorem bigSep_fin_four (Φ : Fin 4 → sProp 𝕄) :
    bigSep Finset.univ Φ = iprop(Φ 0 ∗ Φ 1 ∗ Φ 2 ∗ Φ 3) := by
  rw [show (Finset.univ : Finset (Fin 4)) = {0, 1, 2, 3} by decide,
    bigSep_insert (by decide), bigSep_insert (by decide), bigSep_insert (by decide), bigSep_singleton]
  rfl

/-- Chunk 0 of the result, held through the task's slice, is the array held on that rectangle. -/
theorem pts_oD0 (d : Dev nD) (L : grid0.Coords) (f : Buf (Elt F) (oLoc d)) :
    ((oD0 L).view.loc (V d (cV L) (jV L)) ↦[(oD0 L).view.set]{fullShare} f : sProp 𝕄)
      = oLoc d ↦[(oRect L 0).set]{fullShare} f := by
  rw [set_oD0]

/-- Chunk 1 of the result, held through the task's slice, is the array held on that rectangle. -/
theorem pts_oD1 (d : Dev nD) (L : grid0.Coords) (f : Buf (Elt F) (oLoc d)) :
    ((oD1 L).view.loc (V d (cV L) (jV L)) ↦[(oD1 L).view.set]{fullShare} f : sProp 𝕄)
      = oLoc d ↦[(oRect L 1).set]{fullShare} f := by
  rw [set_oD1]

/-- Chunk 2 of the result, held through the task's slice, is the array held on that rectangle. -/
theorem pts_oD2 (d : Dev nD) (L : grid0.Coords) (f : Buf (Elt F) (oLoc d)) :
    ((oD2 L).view.loc (V d (cV L) (jV L)) ↦[(oD2 L).view.set]{fullShare} f : sProp 𝕄)
      = oLoc d ↦[(oRect L 2).set]{fullShare} f := by
  rw [set_oD2]

/-- Chunk 3 of the result, held through the task's slice, is the array held on that rectangle. -/
theorem pts_oD3 (d : Dev nD) (L : grid0.Coords) (f : Buf (Elt F) (oLoc d)) :
    ((oD3 L).view.loc (V d (cV L) (jV L)) ↦[(oD3 L).view.set]{fullShare} f : sProp 𝕄)
      = oLoc d ↦[(oRect L 3).set]{fullShare} f := by
  rw [set_oD3]

/-- Chunk 0 of the argument, held through the task's slice, is the array held on that rectangle. -/
theorem pts_xS0 (d : Dev nD) (L : grid0.Coords) (f : Buf (Elt F) (xLoc d)) :
    ((xS0 L).view.loc (V d (cV L) (jV L)) ↦[(xS0 L).view.set]{fullShare} f : sProp 𝕄)
      = xLoc d ↦[(xRect L 0).set]{fullShare} f := by
  rw [set_xS0]

/-- Chunk 1 of the argument, held through the task's slice, is the array held on that rectangle. -/
theorem pts_xS1 (d : Dev nD) (L : grid0.Coords) (f : Buf (Elt F) (xLoc d)) :
    ((xS1 L).view.loc (V d (cV L) (jV L)) ↦[(xS1 L).view.set]{fullShare} f : sProp 𝕄)
      = xLoc d ↦[(xRect L 1).set]{fullShare} f := by
  rw [set_xS1]

/-- Chunk 2 of the argument, held through the task's slice, is the array held on that rectangle. -/
theorem pts_xS2 (d : Dev nD) (L : grid0.Coords) (f : Buf (Elt F) (xLoc d)) :
    ((xS2 L).view.loc (V d (cV L) (jV L)) ↦[(xS2 L).view.set]{fullShare} f : sProp 𝕄)
      = xLoc d ↦[(xRect L 2).set]{fullShare} f := by
  rw [set_xS2]

/-- Chunk 3 of the argument, held through the task's slice, is the array held on that rectangle. -/
theorem pts_xS3 (d : Dev nD) (L : grid0.Coords) (f : Buf (Elt F) (xLoc d)) :
    ((xS3 L).view.loc (V d (cV L) (jV L)) ↦[(xS3 L).view.set]{fullShare} f : sProp 𝕄)
      = xLoc d ↦[(xRect L 3).set]{fullShare} f := by
  rw [set_xS3]

/-- A task's four chunks of the result are the array held on the task's four rectangles. -/
theorem oChunks_eq (d : Dev nD) (L : grid0.Coords) (f : Buf (Elt F) (oLoc d)) :
    oChunks (F := F) d L f
      = bigSep Finset.univ fun k : Fin 4 => (oLoc d ↦[(oRect L k).set]{fullShare} f : sProp 𝕄) := by
  rw [bigSep_fin_four]
  unfold oChunks
  rw [pts_oD0 d L f, pts_oD1 d L f, pts_oD2 d L f, pts_oD3 d L f]

/-- A task's four chunks of the argument are the array held on the task's four rectangles. -/
theorem xChunks_eq (d : Dev nD) (L : grid0.Coords) (f : Buf (Elt F) (xLoc d)) :
    xChunks (F := F) d L f
      = bigSep Finset.univ fun k : Fin 4 => (xLoc d ↦[(xRect L k).set]{fullShare} f : sProp 𝕄) := by
  rw [bigSep_fin_four]
  unfold xChunks
  rw [pts_xS0 d L f, pts_xS1 d L f, pts_xS2 d L f, pts_xS3 d L f]

/-- The result held on the union of all chunks is every task's chunks. -/
theorem oUnion_chunks (d : Dev nD) (f : Buf (Elt F) (oLoc d)) :
    (oLoc d ↦[(Finset.univ : Finset ChunkIx).biUnion oSet]{fullShare} f : sProp 𝕄)
      = bigSep Finset.univ fun c : Fin 2 => bigSep Finset.univ fun i : Fin 16 => oChunks d (coordsV c i) f := by
  rw [pointsTo_biUnion _ _ (fun t _ t' _ h => oSet_disjoint h), bigSep_univ_prod]
  refine bigSep_congr fun c _ => ?_
  rw [bigSep_univ_prod]
  refine bigSep_congr fun i _ => ?_
  exact (oChunks_eq d (coordsV c i) f).symm

/-- The argument held on the union of all chunks is every task's chunks. -/
theorem xUnion_chunks (d : Dev nD) (f : Buf (Elt F) (xLoc d)) :
    (xLoc d ↦[(Finset.univ : Finset ChunkIx).biUnion xSet]{fullShare} f : sProp 𝕄)
      = bigSep Finset.univ fun c : Fin 2 => bigSep Finset.univ fun i : Fin 16 => xChunks d (coordsV c i) f := by
  rw [pointsTo_biUnion _ _ (fun t _ t' _ h => xSet_disjoint h), bigSep_univ_prod]
  refine bigSep_congr fun c _ => ?_
  rw [bigSep_univ_prod]
  refine bigSep_congr fun i _ => ?_
  exact (xChunks_eq d (coordsV c i) f).symm

/-- Owning the whole result is owning every task's four chunks of it. -/
theorem oPts_chunks (d : Dev nD) (f : Buf (Elt F) (oLoc d)) :
    (oLoc d ↦{fullShare} f : sProp 𝕄)
      = bigSep Finset.univ fun c : Fin 2 => bigSep Finset.univ fun i : Fin 16 => oChunks d (coordsV c i) f := by
  rw [← oUnion_chunks d f]
  exact congrArg (fun I => (oLoc d ↦[I]{fullShare} f : sProp 𝕄)) oSet_cover.symm

/-- The part of the argument no task reads: everything outside the 128 chunks. -/
abbrev xRest (d : Dev nD) : Finset (Idx (xLoc d)) :=
  Finset.univ \ (Finset.univ : Finset ChunkIx).biUnion xSet

/-- Owning the whole argument is owning every task's four chunks of it and the remainder. -/
theorem xPts_chunks (d : Dev nD) (f : Buf (Elt F) (xLoc d)) :
    (xLoc d ↦{fullShare} f : sProp 𝕄)
      ⊣⊢ iprop((bigSep Finset.univ fun c : Fin 2 => bigSep Finset.univ fun i : Fin 16 => xChunks d (coordsV c i) f)
          ∗ xLoc d ↦[xRest d]{fullShare} f) := by
  rw [← xUnion_chunks d f]
  exact pointsTo_split_subset (Finset.subset_univ _)

/-- One task's four chunks of the result, each held at contents of its own that agree on the chunk with
    one array `g`, are the task's chunks of `g`. -/
theorem oChunks_congr (d : Dev nD) (L : grid0.Coords) (g h0 h1 h2 h3 : Buf (Elt F) (oLoc d))
    (e0 : ∀ x ∈ (oD0 L).view.set, h0 x = g x) (e1 : ∀ x ∈ (oD1 L).view.set, h1 x = g x)
    (e2 : ∀ x ∈ (oD2 L).view.set, h2 x = g x) (e3 : ∀ x ∈ (oD3 L).view.set, h3 x = g x) :
    (iprop(((oD0 L).view.loc (V d (cV L) (jV L)) ↦[(oD0 L).view.set]{fullShare} h0)
      ∗ ((oD1 L).view.loc (V d (cV L) (jV L)) ↦[(oD1 L).view.set]{fullShare} h1)
      ∗ ((oD2 L).view.loc (V d (cV L) (jV L)) ↦[(oD2 L).view.set]{fullShare} h2)
      ∗ ((oD3 L).view.loc (V d (cV L) (jV L)) ↦[(oD3 L).view.set]{fullShare} h3)) : sProp 𝕄) = oChunks d L g := by
  rw [pointsTo_congr (I := (oD0 L).view.set) (f := h0) (g := g) e0,
    pointsTo_congr (I := (oD1 L).view.set) (f := h1) (g := g) e1,
    pointsTo_congr (I := (oD2 L).view.set) (f := h2) (g := g) e2,
    pointsTo_congr (I := (oD3 L).view.set) (f := h3) (g := g) e3]

/-- Every task's chunks of the result, each held at contents that agree on the chunk with one array `g`,
    join to the whole result held at `g`. -/
theorem oPts_join (d : Dev nD) (g : Buf (Elt F) (oLoc d)) (h : Fin 2 → Fin 16 → Fin 4 → Buf (Elt F) (oLoc d))
    (e0 : ∀ c i, ∀ x ∈ (oD0 (coordsV c i)).view.set, h c i 0 x = g x)
    (e1 : ∀ c i, ∀ x ∈ (oD1 (coordsV c i)).view.set, h c i 1 x = g x)
    (e2 : ∀ c i, ∀ x ∈ (oD2 (coordsV c i)).view.set, h c i 2 x = g x)
    (e3 : ∀ c i, ∀ x ∈ (oD3 (coordsV c i)).view.set, h c i 3 x = g x) :
    (bigSep Finset.univ fun c : Fin 2 => bigSep Finset.univ fun i : Fin 16 =>
      (iprop(((oD0 (coordsV c i)).view.loc (V d (cV (coordsV c i)) (jV (coordsV c i))) ↦[(oD0 (coordsV c i)).view.set]{fullShare} (h c i 0))
      ∗ ((oD1 (coordsV c i)).view.loc (V d (cV (coordsV c i)) (jV (coordsV c i))) ↦[(oD1 (coordsV c i)).view.set]{fullShare} (h c i 1))
      ∗ ((oD2 (coordsV c i)).view.loc (V d (cV (coordsV c i)) (jV (coordsV c i))) ↦[(oD2 (coordsV c i)).view.set]{fullShare} (h c i 2))
      ∗ ((oD3 (coordsV c i)).view.loc (V d (cV (coordsV c i)) (jV (coordsV c i))) ↦[(oD3 (coordsV c i)).view.set]{fullShare} (h c i 3))) : sProp 𝕄))
      = (oLoc d ↦{fullShare} g : sProp 𝕄) := by
  rw [oPts_chunks d g]
  refine bigSep_congr fun c _ => bigSep_congr fun i _ => ?_
  exact oChunks_congr d (coordsV c i) g _ _ _ _ (e0 c i) (e1 c i) (e2 c i) (e3 c i)

end Cert.KernelIdeal.Pf

end
-- ==== Proof.TileSplitI.lean ====
import proofs.«213435_g4140348473474_cont_8to1_b_470_36_alg».proof.Proof.ChunksIPts

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xB" => (Memref.whole Cert.KernelIdeal.cc0_scratch0 : Memref Cert.KernelIdeal.sig Kind.scVector Space.vmem Cert.KernelIdeal.S128x128 EltTy.f32)
local notation "oB" => (Memref.whole Cert.KernelIdeal.cc0_scratch1 : Memref Cert.KernelIdeal.sig Kind.scVector Space.vmem Cert.KernelIdeal.S128x32 EltTy.f32)

/-! ## The two scratch buffers as four chunks of 32 rows -/

omit [FloatOps F] in
theorem xbRect_inb (k : Fin 4) : ∀ a, (![32 * k.val, 0] : Fin 2 → Nat) a + S32x128.size a ≤ S128x128.size a := by
  intro a; have hk := k.isLt
  match a with
  | 0 => show 32 * k.val + 32 ≤ 128; omega
  | 1 => show 0 + 128 ≤ 128; omega
omit [FloatOps F] in
theorem obRect_inb (k : Fin 4) : ∀ a, (![32 * k.val, 0] : Fin 2 → Nat) a + S32x32.size a ≤ S128x32.size a := by
  intro a; have hk := k.isLt
  match a with
  | 0 => show 32 * k.val + 32 ≤ 128; omega
  | 1 => show 0 + 32 ≤ 32; omega

/-- Rows 32k .. 32k+31 of the row scratch. -/
abbrev xbRect (k : Fin 4) : Rect S128x128 := Rect.unit (s := S128x128) ![32 * k.val, 0] S32x128.size (xbRect_inb k)
/-- Rows 32k .. 32k+31 of the result scratch. -/
abbrev obRect (k : Fin 4) : Rect S128x32 := Rect.unit (s := S128x32) ![32 * k.val, 0] S32x32.size (obRect_inb k)

omit [FloatOps F] in
theorem set_xD0 : (xD0).view.set = (xbRect 0).set := by
  show ((View.whole cc0_scratch0).slice (Rect.unit (s := S128x128) ![0, 0] S32x128.size inb_S128x128_S32x128_0_0)).set = _
  rw [View.set_slice_whole]; exact unit_set_congr rfl
omit [FloatOps F] in
theorem set_xD1 : (xD1).view.set = (xbRect 1).set := by
  show ((View.whole cc0_scratch0).slice (Rect.unit (s := S128x128) ![32, 0] S32x128.size inb_S128x128_S32x128_32_0)).set = _
  rw [View.set_slice_whole]; exact unit_set_congr rfl
omit [FloatOps F] in
theorem set_xD2 : (xD2).view.set = (xbRect 2).set := by
  show ((View.whole cc0_scratch0).slice (Rect.unit (s := S128x128) ![64, 0] S32x128.size inb_S128x128_S32x128_64_0)).set = _
  rw [View.set_slice_whole]; exact unit_set_congr rfl
omit [FloatOps F] in
theorem set_xD3 : (xD3).view.set = (xbRect 3).set := by
  show ((View.whole cc0_scratch0).slice (Rect.unit (s := S128x128) ![96, 0] S32x128.size inb_S128x128_S32x128_96_0)).set = _
  rw [View.set_slice_whole]; exact unit_set_congr rfl
omit [FloatOps F] in
theorem set_oS0 : (oS0).view.set = (obRect 0).set := by
  show ((View.whole cc0_scratch1).slice (Rect.unit (s := S128x32) ![0, 0] S32x32.size inb_S128x32_S32x32_0_0)).set = _
  rw [View.set_slice_whole]; exact unit_set_congr rfl
omit [FloatOps F] in
theorem set_oS1 : (oS1).view.set = (obRect 1).set := by
  show ((View.whole cc0_scratch1).slice (Rect.unit (s := S128x32) ![32, 0] S32x32.size inb_S128x32_S32x32_32_0)).set = _
  rw [View.set_slice_whole]; exact unit_set_congr rfl
omit [FloatOps F] in
theorem set_oS2 : (oS2).view.set = (obRect 2).set := by
  show ((View.whole cc0_scratch1).slice (Rect.unit (s := S128x32) ![64, 0] S32x32.size inb_S128x32_S32x32_64_0)).set = _
  rw [View.set_slice_whole]; exact unit_set_congr rfl
omit [FloatOps F] in
theorem set_oS3 : (oS3).view.set = (obRect 3).set := by
  show ((View.whole cc0_scratch1).slice (Rect.unit (s := S128x32) ![96, 0] S32x32.size inb_S128x32_S32x32_96_0)).set = _
  rw [View.set_slice_whole]; exact unit_set_congr rfl

omit [FloatOps F] in
theorem xbRect_disjoint {k k' : Fin 4} (h : k ≠ k') : Disjoint (xbRect k).set (xbRect k').set := by
  refine Rect.unit_disjoint (0 : Fin 2) ?_
  have hne : k.val ≠ k'.val := fun e => h (Fin.ext e)
  show 32 * k.val + 32 ≤ 32 * k'.val ∨ 32 * k'.val + 32 ≤ 32 * k.val
  omega
omit [FloatOps F] in
theorem obRect_disjoint {k k' : Fin 4} (h : k ≠ k') : Disjoint (obRect k).set (obRect k').set := by
  refine Rect.unit_disjoint (0 : Fin 2) ?_
  have hne : k.val ≠ k'.val := fun e => h (Fin.ext e)
  show 32 * k.val + 32 ≤ 32 * k'.val ∨ 32 * k'.val + 32 ≤ 32 * k.val
  omega
omit [FloatOps F] in
theorem xbRect_cover : (Finset.univ : Finset (Fin 4)).biUnion (fun k => (xbRect k).set) = Finset.univ := by
  ext x
  simp only [Finset.mem_biUnion, Finset.mem_univ, true_and, iff_true]
  have hx0 : (x 0).val < 128 := (x 0).isLt
  have hx1 : (x 1).val < 128 := (x 1).isLt
  refine ⟨⟨(x 0).val / 32, by omega⟩, Rect.mem_set_unit.mpr (Fin.forall_fin_two.mpr ⟨?_, ?_⟩)⟩
  · show 32 * ((x 0).val / 32) ≤ (x 0).val ∧ (x 0).val < 32 * ((x 0).val / 32) + 32
    omega
  · show 0 ≤ (x 1).val ∧ (x 1).val < 0 + 128
    omega
omit [FloatOps F] in
theorem obRect_cover : (Finset.univ : Finset (Fin 4)).biUnion (fun k => (obRect k).set) = Finset.univ := by
  ext x
  simp only [Finset.mem_biUnion, Finset.mem_univ, true_and, iff_true]
  have hx0 : (x 0).val < 128 := (x 0).isLt
  have hx1 : (x 1).val < 32 := (x 1).isLt
  refine ⟨⟨(x 0).val / 32, by omega⟩, Rect.mem_set_unit.mpr (Fin.forall_fin_two.mpr ⟨?_, ?_⟩)⟩
  · show 32 * ((x 0).val / 32) ≤ (x 0).val ∧ (x 0).val < 32 * ((x 0).val / 32) + 32
    omega
  · show 0 ≤ (x 1).val ∧ (x 1).val < 0 + 32
    omega

section
variable (d : Dev nD) (L : grid0.Coords)

/-- The row scratch held whole is its four chunks, each held on exactly its slice's elements. -/
theorem xB_chunks (f : Buf (Elt F) ((V d (cV L) (jV L)).loc cc0_scratch0)) :
    (((V d (cV L) (jV L)).loc cc0_scratch0) ↦{fullShare} f : sProp 𝕄)
      = iprop(((xD0).view.loc (V d (cV L) (jV L)) ↦[(xD0).view.set]{fullShare} f) ∗ ((xD1).view.loc (V d (cV L) (jV L)) ↦[(xD1).view.set]{fullShare} f)
          ∗ ((xD2).view.loc (V d (cV L) (jV L)) ↦[(xD2).view.set]{fullShare} f) ∗ ((xD3).view.loc (V d (cV L) (jV L)) ↦[(xD3).view.set]{fullShare} f)) := by
  rw [set_xD0, set_xD1, set_xD2, set_xD3]
  have hu : (((V d (cV L) (jV L)).loc cc0_scratch0) ↦[(Finset.univ : Finset (Fin 4)).biUnion (fun k => (xbRect k).set)]{fullShare} f : sProp 𝕄)
      = iprop((((V d (cV L) (jV L)).loc cc0_scratch0) ↦[(xbRect 0).set]{fullShare} f) ∗ (((V d (cV L) (jV L)).loc cc0_scratch0) ↦[(xbRect 1).set]{fullShare} f)
          ∗ (((V d (cV L) (jV L)).loc cc0_scratch0) ↦[(xbRect 2).set]{fullShare} f) ∗ (((V d (cV L) (jV L)).loc cc0_scratch0) ↦[(xbRect 3).set]{fullShare} f)) := by
    rw [pointsTo_biUnion _ _ (fun k _ k' _ h => xbRect_disjoint h), bigSep_fin_four]
  rw [← hu]
  exact congrArg (fun I => (((V d (cV L) (jV L)).loc cc0_scratch0) ↦[I]{fullShare} f : sProp 𝕄)) xbRect_cover.symm

/-- The result scratch held whole is its four chunks. -/
theorem oB_chunks (f : Buf (Elt F) ((V d (cV L) (jV L)).loc cc0_scratch1)) :
    (((V d (cV L) (jV L)).loc cc0_scratch1) ↦{fullShare} f : sProp 𝕄)
      = iprop(((oS0).view.loc (V d (cV L) (jV L)) ↦[(oS0).view.set]{fullShare} f) ∗ ((oS1).view.loc (V d (cV L) (jV L)) ↦[(oS1).view.set]{fullShare} f)
          ∗ ((oS2).view.loc (V d (cV L) (jV L)) ↦[(oS2).view.set]{fullShare} f) ∗ ((oS3).view.loc (V d (cV L) (jV L)) ↦[(oS3).view.set]{fullShare} f)) := by
  rw [set_oS0, set_oS1, set_oS2, set_oS3]
  have hu : (((V d (cV L) (jV L)).loc cc0_scratch1) ↦[(Finset.univ : Finset (Fin 4)).biUnion (fun k => (obRect k).set)]{fullShare} f : sProp 𝕄)
      = iprop((((V d (cV L) (jV L)).loc cc0_scratch1) ↦[(obRect 0).set]{fullShare} f) ∗ (((V d (cV L) (jV L)).loc cc0_scratch1) ↦[(obRect 1).set]{fullShare} f)
          ∗ (((V d (cV L) (jV L)).loc cc0_scratch1) ↦[(obRect 2).set]{fullShare} f) ∗ (((V d (cV L) (jV L)).loc cc0_scratch1) ↦[(obRect 3).set]{fullShare} f)) := by
    rw [pointsTo_biUnion _ _ (fun k _ k' _ h => obRect_disjoint h), bigSep_fin_four]
  rw [← hu]
  exact congrArg (fun I => (((V d (cV L) (jV L)).loc cc0_scratch1) ↦[I]{fullShare} f : sProp 𝕄)) obRect_cover.symm

/-- Four chunks of the row scratch at any contents are the scratch whole at some contents. -/
theorem xB_join :
    (iprop((∃ f, (xD0).view.loc (V d (cV L) (jV L)) ↦[(xD0).view.set]{fullShare} f) ∗ (∃ f, (xD1).view.loc (V d (cV L) (jV L)) ↦[(xD1).view.set]{fullShare} f)
        ∗ (∃ f, (xD2).view.loc (V d (cV L) (jV L)) ↦[(xD2).view.set]{fullShare} f) ∗ (∃ f, (xD3).view.loc (V d (cV L) (jV L)) ↦[(xD3).view.set]{fullShare} f)) : sProp 𝕄)
      ⊢ iprop(∃ f, ((V d (cV L) (jV L)).loc cc0_scratch0) ↦{fullShare} f) := by
  rw [set_xD0, set_xD1, set_xD2, set_xD3,
    ← bigSep_fin_four (F := F) (fun k => iprop(∃ f : Buf (Elt F) ((V d (cV L) (jV L)).loc cc0_scratch0), ((V d (cV L) (jV L)).loc cc0_scratch0) ↦[(xbRect k).set]{fullShare} f))]
  refine (bigSep_exists_pi Finset.univ (fun k (f : Buf (Elt F) ((V d (cV L) (jV L)).loc cc0_scratch0)) => ((V d (cV L) (jV L)).loc cc0_scratch0) ↦[(xbRect k).set]{fullShare} f)).trans ?_
  iintro ⟨%fs, H⟩
  ihave H' := (pointsTo_biUnion_join Finset.univ (fun k => (xbRect k).set) fs (fs 0) (fun k _ k' _ h => xbRect_disjoint h)) $$ H
  icases H' with ⟨%g, -, Hg⟩
  rw [xbRect_cover]
  iexists g; iexact Hg

/-- Four chunks of the result scratch at any contents are the scratch whole at some contents. -/
theorem oB_join :
    (iprop((∃ f, (oS0).view.loc (V d (cV L) (jV L)) ↦[(oS0).view.set]{fullShare} f) ∗ (∃ f, (oS1).view.loc (V d (cV L) (jV L)) ↦[(oS1).view.set]{fullShare} f)
        ∗ (∃ f, (oS2).view.loc (V d (cV L) (jV L)) ↦[(oS2).view.set]{fullShare} f) ∗ (∃ f, (oS3).view.loc (V d (cV L) (jV L)) ↦[(oS3).view.set]{fullShare} f)) : sProp 𝕄)
      ⊢ iprop(∃ f, ((V d (cV L) (jV L)).loc cc0_scratch1) ↦{fullShare} f) := by
  rw [set_oS0, set_oS1, set_oS2, set_oS3,
    ← bigSep_fin_four (F := F) (fun k => iprop(∃ f : Buf (Elt F) ((V d (cV L) (jV L)).loc cc0_scratch1), ((V d (cV L) (jV L)).loc cc0_scratch1) ↦[(obRect k).set]{fullShare} f))]
  refine (bigSep_exists_pi Finset.univ (fun k (f : Buf (Elt F) ((V d (cV L) (jV L)).loc cc0_scratch1)) => ((V d (cV L) (jV L)).loc cc0_scratch1) ↦[(obRect k).set]{fullShare} f)).trans ?_
  iintro ⟨%fs, H⟩
  ihave H' := (pointsTo_biUnion_join Finset.univ (fun k => (obRect k).set) fs (fs 0) (fun k _ k' _ h => obRect_disjoint h)) $$ H
  icases H' with ⟨%g, -, Hg⟩
  rw [obRect_cover]
  iexists g; iexact Hg

end

end Cert.KernelIdeal.Pf

end
-- ==== Proof.PayI.lean ====
import proofs.«213435_g4140348473474_cont_8to1_b_470_36_alg».proof.Proof.TileValDefsI
import proofs.«213435_g4140348473474_cont_8to1_b_470_36_alg».proof.Proof.ChunksIPts

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the launch handshakes carry

The one SparseCore call hands SparseCore `c` the chunks of its sixteen tasks — of the argument, at its
launch contents, and of the result array, at whatever it holds — and takes them back with the result
chunks at the one whole-array function `scOut` of the argument. A task is handed exactly its own four
chunks of each, so a SparseCore's share is literally the conjunction of its tasks' shares. -/

variable (m : (ℓ : Loc nD τ sig) → Buf (Elt F) ℓ)

/-- What task `(c, i)` is handed: its chunks of the argument, and of the result array as launched. -/
abbrev tileGo (d : Dev nD) (c : Fin 2) (i : Fin 16) : sProp 𝕄 :=
  iprop(xChunks d (coordsV c i) (m (xLoc d)) ∗ oChunks d (coordsV c i) (m (oLoc d)))

/-- What it hands back: the argument's chunks unchanged, the result's at `scOut` of the argument. -/
abbrev tileTd (d : Dev nD) (c : Fin 2) (i : Fin 16) : sProp 𝕄 :=
  iprop(xChunks d (coordsV c i) (m (xLoc d)) ∗ oChunks d (coordsV c i) (scOut (m (xLoc d))))

def P : (K (F := F)).Pay (nD := nD) (Val := Elt F) (Name := ℕ) (U := UU) where
  st := fun q d c => match q with | 0 => bigSep Finset.univ fun i : Fin 16 => tileGo m d (Fin.cast nCore_zero c) i
  dn := fun q d c => match q with | 0 => bigSep Finset.univ fun i : Fin 16 => tileTd m d (Fin.cast nCore_zero c) i
  go := fun q d c i => match q with | 0 => tileGo m d (Fin.cast nCore_zero c) (Fin.cast nSub_zero i)
  td := fun q d c i => match q with | 0 => tileTd m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => tileGo m d (Fin.cast nCore_zero c) i))
  dn q d c := match q with
    | 0 => (inferInstance : BI.Storable (upEmb : UEmb _ 𝕄) (bigSep Finset.univ fun i : Fin 16 => tileTd m d (Fin.cast nCore_zero c) i))
  go q d c i := match q with
    | 0 => (inferInstance : BI.Storable (upEmb : UEmb _ 𝕄) (tileGo m d (Fin.cast nCore_zero c) (Fin.cast nSub_zero i)))
  td q d c i := match q with
    | 0 => (inferInstance : BI.Storable (upEmb : UEmb _ 𝕄) (tileTd m d (Fin.cast nCore_zero c) (Fin.cast nSub_zero i)))

/-- The call's operands, over both SparseCores: the argument's and the result array's chunks of all 32 tasks. -/
theorem st0_eq (d : Dev nD) :
    (bigSep Finset.univ fun c : Fin ((K (F := F)).nCore 0) => (P m).st 0 d c)
      = bigSep Finset.univ fun c : Fin 2 => bigSep Finset.univ fun i : Fin 16 => tileGo m d c i :=
  bigSep_congr fun _ _ => rfl
theorem dn0_eq (d : Dev nD) :
    (bigSep Finset.univ fun c : Fin ((K (F := F)).nCore 0) => (P m).dn 0 d c)
      = bigSep Finset.univ fun c : Fin 2 => bigSep Finset.univ fun i : Fin 16 => tileTd m d c i :=
  bigSep_congr fun _ _ => rfl

end Cert.KernelIdeal.Pf

end
-- ==== Proof.TileOblI.lean ====
import proofs.«213435_g4140348473474_cont_8to1_b_470_36_alg».proof.Proof.TileI
import proofs.«213435_g4140348473474_cont_8to1_b_470_36_alg».proof.Proof.TileSplitI
import proofs.«213435_g4140348473474_cont_8to1_b_470_36_alg».proof.Proof.PayI

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.KernelIdeal.main_arg0_scv : Memref Cert.KernelIdeal.sig Kind.scVector Space.hbm Cert.KernelIdeal.S16384x2048 EltTy.f32)
local notation "oW" => (Memref.whole Cert.KernelIdeal.main_v0_scv : Memref Cert.KernelIdeal.sig Kind.scVector Space.hbm Cert.KernelIdeal.S4096x32 EltTy.f32)
local notation "xB" => (Memref.whole Cert.KernelIdeal.cc0_scratch0 : Memref Cert.KernelIdeal.sig Kind.scVector Space.vmem Cert.KernelIdeal.S128x128 EltTy.f32)
local notation "oB" => (Memref.whole Cert.KernelIdeal.cc0_scratch1 : Memref Cert.KernelIdeal.sig Kind.scVector Space.vmem Cert.KernelIdeal.S128x32 EltTy.f32)

/-! ## The task, as the launch theorem asks for it -/

omit [FloatOps F] in
theorem dma_ne {a b : DmaSem sig} (h : a ≠ b) (thr : Thread nD τ) : ((thr, SemLoc.dma a) : GSem nD τ sig) ≠ (thr, SemLoc.dma b) :=
  fun e => h (SemLoc.dma.inj (Prod.mk.inj e).2)

section Tile
variable (m : (ℓ : Loc nD τ sig) → Buf (Elt F) ℓ) (d : Dev nD) (L : grid0.Coords)

omit [FloatOps F] in
/-- The task's eight semaphores are among its own scoped cells: they, at zero, and the rest. -/
theorem ownSems0_V :
    (ownSems0 (V d (cV L) (jV L)) : sProp 𝕄)
      = iprop(semVal ((V d (cV L) (jV L)), SemLoc.dma iSem0) 0
          ∗ semVal ((V d (cV L) (jV L)), SemLoc.dma iSem1) 0
          ∗ semVal ((V d (cV L) (jV L)), SemLoc.dma iSem2) 0
          ∗ semVal ((V d (cV L) (jV L)), SemLoc.dma iSem3) 0
          ∗ semVal ((V d (cV L) (jV L)), SemLoc.dma oSem0) 0
          ∗ semVal ((V d (cV L) (jV L)), SemLoc.dma oSem1) 0
          ∗ semVal ((V d (cV L) (jV L)), SemLoc.dma oSem2) 0
          ∗ semVal ((V d (cV L) (jV L)), SemLoc.dma oSem3) 0
          ∗ bigSep (((((((((ownCells (V d (cV L) (jV L))).erase ((V d (cV L) (jV L)), SemLoc.dma iSem0)).erase ((V d (cV L) (jV L)), SemLoc.dma iSem1)).erase ((V d (cV L) (jV L)), SemLoc.dma iSem2)).erase ((V d (cV L) (jV L)), SemLoc.dma iSem3)).erase ((V d (cV L) (jV L)), SemLoc.dma oSem0)).erase ((V d (cV L) (jV L)), SemLoc.dma oSem1)).erase ((V d (cV L) (jV L)), SemLoc.dma oSem2)).erase ((V d (cV L) (jV L)), SemLoc.dma oSem3)) fun g => semVal g 0) := by
  unfold SparseCore.Cfg.ownSems0
  rw [SparseCore.bigSep_erase' ((mem_ownCells (g := ((V d (cV L) (jV L)), SemLoc.dma iSem0))).mpr ⟨rfl, by show (SemLoc.dma iSem0 : SemLoc sig).isScoped .scVector = true; decide⟩),
    SparseCore.bigSep_erase' (Finset.mem_erase.mpr ⟨dma_ne (by decide) _, (mem_ownCells (g := ((V d (cV L) (jV L)), SemLoc.dma iSem1))).mpr ⟨rfl, by show (SemLoc.dma iSem1 : SemLoc sig).isScoped .scVector = true; decide⟩⟩),
    SparseCore.bigSep_erase' (Finset.mem_erase.mpr ⟨dma_ne (by decide) _, Finset.mem_erase.mpr ⟨dma_ne (by decide) _, (mem_ownCells (g := ((V d (cV L) (jV L)), SemLoc.dma iSem2))).mpr ⟨rfl, by show (SemLoc.dma iSem2 : SemLoc sig).isScoped .scVector = true; decide⟩⟩⟩),
    SparseCore.bigSep_erase' (Finset.mem_erase.mpr ⟨dma_ne (by decide) _, Finset.mem_erase.mpr ⟨dma_ne (by decide) _, Finset.mem_erase.mpr ⟨dma_ne (by decide) _, (mem_ownCells (g := ((V d (cV L) (jV L)), SemLoc.dma iSem3))).mpr ⟨rfl, by show (SemLoc.dma iSem3 : SemLoc sig).isScoped .scVector = true; decide⟩⟩⟩⟩),
    SparseCore.bigSep_erase' (Finset.mem_erase.mpr ⟨dma_ne (by decide) _, Finset.mem_erase.mpr ⟨dma_ne (by decide) _, Finset.mem_erase.mpr ⟨dma_ne (by decide) _, Finset.mem_erase.mpr ⟨dma_ne (by decide) _, (mem_ownCells (g := ((V d (cV L) (jV L)), SemLoc.dma oSem0))).mpr ⟨rfl, by show (SemLoc.dma oSem0 : SemLoc sig).isScoped .scVector = true; decide⟩⟩⟩⟩⟩),
    SparseCore.bigSep_erase' (Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, (mem_ownCells (g := ((V d (cV L) (jV L)), SemLoc.dma oSem1))).mpr ⟨rfl, by show (SemLoc.dma oSem1 : SemLoc sig).isScoped .scVector = true; decide⟩⟩⟩⟩⟩⟩),
    SparseCore.bigSep_erase' (Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, (mem_ownCells (g := ((V d (cV L) (jV L)), SemLoc.dma oSem2))).mpr ⟨rfl, by show (SemLoc.dma oSem2 : SemLoc sig).isScoped .scVector = true; decide⟩⟩⟩⟩⟩⟩⟩),
    SparseCore.bigSep_erase' (Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, (mem_ownCells (g := ((V d (cV L) (jV L)), SemLoc.dma oSem3))).mpr ⟨rfl, by show (SemLoc.dma oSem3 : SemLoc sig).isScoped .scVector = true; decide⟩⟩⟩⟩⟩⟩⟩⟩)]

omit [FloatOps F] in
/-- The two scratch buffers are among its own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task from what the launch hands it: its chunks, its own buffers and semaphores, what it owes. -/
theorem tile_body (hF : (K (F := F)).Facts) (O : CellTallies nD τ sig (HIx 1)) (W : Waits sig (HIx 1)) (hO : ∀ g, O g none = 0) :
    iprop(levAts (K (F := F)).L (K (F := F)).lev ∗ emp ∗ (xChunks d L (m (xLoc d)) ∗ oChunks d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xW (Memref.isWhole_whole _) oW (Memref.isWhole_whole _) xB (Memref.isWhole_whole _) oB (Memref.isWhole_whole _) cc0_scratch2 cc0_scratch3)
          fun _ => iprop((xChunks d L (m (xLoc d)) ∗ oChunks d L (scOut (m (xLoc d)))) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Hz⟩, ⟨⟨%fx, Hxb⟩, ⟨%fo, Hob⟩, Hbufs⟩, ⟨Hi0, Hi1, Hi2, Hi3, Hq0, Hq1, Hq2, Hq3, Hsems⟩, HO⟩
  ihave Hmw := ((K (F := F)).mayWaits_none (thr := (V d (cV L) (jV L))) hO) $$ Hlv
  ihave Hxb' := (Entails.of_eq (xB_chunks (F := F) d L fx)) $$ Hxb
  icases Hxb' with ⟨Hb0, Hb1, Hb2, Hb3⟩
  ihave Hob' := (Entails.of_eq (oB_chunks (F := F) d L fo)) $$ Hob
  icases Hob' with ⟨Ho0, Ho1, Ho2, Ho3⟩
  iapply (wp_wand_r frame _ Set.univ)
  isplitl [Hmw Hx Hz Hb0 Hb1 Hb2 Hb3 Ho0 Ho1 Ho2 Ho3 Hi0 Hi1 Hi2 Hi3 Hq0 Hq1 Hq2 Hq3 HO]
  · iapply (tile_core m d L O W fx fo (m (oLoc d)))
    isplitl [Hmw]; · iexact Hmw
    isplitl [Hx]; · iexact Hx
    isplitl [Hb0]; · iexact Hb0
    isplitl [Hb1]; · iexact Hb1
    isplitl [Hb2]; · iexact Hb2
    isplitl [Hb3]; · iexact Hb3
    isplitl [Ho0]; · iexact Ho0
    isplitl [Ho1]; · iexact Ho1
    isplitl [Ho2]; · iexact Ho2
    isplitl [Ho3]; · iexact Ho3
    isplitl [Hz]; · iexact Hz
    isplitl [Hi0]; · iexact Hi0
    isplitl [Hi1]; · iexact Hi1
    isplitl [Hi2]; · iexact Hi2
    isplitl [Hi3]; · iexact Hi3
    isplitl [Hq0]; · iexact Hq0
    isplitl [Hq1]; · iexact Hq1
    isplitl [Hq2]; · iexact Hq2
    isplitl [Hq3]; · iexact Hq3
    iexact HO
  iintro %_ ⟨Hx, Hb0, Hb1, Hb2, Hb3, Ho0, Ho1, Ho2, Ho3, Hz, Hi0, Hi1, Hi2, Hi3, Hq0, Hq1, Hq2, Hq3, HW⟩
  isplitl [Hx Hz]
  · isplitl [Hx]; · iexact Hx
    iexact Hz
  isplitl [Hb0 Hb1 Hb2 Hb3 Ho0 Ho1 Ho2 Ho3 Hbufs]
  · isplitl [Hb0 Hb1 Hb2 Hb3]
    · iapply (xB_join (F := F) d L)
      isplitl [Hb0]; · iexact Hb0
      isplitl [Hb1]; · iexact Hb1
      isplitl [Hb2]; · iexact Hb2
      iexact Hb3
    isplitl [Ho0 Ho1 Ho2 Ho3]
    · iapply (oB_join (F := F) d L)
      isplitl [Ho0]; · iexact Ho0
      isplitl [Ho1]; · iexact Ho1
      isplitl [Ho2]; · iexact Ho2
      iexact Ho3
    iexact Hbufs
  isplitl [Hi0 Hi1 Hi2 Hi3 Hq0 Hq1 Hq2 Hq3 Hsems]
  · isplitl [Hi0]; · iexact Hi0
    isplitl [Hi1]; · iexact Hi1
    isplitl [Hi2]; · iexact Hi2
    isplitl [Hi3]; · iexact Hi3
    isplitl [Hq0]; · iexact Hq0
    isplitl [Hq1]; · iexact Hq1
    isplitl [Hq2]; · iexact Hq2
    isplitl [Hq3]; · iexact Hq3
    iexact Hsems
  iexact HW

end Tile

/-! ## The launch theorem's obligations -/

variable (m : (ℓ : Loc nD τ sig) → Buf (Elt F) ℓ)

theorem defs₀_vector (c : Fin τ.nSC) (s : Fin τ.nSub) :
    defs₀ (F := F) (.scVector c s) 0 ()
      = SparseCore.onTile hcore0 hsub0 (fun c s => cc0__sc_body (coordsV c s) xW (Memref.isWhole_whole _) oW (Memref.isWhole_whole _)
          xB (Memref.isWhole_whole _) oB (Memref.isWhole_whole _) cc0_scratch2 cc0_scratch3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share of the call is its tasks' shares, by definition. -/
theorem vecSplit : (K (F := F)).VecSplit' (P m) 0 := by
  intro d c
  show (bigSep Finset.univ fun i : Fin 16 => tileGo m d (Fin.cast nCore_zero c) i) ⊢ |={Set.univ}=> iprop(
      (bigSep Finset.univ fun i : Fin ((K (F := F)).nSub 0) => tileGo m d (Fin.cast nCore_zero c) (Fin.cast nSub_zero i))
      ∗ ((bigSep Finset.univ fun i : Fin ((K (F := F)).nSub 0) => tileTd m d (Fin.cast nCore_zero c) (Fin.cast nSub_zero i))
          -∗ bigSep Finset.univ fun i : Fin 16 => tileTd m d (Fin.cast nCore_zero c) i))
  rw [bigSep_tasks (F := F) (fun i => tileGo m d (Fin.cast nCore_zero c) i), bigSep_tasks (F := F) (fun i => tileTd m d (Fin.cast nCore_zero c) i)]
  iintro H; imodintro
  isplitl [H]; · iexact H
  iintro H; iexact H

end Cert.KernelIdeal.Pf

end
-- ==== Proof.HostTailI.lean ====
import proofs.«213435_g4140348473474_cont_8to1_b_470_36_alg».proof.Proof.CommonI

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations after the two kernels

The TensorCore part's result `Y` is 32 × 12288 (groups by rows 0..12287) and the SparseCore part's `Z`
is 4096 × 32 (rows 12288..16383 by groups). @main transposes `Z`, joins it to `Y` along the second axis
and transposes back: row `r` of the final 16384 × 32 array is column `r` of `Y` for `r < 12288` and row
`r - 12288` of `Z` otherwise. -/

/-- @main's three host operations as one function of the two kernels' results. -/
def hostTail (Y : S32x12288.Idx → Elt F .f32) (Z : S4096x32.Idx → Elt F .f32) : S16384x32.Idx → Elt F .f32 :=
  transpose S16384x32 [1, 0]
    (concatenate S32x16384 1 [⟨S32x12288, Y⟩, ⟨S32x4096, transpose S32x4096 [1, 0] Z transposes_S4096x32_S32x4096_1_0⟩]
      concatenates_S32x12288_S32x4096_S32x16384_d1)
    transposes_S32x16384_S16384x32_1_0

end Cert.KernelIdeal.Pf

end
-- ==== Proof.TcRegionDat.lean ====
import proofs.«213435_g4140348473474_cont_8to1_b_470_36_alg».proof.Proof.CommonI
import Idealize.ShloMosaic.Lib.Pipeline.Regions
import Idealize.ShloMosaic.Lib.Pipeline.FrameBody

noncomputable section

namespace Cert.KernelIdeal.Pf

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline of the TensorCore call: the ghost state its staging semaphores need

The pipeline's staging semaphores are cells of a rounds algebra of their own (the component `ER`): the launch funds, per
device, the cells' initial states and the tokens of the transfers the pipeline will issue. -/

/-- The one admissible table contents: the pipeline prefetches no table. -/
abbrev adm : (p : Fin 1) → (pcfgs (F := F) p).Adm := fun p => (cfgs p).toPCfg_adm

/-- What device `d`'s TensorCore needs of the launch to enter the pipeline: its staging cells' ghost state and the
    tokens of its transfers. -/
def TcGhost (d : Dev nD) : sProp 𝕄 :=
  iprop(Pipeline.cellsGhost cfgs (ER (F := F)) 0 d ∗ Pipeline.toksInit cfgs (ER (F := F)) 0 d)

/-- The launch element of the pipeline's rounds funds every device's share. -/
theorem fund_tcGhost :
    BI.own ((ER (F := F)) (initOf (Pipeline.cells cfgs cellOf_inj) (Pipeline.launchToks cfgs cellOf_inj)))
      ⊢ iprop(|==> bigSep Finset.univ fun d : Dev nD => (TcGhost (F := F) d)) := by
  refine (Pipeline.fund_ghost cfgs (ER (F := F)) cellOf_inj).trans (BI.bupd_mono ?_)
  have h1 : ∀ (Φ : Fin 1 → sProp 𝕄), bigSep Finset.univ Φ = Φ 0 := fun Φ => by
    rw [show (Finset.univ : Finset (Fin 1)) = {0} from rfl, BI.bigSep_singleton]
  rw [← bigSep_sep']
  refine BI.bigSep_mono fun d _ => ?_
  rw [h1, h1]; unfold TcGhost; exact BI.Entails.refl _

/-! ## The body's accesses

Every input staging buffer is loaded whole; the output staging buffer, 32 rows of 4096 columns, is stored in eight
pieces of 512 columns, piece `q` computed from input `q`. -/

abbrev rIn : Rect S512x128 := Rect.unit (s := S512x128) ![0, 0] S512x128.size inb_S512x128_S512x128_0_0
abbrev rO0 : Rect S32x4096 := Rect.unit (s := S32x4096) ![0, 0] S32x512.size inb_S32x4096_S32x512_0_0
abbrev rO1 : Rect S32x4096 := Rect.unit (s := S32x4096) ![0, 512] S32x512.size inb_S32x4096_S32x512_0_512
abbrev rO2 : Rect S32x4096 := Rect.unit (s := S32x4096) ![0, 1024] S32x512.size inb_S32x4096_S32x512_0_1024
abbrev rO3 : Rect S32x4096 := Rect.unit (s := S32x4096) ![0, 1536] S32x512.size inb_S32x4096_S32x512_0_1536
abbrev rO4 : Rect S32x4096 := Rect.unit (s := S32x4096) ![0, 2048] S32x512.size inb_S32x4096_S32x512_0_2048
abbrev rO5 : Rect S32x4096 := Rect.unit (s := S32x4096) ![0, 2560] S32x512.size inb_S32x4096_S32x512_0_2560
abbrev rO6 : Rect S32x4096 := Rect.unit (s := S32x4096) ![0, 3072] S32x512.size inb_S32x4096_S32x512_0_3072
abbrev rO7 : Rect S32x4096 := Rect.unit (s := S32x4096) ![0, 3584] S32x512.size inb_S32x4096_S32x512_0_3584

/-- What the body leaves in the output staging buffer, from the eight input blocks: its eight stores as pieces, the
    last store first. -/
def outAt (x0 x1 x2 x3 x4 x5 x6 x7 : Vec F S512x128 .f32) : Vec F S32x4096 .f32 :=
  View.canon [⟨rO7, k1_pay6 (k1_pay7 (F := F)) (View.ld x7 rIn)⟩, ⟨rO6, k1_pay5 (k1_pay7 (F := F)) (View.ld x6 rIn)⟩,
    ⟨rO5, k1_pay4 (k1_pay7 (F := F)) (View.ld x5 rIn)⟩, ⟨rO4, k1_pay3 (k1_pay7 (F := F)) (View.ld x4 rIn)⟩,
    ⟨rO3, k1_pay2 (k1_pay7 (F := F)) (View.ld x3 rIn)⟩, ⟨rO2, k1_pay1 (k1_pay7 (F := F)) (View.ld x2 rIn)⟩,
    ⟨rO1, k1_pay9 (View.ld x1 rIn)⟩, ⟨rO0, k1_pay8 (View.ld x0 rIn)⟩]

/-- The eight pieces tile the buffer, so they cover it. -/
theorem cover_out (p0 p1 p2 p3 p4 p5 p6 p7 : Vec F S32x512 .f32) (y : S32x4096.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S32x4096 .f32)), y ∈ pc.1.set :=
  View.cover_of_tiled (s := S32x4096) _ ![32, 512] (by rfl) y

/-! ## The body's triple -/

set_option maxHeartbeats 1000000 in
/-- The body on whole staging memrefs, the inputs' at read contents `x0 … x7` and the output's at anything, runs to the
    continuation holding the inputs' as they were and the output's at `outAt` of them. -/
theorem sound_kernel (c : Dev nD) (E : Set ℕ) (i : grid1.Coords)
    (arg1 : Memref sig .tc .vmem S512x128 .f32) (harg1 : arg1.IsWhole) (arg2 : Memref sig .tc .vmem S512x128 .f32) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S512x128 .f32) (harg8 : arg8.IsWhole)
    (arg9 : Memref sig .tc .vmem S32x4096 .f32) (harg9 : arg9.IsWhole)
    (x0 x1 x2 x3 x4 x5 x6 x7 : Vec F S512x128 .f32) (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (outAt x0 x1 x2 x3 x4 x5 x6 x7)) -∗ Kc ⟨⟩))
      ⊢ wp frame (wpE (defs₀ (F := F)) Variants.none c none) E
          (cc1__tc_body i arg1 harg1 arg2 harg2 arg3 harg3 arg4 harg4 arg5 harg5 arg6 harg6 arg7 harg7 arg8 harg8 arg9 harg9) Kc := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H9
  ipureintro
  exact View.read_writes_eq_canon _ _ _ (cover_out _ _ _ _ _ _ _ _)

/-! ## The proof data

Eight input windows stage blocks of ONE array, held at contents `X` (each window at a read share of it); the ninth window
writes the result's array, held at `Y0` before the region. The body keeps every input block in place and leaves
`outAt` of the eight blocks in the output's staging buffer. The thread owes `O` throughout, its recorded pairs
within `B`. -/

section Data

variable (d : Dev nD) (X : S16384x2048.Idx → Elt F .f32) (Y0 : S32x12288.Idx → Elt F .f32)
  (O : CellTallies nD τ sig (HIx 1)) (B : Set (SemLoc sig × HIx 1))

/-- Window `w`'s block at point `t`, read off contents `A` of its array. -/
def iblk (w : Fin cfg1.W) (t : Fin cfg1.N) (A : Buf (Elt F) ((cfg1.win w).arr.view.loc (d : Thread nD τ))) :
    ((cfg1.win w).xblock (cfg1.grid.coords t)).Idx → Elt F (cfg1.win w).elt :=
  ((cfg1.win w).blk t).view.read (Elt F) A

/-- The output's staging buffer after the body at point `t`. -/
def outBlk (t : Fin cfg1.N) : Vec F S32x4096 .f32 :=
  outAt (iblk d 0 t X) (iblk d 1 t X) (iblk d 2 t X) (iblk d 3 t X) (iblk d 4 t X) (iblk d 5 t X) (iblk d 6 t X) (iblk d 7 t X)

def dats : Dat τ (Elt F) (HIx 1) ℕ UU ℕ cfg1 d where
  A w := match w with
    | ⟨0, _⟩ => X
    | ⟨1, _⟩ => X
    | ⟨2, _⟩ => X
    | ⟨3, _⟩ => X
    | ⟨4, _⟩ => X
    | ⟨5, _⟩ => X
    | ⟨6, _⟩ => X
    | ⟨7, _⟩ => X
    | ⟨8, _⟩ => Y0
  after w t := match w with
    | ⟨0, _⟩ => iblk d 0 t X
    | ⟨1, _⟩ => iblk d 1 t X
    | ⟨2, _⟩ => iblk d 2 t X
    | ⟨3, _⟩ => iblk d 3 t X
    | ⟨4, _⟩ => iblk d 4 t X
    | ⟨5, _⟩ => iblk d 5 t X
    | ⟨6, _⟩ => iblk d 6 t X
    | ⟨7, _⟩ => iblk d 7 t X
    | ⟨8, _⟩ => outBlk d X t
  Φ _ := iprop(emp)
  q w := Transfers.shareTokN fullShare w.val
  owed _ := O
  recorded _ := B

theorem after1_0 (t : Fin cfg1.N) : (dats d X Y0 O B).after 0 t = iblk d 0 t X := by dsimp only [dats]
theorem after1_1 (t : Fin cfg1.N) : (dats d X Y0 O B).after 1 t = iblk d 1 t X := by dsimp only [dats]
theorem after1_2 (t : Fin cfg1.N) : (dats d X Y0 O B).after 2 t = iblk d 2 t X := by dsimp only [dats]
theorem after1_3 (t : Fin cfg1.N) : (dats d X Y0 O B).after 3 t = iblk d 3 t X := by dsimp only [dats]
theorem after1_4 (t : Fin cfg1.N) : (dats d X Y0 O B).after 4 t = iblk d 4 t X := by dsimp only [dats]
theorem after1_5 (t : Fin cfg1.N) : (dats d X Y0 O B).after 5 t = iblk d 5 t X := by dsimp only [dats]
theorem after1_6 (t : Fin cfg1.N) : (dats d X Y0 O B).after 6 t = iblk d 6 t X := by dsimp only [dats]
theorem after1_7 (t : Fin cfg1.N) : (dats d X Y0 O B).after 7 t = iblk d 7 t X := by dsimp only [dats]
theorem after1_8 (t : Fin cfg1.N) : (dats d X Y0 O B).after 8 t = outBlk d X t := by dsimp only [dats]

/-- Each input's current staging buffer holds its block at every point: the window is uncut, never idle, and the body
    leaves the block in place. -/
theorem before1_0 (t : Fin cfg1.N) (dd) : (dats d X Y0 O B).before 0 t dd = iblk d 0 t X :=
  ((dats d X Y0 O B).before_in_eq_fetched 0 rfl (fun _ => rfl) (fun _ _ _ => rfl)
    (fun t => by rw [after1_0]; unfold Dat.blockOf iblk; dsimp only [dats]; try rfl) t dd).trans
    (by unfold Dat.fetched Dat.blockOf iblk; dsimp only [dats]; try rfl)
theorem before1_1 (t : Fin cfg1.N) (dd) : (dats d X Y0 O B).before 1 t dd = iblk d 1 t X :=
  ((dats d X Y0 O B).before_in_eq_fetched 1 rfl (fun _ => rfl) (fun _ _ _ => rfl)
    (fun t => by rw [after1_1]; unfold Dat.blockOf iblk; dsimp only [dats]; try rfl) t dd).trans
    (by unfold Dat.fetched Dat.blockOf iblk; dsimp only [dats]; try rfl)
theorem before1_2 (t : Fin cfg1.N) (dd) : (dats d X Y0 O B).before 2 t dd = iblk d 2 t X :=
  ((dats d X Y0 O B).before_in_eq_fetched 2 rfl (fun _ => rfl) (fun _ _ _ => rfl)
    (fun t => by rw [after1_2]; unfold Dat.blockOf iblk; dsimp only [dats]; try rfl) t dd).trans
    (by unfold Dat.fetched Dat.blockOf iblk; dsimp only [dats]; try rfl)
theorem before1_3 (t : Fin cfg1.N) (dd) : (dats d X Y0 O B).before 3 t dd = iblk d 3 t X :=
  ((dats d X Y0 O B).before_in_eq_fetched 3 rfl (fun _ => rfl) (fun _ _ _ => rfl)
    (fun t => by rw [after1_3]; unfold Dat.blockOf iblk; dsimp only [dats]; try rfl) t dd).trans
    (by unfold Dat.fetched Dat.blockOf iblk; dsimp only [dats]; try rfl)
theorem before1_4 (t : Fin cfg1.N) (dd) : (dats d X Y0 O B).before 4 t dd = iblk d 4 t X :=
  ((dats d X Y0 O B).before_in_eq_fetched 4 rfl (fun _ => rfl) (fun _ _ _ => rfl)
    (fun t => by rw [after1_4]; unfold Dat.blockOf iblk; dsimp only [dats]; try rfl) t dd).trans
    (by unfold Dat.fetched Dat.blockOf iblk; dsimp only [dats]; try rfl)
theorem before1_5 (t : Fin cfg1.N) (dd) : (dats d X Y0 O B).before 5 t dd = iblk d 5 t X :=
  ((dats d X Y0 O B).before_in_eq_fetched 5 rfl (fun _ => rfl) (fun _ _ _ => rfl)
    (fun t => by rw [after1_5]; unfold Dat.blockOf iblk; dsimp only [dats]; try rfl) t dd).trans
    (by unfold Dat.fetched Dat.blockOf iblk; dsimp only [dats]; try rfl)
theorem before1_6 (t : Fin cfg1.N) (dd) : (dats d X Y0 O B).before 6 t dd = iblk d 6 t X :=
  ((dats d X Y0 O B).before_in_eq_fetched 6 rfl (fun _ => rfl) (fun _ _ _ => rfl)
    (fun t => by rw [after1_6]; unfold Dat.blockOf iblk; dsimp only [dats]; try rfl) t dd).trans
    (by unfold Dat.fetched Dat.blockOf iblk; dsimp only [dats]; try rfl)
theorem before1_7 (t : Fin cfg1.N) (dd) : (dats d X Y0 O B).before 7 t dd = iblk d 7 t X :=
  ((dats d X Y0 O B).before_in_eq_fetched 7 rfl (fun _ => rfl) (fun _ _ _ => rfl)
    (fun t => by rw [after1_7]; unfold Dat.blockOf iblk; dsimp only [dats]; try rfl) t dd).trans
    (by unfold Dat.fetched Dat.blockOf iblk; dsimp only [dats]; try rfl)

/-! ## The body obligation, at a generic point -/

/-- What the body is called with at point `t`, the windows one by one, -/
def bodyPre (t : Fin cfg1.N) : sProp 𝕄 :=
  iprop((dats d X Y0 O B).Φ t.castSucc ∗ (dats d X Y0 O B).owesAt none t.castSucc
    ∗ (∃ dd, owns (d : Thread nD τ) (st1_0 t) fullShare ((dats d X Y0 O B).before 0 t dd))
    ∗ (∃ dd, owns (d : Thread nD τ) (st1_1 t) fullShare ((dats d X Y0 O B).before 1 t dd))
    ∗ (∃ dd, owns (d : Thread nD τ) (st1_2 t) fullShare ((dats d X Y0 O B).before 2 t dd))
    ∗ (∃ dd, owns (d : Thread nD τ) (st1_3 t) fullShare ((dats d X Y0 O B).before 3 t dd))
    ∗ (∃ dd, owns (d : Thread nD τ) (st1_4 t) fullShare ((dats d X Y0 O B).before 4 t dd))
    ∗ (∃ dd, owns (d : Thread nD τ) (st1_5 t) fullShare ((dats d X Y0 O B).before 5 t dd))
    ∗ (∃ dd, owns (d : Thread nD τ) (st1_6 t) fullShare ((dats d X Y0 O B).before 6 t dd))
    ∗ (∃ dd, owns (d : Thread nD τ) (st1_7 t) fullShare ((dats d X Y0 O B).before 7 t dd))
    ∗ (∃ dd, owns (d : Thread nD τ) (st1_8 t) fullShare ((dats d X Y0 O B).before 8 t dd)))

/-- and what it returns. -/
def bodyPost (t : Fin cfg1.N) : sProp 𝕄 :=
  iprop((dats d X Y0 O B).Φ t.succ ∗ (dats d X Y0 O B).owesAt none t.succ
    ∗ owns (d : Thread nD τ) (st1_0 t) fullShare ((dats d X Y0 O B).after 0 t)
    ∗ owns (d : Thread nD τ) (st1_1 t) fullShare ((dats d X Y0 O B).after 1 t)
    ∗ owns (d : Thread nD τ) (st1_2 t) fullShare ((dats d X Y0 O B).after 2 t)
    ∗ owns (d : Thread nD τ) (st1_3 t) fullShare ((dats d X Y0 O B).after 3 t)
    ∗ owns (d : Thread nD τ) (st1_4 t) fullShare ((dats d X Y0 O B).after 4 t)
    ∗ owns (d : Thread nD τ) (st1_5 t) fullShare ((dats d X Y0 O B).after 5 t)
    ∗ owns (d : Thread nD τ) (st1_6 t) fullShare ((dats d X Y0 O B).after 6 t)
    ∗ owns (d : Thread nD τ) (st1_7 t) fullShare ((dats d X Y0 O B).after 7 t)
    ∗ owns (d : Thread nD τ) (st1_8 t) fullShare ((dats d X Y0 O B).after 8 t))

/-- The body at any point: the inputs' memrefs hold their blocks, so `sound_kernel` applies; the invariant and what
    the thread owes pass through unread. -/
theorem sound_body (t : Fin cfg1.N) :
    bodyPre d X Y0 O B t ⊢ wp frame (wpE (defs₀ (F := F)) Variants.none (d : Thread nD τ) none) Set.univ (bodyAt1 t) (fun _ => bodyPost d X Y0 O B t) := by
  unfold bodyPre bodyPost bodyAt1
  simp only [before1_0, before1_1, before1_2, before1_3, before1_4, before1_5, before1_6, before1_7]
  rw [show (dats d X Y0 O B).Φ t.succ = (dats d X Y0 O B).Φ t.castSucc from rfl,
    show (dats d X Y0 O B).owesAt none t.succ = (dats d X Y0 O B).owesAt none t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel d Set.univ _ _ _ _ _ _ _ _ _ _ _ _ _ _ _ _ _ _ _ (iblk d 0 t X) (iblk d 1 t X) (iblk d 2 t X) (iblk d 3 t X)
    (iblk d 4 t X) (iblk d 5 t X) (iblk d 6 t X) (iblk d 7 t X) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation : BodyObligation (dats d X Y0 O B) (defs₀ (F := F)) Variants.none none Set.univ := fun t => by
  rw [bigSep_W1, bigSep_W1]
  exact sound_body d X Y0 O B t

end Data

end Cert.KernelIdeal.Pf

end
-- ==== Proof.TcRegion.lean ====
import proofs.«213435_g4140348473474_cont_8to1_b_470_36_alg».proof.Proof.CommonI
import Idealize.ShloMosaic.Lib.Pipeline.Regions
import Idealize.ShloMosaic.Lib.Pipeline.FrameBody
import proofs.«213435_g4140348473474_cont_8to1_b_470_36_alg».proof.Proof.TcRegionDat

noncomputable section

namespace Cert.KernelIdeal.Pf

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The region

The TensorCore's pipelined call, entered from: the input array whole at `X`, the result's array whole at anything,
and what the thread owes (its recorded pairs within `B`). The eight input windows share the input array: at entry its
full share is split into eight read shares and a remainder that bypasses the region, and at exit they are joined
again. -/

section Region

variable (Xa : Dev nD → S16384x2048.Idx → Elt F .f32) (Ya : Dev nD → S32x12288.Idx → Elt F .f32)
  (O : Dev nD → CellTallies nD τ sig (HIx 1)) (B : Dev nD → Set (SemLoc sig × HIx 1))

/-- The proof data on every device. -/
abbrev pdats : (p : Fin 1) → (c : Dev nD) → Dat τ (Elt F) (HIx 1) ℕ UU ℕ (Pipeline.pin (pcfgs (F := F)) adm p) c :=
  fun _ c => dats c (Xa c) (Ya c) (O c) (B c)

/-- The input array on device `c` at share `q`; -/
abbrev ptArg (c : Dev nD) (q : PosShare TreeShare) (f : S16384x2048.Idx → Elt F .f32) : sProp 𝕄 :=
  ((c : Thread nD τ).loc main_arg0) ↦{q} f
/-- the result's array, whole. -/
abbrev ptOut (c : Dev nD) (f : S32x12288.Idx → Elt F .f32) : sProp 𝕄 :=
  ((c : Thread nD τ).loc main_v1) ↦{fullShare} f

/-- What the result's array holds after the region, as the pipeline's write-backs compute it. -/
def tcOutAt (c : Dev nD) : S32x12288.Idx → Elt F .f32 := (pdats Xa Ya O B 0 c).arrAt 8 cfg1.N

/-- The pipeline's arrays, window by window. -/
theorem arrays1_eq (c : Dev nD) (Fa : (w : Fin cfg1.W) → Buf (Elt F) ((cfg1.win w).arr.view.loc (c : Thread nD τ))) :
    ((pdats Xa Ya O B 0 c).arrays Fa : sProp 𝕄)
      = iprop(ptArg c (Transfers.shareTokN fullShare 0) (Fa 0) ∗ ptArg c (Transfers.shareTokN fullShare 1) (Fa 1)
          ∗ ptArg c (Transfers.shareTokN fullShare 2) (Fa 2) ∗ ptArg c (Transfers.shareTokN fullShare 3) (Fa 3)
          ∗ ptArg c (Transfers.shareTokN fullShare 4) (Fa 4) ∗ ptArg c (Transfers.shareTokN fullShare 5) (Fa 5)
          ∗ ptArg c (Transfers.shareTokN fullShare 6) (Fa 6) ∗ ptArg c (Transfers.shareTokN fullShare 7) (Fa 7)
          ∗ ptOut c (Fa 8)) := by
  unfold Dat.arrays
  rw [bigSep_W1, (arr_whole1 0).set_eq_univ, (arr_whole1 8).set_eq_univ]
  rfl

/-- The full share of the input array is the eight windows' read shares and a remainder. -/
theorem arg_split (c : Dev nD) (f : S16384x2048.Idx → Elt F .f32) :
    (ptArg c fullShare f : sProp 𝕄) ⊣⊢ iprop(ptArg c (Transfers.shareDrop fullShare 8) f
      ∗ ptArg c (Transfers.shareTokN fullShare 0) f ∗ ptArg c (Transfers.shareTokN fullShare 1) f
      ∗ ptArg c (Transfers.shareTokN fullShare 2) f ∗ ptArg c (Transfers.shareTokN fullShare 3) f
      ∗ ptArg c (Transfers.shareTokN fullShare 4) f ∗ ptArg c (Transfers.shareTokN fullShare 5) f
      ∗ ptArg c (Transfers.shareTokN fullShare 6) f ∗ ptArg c (Transfers.shareTokN fullShare 7) f) := by
  have h : (ptArg c fullShare f : sProp 𝕄) ⊣⊢ iprop(ptArg c (Transfers.shareDrop fullShare 8) f
      ∗ bigSep Finset.univ (fun i : Fin 8 => ptArg c (Transfers.shareTok fullShare 8 i) f)) :=
    Transfers.pointsTo_toks fullShare 8
  rw [bigSep_univ_eq_bigSepL [(0 : Fin 8), 1, 2, 3, 4, 5, 6, 7] (by decide) (by decide)] at h
  exact h

theorem arrAt1_0 (c : Dev nD) (n : ℕ) : (pdats Xa Ya O B 0 c).arrAt 0 n = Xa c := ((pdats Xa Ya O B 0 c).arrAt_in 0 rfl n).trans rfl
theorem arrAt1_1 (c : Dev nD) (n : ℕ) : (pdats Xa Ya O B 0 c).arrAt 1 n = Xa c := ((pdats Xa Ya O B 0 c).arrAt_in 1 rfl n).trans rfl
theorem arrAt1_2 (c : Dev nD) (n : ℕ) : (pdats Xa Ya O B 0 c).arrAt 2 n = Xa c := ((pdats Xa Ya O B 0 c).arrAt_in 2 rfl n).trans rfl
theorem arrAt1_3 (c : Dev nD) (n : ℕ) : (pdats Xa Ya O B 0 c).arrAt 3 n = Xa c := ((pdats Xa Ya O B 0 c).arrAt_in 3 rfl n).trans rfl
theorem arrAt1_4 (c : Dev nD) (n : ℕ) : (pdats Xa Ya O B 0 c).arrAt 4 n = Xa c := ((pdats Xa Ya O B 0 c).arrAt_in 4 rfl n).trans rfl
theorem arrAt1_5 (c : Dev nD) (n : ℕ) : (pdats Xa Ya O B 0 c).arrAt 5 n = Xa c := ((pdats Xa Ya O B 0 c).arrAt_in 5 rfl n).trans rfl
theorem arrAt1_6 (c : Dev nD) (n : ℕ) : (pdats Xa Ya O B 0 c).arrAt 6 n = Xa c := ((pdats Xa Ya O B 0 c).arrAt_in 6 rfl n).trans rfl
theorem arrAt1_7 (c : Dev nD) (n : ℕ) : (pdats Xa Ya O B 0 c).arrAt 7 n = Xa c := ((pdats Xa Ya O B 0 c).arrAt_in 7 rfl n).trans rfl

/-- No scoped buffer of the TensorCore but the staging buffers. -/
theorem scopedRestP (c : Dev nD) :
    (Pipeline.scopedRest (Ix := HIx 1) (Name := ℕ) (U := UU) (Lvl := ℕ) (Val := Elt F) (Pipeline.pin (pcfgs (F := F)) adm 0).spec c : sProp 𝕄) = BI.emp :=
  scopedRest1_eq c

variable (lv : GSem nD τ sig → HIx 1 → ℕ)

/-- The waits of the pipeline on its staging semaphores record pairs at the index no protocol unit carries, which sits
    below everything a thread may owe there: the evidence each such wait presents. -/
theorem hwaits1 (hO : ∀ c g, O c g none = 0) (hlv : (K (F := F)).Refines lv) (c : Dev nD) :
    (levAts (K (F := F)).L lv : sProp 𝕄) ⊢ Pipeline.cellsWaits (Pipeline.pin (pcfgs (F := F)) adm) (pdats Xa Ya O B) none 0 c :=
  Pipeline.cellsWaits_intro _ _ _ _ _ fun w s t => SparseCore.Cfg.mayWait_none (K := K (F := F)) _ (hO c) lv hlv

set_option backward.isDefEq.respectTransparency.types false in
/-- THE REGION: its layout, its body obligation, its wait evidence, and the four entailments around its two ends. -/
def reg (hO : ∀ c g, O c g none = 0) (hlv : (K (F := F)).Refines lv) :
    Pipeline.RegionSeg (pcfgs (F := F)) adm (pdats Xa Ya O B) none defs₀ 𝒱₀ (K (F := F)).L lv 0 where
  win := winFacts₀1
  block_pos := block_pos1
  stage_whole := stage_whole1
  K := PEmpty
  osem k := k.elim
  ho := Pipeline.OwnSemFacts.none _
  hbody c := (body_obligation c (Xa c) (Ya c) (O c) (B c)).loose
  hwaits c := hwaits1 Xa Ya O B lv hO hlv c
  pre c := iprop(ptArg c fullShare (Xa c) ∗ ptOut c (Ya c) ∗ Pipeline.owesWithin c (O c) (B c))
  post c := iprop(ptArg c fullShare (Xa c) ∗ ptOut c (tcOutAt Xa Ya O B c) ∗ Pipeline.owesWithin c (O c) (B c ∪ cfg1.waitPairs none))
  X _ := iprop(emp)
  Y _ := iprop(emp)
  Z c := ptArg c (Transfers.shareDrop fullShare 8) (Xa c)
  hentry c := by
    rw [Pipeline.ownSems0_none, arrays1_eq]
    iintro ⟨⟨Ha, Hv, HO⟩, -, -⟩
    ihave H := (arg_split c (Xa c)).1 $$ Ha
    icases H with ⟨Hr, H0, H1, H2, H3, H4, H5, H6, H7⟩
    imodintro
    isplitl [H0 H1 H2 H3 H4 H5 H6 H7 Hv]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact Hv
    isplitr; · unfold Pipeline.prefHeld; rw [show (Finset.univ : Finset (Fin 0)) = ∅ from rfl, BI.bigSep_empty]; iempintro
    isplitl [HO]
    · iapply (Pipeline.owesWithin_mono c (O c) (Set.subset_union_left (s := B c) (t := cfg1.waitPairs none))); iexact HO
    isplitr; · iempintro
    iexact Hr
  hin c := by
    rw [show (pdats Xa Ya O B 0 c).Φ 0 = iprop(emp) from rfl]
    iintro -; iempintro
  hout c := by
    rw [show (pdats Xa Ya O B 0 c).Φ (Fin.last _) = iprop(emp) from rfl, Pipeline.ownSems0_none, scopedRestP]
    iintro -
    isplitr; · iempintro
    isplitr <;> iempintro
  hexit c := by
    rw [arrays1_eq, arrAt1_0, arrAt1_1, arrAt1_2, arrAt1_3, arrAt1_4, arrAt1_5, arrAt1_6, arrAt1_7]
    iintro ⟨⟨H0, H1, H2, H3, H4, H5, H6, H7, Hv⟩, HO, -, Hr⟩
    imodintro
    isplitl [Hr H0 H1 H2 H3 H4 H5 H6 H7]
    · iapply (arg_split c (Xa c)).2
      isplitl [Hr]; · iexact Hr
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [Hv]; · iexact Hv
    iexact HO

theorem reg_pre (hO : ∀ c g, O c g none = 0) (hlv : (K (F := F)).Refines lv) (c : Dev nD) :
    (reg Xa Ya O B lv hO hlv).pre c = iprop(ptArg c fullShare (Xa c) ∗ ptOut c (Ya c) ∗ Pipeline.owesWithin c (O c) (B c)) := rfl
theorem reg_post (hO : ∀ c g, O c g none = 0) (hlv : (K (F := F)).Refines lv) (c : Dev nD) :
    (reg Xa Ya O B lv hO hlv).post c
      = iprop(ptArg c fullShare (Xa c) ∗ ptOut c (tcOutAt Xa Ya O B c) ∗ Pipeline.owesWithin c (O c) (B c ∪ cfg1.waitPairs none)) := rfl

end Region

/-! ## The rule of the region, as the TensorCore's thread of the whole program runs it

The call stands in the program extended by the launch protocol's labels; a proof about it under the pipelines' body
table lifts to the extended table. -/

section Rule

variable (d : Dev nD) (X : S16384x2048.Idx → Elt F .f32) (Y0 : S32x12288.Idx → Elt F .f32)
  (O : CellTallies nD τ sig (HIx 1)) (B : Set (SemLoc sig × HIx 1)) (lv : GSem nD τ sig → HIx 1 → ℕ)

/-- What the result's array holds after the region, as the pipeline's write-backs compute it from `X`
    (over whatever it held before, `Y0`). -/
def tcOutF : S32x12288.Idx → Elt F .f32 := tcOutAt (fun _ => X) (fun _ => Y0) (fun _ => O) (fun _ => B) d

/-- The region's post. -/
abbrev tcPost : sProp 𝕄 :=
  iprop(boundary (d : Thread nD τ) ∗ ptArg d fullShare X ∗ ptOut d (tcOutF d X Y0 O B)
    ∗ Pipeline.owesWithin d O (B ∪ cfg1.waitPairs none))

/-- The call in the program of the pipelines' labels; -/
abbrev callP : Prog (TpuEff nD τ sig (Elt F) (ΛP (F := F)) .tc) PUnit :=
  .op (.customCall (Pipeline.entry (0 : Fin 1)) ()) fun _ => .ret ⟨⟩

/-- lifted to the launch protocol's labels it is the call @main makes. -/
theorem lift_callP : SparseCore.liftProg (Q := 1) (callP (F := F))
    = (Prog.lift (.customCall (SparseCore.inner (Pipeline.entry (0 : Fin 1))) ()) : Prog (TpuEff nD τ sig (Elt F) (SparseCore.Sig (ΛP (F := F)) 1) .tc) PUnit) := rfl

set_option backward.isDefEq.respectTransparency.types false in
/-- The region under the pipelines' body table. -/
theorem tc_region_D (hO : ∀ g, O g none = 0) (hlv : (K (F := F)).Refines lv) :
    iprop(TcGhost (F := F) d ∗ boundary (d : Thread nD τ) ∗ levAts (K (F := F)).L lv
        ∗ ptArg d fullShare X ∗ ptOut d Y0 ∗ Pipeline.owesWithin d O B)
      ⊢ wp frame (wpE (D (F := F)) 𝒱 (d : Thread nD τ) none) Set.univ (callP (F := F)) (fun _ => tcPost d X Y0 O B) := by
  have h := Pipeline.RegionSeg.wp (pcfgs (F := F)) adm (pdats (fun _ => X) (fun _ => Y0) (fun _ => O) (fun _ => B)) none cellOf_inj (ER (F := F)) defs₀ 𝒱₀ (K (F := F)).L lv
    (reg (fun _ => X) (fun _ => Y0) (fun _ => O) (fun _ => B) lv (fun _ => hO) hlv) d none (by intro u hu; cases hu) (α := PUnit) (fun _ => Prog.ret PUnit.unit) (fun _ => tcPost d X Y0 O B)
  rw [reg_pre, reg_post] at h
  refine BIBase.Entails.trans ?_ h
  unfold TcGhost
  iintro ⟨⟨Hcg, Htk⟩, Hb, Hlev, Ha, Hv, Ho⟩
  isplitr
  · iintro ⟨Hb, Ha, Hv, Ho⟩
    rw [wp_ret]
    imodintro
    isplitl [Hb]; · iexact Hb
    isplitl [Ha]; · iexact Ha
    isplitl [Hv]; · iexact Hv
    iexact Ho
  isplitl [Hb]; · iexact Hb
  isplitl [Ha Hv Ho]
  · isplitl [Ha]; · iexact Ha
    isplitl [Hv]; · iexact Hv
    iexact Ho
  isplitl [Hlev]; · iexact Hlev
  isplitl [Hcg]; · iexact Hcg
  iexact Htk

/-- From the pipeline's ghost state, the region boundary, the level facts, the input array whole at `X`, the result's
    array whole at `Y0` and the thread owing `O` (nothing at the index the pipeline's waits use), its recorded pairs
    within `B`: the call runs to the boundary, the input array whole at `X` again, the result's array at what the
    write-backs leave, and the thread owing `O` still, its recorded pairs within `B` and the pipeline's own. -/
theorem tc_region_frame (hO : ∀ g, O g none = 0) (hlv : (K (F := F)).Refines lv) :
    iprop(TcGhost (F := F) d ∗ boundary (d : Thread nD τ) ∗ levAts (K (F := F)).L lv
        ∗ ptArg d fullShare X ∗ ptOut d Y0 ∗ Pipeline.owesWithin d O B)
      ⊢ wp frame (wpE ((K (F := F)).defs (D (F := F))) 𝒱 (SparseCore.T d) none) Set.univ
          (Prog.lift (.customCall (SparseCore.inner (Q := 1) (Pipeline.entry (0 : Fin 1))) ())) (fun _ => tcPost d X Y0 O B) := by
  have h := (K (F := F)).wp_liftProg (Name := ℕ) (U := UU) (D (F := F)) 𝒱 (SparseCore.T d) Set.univ none (callP (F := F)) (fun _ => tcPost d X Y0 O B)
  rw [lift_callP] at h
  exact (tc_region_D d X Y0 O B lv hO hlv).trans h

end Rule

end Cert.KernelIdeal.Pf

end
-- ==== Proof.TcOutI.lean ====
/-
  The result of the TensorCore's pipelined call as one function of the input array.
-/
import proofs.«213435_g4140348473474_cont_8to1_b_470_36_alg».proof.Proof.CommonI
import Idealize.ShloMosaic.Lib.ValueIdx

noncomputable section

namespace Cert.KernelIdeal.Pf

open Cert.KernelIdeal Cert.KernelIdeal.Gen

open Idealize.ShloMosaic

variable {F : FTy → Type} [FloatOps F]

/-- The call's result as one function of the input array: at row `g` and column `col`, the body's product of the
    constant selector with the input's block of rows `512 (col / 512) … + 511` (its first 128 columns), at
    `(g, col % 512)`. -/
def tcOut (X : S16384x2048.Idx → Elt F .f32) : S32x12288.Idx → Elt F .f32 := fun j =>
  k1_pay8 (F := F)
    (fun y : S512x128.Idx => X (ValueIdx.ix2
      (⟨512 * ((j 1).val / 512) + (y 0).val, by
        have h1 : (j 1).val < 12288 := (j 1).isLt
        have h2 : (y 0).val < 512 := (y 0).isLt
        omega⟩ : Fin 16384)
      (⟨(y 1).val, by have h2 : (y 1).val < 128 := (y 1).isLt; omega⟩ : Fin 2048)))
    (ValueIdx.ix2 (⟨(j 0).val, (j 0).isLt⟩ : Fin 32) (⟨(j 1).val % 512, Nat.mod_lt _ (by decide)⟩ : Fin 512))

end Cert.KernelIdeal.Pf

end
-- ==== Proof.TcRegionVal.lean ====
import proofs.«213435_g4140348473474_cont_8to1_b_470_36_alg».proof.Proof.CommonI
import Idealize.ShloMosaic.Lib.Pipeline.Regions
import Idealize.ShloMosaic.Lib.Pipeline.FrameBody
import proofs.«213435_g4140348473474_cont_8to1_b_470_36_alg».proof.Proof.TcRegion
import proofs.«213435_g4140348473474_cont_8to1_b_470_36_alg».proof.Proof.TcOutI
import Idealize.ShloMosaic.Lib.Pipeline.Value

noncomputable section

namespace Cert.KernelIdeal.Pf

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The result's array after the region, as one function of the input array

Point `t` of the grid writes columns `4096 t … 4096 t + 4095` of the result; within them the `q`-th run of 512 columns is
the body's product of the constant selector with the block of the input array of rows `512 (8 t + q) … + 511`, its
first 128 columns. So column `col` of the result reads block `col / 512` of the input at local column `col % 512`. -/

/-- The printed index maps, decided over the grid. -/
theorem idx_facts : ∀ t : Fin cfg1.N,
    (win1_0.index t (0 : Fin 2) = 8 * t.val + 0 ∧ win1_0.index t (1 : Fin 2) = 0)
    ∧ (win1_1.index t (0 : Fin 2) = 8 * t.val + 1 ∧ win1_1.index t (1 : Fin 2) = 0)
    ∧ (win1_2.index t (0 : Fin 2) = 8 * t.val + 2 ∧ win1_2.index t (1 : Fin 2) = 0)
    ∧ (win1_3.index t (0 : Fin 2) = 8 * t.val + 3 ∧ win1_3.index t (1 : Fin 2) = 0)
    ∧ (win1_4.index t (0 : Fin 2) = 8 * t.val + 4 ∧ win1_4.index t (1 : Fin 2) = 0)
    ∧ (win1_5.index t (0 : Fin 2) = 8 * t.val + 5 ∧ win1_5.index t (1 : Fin 2) = 0)
    ∧ (win1_6.index t (0 : Fin 2) = 8 * t.val + 6 ∧ win1_6.index t (1 : Fin 2) = 0)
    ∧ (win1_7.index t (0 : Fin 2) = 8 * t.val + 7 ∧ win1_7.index t (1 : Fin 2) = 0)
    ∧ (win1_8.index t (0 : Fin 2) = 0 ∧ win1_8.index t (1 : Fin 2) = t.val) :=
  (by decide +kernel : ∀ t : Fin grid1.N, _)

section Val

variable (d : Dev nD) (X : S16384x2048.Idx → Elt F .f32) (Y0 : S32x12288.Idx → Elt F .f32)
  (O : CellTallies nD τ sig (HIx 1)) (B : Set (SemLoc sig × HIx 1))

/-- Every store's payload is the one product. -/
theorem pay1_eq (v : Vec F S512x128 .f32) : k1_pay1 (k1_pay7 (F := F)) v = k1_pay8 v := rfl
theorem pay2_eq (v : Vec F S512x128 .f32) : k1_pay2 (k1_pay7 (F := F)) v = k1_pay8 v := rfl
theorem pay3_eq (v : Vec F S512x128 .f32) : k1_pay3 (k1_pay7 (F := F)) v = k1_pay8 v := rfl
theorem pay4_eq (v : Vec F S512x128 .f32) : k1_pay4 (k1_pay7 (F := F)) v = k1_pay8 v := rfl
theorem pay5_eq (v : Vec F S512x128 .f32) : k1_pay5 (k1_pay7 (F := F)) v = k1_pay8 v := rfl
theorem pay6_eq (v : Vec F S512x128 .f32) : k1_pay6 (k1_pay7 (F := F)) v = k1_pay8 v := rfl
theorem pay9_eq (v : Vec F S512x128 .f32) : k1_pay9 (F := F) v = k1_pay8 v := rfl

/-- One store of the body, read against `tcOut`: the product of the selector with a block `v` that is rows
    `512 (8 t + q) …` of the input, at `x`, is `tcOut X` at row `x 0` and column `4096 t + 512 q + x 1`. -/
theorem piece_val (t : Fin cfg1.N) (q : ℕ) (hq : q < 8) (v : Vec F S512x128 .f32) (x : S32x512.Idx) (j : S32x12288.Idx)
    (hj0 : (j 0).val = (x 0).val) (hj1 : (j 1).val = 4096 * t.val + 512 * q + (x 1).val)
    (hv : ∀ y' : S512x128.Idx, ∃ i : S16384x2048.Idx, v y' = X i ∧ (i 0).val = 512 * (8 * t.val + q) + (y' 0).val ∧ (i 1).val = (y' 1).val) :
    k1_pay8 v x = tcOut X j := by
  have hx1 : (x 1).val < 512 := (x 1).isLt
  unfold tcOut
  congr 1
  · funext y'
    obtain ⟨i, hi, h0, h1⟩ := hv y'
    rw [hi]
    congr 1
    funext a; apply Fin.ext
    match a with
    | ⟨0, _⟩ => show (i 0).val = 512 * ((j 1).val / 512) + (y' 0).val; omega
    | ⟨1, _⟩ => show (i 1).val = (y' 1).val; omega
  · funext a; apply Fin.ext
    match a with
    | ⟨0, _⟩ => show (x 0).val = (j 0).val; omega
    | ⟨1, _⟩ => show (x 1).val = (j 1).val % 512; omega

/-- WHAT POINT `t` WRITES BACK is block `t` of `tcOut X`. -/
theorem flushed8_eq (t : Fin cfg1.N) :
    (dats d X Y0 O B).flushed 8 t = ((cfg1.win 8).blk t).view.read (Elt F) (tcOut X) := by
  show (cfg1.win 8).cut (grid1.coords t) ((dats d X Y0 O B).after 8 t) = _
  rw [after1_8]
  unfold outBlk outAt
  simp only [pay1_eq, pay2_eq, pay3_eq, pay4_eq, pay5_eq, pay6_eq, pay9_eq]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
  funext y
  refine (View.canon_apply_of_pieces (((cfg1.win 8).blk t).view.read (Elt F) (tcOut X)) _ ?_ y (cover_out _ _ _ _ _ _ _ _ y))
  intro p hp x
  simp only [List.mem_cons, List.mem_nil_iff, or_false] at hp
  rcases hp with rfl | rfl | rfl | rfl | rfl | rfl | rfl | rfl
  · refine piece_val X t 7 (by decide) _ x _
      (show win1_8.index t (0 : Fin 2) * 32 + 1 * (0 + 1 * (x 0).val) = (x 0).val from by omega)
      (show win1_8.index t (1 : Fin 2) * 4096 + 1 * (3584 + 1 * (x 1).val) = 4096 * t.val + 512 * 7 + (x 1).val from by omega)
      (fun y' => ⟨_, rfl, show win1_7.index t (0 : Fin 2) * 512 + 1 * (0 + 1 * (y' 0).val) = 512 * (8 * t.val + 7) + (y' 0).val from by omega,
        show win1_7.index t (1 : Fin 2) * 128 + 1 * (0 + 1 * (y' 1).val) = (y' 1).val from by omega⟩)
  · refine piece_val X t 6 (by decide) _ x _
      (show win1_8.index t (0 : Fin 2) * 32 + 1 * (0 + 1 * (x 0).val) = (x 0).val from by omega)
      (show win1_8.index t (1 : Fin 2) * 4096 + 1 * (3072 + 1 * (x 1).val) = 4096 * t.val + 512 * 6 + (x 1).val from by omega)
      (fun y' => ⟨_, rfl, show win1_6.index t (0 : Fin 2) * 512 + 1 * (0 + 1 * (y' 0).val) = 512 * (8 * t.val + 6) + (y' 0).val from by omega,
        show win1_6.index t (1 : Fin 2) * 128 + 1 * (0 + 1 * (y' 1).val) = (y' 1).val from by omega⟩)
  · refine piece_val X t 5 (by decide) _ x _
      (show win1_8.index t (0 : Fin 2) * 32 + 1 * (0 + 1 * (x 0).val) = (x 0).val from by omega)
      (show win1_8.index t (1 : Fin 2) * 4096 + 1 * (2560 + 1 * (x 1).val) = 4096 * t.val + 512 * 5 + (x 1).val from by omega)
      (fun y' => ⟨_, rfl, show win1_5.index t (0 : Fin 2) * 512 + 1 * (0 + 1 * (y' 0).val) = 512 * (8 * t.val + 5) + (y' 0).val from by omega,
        show win1_5.index t (1 : Fin 2) * 128 + 1 * (0 + 1 * (y' 1).val) = (y' 1).val from by omega⟩)
  · refine piece_val X t 4 (by decide) _ x _
      (show win1_8.index t (0 : Fin 2) * 32 + 1 * (0 + 1 * (x 0).val) = (x 0).val from by omega)
      (show win1_8.index t (1 : Fin 2) * 4096 + 1 * (2048 + 1 * (x 1).val) = 4096 * t.val + 512 * 4 + (x 1).val from by omega)
      (fun y' => ⟨_, rfl, show win1_4.index t (0 : Fin 2) * 512 + 1 * (0 + 1 * (y' 0).val) = 512 * (8 * t.val + 4) + (y' 0).val from by omega,
        show win1_4.index t (1 : Fin 2) * 128 + 1 * (0 + 1 * (y' 1).val) = (y' 1).val from by omega⟩)
  · refine piece_val X t 3 (by decide) _ x _
      (show win1_8.index t (0 : Fin 2) * 32 + 1 * (0 + 1 * (x 0).val) = (x 0).val from by omega)
      (show win1_8.index t (1 : Fin 2) * 4096 + 1 * (1536 + 1 * (x 1).val) = 4096 * t.val + 512 * 3 + (x 1).val from by omega)
      (fun y' => ⟨_, rfl, show win1_3.index t (0 : Fin 2) * 512 + 1 * (0 + 1 * (y' 0).val) = 512 * (8 * t.val + 3) + (y' 0).val from by omega,
        show win1_3.index t (1 : Fin 2) * 128 + 1 * (0 + 1 * (y' 1).val) = (y' 1).val from by omega⟩)
  · refine piece_val X t 2 (by decide) _ x _
      (show win1_8.index t (0 : Fin 2) * 32 + 1 * (0 + 1 * (x 0).val) = (x 0).val from by omega)
      (show win1_8.index t (1 : Fin 2) * 4096 + 1 * (1024 + 1 * (x 1).val) = 4096 * t.val + 512 * 2 + (x 1).val from by omega)
      (fun y' => ⟨_, rfl, show win1_2.index t (0 : Fin 2) * 512 + 1 * (0 + 1 * (y' 0).val) = 512 * (8 * t.val + 2) + (y' 0).val from by omega,
        show win1_2.index t (1 : Fin 2) * 128 + 1 * (0 + 1 * (y' 1).val) = (y' 1).val from by omega⟩)
  · refine piece_val X t 1 (by decide) _ x _
      (show win1_8.index t (0 : Fin 2) * 32 + 1 * (0 + 1 * (x 0).val) = (x 0).val from by omega)
      (show win1_8.index t (1 : Fin 2) * 4096 + 1 * (512 + 1 * (x 1).val) = 4096 * t.val + 512 * 1 + (x 1).val from by omega)
      (fun y' => ⟨_, rfl, show win1_1.index t (0 : Fin 2) * 512 + 1 * (0 + 1 * (y' 0).val) = 512 * (8 * t.val + 1) + (y' 0).val from by omega,
        show win1_1.index t (1 : Fin 2) * 128 + 1 * (0 + 1 * (y' 1).val) = (y' 1).val from by omega⟩)
  · refine piece_val X t 0 (by decide) _ x _
      (show win1_8.index t (0 : Fin 2) * 32 + 1 * (0 + 1 * (x 0).val) = (x 0).val from by omega)
      (show win1_8.index t (1 : Fin 2) * 4096 + 1 * (0 + 1 * (x 1).val) = 4096 * t.val + 512 * 0 + (x 1).val from by omega)
      (fun y' => ⟨_, rfl, show win1_0.index t (0 : Fin 2) * 512 + 1 * (0 + 1 * (y' 0).val) = 512 * (8 * t.val + 0) + (y' 0).val from by omega,
        show win1_0.index t (1 : Fin 2) * 128 + 1 * (0 + 1 * (y' 1).val) = (y' 1).val from by omega⟩)

/-- An index of the result's array is in point `t`'s block iff each coordinate is in the block's range on its axis. -/
theorem mem_blk8 (t : Fin cfg1.N) (i : S32x12288.Idx) :
    i ∈ ((cfg1.win 8).blk t).view.set ↔ ∀ a : Fin 2, win1_8.index t a * S32x4096.size a ≤ (i a).val ∧ (i a).val < win1_8.index t a * S32x4096.size a + S32x4096.size a := by
  show i ∈ ((View.whole main_v1).slice (win1_8.rect t)).set ↔ _
  rw [View.set_slice_whole, Rect.mem_set_unit]
  exact Iff.rfl

/-- Every run of 4096 columns is SOME point's block. -/
theorem idx_onto8 : ∀ q1 : Fin 3, ∃ t : Fin cfg1.N, win1_8.index t = ![0, q1.val] :=
  (by decide +kernel : ∀ q1 : Fin 3, ∃ t : Fin grid1.N, win1_8.index t = ![0, q1.val])

/-- The three points' blocks cover the result's array. -/
theorem covered8 (i : S32x12288.Idx) : ∃ t : Fin cfg1.N, (cfg1.win 8).flush t = true ∧ i ∈ ((cfg1.win 8).blk t).view.set := by
  have hi0 : (i 0).val < 32 := (i 0).isLt
  have hi1 : (i 1).val < 12288 := (i 1).isLt
  obtain ⟨t, ht⟩ := idx_onto8 ⟨(i 1).val / 4096, by omega⟩
  have q0 : win1_8.index t (0 : Fin 2) = 0 := congrFun ht 0
  have q1 : win1_8.index t (1 : Fin 2) = (i 1).val / 4096 := congrFun ht 1
  refine ⟨t, flush1_8 t, ?_⟩
  rw [mem_blk8]
  intro a
  match a with
  | ⟨0, _⟩ => show win1_8.index t (0 : Fin 2) * 32 ≤ (i 0).val ∧ (i 0).val < win1_8.index t (0 : Fin 2) * 32 + 32; omega
  | ⟨1, _⟩ => show win1_8.index t (1 : Fin 2) * 4096 ≤ (i 1).val ∧ (i 1).val < win1_8.index t (1 : Fin 2) * 4096 + 4096; omega

/-- THE RESULT'S ARRAY after the region is `tcOut X`, whatever it held before. -/
theorem arrAt8_eq : (dats d X Y0 O B).arrAt 8 cfg1.N = tcOut X :=
  (dats d X Y0 O B).arrAt_eq_of_cover 8 (tcOut X) (fun t _ => flushed8_eq d X Y0 O B t) covered8

end Val

/-! ## The rule of the region, the result named -/

section RuleVal

variable (d : Dev nD) (X : S16384x2048.Idx → Elt F .f32) (Y0 : S32x12288.Idx → Elt F .f32)
  (O : CellTallies nD τ sig (HIx 1)) (B : Set (SemLoc sig × HIx 1)) (lv : GSem nD τ sig → HIx 1 → ℕ)

/-- What the write-backs leave in the result's array is `tcOut X`. -/
theorem tcOutF_eq : tcOutF d X Y0 O B = tcOut X := arrAt8_eq d X Y0 O B

/-- THE REGION: from the pipeline's ghost state, the region boundary, the level facts, the input array whole at `X`, the
    result's array whole at anything and the thread owing `O` (nothing at the index the pipeline's waits use), its
    recorded pairs within `B`, the call runs to the boundary, the input array whole at `X` again, the result's array
    whole at `tcOut X`, and the thread owing `O` still, its recorded pairs within `B` and the pipeline's own. -/
theorem tc_region (hO : ∀ g, O g none = 0) (hlv : (K (F := F)).Refines lv) :
    iprop(TcGhost (F := F) d ∗ boundary (d : Thread nD τ) ∗ levAts (K (F := F)).L lv
        ∗ ptArg d fullShare X ∗ ptOut d Y0 ∗ Pipeline.owesWithin d O B)
      ⊢ wp frame (wpE ((K (F := F)).defs (D (F := F))) 𝒱 (SparseCore.T d) none) Set.univ
          (Prog.lift (.customCall (SparseCore.inner (Q := 1) (Pipeline.entry (0 : Fin 1))) ()))
          (fun _ => iprop(boundary (d : Thread nD τ) ∗ ptArg d fullShare X ∗ ptOut d (tcOut X)
            ∗ Pipeline.owesWithin d O (B ∪ cfg1.waitPairs none))) := by
  have h := tc_region_frame d X Y0 O B lv hO hlv
  unfold tcPost at h
  rw [tcOutF_eq] at h
  exact h

end RuleVal

end Cert.KernelIdeal.Pf

end
-- ==== Proof.TcRegionUseI.lean ====
import proofs.«213435_g4140348473474_cont_8to1_b_470_36_alg».proof.Proof.CommonI
import Idealize.ShloMosaic.Lib.Pipeline.Regions
import Idealize.ShloMosaic.Lib.Pipeline.FrameBody
import proofs.«213435_g4140348473474_cont_8to1_b_470_36_alg».proof.Proof.TcRegionDat

noncomputable section

namespace Cert.KernelIdeal.Pf

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The region inside the launch protocol: what the TensorCore owes around it

Between the launch protocol's calls the TensorCore owes only units at a call's index, and its recorded pairs sit at or
below the level cut of the next call. The pipeline's waits record pairs at the index no call uses, at level zero: they
keep that bound. -/

section Use

variable (d : Dev nD)

/-- The TensorCore owes nothing at the index no call uses. -/
theorem Otc_none (n : ℕ) (g : GSem nD τ sig) : (K (F := F)).Otc d n g none = 0 :=
  Nat.eq_zero_of_not_pos fun h => by
    have h' := (K (F := F)).lev_of_Otc_pos h
    rw [SparseCore.Cfg.lev_none] at h'
    omega

/-- After the last call it owes nothing at all. -/
theorem Otc_last : (K (F := F)).Otc d 1 = 0 := (K (F := F)).Otc_end d (le_refl 1)

/-- The pairs of the TensorCore at or below level `b`. -/
abbrev belowSet (b : ℕ) : Set (SemLoc sig × HIx 1) := {p | (K (F := F)).lev (SparseCore.T d, p.1) p.2 ≤ b}

/-- What the thread owes with its recorded pairs below the cut `b`, as the region takes it; -/
theorem owesWithin_of_WBelow (b : ℕ) (O : CellTallies nD τ sig (HIx 1)) (W : Waits sig (HIx 1)) (hW : (K (F := F)).WBelow (SparseCore.T d) W b) :
    (owes (SparseCore.T d) O W : sProp 𝕄) ⊢ Pipeline.owesWithin d O (belowSet (F := F) d b) := by
  iintro H
  iexists W
  isplitr
  · ipureintro; exact fun p hp => hW p (Finset.mem_coe.mp hp)
  iexact H

/-- and as it gives it back: the pipeline's own pairs are at level zero. -/
theorem WBelow_of_owesWithin (b : ℕ) (O : CellTallies nD τ sig (HIx 1)) :
    (Pipeline.owesWithin d O (belowSet (F := F) d b ∪ cfg1.waitPairs none) : sProp 𝕄)
      ⊢ iprop(∃ W, ⌜(K (F := F)).WBelow (SparseCore.T d) W b⌝ ∗ owes (SparseCore.T d) O W) := by
  iintro ⟨%W, %hW, H⟩
  iexists W
  isplitr
  · ipureintro
    intro p hp
    rcases hW (Finset.mem_coe.mpr hp) with h | ⟨w, s, rfl⟩
    · exact h
    · show (K (F := F)).lev (SparseCore.T d, _) none ≤ b
      rw [SparseCore.Cfg.lev_none]; exact Nat.zero_le _
  iexact H

end Use

end Cert.KernelIdeal.Pf

end
-- ==== Proof.HmainI.lean ====
import proofs.«213435_g4140348473474_cont_8to1_b_470_36_alg».proof.Proof.PayI
import proofs.«213435_g4140348473474_cont_8to1_b_470_36_alg».proof.Proof.HostTailI
import proofs.«213435_g4140348473474_cont_8to1_b_470_36_alg».proof.Proof.TcRegionVal
import proofs.«213435_g4140348473474_cont_8to1_b_470_36_alg».proof.Proof.TcRegionUseI

noncomputable section

namespace Cert.KernelIdeal.Pf

open Cert.KernelIdeal Cert.KernelIdeal.Gen

open Idealize.ShloMosaic Idealize.ShloMosaic.StableHlo
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## @main on the TensorCore

The SparseCore call takes the argument's and the first result array's chunks and hands them back, the result's at
`scOut` of the argument; the pipelined call then fills the second result array with `tcOut` of the argument; three
host operations join the two. -/

abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The three host operations, as @main spells them. -/
abbrev opT0 : HloOp τ sig (Elt F) :=
  StableHlo.unary main_v0 main_v2 ((transpose S32x4096 [1, 0] · transposes_S4096x32_S32x4096_1_0) : (⟨S4096x32, .f32⟩ : BufTy).Contents (Elt F) → (⟨S32x4096, .f32⟩ : BufTy).Contents (Elt F))
abbrev opCat : HloOp τ sig (Elt F) :=
  StableHlo.binary main_v1 main_v2 main_v3 ((fun a b => concatenate S32x16384 1 [⟨S32x12288, a⟩, ⟨S32x4096, b⟩] concatenates_S32x12288_S32x4096_S32x16384_d1) : (⟨S32x12288, .f32⟩ : BufTy).Contents (Elt F) → (⟨S32x4096, .f32⟩ : BufTy).Contents (Elt F) → (⟨S32x16384, .f32⟩ : BufTy).Contents (Elt F))
abbrev opT1 : HloOp τ sig (Elt F) :=
  StableHlo.unary main_v3 main_v4 ((transpose S16384x32 [1, 0] · transposes_S32x16384_S16384x32_1_0) : (⟨S32x16384, .f32⟩ : BufTy).Contents (Elt F) → (⟨S16384x32, .f32⟩ : BufTy).Contents (Elt F))

/-- The five result arrays of @main. -/
abbrev S5 : Finset (DevRef τ sig) := {v0', v1', v2', v3', v4'}

omit [FloatOps F] in
theorem held_S5 (d : Dev nD) (W : Valuation τ sig (Elt F)) :
    (held (SparseCore.T d) S5 W : sProp 𝕄)
      = iprop(((SparseCore.T d).loc main_v0 ↦{fullShare} W v0') ∗ ((SparseCore.T d).loc main_v1 ↦{fullShare} W v1')
          ∗ ((SparseCore.T d).loc main_v2 ↦{fullShare} W v2') ∗ ((SparseCore.T d).loc main_v3 ↦{fullShare} W v3')
          ∗ ((SparseCore.T d).loc main_v4 ↦{fullShare} W v4')) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (oLoc d ↦{fullShare} W main_v0) ∗ ((SparseCore.T d).loc main_v1 ↦{fullShare} W main_v1)
          ∗ ((SparseCore.T d).loc main_v2 ↦{fullShare} W main_v2) ∗ ((SparseCore.T d).loc main_v3 ↦{fullShare} W main_v3)
          ∗ ((SparseCore.T d).loc main_v4 ↦{fullShare} W main_v4)) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

/-- The arrays' contents when the host operations begin: as launched, but the two kernels' results. -/
def Va (d : Dev nD) : Valuation τ sig (Elt F) :=
  Function.update (Function.update (fun b => m (d, b)) v0' (scOut (m (xLoc d)))) v1' (tcOut (m (xLoc d)))

theorem Va_v0 (d : Dev nD) : Va m d v0' = scOut (m (xLoc d)) :=
  (Function.update_of_ne (show v0' ≠ v1' by decide) _ _).trans (Function.update_self _ _ _)
theorem Va_v1 (d : Dev nD) : Va m d v1' = tcOut (m (xLoc d)) := Function.update_self _ _ _
theorem Va_v2 (d : Dev nD) : Va m d v2' = m (d, v2') :=
  (Function.update_of_ne (show v2' ≠ v1' by decide) _ _).trans (Function.update_of_ne (show v2' ≠ v0' by decide) _ _)
theorem Va_v3 (d : Dev nD) : Va m d v3' = m (d, v3') :=
  (Function.update_of_ne (show v3' ≠ v1' by decide) _ _).trans (Function.update_of_ne (show v3' ≠ v0' by decide) _ _)
theorem Va_v4 (d : Dev nD) : Va m d v4' = m (d, v4') :=
  (Function.update_of_ne (show v4' ≠ v1' by decide) _ _).trans (Function.update_of_ne (show v4' ≠ v0' by decide) _ _)

theorem hT0 : (opT0 (F := F)).bufs ⊆ S5 := show ({v0', v2'} : Finset (DevRef τ sig)) ⊆ S5 by decide
theorem hCat : (opCat (F := F)).bufs ⊆ S5 := show ({v1', v2', v3'} : Finset (DevRef τ sig)) ⊆ S5 by decide
theorem hT1 : (opT1 (F := F)).bufs ⊆ S5 := show ({v3', v4'} : Finset (DevRef τ sig)) ⊆ S5 by decide

/-- What the three operations leave in the last array. -/
theorem result_v4 (d : Dev nD) :
    (opT1 (F := F)).result ((opCat (F := F)).result ((opT0 (F := F)).result (Va m d))) v4'
      = hostTail (tcOut (m (xLoc d))) (scOut (m (xLoc d))) := by
  rw [StableHlo.unary_result', StableHlo.binary_result', StableHlo.unary_result_ne (h := show main_v1 ≠ main_v2 by decide),
    StableHlo.unary_result', Va_v0, Va_v1]
  rfl

/-- What @main leaves the claim: the argument at its launch contents, the last array at the host operations' result of
    the two kernels' results. -/
abbrev FIN (d : Dev nD) : sProp 𝕄 :=
  iprop((xLoc d ↦{fullShare} m (xLoc d))
    ∗ ((SparseCore.T d).loc main_v4 ↦{fullShare} hostTail (tcOut (m (xLoc d))) (scOut (m (xLoc d)))))

/-- What the SparseCore call hands back, the two arrays' chunks apart. -/
theorem dn0_split (d : Dev nD) :
    (bigSep Finset.univ fun c : Fin ((K (F := F)).nCore 0) => (P m).dn 0 d c)
      = iprop((bigSep Finset.univ fun c : Fin 2 => bigSep Finset.univ fun i : Fin 16 => xChunks d (coordsV c i) (m (xLoc d)))
          ∗ (bigSep Finset.univ fun c : Fin 2 => bigSep Finset.univ fun i : Fin 16 => oChunks d (coordsV c i) (scOut (m (xLoc d))))) := by
  rw [dn0_eq]; simp only [tileTd, bigSep_sep']
/-- What it takes, the same way. -/
theorem st0_split (d : Dev nD) :
    (bigSep Finset.univ fun c : Fin ((K (F := F)).nCore 0) => (P m).st 0 d c)
      = iprop((bigSep Finset.univ fun c : Fin 2 => bigSep Finset.univ fun i : Fin 16 => xChunks d (coordsV c i) (m (xLoc d)))
          ∗ (bigSep Finset.univ fun c : Fin 2 => bigSep Finset.univ fun i : Fin 16 => oChunks d (coordsV c i) (m (oLoc d)))) := by
  rw [st0_eq]; simp only [tileGo, bigSep_sep']

theorem hmain (ρ : Dev nD → PrngReg) (κ : GSem nD τ sig → ℕ) (d : Dev nD) :
    iprop((K (F := F)).ctx EH (P m) κ ∗ (K (F := F)).tcSt EH d 0 ∗ (K (F := F)).tcRes m ρ d ∗ TcGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, H0, H1, H2, H3, H4⟩, -, -⟩, Hg⟩
  -- the SparseCore call: the chunks of the argument and of the first result array, there and back
  ihave Hxs := (xPts_chunks d (m (xLoc d))).1 $$ Hx
  icases Hxs with ⟨Hxc, Hxr⟩
  ihave H0c := (Entails.of_eq (oPts_chunks d (m (oLoc d)))) $$ H0
  iapply ((K (F := F)).wp_run (D (F := F)) 𝒱 (EH := EH) (P := P m) κ d 0) $$ [Hst Hxc H0c Hxr Hb H1 H2 H3 H4 Hg]
  isplitr; · iexact Hctx
  isplitl [Hst]; · iexact Hst
  isplitl [Hxc H0c]
  · rw [st0_split]
    isplitl [Hxc]; · iexact Hxc
    iexact H0c
  iintro ⟨Hst, Hdn⟩
  ihave Hdn' := (Entails.of_eq (dn0_split m d)) $$ Hdn
  icases Hdn' with ⟨Hxc, H0c⟩
  ihave Hx := (xPts_chunks d (m (xLoc d))).2 $$ [Hxc Hxr]
  · isplitl [Hxc] <;> iassumption
  ihave H0 := (Entails.of_eq (oPts_chunks d (scOut (m (xLoc d)))).symm) $$ H0c
  -- the pipelined call: the thread's debts in, the region, the debts back
  ihave Hst' := (Entails.of_eq (show (K (F := F)).tcSt EH d ((0 : Fin 1).val + 1) = _ from by unfold SparseCore.Cfg.tcSt; rfl)) $$ Hst
  icases Hst' with ⟨⟨%W, %hW, HO⟩, Hrest⟩
  ihave Hlev := (SparseCore.Cfg.ctx_levAts (K := K (F := F)) (EH := EH) (P := P m) κ) $$ Hctx
  ihave HOw := (owesWithin_of_WBelow (F := F) d (8 * ((0 : Fin 1).val + 1)) ((K (F := F)).Otc d ((0 : Fin 1).val + 1)) W hW) $$ HO
  iapply (wp_wand_r frame _ _)
  isplitl [Hg Hb Hlev Hx H1 HOw]
  · iapply (tc_region d (m (xLoc d)) (m ((SparseCore.T d).loc main_v1)) ((K (F := F)).Otc d ((0 : Fin 1).val + 1))
      (belowSet (F := F) d (8 * ((0 : Fin 1).val + 1))) (K (F := F)).lev (Otc_none d _) (SparseCore.Cfg.refines_self _))
    isplitl [Hg]; · iexact Hg
    isplitl [Hb]; · iexact Hb
    isplitl [Hlev]; · iexact Hlev
    isplitl [Hx]; · iexact Hx
    isplitl [H1]; · iexact H1
    iexact HOw
  iintro %a ⟨Hb, Hx, H1, HOw⟩
  -- the host operations, over the five result arrays
  iapply (wp_hlo_within 𝒱 (SparseCore.T d) none Set.univ (op := opT0) (S := S5) hT0 (V := Va m d)) $$ [Hb H0 H1 H2 H3 H4]
  · isplitl [Hb]; · iexact Hb
    rw [held_S5, Va_v0, Va_v1, Va_v2, Va_v3, Va_v4]
    isplitl [H0]; · iexact H0
    isplitl [H1]; · iexact H1
    isplitl [H2]; · iexact H2
    isplitl [H3]; · iexact H3
    iexact H4
  iintro ⟨Hb, Hheld⟩
  rw [wp_ret]; imodintro
  iapply (wp_hlo_within 𝒱 (SparseCore.T d) none Set.univ (op := opCat) (S := S5) hCat (V := (opT0 (F := F)).result (Va m d))) $$ [Hb Hheld]
  · isplitl [Hb] <;> iassumption
  iintro ⟨Hb, Hheld⟩
  rw [wp_ret]; imodintro
  iapply (wp_hlo_within 𝒱 (SparseCore.T d) none Set.univ (op := opT1) (S := S5) hT1 (V := (opCat (F := F)).result ((opT0 (F := F)).result (Va m d)))) $$ [Hb Hheld]
  · isplitl [Hb] <;> iassumption
  iintro ⟨Hb, Hheld⟩
  ihave Hh := (Entails.of_eq (held_S5 (F := F) d _)) $$ Hheld
  icases Hh with ⟨-, -, -, -, H4⟩
  rw [result_v4, wp_ret]
  imodintro; imodintro
  isplitl [HOw Hrest]
  · iapply (Entails.of_eq (show (K (F := F)).tcSt EH d 1 = _ from by unfold SparseCore.Cfg.tcSt; rfl).symm)
    isplitl [HOw]
    · iapply (WBelow_of_owesWithin (F := F) d (8 * ((0 : Fin 1).val + 1)) ((K (F := F)).Otc d ((0 : Fin 1).val + 1)))
      iexact HOw
    iexact Hrest
  isplitl [Hx]; · iexact Hx
  iexact H4

end Cert.KernelIdeal.Pf

end
-- ==== Proof.LaunchI.lean ====
import proofs.«213435_g4140348473474_cont_8to1_b_470_36_alg».proof.Proof.TileOblI
import proofs.«213435_g4140348473474_cont_8to1_b_470_36_alg».proof.Proof.HmainI

noncomputable section

namespace Cert.KernelIdeal.Pf

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The launch element: the handshakes' rounds and the pipeline's; the counters start empty -/

variable (m : (ℓ : Loc nD τ sig) → Buf (Elt F) ℓ) (ρ : Dev nD → PrngReg)

def u₀ : UU :=
  (initOf (K (F := F)).hsCells (K (F := F)).hsToks,
    (initOf (Pipeline.cells cfgs cellOf_inj) (Pipeline.launchToks cfgs cellOf_inj), 1))

omit [FloatOps F] in
theorem ownU_split (a : UH) (b : UR) (c : Counters) : (ownU (a, (b, c)) : sProp 𝕄) ⊢ iprop(BI.own (EH a) ∗ BI.own (ER b)) := by
  iintro H
  ihave H' := (ownU_pair (nD := nD) (τ := τ) (sig := sig) (Ix := HIx 1) (Val := Elt F) (Name := ℕ) (Lvl := ℕ) a (b, c)) $$ H
  icases H' with ⟨Ha, Hbc⟩
  ihave H'' := (own_pair_emb (embR (nD := nD) (τ := τ) (sig := sig) (Ix := HIx 1) (Val := Elt F) (Name := ℕ) (Lvl := ℕ) (A := UH) (B := UR × Counters)) b c) $$ Hbc
  icases H'' with ⟨Hb, -⟩
  isplitl [Ha]; · iexact Ha
  iexact Hb

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => TcGhost (F := F) d)
        ∗ bigSep Finset.univ fun thr : Thread nD τ => bigSep Finset.univ fun q : Fin 1 => (P m).x q thr) := by
  unfold u₀
  iintro Hu
  ihave H := (ownU_split _ _ _) $$ Hu
  icases H with ⟨HH, HR⟩
  imod (fund_tcGhost (F := F)) $$ HR with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the final memory says -/

abbrev vLoc (d : Dev nD) : Loc nD τ sig := (SparseCore.T d).loc main_v4

def fq (d : Dev nD) (s' : Phys nD τ sig (Elt F)) : Prop :=
  s'.mem.mem (xLoc d) = m (xLoc d) ∧ s'.mem.mem (vLoc d) = hostTail (tcOut (m (xLoc d))) (scOut (m (xLoc d)))

theorem hfin (d : Dev nD) (s' : Phys nD τ sig (Elt F)) : iprop(FIN m d ∗ SI s') ⊢ (⌜fq m d s'⌝ : sProp 𝕄) := by
  iintro ⟨⟨Hx, Hv⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := vLoc d) (I := Finset.univ) (q := fullShare) (f := hostTail (tcOut (m (xLoc d))) (scOut (m (xLoc d))))) $$ [HSI Hv]
  · isplitl [HSI] <;> iassumption
  icases H with %h2
  ipureintro; exact ⟨funext fun i => h1 i (Finset.mem_univ i), funext fun i => h2 i (Finset.mem_univ i)⟩

/-! ## The program's run -/

/-- The run's post: on every device the argument is unchanged and the result array holds the host tail of the
    two kernels' results. -/
def QC : PUnit × MemSt nD τ sig (Elt F) → Prop := fun r => ∀ c : Dev nD,
  r.2.mem (vLoc c) = hostTail (tcOut (m (xLoc c))) (scOut (m (xLoc c))) ∧ r.2.mem (xLoc c) = m (xLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => TcGhost (F := F) d) (FIN m) (u₀ (F := F)) (sep_elim_left.trans (hu₀ m)) (hmain m ρ) (fq m) (hfin m) (QC m)
    (fun _ h c => ⟨(h c).2, (h c).1⟩)

end Cert.KernelIdeal.Pf

end
-- ==== Proof.CommonB.lean ====
/-
  The program as the launch theorem for SparseCore programs sees it, and the ghost state every part of
  the frame proof shares: the rounds of the four launch handshakes, the rounds of the TensorCore
  pipeline's staging semaphores, and the counters of the vector subcores' own copies.
-/
import proofs.«213435_g4140348473474_cont_8to1_b_470_36_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«213435_g4140348473474_cont_8to1_b_470_36_alg».proof.Proof.Gen.Kernel
import proofs.«213435_g4140348473474_cont_8to1_b_470_36_alg».proof.Proof.Gen.Kernel.Skeleton
import proofs.«213435_g4140348473474_cont_8to1_b_470_36_alg».proof.Proof.Gen.Kernel.Launch
import proofs.«213435_g4140348473474_cont_8to1_b_470_36_alg».proof.Proof.Gen.Kernel.Points

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := UH × (UR × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance ER_landsIn : (ER : Emb UR 𝕄).LandsIn (upEmb : UEmb _ 𝕄) := by unfold ER; infer_instance

end Cert.Kernel.Pf

end
-- ==== Proof.TileDefsB.lean ====
import proofs.«213435_g4140348473474_cont_8to1_b_470_36_alg».proof.Proof.CommonB

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The task's memrefs, spelt as the body slices them -/

local notation "xW" => (Memref.whole Cert.Kernel.main_arg0_scv : Memref Cert.Kernel.sig Kind.scVector Space.hbm Cert.Kernel.S16384x2048 EltTy.f32)
local notation "oW" => (Memref.whole Cert.Kernel.main_v0_scv : Memref Cert.Kernel.sig Kind.scVector Space.hbm Cert.Kernel.S4096x32 EltTy.f32)
local notation "xB" => (Memref.whole Cert.Kernel.cc0_scratch0 : Memref Cert.Kernel.sig Kind.scVector Space.vmem Cert.Kernel.S128x128 EltTy.f32)
local notation "oB" => (Memref.whole Cert.Kernel.cc0_scratch1 : Memref Cert.Kernel.sig Kind.scVector Space.vmem Cert.Kernel.S128x32 EltTy.f32)

abbrev xLoc (d : Dev nD) : Loc nD τ sig := (SparseCore.T d).loc main_arg0
abbrev oLoc (d : Dev nD) : Loc nD τ sig := (SparseCore.T d).loc main_v0

abbrev cV (L : grid0.Coords) : Fin τ.nSC := (L 0).castLE hcore0
abbrev jV (L : grid0.Coords) : Fin τ.nSub := (L 1).castLE hsub0

/-- Chunk `k` of the task's 128 rows of the argument: 32 rows, the first 128 columns. -/
abbrev xS0 (L : grid0.Coords) : Memref sig .scVector .hbm S32x128 .f32 := (xW).slice (Rect.unit (s := S16384x2048) (k0_off1 L 0#32) S32x128.size (k0_off1_inb L 0)) (fun _ => rfl)
abbrev xS1 (L : grid0.Coords) : Memref sig .scVector .hbm S32x128 .f32 := (xW).slice (Rect.unit (s := S16384x2048) (k0_off1 L 32#32) S32x128.size (k0_off1_inb L 1)) (fun _ => rfl)
abbrev xS2 (L : grid0.Coords) : Memref sig .scVector .hbm S32x128 .f32 := (xW).slice (Rect.unit (s := S16384x2048) (k0_off1 L 64#32) S32x128.size (k0_off1_inb L 2)) (fun _ => rfl)
abbrev xS3 (L : grid0.Coords) : Memref sig .scVector .hbm S32x128 .f32 := (xW).slice (Rect.unit (s := S16384x2048) (k0_off1 L 96#32) S32x128.size (k0_off1_inb L 3)) (fun _ => rfl)
/-- The four 32-row slices of the row scratch. -/
abbrev xD0 : Memref sig .scVector .vmem S32x128 .f32 := (xB).slice (Rect.unit (s := S128x128) ![0, 0] S32x128.size inb_S128x128_S32x128_0_0) (fun _ => rfl)
abbrev xD1 : Memref sig .scVector .vmem S32x128 .f32 := (xB).slice (Rect.unit (s := S128x128) ![32, 0] S32x128.size inb_S128x128_S32x128_32_0) (fun _ => rfl)
abbrev xD2 : Memref sig .scVector .vmem S32x128 .f32 := (xB).slice (Rect.unit (s := S128x128) ![64, 0] S32x128.size inb_S128x128_S32x128_64_0) (fun _ => rfl)
abbrev xD3 : Memref sig .scVector .vmem S32x128 .f32 := (xB).slice (Rect.unit (s := S128x128) ![96, 0] S32x128.size inb_S128x128_S32x128_96_0) (fun _ => rfl)
/-- The four 32-row slices of the result scratch. -/
abbrev oS0 : Memref sig .scVector .vmem S32x32 .f32 := (oB).slice (Rect.unit (s := S128x32) ![0, 0] S32x32.size inb_S128x32_S32x32_0_0) (fun _ => rfl)
abbrev oS1 : Memref sig .scVector .vmem S32x32 .f32 := (oB).slice (Rect.unit (s := S128x32) ![32, 0] S32x32.size inb_S128x32_S32x32_32_0) (fun _ => rfl)
abbrev oS2 : Memref sig .scVector .vmem S32x32 .f32 := (oB).slice (Rect.unit (s := S128x32) ![64, 0] S32x32.size inb_S128x32_S32x32_64_0) (fun _ => rfl)
abbrev oS3 : Memref sig .scVector .vmem S32x32 .f32 := (oB).slice (Rect.unit (s := S128x32) ![96, 0] S32x32.size inb_S128x32_S32x32_96_0) (fun _ => rfl)
/-- Chunk `k` of the task's 128 rows of the result. -/
abbrev oD0 (L : grid0.Coords) : Memref sig .scVector .hbm S32x32 .f32 := (oW).slice (Rect.unit (s := S4096x32) (k0_off12 L 0#32) S32x32.size (k0_off12_inb L 0)) (fun _ => rfl)
abbrev oD1 (L : grid0.Coords) : Memref sig .scVector .hbm S32x32 .f32 := (oW).slice (Rect.unit (s := S4096x32) (k0_off12 L 32#32) S32x32.size (k0_off12_inb L 1)) (fun _ => rfl)
abbrev oD2 (L : grid0.Coords) : Memref sig .scVector .hbm S32x32 .f32 := (oW).slice (Rect.unit (s := S4096x32) (k0_off12 L 64#32) S32x32.size (k0_off12_inb L 2)) (fun _ => rfl)
abbrev oD3 (L : grid0.Coords) : Memref sig .scVector .hbm S32x32 .f32 := (oW).slice (Rect.unit (s := S4096x32) (k0_off12 L 96#32) S32x32.size (k0_off12_inb L 3)) (fun _ => rfl)
/-- The eight semaphores: one per incoming chunk, one per outgoing chunk. -/
abbrev iSem0 : DmaSem sig := ((cc0_scratch2.slice (Rect.unit (s := S4) ![0] S1.size inb_S4_S1_0)).squeeze S_ squeezes_S1_S_).sem
abbrev iSem1 : DmaSem sig := ((cc0_scratch2.slice (Rect.unit (s := S4) ![1] S1.size inb_S4_S1_1)).squeeze S_ squeezes_S1_S_).sem
abbrev iSem2 : DmaSem sig := ((cc0_scratch2.slice (Rect.unit (s := S4) ![2] S1.size inb_S4_S1_2)).squeeze S_ squeezes_S1_S_).sem
abbrev iSem3 : DmaSem sig := ((cc0_scratch2.slice (Rect.unit (s := S4) ![3] S1.size inb_S4_S1_3)).squeeze S_ squeezes_S1_S_).sem
abbrev oSem0 : DmaSem sig := ((cc0_scratch3.slice (Rect.unit (s := S4) ![0] S1.size inb_S4_S1_0)).squeeze S_ squeezes_S1_S_).sem
abbrev oSem1 : DmaSem sig := ((cc0_scratch3.slice (Rect.unit (s := S4) ![1] S1.size inb_S4_S1_1)).squeeze S_ squeezes_S1_S_).sem
abbrev oSem2 : DmaSem sig := ((cc0_scratch3.slice (Rect.unit (s := S4) ![2] S1.size inb_S4_S1_2)).squeeze S_ squeezes_S1_S_).sem
abbrev oSem3 : DmaSem sig := ((cc0_scratch3.slice (Rect.unit (s := S4) ![3] S1.size inb_S4_S1_3)).squeeze S_ squeezes_S1_S_).sem

/-- The coordinates of task `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- A task's four chunks of the argument, each exactly its slice's elements, all at the contents `f`. -/
abbrev xChunks (d : Dev nD) (L : grid0.Coords) (f : Buf (Elt F) (xLoc d)) : sProp 𝕄 :=
  iprop(((xS0 L).view.loc (V d (cV L) (jV L)) ↦[(xS0 L).view.set]{fullShare} f)
    ∗ ((xS1 L).view.loc (V d (cV L) (jV L)) ↦[(xS1 L).view.set]{fullShare} f)
    ∗ ((xS2 L).view.loc (V d (cV L) (jV L)) ↦[(xS2 L).view.set]{fullShare} f)
    ∗ ((xS3 L).view.loc (V d (cV L) (jV L)) ↦[(xS3 L).view.set]{fullShare} f))

/-- A task's four chunks of the result, each exactly its slice's elements, all at the contents `f`. -/
abbrev oChunks (d : Dev nD) (L : grid0.Coords) (f : Buf (Elt F) (oLoc d)) : sProp 𝕄 :=
  iprop(((oD0 L).view.loc (V d (cV L) (jV L)) ↦[(oD0 L).view.set]{fullShare} f)
    ∗ ((oD1 L).view.loc (V d (cV L) (jV L)) ↦[(oD1 L).view.set]{fullShare} f)
    ∗ ((oD2 L).view.loc (V d (cV L) (jV L)) ↦[(oD2 L).view.set]{fullShare} f)
    ∗ ((oD3 L).view.loc (V d (cV L) (jV L)) ↦[(oD3 L).view.set]{fullShare} f))

end Cert.Kernel.Pf

end
-- ==== Proof.TileGeoB.lean ====
import proofs.«213435_g4140348473474_cont_8to1_b_470_36_alg».proof.Proof.TileDefsB

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xB" => (Memref.whole Cert.Kernel.cc0_scratch0 : Memref Cert.Kernel.sig Kind.scVector Space.vmem Cert.Kernel.S128x128 EltTy.f32)
local notation "oB" => (Memref.whole Cert.Kernel.cc0_scratch1 : Memref Cert.Kernel.sig Kind.scVector Space.vmem Cert.Kernel.S128x32 EltTy.f32)

/-! ## Rows inside their chunk

The row scratch is 128 rows of 128 entries and the result scratch 128 rows of 32, each handled in four
chunks of 32 rows. A row `r` with `lo ≤ r < lo + 32` lies in the chunk that starts at row `lo`; so does a
run of 16 entries of such a row of the result scratch. -/

/-- A whole row of the row scratch, addressed as a vector of 128, lies in its chunk. -/
theorem xrow_sub {off : Fin 2 → Nat} {inb : ∀ a, off a + S1x128.size a ≤ S128x128.size a} {hr} {lo : Nat}
    {inb' : ∀ a, (![lo, 0] : Fin 2 → Nat) a + S32x128.size a ≤ S128x128.size a} {hr'}
    (h0 : lo ≤ off 0 ∧ off 0 < lo + 32) :
    ((((xB).slice (Rect.unit (s := S128x128) off S1x128.size inb) hr).squeeze S128 squeezes_S1x128_S128).access (Rect.whole S128)).set
      ⊆ ((xB).slice (Rect.unit (s := S128x128) ![lo, 0] S32x128.size inb') hr').view.set := by
  refine (View.set_slice_subset _ _).trans ?_
  show (((View.whole cc0_scratch0).slice (Rect.unit (s := S128x128) off S1x128.size inb)).reshape S128 squeezes_S1x128_S128.numel_eq).set
    ⊆ ((View.whole cc0_scratch0).slice (Rect.unit (s := S128x128) ![lo, 0] S32x128.size inb')).set
  rw [View.set_reshape, View.set_slice_whole, View.set_slice_whole]
  intro i hi
  rw [Rect.mem_set_unit] at hi ⊢
  intro a
  match a with
  | 0 =>
    have h : off 0 ≤ ((i 0 : Fin 128) : ℕ) ∧ ((i 0 : Fin 128) : ℕ) < off 0 + 1 := hi 0
    show lo ≤ ((i 0 : Fin 128) : ℕ) ∧ ((i 0 : Fin 128) : ℕ) < lo + 32
    omega
  | 1 =>
    have h : ((i 1 : Fin 128) : ℕ) < 128 := (i 1).isLt
    show 0 ≤ ((i 1 : Fin 128) : ℕ) ∧ ((i 1 : Fin 128) : ℕ) < 0 + 128
    omega

/-- Sixteen consecutive entries of a row of the result scratch lie in the row's chunk: as a store reaches them, -/
theorem ost_sub {off : Fin 2 → Nat} {inb : ∀ a, off a + S1x16.size a ≤ S128x32.size a} {lo : Nat}
    {inb' : ∀ a, (![lo, 0] : Fin 2 → Nat) a + S32x32.size a ≤ S128x32.size a} {hr'}
    (h0 : lo ≤ off 0 ∧ off 0 < lo + 32) :
    (((oB).access (Rect.unit (s := S128x32) off S1x16.size inb)).setOn Finset.univ)
      ⊆ ((oB).slice (Rect.unit (s := S128x32) ![lo, 0] S32x32.size inb') hr').view.set := by
  show ((View.whole cc0_scratch1).slice (Rect.unit (s := S128x32) off S1x16.size inb)).set
    ⊆ ((View.whole cc0_scratch1).slice (Rect.unit (s := S128x32) ![lo, 0] S32x32.size inb')).set
  rw [View.set_slice_whole, View.set_slice_whole]
  intro i hi
  rw [Rect.mem_set_unit] at hi ⊢
  intro a
  match a with
  | 0 =>
    have h : off 0 ≤ ((i 0 : Fin 128) : ℕ) ∧ ((i 0 : Fin 128) : ℕ) < off 0 + 1 := hi 0
    show lo ≤ ((i 0 : Fin 128) : ℕ) ∧ ((i 0 : Fin 128) : ℕ) < lo + 32
    omega
  | 1 =>
    have h : ((i 1 : Fin 32) : ℕ) < 32 := (i 1).isLt
    show 0 ≤ ((i 1 : Fin 32) : ℕ) ∧ ((i 1 : Fin 32) : ℕ) < 0 + 32
    omega

/-- and as a load reaches them. -/
theorem old_sub {off : Fin 2 → Nat} {inb : ∀ a, off a + S1x16.size a ≤ S128x32.size a} {lo : Nat}
    {inb' : ∀ a, (![lo, 0] : Fin 2 → Nat) a + S32x32.size a ≤ S128x32.size a} {hr'}
    (h0 : lo ≤ off 0 ∧ off 0 < lo + 32) :
    ((oB).view.setOn (Rect.unit (s := S128x32) off S1x16.size inb).toLoadRect.set)
      ⊆ ((oB).slice (Rect.unit (s := S128x32) ![lo, 0] S32x32.size inb') hr').view.set := by
  have e : (oB).view.setOn (Rect.unit (s := S128x32) off S1x16.size inb).toLoadRect.set
      = ((oB).access (Rect.unit (s := S128x32) off S1x16.size inb)).setOn Finset.univ := by
    rw [View.setOn_univ]; exact (View.set_slice _ _).symm
  rw [e]; exact ost_sub h0

end Cert.Kernel.Pf

end
-- ==== Proof.PayIdxBits.lean ====
/- The eight gather index vectors of the averaging body, as numbers: lane `l` of vector `c` names
   position `4 l + c` of a 128-entry row, for c = 0, 1, 2, 3, 64, 65, 66, 67, each below 128. The same
   facts as for the reading at the extended reals, stated for the program read at bit patterns: the
   index vectors are integer words, so the two readings have the same ones. -/
import proofs.«213435_g4140348473474_cont_8to1_b_470_36_alg».proof.Proof.Gen.Kernel.Skeleton
import proofs.«213435_g4140348473474_cont_8to1_b_470_36_alg».proof.Proof.PayLane

noncomputable section

namespace Cert.Pool.Pay.Kernel

open Idealize.ShloMosaic

/-- The lane-sequence register the index vectors are built from. -/
abbrev lanes : IVec Cert.Kernel.S16 32 := iota .scVector Cert.Kernel.S16 32 [0] Cert.Kernel.Gen.iota_S16_d0_w32_scVector

/-- Index vector 1, lane `l`: position `4 l + 0`. -/
theorem k0_pay1_toNat (l : Fin 16) : (Cert.Kernel.Gen.k0_pay1 (ValueIdx.ix1 l)).toNat = 4 * l.val + 0 :=
  lane_word l 0 (by decide)

/-- Index vector 2, lane `l`: position `4 l + 1`. -/
theorem k0_pay2_toNat (l : Fin 16) : (Cert.Kernel.Gen.k0_pay2 (ValueIdx.ix1 l)).toNat = 4 * l.val + 1 :=
  lane_word l 1 (by decide)

/-- Index vector 3, lane `l`: position `4 l + 2`. -/
theorem k0_pay3_toNat (l : Fin 16) : (Cert.Kernel.Gen.k0_pay3 (ValueIdx.ix1 l)).toNat = 4 * l.val + 2 :=
  lane_word l 2 (by decide)

/-- Index vector 4, lane `l`: position `4 l + 3`. -/
theorem k0_pay4_toNat (l : Fin 16) : (Cert.Kernel.Gen.k0_pay4 (ValueIdx.ix1 l)).toNat = 4 * l.val + 3 :=
  lane_word l 3 (by decide)

/-- Index vector 5, lane `l`: position `4 l + 64`. -/
theorem k0_pay5_toNat (l : Fin 16) : (Cert.Kernel.Gen.k0_pay5 (ValueIdx.ix1 l)).toNat = 4 * l.val + 64 :=
  lane_word l 64 (by decide)

/-- Index vector 6, lane `l`: position `4 l + 65`. -/
theorem k0_pay6_toNat (l : Fin 16) : (Cert.Kernel.Gen.k0_pay6 (ValueIdx.ix1 l)).toNat = 4 * l.val + 65 :=
  lane_word l 65 (by decide)

/-- Index vector 7, the lane number times four, plus the splat of 66, lane `l`: position `4 l + 66`. -/
theorem k0_pay8_toNat (l : Fin 16) :
    (Cert.Kernel.Gen.k0_pay8 Cert.Kernel.Gen.k0_pay7 66#32 (ValueIdx.ix1 l)).toNat = 4 * l.val + 66 :=
  lane_word l 66 (by decide)

/-- The last index vector, built from the lane sequence, lane `l`: position `4 l + 67`. -/
theorem k0_pay9_toNat (l : Fin 16) : (Cert.Kernel.Gen.k0_pay9 lanes (ValueIdx.ix1 l)).toNat = 4 * l.val + 67 :=
  lane_word l 67 (by decide)

/-- Every position index vector 1 names is inside the 128-entry row it is gathered from. -/
theorem k0_chk1_holds : Cert.Kernel.k0_chk1 (Cert.Kernel.Gen.k0_pay1) := by
  have h : ∀ l : Fin 16, ((Cert.Kernel.Gen.k0_pay1) (ValueIdx.ix1 l)).toNat < 128 := fun l => by
    rw [k0_pay1_toNat l]; have := l.isLt; omega
  exact ⟨lanes_inb _ h, lanes_inb _ h, lanes_inb _ h, lanes_inb _ h⟩

/-- Every position index vector 2 names is inside the 128-entry row it is gathered from. -/
theorem k0_chk2_holds : Cert.Kernel.k0_chk2 (Cert.Kernel.Gen.k0_pay2) := by
  have h : ∀ l : Fin 16, ((Cert.Kernel.Gen.k0_pay2) (ValueIdx.ix1 l)).toNat < 128 := fun l => by
    rw [k0_pay2_toNat l]; have := l.isLt; omega
  exact ⟨lanes_inb _ h, lanes_inb _ h, lanes_inb _ h, lanes_inb _ h⟩

/-- Every position index vector 3 names is inside the 128-entry row it is gathered from. -/
theorem k0_chk3_holds : Cert.Kernel.k0_chk3 (Cert.Kernel.Gen.k0_pay3) := by
  have h : ∀ l : Fin 16, ((Cert.Kernel.Gen.k0_pay3) (ValueIdx.ix1 l)).toNat < 128 := fun l => by
    rw [k0_pay3_toNat l]; have := l.isLt; omega
  exact ⟨lanes_inb _ h, lanes_inb _ h, lanes_inb _ h, lanes_inb _ h⟩

/-- Every position index vector 4 names is inside the 128-entry row it is gathered from. -/
theorem k0_chk4_holds : Cert.Kernel.k0_chk4 (Cert.Kernel.Gen.k0_pay4) := by
  have h : ∀ l : Fin 16, ((Cert.Kernel.Gen.k0_pay4) (ValueIdx.ix1 l)).toNat < 128 := fun l => by
    rw [k0_pay4_toNat l]; have := l.isLt; omega
  exact ⟨lanes_inb _ h, lanes_inb _ h, lanes_inb _ h, lanes_inb _ h⟩

/-- Every position index vector 5 names is inside the 128-entry row it is gathered from. -/
theorem k0_chk5_holds : Cert.Kernel.k0_chk5 (Cert.Kernel.Gen.k0_pay5) := by
  have h : ∀ l : Fin 16, ((Cert.Kernel.Gen.k0_pay5) (ValueIdx.ix1 l)).toNat < 128 := fun l => by
    rw [k0_pay5_toNat l]; have := l.isLt; omega
  exact ⟨lanes_inb _ h, lanes_inb _ h, lanes_inb _ h, lanes_inb _ h⟩

/-- Every position index vector 6 names is inside the 128-entry row it is gathered from. -/
theorem k0_chk6_holds : Cert.Kernel.k0_chk6 (Cert.Kernel.Gen.k0_pay6) := by
  have h : ∀ l : Fin 16, ((Cert.Kernel.Gen.k0_pay6) (ValueIdx.ix1 l)).toNat < 128 := fun l => by
    rw [k0_pay6_toNat l]; have := l.isLt; omega
  exact ⟨lanes_inb _ h, lanes_inb _ h, lanes_inb _ h, lanes_inb _ h⟩

/-- Every position index vector 7 names is inside the 128-entry row it is gathered from. -/
theorem k0_chk7_holds : Cert.Kernel.k0_chk7 (Cert.Kernel.Gen.k0_pay8 Cert.Kernel.Gen.k0_pay7 66#32) := by
  have h : ∀ l : Fin 16, ((Cert.Kernel.Gen.k0_pay8 Cert.Kernel.Gen.k0_pay7 66#32) (ValueIdx.ix1 l)).toNat < 128 := fun l => by
    rw [k0_pay8_toNat l]; have := l.isLt; omega
  exact ⟨lanes_inb _ h, lanes_inb _ h, lanes_inb _ h, lanes_inb _ h⟩

/-- Every position index vector 8 names is inside the 128-entry row it is gathered from. -/
theorem k0_chk8_holds : Cert.Kernel.k0_chk8 (Cert.Kernel.Gen.k0_pay9 lanes) := by
  have h : ∀ l : Fin 16, ((Cert.Kernel.Gen.k0_pay9 lanes) (ValueIdx.ix1 l)).toNat < 128 := fun l => by
    rw [k0_pay9_toNat l]; have := l.isLt; omega
  exact ⟨lanes_inb _ h, lanes_inb _ h, lanes_inb _ h, lanes_inb _ h⟩

end Cert.Pool.Pay.Kernel

end
-- ==== Proof.TileValDefsB.lean ====
import proofs.«213435_g4140348473474_cont_8to1_b_470_36_alg».proof.Proof.TileDefsB
import proofs.«213435_g4140348473474_cont_8to1_b_470_36_alg».proof.Proof.PayIdxBits

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What a task computes, as functions of what its row scratch holds

A task holds 128 rows of the argument (their first 128 entries) in its row scratch. Row `r` of the
result scratch is computed from row `r` of the row scratch alone: entry `g < 16` is the body's first
arithmetic payload of the four gathers at positions `4·lane + 0, 1, 2, 3`, read at lane `g`; entry
`16 + g` is its second payload of the gathers at `4·lane + 64, 65, 66, 67`, read at lane `g`. So entry
`g` of the row is the payload of the four entries `4g, 4g+1, 4g+2, 4g+3` of the scratch row. -/

open Cert.Pool.Pay.Kernel (lanes k0_chk1_holds k0_chk2_holds k0_chk3_holds k0_chk4_holds k0_chk5_holds k0_chk6_holds k0_chk7_holds k0_chk8_holds)

/-- Row `r` of the row scratch as a vector of 128. -/
def xrow (fb : S128x128.Idx → Elt F .f32) (r : Fin 128) : Vec F S128 .f32 :=
  fun c => fb (ValueIdx.ix2 r (c 0 : Fin 128))

/-- The gather of row `r` at the sixteen positions `idx`. -/
def gath (fb : S128x128.Idx → Elt F .f32) (r : Fin 128) (idx : IVec S16 32)
    (h : ∀ a x, ((![idx] : Fin 1 → IVec S16 32) a x).toNat < S128.size a) : Vec F S16 .f32 :=
  loadIdx (xrow fb r) ![idx] h

/-- The result scratch after the task's loops, as a function of the row scratch. -/
def tileOut (fb : S128x128.Idx → Elt F .f32) : S128x32.Idx → Elt F .f32 := fun i =>
  if h : (i 1 : Fin 32).val < 16 then
    k0_pay10 (gath fb (i 0) k0_pay1 (k0_idx1_inb _ k0_chk1_holds)) (gath fb (i 0) k0_pay2 (k0_idx2_inb _ k0_chk2_holds))
      (gath fb (i 0) k0_pay3 (k0_idx3_inb _ k0_chk3_holds)) (gath fb (i 0) k0_pay4 (k0_idx4_inb _ k0_chk4_holds))
      (ValueIdx.ix1 (⟨(i 1 : Fin 32).val, h⟩ : Fin 16))
  else
    k0_pay11 (gath fb (i 0) k0_pay5 (k0_idx5_inb _ k0_chk5_holds)) (gath fb (i 0) k0_pay6 (k0_idx6_inb _ k0_chk6_holds))
      (gath fb (i 0) (k0_pay8 k0_pay7 66#32) (k0_idx7_inb _ k0_chk7_holds)) (gath fb (i 0) (k0_pay9 lanes) (k0_idx8_inb _ k0_chk8_holds))
      (ValueIdx.ix1 (⟨(i 1 : Fin 32).val - 16, by have h2 : ((i 1 : Fin 32) : ℕ) < 32 := (i 1).isLt; omega⟩ : Fin 16))

/-- Rows 12288 .. 16383 of the argument, first 128 entries each, laid out as a row scratch whose every
    row is row `12288 + R`. -/
def xRowOf (X : S16384x2048.Idx → Elt F .f32) (R : Fin 4096) : S128x128.Idx → Elt F .f32 :=
  fun y => X (ValueIdx.ix2 (⟨12288 + R.val, by have := R.isLt; omega⟩ : Fin 16384) (⟨(y 1 : Fin 128).val, by have h2 : ((y 1 : Fin 128) : ℕ) < 128 := (y 1).isLt; omega⟩ : Fin 2048))

/-- The SparseCore part's result, whole: row `R` of the 4096 is computed from row `12288 + R` of the argument. -/
def scOut (X : S16384x2048.Idx → Elt F .f32) : S4096x32.Idx → Elt F .f32 := fun i =>
  tileOut (xRowOf X (i 0)) (ValueIdx.ix2 (0 : Fin 128) (i 1 : Fin 32))

end Cert.Kernel.Pf

end
-- ==== Proof.TileTripB.lean ====
/-
  One task's arithmetic, apart from the program that runs it.

  A task keeps 128 rows of the argument (their first 128 entries) in a row scratch and writes 128 rows of 32
  results into a result scratch, row by row; each row of results depends on the same row of the row scratch only.
  The facts here are about contents, not about the run:

    a chunk written whole reads back as what was written;
    a row of the row scratch, addressed as a one-row slice with its unit axis dropped, is that row;
    two stores of sixteen entries each into row r of the result scratch, of the body's two payloads of gathers of
    row r, make row r what the task computes from the row scratch and leave every other row alone;
    so after rows lo .. lo + k - 1 are right, one more trip makes rows lo .. lo + k right;
    and once 32 rows are right and are copied into a chunk of the result that starts at row R0, that chunk holds
    the whole result's own entries, given that those rows of the row scratch hold rows R0 + 12288 .. of the argument.
-/
import proofs.«213435_g4140348473474_cont_8to1_b_470_36_alg».proof.Proof.TileValDefsB
import Idealize.ShloMosaic.Lib.Writes
import Idealize.ShloMosaic.Lib.Pipeline.Value

noncomputable section

namespace Cert.Kernel.Pf

open Cert.Kernel Cert.Kernel.Gen
open Idealize.ShloMosaic
open Idealize.ShloMosaic.ValueIdx
open Cert.Pool.Pay.Kernel (lanes k0_chk1_holds k0_chk2_holds k0_chk3_holds k0_chk4_holds k0_chk5_holds k0_chk6_holds k0_chk7_holds k0_chk8_holds)

variable {F : FTy → Type} [FloatOps F]

local notation "xW" => (Memref.whole Cert.Kernel.main_arg0_scv : Memref Cert.Kernel.sig Kind.scVector Space.hbm Cert.Kernel.S16384x2048 EltTy.f32)
local notation "oW" => (Memref.whole Cert.Kernel.main_v0_scv : Memref Cert.Kernel.sig Kind.scVector Space.hbm Cert.Kernel.S4096x32 EltTy.f32)
local notation "xB" => (Memref.whole Cert.Kernel.cc0_scratch0 : Memref Cert.Kernel.sig Kind.scVector Space.vmem Cert.Kernel.S128x128 EltTy.f32)
local notation "oB" => (Memref.whole Cert.Kernel.cc0_scratch1 : Memref Cert.Kernel.sig Kind.scVector Space.vmem Cert.Kernel.S128x32 EltTy.f32)

/-! ## A chunk as it landed -/

/-- What one write of a whole shape leaves is read back as what was written. -/
theorem read_landed {sig : RefSig} {κ : Kind} {sp : Space} {s : Shape} {e : EltTy} {Val : EltTy → Type}
    (v : View sig κ sp s e) (f : v.ty.Contents Val) (w : (Rect.whole s).shape.Idx → Val e) :
    v.read Val (v.writes Val f [⟨Rect.whole s, w⟩]) = w := by
  funext x
  have h := View.read_writes_cons_emb v f (Rect.whole s) w [] x
  rwa [Rect.emb_whole_apply] at h

/-! ## A row of the row scratch -/

/-- Row `r` of the row scratch, addressed as the body addresses it (the one-row slice, its unit axis dropped, read
    whole), is the row as a vector of 128. -/
theorem row_read (fb : S128x128.Idx → Elt F .f32) (r : Fin 128) {off : Fin 2 → Nat}
    {inb : ∀ a, off a + S1x128.size a ≤ S128x128.size a} {hr} (h : off = ![r.val, 0]) :
    View.read (Elt F) ((((xB).slice (Rect.unit (s := S128x128) off S1x128.size inb) hr).squeeze S128 squeezes_S1x128_S128).access (Rect.whole S128)) fb
      = xrow fb r := by
  subst h
  funext c
  refine (View.read_apply _ _).trans ((cast_eq _ _).trans ?_)
  unfold xrow
  refine congrArg fb ?_
  show (Rect.unit (s := S128x128) ![r.val, 0] S1x128.size inb).emb
      (Shape.reshapeEquiv squeezes_S1x128_S128.numel_eq ((Rect.whole S128).emb c)) = _
  rw [Rect.emb_whole_apply,
    Shape.reshapeEquiv_eq_of_rowMajor (y := (ix2 (0 : Fin 1) (c 0 : Fin 128) : S1x128.Idx)) _
      (by rw [Shape.rowMajor_val_two, Shape.rowMajor_val_one]; show 0 * 128 + (c 0 : Fin 128).val = _; omega)]
  funext a
  refine Fin.ext ?_
  match a with
  | ⟨0, _⟩ => show r.val + 1 * 0 = r.val; omega
  | ⟨1, _⟩ => show 0 + 1 * (c 0 : Fin 128).val = (c 0 : Fin 128).val; omega

/-! ## Two stores of sixteen entries into one row of the result scratch -/

/-- A store of sixteen entries into row `r` of the result scratch from column `c0` on: the sixteen entries of that
    row take the stored vector, every other entry keeps what it held. -/
theorem write_seg (f : S128x32.Idx → Elt F .f32) (w : S1x16.Idx → Elt F .f32) (r : Fin 128) (c0 : Nat) (hc0 : c0 + 16 ≤ 32)
    {off : Fin 2 → Nat} {inb : ∀ a, off a + S1x16.size a ≤ S128x32.size a} (h : off = ![r.val, c0])
    (a : Fin 128) (b : Fin 32) :
    View.write (Elt F) ((oB).access (Rect.unit (s := S128x32) off S1x16.size inb)) f w Finset.univ (ix2 a b)
      = if hi : a.val = r.val ∧ c0 ≤ b.val ∧ b.val < c0 + 16 then
          w (ix2 (0 : Fin 1) (⟨b.val - c0, by omega⟩ : Fin 16))
        else f (ix2 a b) := by
  subst h
  by_cases hi : a.val = r.val ∧ c0 ≤ b.val ∧ b.val < c0 + 16
  · rw [dif_pos hi]
    have e : (ix2 a b : S128x32.Idx)
        = ((oB).access (Rect.unit (s := S128x32) ![r.val, c0] S1x16.size inb)).emb
            (ix2 (0 : Fin 1) (⟨b.val - c0, by omega⟩ : Fin 16)) := by
      funext x
      refine Fin.ext ?_
      match x with
      | ⟨0, _⟩ => show a.val = r.val + 1 * 0; omega
      | ⟨1, _⟩ => show b.val = c0 + 1 * (b.val - c0); omega
    rw [e, View.write_emb_of_mem _ _ (Finset.mem_univ _)]
    exact cast_eq _ _
  · rw [dif_neg hi]
    refine View.write_of_not_mem _ _ _ fun hm => hi ?_
    obtain ⟨x, -, hx⟩ := Finset.mem_map.mp hm
    have h0 : r.val + 1 * (x 0 : Fin 1).val = a.val := congrArg (fun i : S128x32.Idx => (i 0 : Fin 128).val) hx
    have h1 : c0 + 1 * (x 1 : Fin 16).val = b.val := congrArg (fun i : S128x32.Idx => (i 1 : Fin 32).val) hx
    have hx0 : (x 0 : Fin 1).val < 1 := (x 0).isLt
    have hx1 : (x 1 : Fin 16).val < 16 := (x 1).isLt
    omega

/-- A vector of sixteen laid out as one row of sixteen reads its own entries. -/
theorem row16_apply (w : Vec F S16 .f32) (l : Fin 16) :
    shapeCast S1x16 w shapeCasts_S16_S1x16 (ix2 (0 : Fin 1) l) = w (ix1 l) :=
  shapeCast_apply _ _ _ _ (by rw [Shape.rowMajor_val_one, Shape.rowMajor_val_two]; show l.val = 0 * 16 + l.val; omega)

/-- One trip's two stores, the first of the body's first payload into columns 0 .. 15 of row `r`, the second of its
    second payload into columns 16 .. 31, each payload of four gathers of row `r` of the row scratch: row `r` of the
    result scratch is then what the task computes from the row scratch, and every other row keeps what it held. -/
theorem trip_apply (fb : S128x128.Idx → Elt F .f32) (f : S128x32.Idx → Elt F .f32) (r : Fin 128)
    {off6 off11 : Fin 2 → Nat} {inb6 : ∀ a, off6 a + S1x16.size a ≤ S128x32.size a}
    {inb11 : ∀ a, off11 a + S1x16.size a ≤ S128x32.size a} (h6 : off6 = ![r.val, 0]) (h11 : off11 = ![r.val, 16])
    {row1 row2 row3 row4 row5 row6 row7 row8 : Vec F S128 .f32}
    (e1 : row1 = xrow fb r) (e2 : row2 = xrow fb r) (e3 : row3 = xrow fb r) (e4 : row4 = xrow fb r)
    (e5 : row5 = xrow fb r) (e6 : row6 = xrow fb r) (e7 : row7 = xrow fb r) (e8 : row8 = xrow fb r)
    {i1 i2 i3 i4 i5 i6 i7 i8} (i : S128x32.Idx) :
    View.write (Elt F) ((oB).access (Rect.unit (s := S128x32) off11 S1x16.size inb11))
        (View.write (Elt F) ((oB).access (Rect.unit (s := S128x32) off6 S1x16.size inb6)) f
          (shapeCast S1x16 (k0_pay10 (loadIdx row1 ![k0_pay1] i1) (loadIdx row2 ![k0_pay2] i2) (loadIdx row3 ![k0_pay3] i3)
            (loadIdx row4 ![k0_pay4] i4)) shapeCasts_S16_S1x16) Finset.univ)
        (shapeCast S1x16 (k0_pay11 (loadIdx row5 ![k0_pay5] i5) (loadIdx row6 ![k0_pay6] i6)
          (loadIdx row7 ![k0_pay8 k0_pay7 66#32] i7) (loadIdx row8 ![k0_pay9 lanes] i8)) shapeCasts_S16_S1x16) Finset.univ i
      = if (i 0 : Fin 128).val = r.val then tileOut fb i else f i := by
  subst e1 e2 e3 e4 e5 e6 e7 e8
  obtain ⟨a, b, rfl⟩ : ∃ (a : Fin 128) (b : Fin 32), i = ix2 a b := ⟨i 0, i 1, eq_ix2 i⟩
  have hb : b.val < 32 := b.isLt
  rw [write_seg _ _ r 16 (by omega) h11, write_seg _ _ r 0 (by omega) h6]
  show _ = if a.val = r.val then tileOut fb (ix2 a b) else f (ix2 a b)
  by_cases ha : a.val = r.val
  · obtain rfl : a = r := Fin.ext ha
    rw [if_pos rfl]
    by_cases h16 : b.val < 16
    · rw [dif_neg (by omega), dif_pos ⟨rfl, by omega, by omega⟩, row16_apply]
      unfold tileOut
      rw [dif_pos (show ((ix2 a b : S128x32.Idx) 1 : Fin 32).val < 16 from h16)]
      rfl
    · rw [dif_pos ⟨rfl, by omega, by omega⟩, row16_apply]
      unfold tileOut
      rw [dif_neg (show ¬ ((ix2 a b : S128x32.Idx) 1 : Fin 32).val < 16 from h16)]
      rfl
  · rw [if_neg ha, dif_neg (fun h => ha h.1), dif_neg (fun h => ha h.1)]

/-- Having row `r` right after rows `lo .. lo + k - 1` were right makes rows `lo .. lo + k` right, when `r` is row
    `lo + k` and no other row changed. -/
theorem step_rows (fb : S128x128.Idx → Elt F .f32) (f f' : S128x32.Idx → Elt F .f32) (lo k : Nat) (r : Fin 128)
    (hr : r.val = k + lo)
    (hf : ∀ i : S128x32.Idx, lo ≤ (i 0 : Fin 128).val → (i 0 : Fin 128).val < lo + k → f i = tileOut fb i)
    (hf' : ∀ i : S128x32.Idx, f' i = if (i 0 : Fin 128).val = r.val then tileOut fb i else f i) :
    ∀ i : S128x32.Idx, lo ≤ (i 0 : Fin 128).val → (i 0 : Fin 128).val < lo + (k + 1) → f' i = tileOut fb i := by
  intro i h1 h2
  rw [hf' i]
  split
  · rfl
  · exact hf i h1 (by omega)

/-! ## A chunk of the result after its copy -/

/-- Entry `c` of a result row, from the row of 128 it is computed from. -/
def rowOut (v : Vec F S128 .f32) (c : Fin 32) : Elt F .f32 :=
  if h : c.val < 16 then
    k0_pay10 (loadIdx v ![k0_pay1] (k0_idx1_inb _ k0_chk1_holds)) (loadIdx v ![k0_pay2] (k0_idx2_inb _ k0_chk2_holds))
      (loadIdx v ![k0_pay3] (k0_idx3_inb _ k0_chk3_holds)) (loadIdx v ![k0_pay4] (k0_idx4_inb _ k0_chk4_holds))
      (ix1 (⟨c.val, h⟩ : Fin 16))
  else
    k0_pay11 (loadIdx v ![k0_pay5] (k0_idx5_inb _ k0_chk5_holds)) (loadIdx v ![k0_pay6] (k0_idx6_inb _ k0_chk6_holds))
      (loadIdx v ![k0_pay8 k0_pay7 66#32] (k0_idx7_inb _ k0_chk7_holds)) (loadIdx v ![k0_pay9 lanes] (k0_idx8_inb _ k0_chk8_holds))
      (ix1 (⟨c.val - 16, by have h2 : c.val < 32 := c.isLt; omega⟩ : Fin 16))

/-- An entry of the result scratch depends on the row scratch through one row only. -/
theorem tileOut_eq_rowOut (fb : S128x128.Idx → Elt F .f32) (i : S128x32.Idx) :
    tileOut fb i = rowOut (xrow fb (i 0)) (i 1) := rfl

/-- After the copy of rows `lo .. lo + 31` of the result scratch into a chunk of the result that starts at row `R0`,
    the chunk holds the whole result's own entries there, provided rows `lo .. lo + 31` of the row scratch hold rows
    `R0 + 12288 ..` of the argument and those rows of the result scratch were computed from them. -/
theorem chunk_out (X : S16384x2048.Idx → Elt F .f32) (fz : S4096x32.Idx → Elt F .f32)
    (fb : S128x128.Idx → Elt F .f32) (fo : S128x32.Idx → Elt F .f32) (lo R0 : Nat)
    {offX : Fin 2 → Nat} {inbX : ∀ a, offX a + S32x128.size a ≤ S16384x2048.size a} {hrX}
    {offO : Fin 2 → Nat} {inbO : ∀ a, offO a + S32x32.size a ≤ S4096x32.size a} {hrO}
    {inbD : ∀ a, (![lo, 0] : Fin 2 → Nat) a + S32x128.size a ≤ S128x128.size a} {hrD}
    {inbS : ∀ a, (![lo, 0] : Fin 2 → Nat) a + S32x32.size a ≤ S128x32.size a} {hrS}
    (hX : offX = ![R0 + 12288, 0]) (hO : offO = ![R0, 0])
    (hfb : View.read (Elt F) ((xB).slice (Rect.unit (s := S128x128) ![lo, 0] S32x128.size inbD) hrD).view fb
        = View.read (Elt F) ((xW).slice (Rect.unit (s := S16384x2048) offX S32x128.size inbX) hrX).view X)
    (hfo : ∀ i : S128x32.Idx, lo ≤ (i 0 : Fin 128).val → (i 0 : Fin 128).val < lo + 32 → fo i = tileOut fb i) :
    ∀ x ∈ ((oW).slice (Rect.unit (s := S4096x32) offO S32x32.size inbO) hrO).view.set,
      ((oW).slice (Rect.unit (s := S4096x32) offO S32x32.size inbO) hrO).view.writes (Elt F) fz
          [⟨Rect.whole S32x32, ReadAs.same.apply
            (View.read (Elt F) ((oB).slice (Rect.unit (s := S128x32) ![lo, 0] S32x32.size inbS) hrS).view fo)⟩] x
        = scOut X x := by
  subst hX hO
  intro x hx
  obtain ⟨y, -, rfl⟩ := Finset.mem_map.mp hx
  obtain ⟨p, q, rfl⟩ : ∃ (p : Fin 32) (q : Fin 32), y = ix2 p q := ⟨y 0, y 1, eq_ix2 y⟩
  have hlo : lo + 32 ≤ 128 := inbS 0
  have hR0 : R0 + 32 ≤ 4096 := inbO 0
  have hp : p.val < 32 := p.isLt
  have hL := congrFun (read_landed ((oW).slice (Rect.unit (s := S4096x32) ![R0, 0] S32x32.size inbO) hrO).view fz
    (ReadAs.same.apply
      (View.read (Elt F) ((oB).slice (Rect.unit (s := S128x32) ![lo, 0] S32x32.size inbS) hrS).view fo))) (ix2 p q)
  rw [View.read_apply] at hL
  refine ((cast_eq _ _).symm.trans hL).trans ?_
  show View.read (Elt F) ((oB).slice (Rect.unit (s := S128x32) ![lo, 0] S32x32.size inbS) hrS).view fo (ix2 p q) = _
  refine (View.read_apply _ _).trans ((cast_eq _ _).trans ?_)
  rw [hfo _ (show lo ≤ lo + 1 * p.val by omega) (show lo + 1 * p.val < lo + 32 by omega)]
  unfold scOut
  rw [tileOut_eq_rowOut, tileOut_eq_rowOut]
  have hcol : ((((oB).slice (Rect.unit (s := S128x32) ![lo, 0] S32x32.size inbS) hrS).view.emb (ix2 p q)) 1 : Fin 32)
      = ((ix2 (0 : Fin 128) ((((oW).slice (Rect.unit (s := S4096x32) ![R0, 0] S32x32.size inbO) hrO).view.emb (ix2 p q)) 1 : Fin 32) : S128x32.Idx) 1 : Fin 32) :=
    Fin.ext rfl
  rw [hcol]
  refine congrArg (fun v => rowOut v _) (funext fun c => ?_)
  have h := congrFun hfb (ix2 p (c 0 : Fin 128))
  rw [View.read_apply, View.read_apply] at h
  have h' := ((cast_eq _ _).symm.trans h).trans (cast_eq _ _)
  unfold xrow xRowOf
  refine ((congrArg fb ?_).trans h').trans (congrArg X ?_)
  · funext a
    refine Fin.ext ?_
    match a with
    | ⟨0, _⟩ => rfl
    | ⟨1, _⟩ => show (c 0 : Fin 128).val = 0 + 1 * (c 0 : Fin 128).val; omega
  · funext a
    refine Fin.ext ?_
    match a with
    | ⟨0, _⟩ => show R0 + 12288 + 1 * p.val = 12288 + (R0 + 1 * p.val); omega
    | ⟨1, _⟩ => show 0 + 1 * (c 0 : Fin 128).val = (c 0 : Fin 128).val; omega

end Cert.Kernel.Pf

end
-- ==== Proof.TileB.lean ====
/-
  One task's run, with what it leaves.

  The task fetches its 128 rows of the argument in four chunks of 32 and, for each chunk once it has landed, makes 32
  trips: trip k gathers row lo + k of the row scratch eight times and stores the two payloads of four gathers each
  into row lo + k of the result scratch; then it sends the chunk's 32 rows of results to their place in the result,
  and at the end it waits for the four sends. Between trips the chunk of rows holds the argument's rows as they
  landed, and rows lo .. lo + k - 1 of the result scratch are what the task computes from them. At the end every
  resource is back, the argument's chunks are unchanged, and the four chunks of the result hold, each on its own
  rows, the one function of the whole argument that the specification of this part names.
-/
import proofs.«213435_g4140348473474_cont_8to1_b_470_36_alg».proof.Proof.TileGeoB
import proofs.«213435_g4140348473474_cont_8to1_b_470_36_alg».proof.Proof.TileTripB

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.Kernel.main_arg0_scv : Memref Cert.Kernel.sig Kind.scVector Space.hbm Cert.Kernel.S16384x2048 EltTy.f32)
local notation "oW" => (Memref.whole Cert.Kernel.main_v0_scv : Memref Cert.Kernel.sig Kind.scVector Space.hbm Cert.Kernel.S4096x32 EltTy.f32)
local notation "xB" => (Memref.whole Cert.Kernel.cc0_scratch0 : Memref Cert.Kernel.sig Kind.scVector Space.vmem Cert.Kernel.S128x128 EltTy.f32)
local notation "oB" => (Memref.whole Cert.Kernel.cc0_scratch1 : Memref Cert.Kernel.sig Kind.scVector Space.vmem Cert.Kernel.S128x32 EltTy.f32)

/-- Between trips of the loop over chunk 0, before trip `k`: the chunk of rows holds the argument's rows as they landed, and rows
    `0 .. 0 + k - 1` of the result scratch hold what the task computes from them. -/
def invT0 (m : (ℓ : Loc nD τ sig) → Buf (Elt F) ℓ) (d : Dev nD) (L : grid0.Coords) (k : Nat) (_ : PUnit) : sProp 𝕄 :=
  iprop(∃ fb, ((xD0).view.loc (V d (cV L) (jV L)) ↦[(xD0).view.set]{fullShare} fb)
    ∗ ⌜View.read (Elt F) (xD0).view fb = View.read (Elt F) (xS0 L).view (m (xLoc d))⌝
    ∗ ∃ f, ((oS0).view.loc (V d (cV L) (jV L)) ↦[(oS0).view.set]{fullShare} f)
      ∗ ⌜∀ i : S128x32.Idx, 0 ≤ (i 0 : Fin 128).val → (i 0 : Fin 128).val < 0 + k → f i = tileOut fb i⌝)

/-- Between trips of the loop over chunk 1, before trip `k`: the chunk of rows holds the argument's rows as they landed, and rows
    `32 .. 32 + k - 1` of the result scratch hold what the task computes from them. -/
def invT1 (m : (ℓ : Loc nD τ sig) → Buf (Elt F) ℓ) (d : Dev nD) (L : grid0.Coords) (k : Nat) (_ : PUnit) : sProp 𝕄 :=
  iprop(∃ fb, ((xD1).view.loc (V d (cV L) (jV L)) ↦[(xD1).view.set]{fullShare} fb)
    ∗ ⌜View.read (Elt F) (xD1).view fb = View.read (Elt F) (xS1 L).view (m (xLoc d))⌝
    ∗ ∃ f, ((oS1).view.loc (V d (cV L) (jV L)) ↦[(oS1).view.set]{fullShare} f)
      ∗ ⌜∀ i : S128x32.Idx, 32 ≤ (i 0 : Fin 128).val → (i 0 : Fin 128).val < 32 + k → f i = tileOut fb i⌝)

/-- Between trips of the loop over chunk 2, before trip `k`: the chunk of rows holds the argument's rows as they landed, and rows
    `64 .. 64 + k - 1` of the result scratch hold what the task computes from them. -/
def invT2 (m : (ℓ : Loc nD τ sig) → Buf (Elt F) ℓ) (d : Dev nD) (L : grid0.Coords) (k : Nat) (_ : PUnit) : sProp 𝕄 :=
  iprop(∃ fb, ((xD2).view.loc (V d (cV L) (jV L)) ↦[(xD2).view.set]{fullShare} fb)
    ∗ ⌜View.read (Elt F) (xD2).view fb = View.read (Elt F) (xS2 L).view (m (xLoc d))⌝
    ∗ ∃ f, ((oS2).view.loc (V d (cV L) (jV L)) ↦[(oS2).view.set]{fullShare} f)
      ∗ ⌜∀ i : S128x32.Idx, 64 ≤ (i 0 : Fin 128).val → (i 0 : Fin 128).val < 64 + k → f i = tileOut fb i⌝)

/-- Between trips of the loop over chunk 3, before trip `k`: the chunk of rows holds the argument's rows as they landed, and rows
    `96 .. 96 + k - 1` of the result scratch hold what the task computes from them. -/
def invT3 (m : (ℓ : Loc nD τ sig) → Buf (Elt F) ℓ) (d : Dev nD) (L : grid0.Coords) (k : Nat) (_ : PUnit) : sProp 𝕄 :=
  iprop(∃ fb, ((xD3).view.loc (V d (cV L) (jV L)) ↦[(xD3).view.set]{fullShare} fb)
    ∗ ⌜View.read (Elt F) (xD3).view fb = View.read (Elt F) (xS3 L).view (m (xLoc d))⌝
    ∗ ∃ f, ((oS3).view.loc (V d (cV L) (jV L)) ↦[(oS3).view.set]{fullShare} f)
      ∗ ⌜∀ i : S128x32.Idx, 96 ≤ (i 0 : Fin 128).val → (i 0 : Fin 128).val < 96 + k → f i = tileOut fb i⌝)

section Tile
variable (m : (ℓ : Loc nD τ sig) → Buf (Elt F) ℓ) (d : Dev nD) (L : grid0.Coords)

set_option maxHeartbeats 4000000 in
theorem tile_core (O : CellTallies nD τ sig (HIx 1)) (W : Waits sig (HIx 1))
    (fx : Buf (Elt F) ((V d (cV L) (jV L)).loc cc0_scratch0)) (fo : Buf (Elt F) ((V d (cV L) (jV L)).loc cc0_scratch1)) (fz : Buf (Elt F) (oLoc d)) :
    iprop((Transfers.MayWaits (V d (cV L) (jV L)) (none : HIx 1) O : sProp 𝕄)
        ∗ xChunks d L (m (xLoc d))
        ∗ ((xD0).view.loc (V d (cV L) (jV L)) ↦[(xD0).view.set]{fullShare} fx)
        ∗ ((xD1).view.loc (V d (cV L) (jV L)) ↦[(xD1).view.set]{fullShare} fx)
        ∗ ((xD2).view.loc (V d (cV L) (jV L)) ↦[(xD2).view.set]{fullShare} fx)
        ∗ ((xD3).view.loc (V d (cV L) (jV L)) ↦[(xD3).view.set]{fullShare} fx)
        ∗ ((oS0).view.loc (V d (cV L) (jV L)) ↦[(oS0).view.set]{fullShare} fo)
        ∗ ((oS1).view.loc (V d (cV L) (jV L)) ↦[(oS1).view.set]{fullShare} fo)
        ∗ ((oS2).view.loc (V d (cV L) (jV L)) ↦[(oS2).view.set]{fullShare} fo)
        ∗ ((oS3).view.loc (V d (cV L) (jV L)) ↦[(oS3).view.set]{fullShare} fo)
        ∗ oChunks d L fz
        ∗ semVal ((V d (cV L) (jV L)), SemLoc.dma iSem0) 0 ∗ semVal ((V d (cV L) (jV L)), SemLoc.dma iSem1) 0
        ∗ semVal ((V d (cV L) (jV L)), SemLoc.dma iSem2) 0 ∗ semVal ((V d (cV L) (jV L)), SemLoc.dma iSem3) 0
        ∗ semVal ((V d (cV L) (jV L)), SemLoc.dma oSem0) 0 ∗ semVal ((V d (cV L) (jV L)), SemLoc.dma oSem1) 0
        ∗ semVal ((V d (cV L) (jV L)), SemLoc.dma oSem2) 0 ∗ semVal ((V d (cV L) (jV L)), SemLoc.dma oSem3) 0
        ∗ owes (V d (cV L) (jV L)) O W)
      ⊢ wp frame (wpE (defs₀ (F := F)) 𝒱₀ (V d (cV L) (jV L)) none) Set.univ
          (cc0__sc_body L xW (Memref.isWhole_whole _) oW (Memref.isWhole_whole _) xB (Memref.isWhole_whole _) oB (Memref.isWhole_whole _) cc0_scratch2 cc0_scratch3)
          fun _ => iprop(xChunks d L (m (xLoc d))
            ∗ (∃ f, ((xD0).view.loc (V d (cV L) (jV L)) ↦[(xD0).view.set]{fullShare} f))
            ∗ (∃ f, ((xD1).view.loc (V d (cV L) (jV L)) ↦[(xD1).view.set]{fullShare} f))
            ∗ (∃ f, ((xD2).view.loc (V d (cV L) (jV L)) ↦[(xD2).view.set]{fullShare} f))
            ∗ (∃ f, ((xD3).view.loc (V d (cV L) (jV L)) ↦[(xD3).view.set]{fullShare} f))
            ∗ (∃ f, ((oS0).view.loc (V d (cV L) (jV L)) ↦[(oS0).view.set]{fullShare} f))
            ∗ (∃ f, ((oS1).view.loc (V d (cV L) (jV L)) ↦[(oS1).view.set]{fullShare} f))
            ∗ (∃ f, ((oS2).view.loc (V d (cV L) (jV L)) ↦[(oS2).view.set]{fullShare} f))
            ∗ (∃ f, ((oS3).view.loc (V d (cV L) (jV L)) ↦[(oS3).view.set]{fullShare} f))
            ∗ oChunks d L (scOut (m (xLoc d)))
            ∗ semVal ((V d (cV L) (jV L)), SemLoc.dma iSem0) 0 ∗ semVal ((V d (cV L) (jV L)), SemLoc.dma iSem1) 0
            ∗ semVal ((V d (cV L) (jV L)), SemLoc.dma iSem2) 0 ∗ semVal ((V d (cV L) (jV L)), SemLoc.dma iSem3) 0
            ∗ semVal ((V d (cV L) (jV L)), SemLoc.dma oSem0) 0 ∗ semVal ((V d (cV L) (jV L)), SemLoc.dma oSem1) 0
            ∗ semVal ((V d (cV L) (jV L)), SemLoc.dma oSem2) 0 ∗ semVal ((V d (cV L) (jV L)), SemLoc.dma oSem3) 0
            ∗ ∃ W', ⌜∀ p ∈ W', p ∈ W ∨ p.2 = none⌝ ∗ owes (V d (cV L) (jV L)) O W') := by
  rw [cc0__sc_body_eq_skeleton, cc0__sc_body_skel]
  iintro ⟨Hmw, ⟨Hx0, Hx1, Hx2, Hx3⟩, Hb0, Hb1, Hb2, Hb3, Ho0, Ho1, Ho2, Ho3, ⟨Hz0, Hz1, Hz2, Hz3⟩, Hi0, Hi1, Hi2, Hi3, Hq0, Hq1, Hq2, Hq3, HO⟩
  sl_exec
  sl_for (invT0 (F := F) m d L) $$ [Hb0 Ho0]
  case region =>
    intro k _
    have hk : k.val < 32 := lt_of_lt_of_le k.isLt k0_t1_abs.2.1
    have h_k0_off2 : 0 ≤ (k0_off2 k) 0 ∧ (k0_off2 k) 0 < 0 + 32 := by rw [k0_off2_eq]; exact ⟨by show 0 ≤ k.val; omega, by show k.val < 0 + 32; omega⟩
    have h_k0_off3 : 0 ≤ (k0_off3 k) 0 ∧ (k0_off3 k) 0 < 0 + 32 := by rw [k0_off3_eq]; exact ⟨by show 0 ≤ k.val; omega, by show k.val < 0 + 32; omega⟩
    have h_k0_off4 : 0 ≤ (k0_off4 k) 0 ∧ (k0_off4 k) 0 < 0 + 32 := by rw [k0_off4_eq]; exact ⟨by show 0 ≤ k.val; omega, by show k.val < 0 + 32; omega⟩
    have h_k0_off5 : 0 ≤ (k0_off5 k) 0 ∧ (k0_off5 k) 0 < 0 + 32 := by rw [k0_off5_eq]; exact ⟨by show 0 ≤ k.val; omega, by show k.val < 0 + 32; omega⟩
    have h_k0_off7 : 0 ≤ (k0_off7 k) 0 ∧ (k0_off7 k) 0 < 0 + 32 := by rw [k0_off7_eq]; exact ⟨by show 0 ≤ k.val; omega, by show k.val < 0 + 32; omega⟩
    have h_k0_off8 : 0 ≤ (k0_off8 k) 0 ∧ (k0_off8 k) 0 < 0 + 32 := by rw [k0_off8_eq]; exact ⟨by show 0 ≤ k.val; omega, by show k.val < 0 + 32; omega⟩
    have h_k0_off9 : 0 ≤ (k0_off9 k) 0 ∧ (k0_off9 k) 0 < 0 + 32 := by rw [k0_off9_eq]; exact ⟨by show 0 ≤ k.val; omega, by show k.val < 0 + 32; omega⟩
    have h_k0_off10 : 0 ≤ (k0_off10 k) 0 ∧ (k0_off10 k) 0 < 0 + 32 := by rw [k0_off10_eq]; exact ⟨by show 0 ≤ k.val; omega, by show k.val < 0 + 32; omega⟩
    have h_k0_off6 : 0 ≤ (k0_off6 k) 0 ∧ (k0_off6 k) 0 < 0 + 32 := by rw [k0_off6_eq]; exact ⟨by show 0 ≤ k.val; omega, by show k.val < 0 + 32; omega⟩
    have h_k0_off11 : 0 ≤ (k0_off11 k) 0 ∧ (k0_off11 k) 0 < 0 + 32 := by rw [k0_off11_eq]; exact ⟨by show 0 ≤ k.val; omega, by show k.val < 0 + 32; omega⟩
    unfold invT0
    iintro ⟨%fb, Hb, %hfb, %f, Ho, %hf⟩
    sl_exec
    iapply (SparseCore.wp_vectorLoadIdx 𝒱₀ (V d (cV L) (jV L)) none Set.univ (base := (((xB).slice (Rect.unit (s := S128x128) (k0_off2 k) S1x128.size (k0_off2_inb k)) (fun _ => rfl)).squeeze S128 squeezes_S1x128_S128)) (S := (xD0).view.set) (q := fullShare) (xrow_sub (lo := 0) h_k0_off2)) $$ Hb; iintro Hb
    sl_exec
    iapply (SparseCore.wp_vectorLoadIdx 𝒱₀ (V d (cV L) (jV L)) none Set.univ (base := (((xB).slice (Rect.unit (s := S128x128) (k0_off3 k) S1x128.size (k0_off3_inb k)) (fun _ => rfl)).squeeze S128 squeezes_S1x128_S128)) (S := (xD0).view.set) (q := fullShare) (xrow_sub (lo := 0) h_k0_off3)) $$ Hb; iintro Hb
    sl_exec
    iapply (SparseCore.wp_vectorLoadIdx 𝒱₀ (V d (cV L) (jV L)) none Set.univ (base := (((xB).slice (Rect.unit (s := S128x128) (k0_off4 k) S1x128.size (k0_off4_inb k)) (fun _ => rfl)).squeeze S128 squeezes_S1x128_S128)) (S := (xD0).view.set) (q := fullShare) (xrow_sub (lo := 0) h_k0_off4)) $$ Hb; iintro Hb
    sl_exec
    iapply (SparseCore.wp_vectorLoadIdx 𝒱₀ (V d (cV L) (jV L)) none Set.univ (base := (((xB).slice (Rect.unit (s := S128x128) (k0_off5 k) S1x128.size (k0_off5_inb k)) (fun _ => rfl)).squeeze S128 squeezes_S1x128_S128)) (S := (xD0).view.set) (q := fullShare) (xrow_sub (lo := 0) h_k0_off5)) $$ Hb; iintro Hb
    sl_exec
    iapply (SparseCore.wp_vectorLoadIdx 𝒱₀ (V d (cV L) (jV L)) none Set.univ (base := (((xB).slice (Rect.unit (s := S128x128) (k0_off7 k) S1x128.size (k0_off7_inb k)) (fun _ => rfl)).squeeze S128 squeezes_S1x128_S128)) (S := (xD0).view.set) (q := fullShare) (xrow_sub (lo := 0) h_k0_off7)) $$ Hb; iintro Hb
    sl_exec
    iapply (SparseCore.wp_vectorLoadIdx 𝒱₀ (V d (cV L) (jV L)) none Set.univ (base := (((xB).slice (Rect.unit (s := S128x128) (k0_off8 k) S1x128.size (k0_off8_inb k)) (fun _ => rfl)).squeeze S128 squeezes_S1x128_S128)) (S := (xD0).view.set) (q := fullShare) (xrow_sub (lo := 0) h_k0_off8)) $$ Hb; iintro Hb
    sl_exec
    iapply (SparseCore.wp_vectorLoadIdx 𝒱₀ (V d (cV L) (jV L)) none Set.univ (base := (((xB).slice (Rect.unit (s := S128x128) (k0_off9 k) S1x128.size (k0_off9_inb k)) (fun _ => rfl)).squeeze S128 squeezes_S1x128_S128)) (S := (xD0).view.set) (q := fullShare) (xrow_sub (lo := 0) h_k0_off9)) $$ Hb; iintro Hb
    sl_exec
    iapply (SparseCore.wp_vectorLoadIdx 𝒱₀ (V d (cV L) (jV L)) none Set.univ (base := (((xB).slice (Rect.unit (s := S128x128) (k0_off10 k) S1x128.size (k0_off10_inb k)) (fun _ => rfl)).squeeze S128 squeezes_S1x128_S128)) (S := (xD0).view.set) (q := fullShare) (xrow_sub (lo := 0) h_k0_off10)) $$ Hb; iintro Hb
    sl_exec
    sl_step
    iexists fb
    isplitl [Hb]; · iexact Hb
    isplitr; · ipureintro; exact hfb
    iexists _
    isplitl [Ho]; · iexact Ho
    ipureintro
    exact step_rows fb f _ 0 k.val ⟨k.val, by omega⟩ rfl hf
      (fun i => trip_apply fb f ⟨k.val, by omega⟩ (k0_off6_eq k) (k0_off11_eq k) (row_read fb _ (k0_off2_eq k)) (row_read fb _ (k0_off3_eq k)) (row_read fb _ (k0_off4_eq k)) (row_read fb _ (k0_off5_eq k)) (row_read fb _ (k0_off7_eq k)) (row_read fb _ (k0_off8_eq k)) (row_read fb _ (k0_off9_eq k)) (row_read fb _ (k0_off10_eq k)) i)
  · unfold invT0
    iexists _
    isplitl [Hb0]; · iexact Hb0
    isplitr; · ipureintro; exact read_landed _ _ _
    iexists _
    isplitl [Ho0]; · iexact Ho0
    ipureintro
    intro i h1 h2
    omega
  iintro %_ HI
  unfold invT0
  icases HI with ⟨%fb0', Hb0, %hfb0, %fo0', Ho0, %hfo0⟩
  sl_exec
  sl_for (invT1 (F := F) m d L) $$ [Hb1 Ho1]
  case region =>
    intro k _
    have hk : k.val < 32 := lt_of_lt_of_le k.isLt k0_t2_abs.2.1
    have h_k0_off14 : 32 ≤ (k0_off14 k) 0 ∧ (k0_off14 k) 0 < 32 + 32 := by rw [k0_off14_eq]; exact ⟨by show 32 ≤ k.val + 32; omega, by show k.val + 32 < 32 + 32; omega⟩
    have h_k0_off15 : 32 ≤ (k0_off15 k) 0 ∧ (k0_off15 k) 0 < 32 + 32 := by rw [k0_off15_eq]; exact ⟨by show 32 ≤ k.val + 32; omega, by show k.val + 32 < 32 + 32; omega⟩
    have h_k0_off16 : 32 ≤ (k0_off16 k) 0 ∧ (k0_off16 k) 0 < 32 + 32 := by rw [k0_off16_eq]; exact ⟨by show 32 ≤ k.val + 32; omega, by show k.val + 32 < 32 + 32; omega⟩
    unfold invT1
    iintro ⟨%fb, Hb, %hfb, %f, Ho, %hf⟩
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    iapply (SparseCore.wp_vectorLoadIdx 𝒱₀ (V d (cV L) (jV L)) none Set.univ (base := (((xB).slice (Rect.unit (s := S128x128) (k0_off14 k) S1x128.size (k0_off14_inb k)) (fun _ => rfl)).squeeze S128 squeezes_S1x128_S128)) (S := (xD1).view.set) (q := fullShare) (xrow_sub (lo := 32) h_k0_off14)) $$ Hb; iintro Hb
    sl_exec
    sl_step
    iexists fb
    isplitl [Hb]; · iexact Hb
    isplitr; · ipureintro; exact hfb
    iexists _
    isplitl [Ho]; · iexact Ho
    ipureintro
    exact step_rows fb f _ 32 k.val ⟨k.val + 32, by omega⟩ rfl hf
      (fun i => trip_apply fb f ⟨k.val + 32, by omega⟩ (k0_off15_eq k) (k0_off16_eq k) (row_read fb _ (k0_off14_eq k)) (row_read fb _ (k0_off14_eq k)) (row_read fb _ (k0_off14_eq k)) (row_read fb _ (k0_off14_eq k)) (row_read fb _ (k0_off14_eq k)) (row_read fb _ (k0_off14_eq k)) (row_read fb _ (k0_off14_eq k)) (row_read fb _ (k0_off14_eq k)) i)
  · unfold invT1
    iexists _
    isplitl [Hb1]; · iexact Hb1
    isplitr; · ipureintro; exact read_landed _ _ _
    iexists _
    isplitl [Ho1]; · iexact Ho1
    ipureintro
    intro i h1 h2
    omega
  iintro %_ HI
  unfold invT1
  icases HI with ⟨%fb1', Hb1, %hfb1, %fo1', Ho1, %hfo1⟩
  sl_exec
  sl_for (invT2 (F := F) m d L) $$ [Hb2 Ho2]
  case region =>
    intro k _
    have hk : k.val < 32 := lt_of_lt_of_le k.isLt k0_t3_abs.2.1
    have h_k0_off17 : 64 ≤ (k0_off17 k) 0 ∧ (k0_off17 k) 0 < 64 + 32 := by rw [k0_off17_eq]; exact ⟨by show 64 ≤ k.val + 64; omega, by show k.val + 64 < 64 + 32; omega⟩
    have h_k0_off18 : 64 ≤ (k0_off18 k) 0 ∧ (k0_off18 k) 0 < 64 + 32 := by rw [k0_off18_eq]; exact ⟨by show 64 ≤ k.val + 64; omega, by show k.val + 64 < 64 + 32; omega⟩
    have h_k0_off19 : 64 ≤ (k0_off19 k) 0 ∧ (k0_off19 k) 0 < 64 + 32 := by rw [k0_off19_eq]; exact ⟨by show 64 ≤ k.val + 64; omega, by show k.val + 64 < 64 + 32; omega⟩
    unfold invT2
    iintro ⟨%fb, Hb, %hfb, %f, Ho, %hf⟩
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    iapply (SparseCore.wp_vectorLoadIdx 𝒱₀ (V d (cV L) (jV L)) none Set.univ (base := (((xB).slice (Rect.unit (s := S128x128) (k0_off17 k) S1x128.size (k0_off17_inb k)) (fun _ => rfl)).squeeze S128 squeezes_S1x128_S128)) (S := (xD2).view.set) (q := fullShare) (xrow_sub (lo := 64) h_k0_off17)) $$ Hb; iintro Hb
    sl_exec
    sl_step
    iexists fb
    isplitl [Hb]; · iexact Hb
    isplitr; · ipureintro; exact hfb
    iexists _
    isplitl [Ho]; · iexact Ho
    ipureintro
    exact step_rows fb f _ 64 k.val ⟨k.val + 64, by omega⟩ rfl hf
      (fun i => trip_apply fb f ⟨k.val + 64, by omega⟩ (k0_off18_eq k) (k0_off19_eq k) (row_read fb _ (k0_off17_eq k)) (row_read fb _ (k0_off17_eq k)) (row_read fb _ (k0_off17_eq k)) (row_read fb _ (k0_off17_eq k)) (row_read fb _ (k0_off17_eq k)) (row_read fb _ (k0_off17_eq k)) (row_read fb _ (k0_off17_eq k)) (row_read fb _ (k0_off17_eq k)) i)
  · unfold invT2
    iexists _
    isplitl [Hb2]; · iexact Hb2
    isplitr; · ipureintro; exact read_landed _ _ _
    iexists _
    isplitl [Ho2]; · iexact Ho2
    ipureintro
    intro i h1 h2
    omega
  iintro %_ HI
  unfold invT2
  icases HI with ⟨%fb2', Hb2, %hfb2, %fo2', Ho2, %hfo2⟩
  sl_exec
  sl_for (invT3 (F := F) m d L) $$ [Hb3 Ho3]
  case region =>
    intro k _
    have hk : k.val < 32 := lt_of_lt_of_le k.isLt k0_t4_abs.2.1
    have h_k0_off20 : 96 ≤ (k0_off20 k) 0 ∧ (k0_off20 k) 0 < 96 + 32 := by rw [k0_off20_eq]; exact ⟨by show 96 ≤ k.val + 96; omega, by show k.val + 96 < 96 + 32; omega⟩
    have h_k0_off21 : 96 ≤ (k0_off21 k) 0 ∧ (k0_off21 k) 0 < 96 + 32 := by rw [k0_off21_eq]; exact ⟨by show 96 ≤ k.val + 96; omega, by show k.val + 96 < 96 + 32; omega⟩
    have h_k0_off22 : 96 ≤ (k0_off22 k) 0 ∧ (k0_off22 k) 0 < 96 + 32 := by rw [k0_off22_eq]; exact ⟨by show 96 ≤ k.val + 96; omega, by show k.val + 96 < 96 + 32; omega⟩
    unfold invT3
    iintro ⟨%fb, Hb, %hfb, %f, Ho, %hf⟩
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    iapply (SparseCore.wp_vectorLoadIdx 𝒱₀ (V d (cV L) (jV L)) none Set.univ (base := (((xB).slice (Rect.unit (s := S128x128) (k0_off20 k) S1x128.size (k0_off20_inb k)) (fun _ => rfl)).squeeze S128 squeezes_S1x128_S128)) (S := (xD3).view.set) (q := fullShare) (xrow_sub (lo := 96) h_k0_off20)) $$ Hb; iintro Hb
    sl_exec
    sl_step
    iexists fb
    isplitl [Hb]; · iexact Hb
    isplitr; · ipureintro; exact hfb
    iexists _
    isplitl [Ho]; · iexact Ho
    ipureintro
    exact step_rows fb f _ 96 k.val ⟨k.val + 96, by omega⟩ rfl hf
      (fun i => trip_apply fb f ⟨k.val + 96, by omega⟩ (k0_off21_eq k) (k0_off22_eq k) (row_read fb _ (k0_off20_eq k)) (row_read fb _ (k0_off20_eq k)) (row_read fb _ (k0_off20_eq k)) (row_read fb _ (k0_off20_eq k)) (row_read fb _ (k0_off20_eq k)) (row_read fb _ (k0_off20_eq k)) (row_read fb _ (k0_off20_eq k)) (row_read fb _ (k0_off20_eq k)) i)
  · unfold invT3
    iexists _
    isplitl [Hb3]; · iexact Hb3
    isplitr; · ipureintro; exact read_landed _ _ _
    iexists _
    isplitl [Ho3]; · iexact Ho3
    ipureintro
    intro i h1 h2
    omega
  iintro %_ HI
  unfold invT3
  icases HI with ⟨%fb3', Hb3, %hfb3, %fo3', Ho3, %hfo3⟩
  sl_exec
  sl_step
  have ht0 : Scf.trips k0_t1_loop.lb k0_t1_loop.ub k0_t1_loop.st = 32 := by decide
  have ht1 : Scf.trips k0_t2_loop.lb k0_t2_loop.ub k0_t2_loop.st = 32 := by decide
  have ht2 : Scf.trips k0_t3_loop.lb k0_t3_loop.ub k0_t3_loop.st = 32 := by decide
  have ht3 : Scf.trips k0_t4_loop.lb k0_t4_loop.ub k0_t4_loop.st = 32 := by decide
  isplitl [Hx0 Hx1 Hx2 Hx3]
  · isplitl [Hx0]; · iexact Hx0
    isplitl [Hx1]; · iexact Hx1
    isplitl [Hx2]; · iexact Hx2
    iexact Hx3
  isplitl [Hb0]; · iexists _; iexact Hb0
  isplitl [Hb1]; · iexists _; iexact Hb1
  isplitl [Hb2]; · iexists _; iexact Hb2
  isplitl [Hb3]; · iexists _; iexact Hb3
  isplitl [Ho0]; · iexists _; iexact Ho0
  isplitl [Ho1]; · iexists _; iexact Ho1
  isplitl [Ho2]; · iexists _; iexact Ho2
  isplitl [Ho3]; · iexists _; iexact Ho3
  isplitl [Hz0 Hz1 Hz2 Hz3]
  · isplitl [Hz0]
    · iapply (Entails.of_eq (pointsTo_congr (chunk_out (m (xLoc d)) fz fb0' fo0' 0 (256 * (L 1).val + 128 * (L 0).val + 32 * (0 : Fin 4).val)
        (k0_off1_eq L 0) (k0_off12_eq L 0) hfb0 (fun i h1 h2 => hfo0 i h1 (by omega)))))
      iexact Hz0
    isplitl [Hz1]
    · iapply (Entails.of_eq (pointsTo_congr (chunk_out (m (xLoc d)) fz fb1' fo1' 32 (256 * (L 1).val + 128 * (L 0).val + 32 * (1 : Fin 4).val)
        (k0_off1_eq L 1) (k0_off12_eq L 1) hfb1 (fun i h1 h2 => hfo1 i h1 (by omega)))))
      iexact Hz1
    isplitl [Hz2]
    · iapply (Entails.of_eq (pointsTo_congr (chunk_out (m (xLoc d)) fz fb2' fo2' 64 (256 * (L 1).val + 128 * (L 0).val + 32 * (2 : Fin 4).val)
        (k0_off1_eq L 2) (k0_off12_eq L 2) hfb2 (fun i h1 h2 => hfo2 i h1 (by omega)))))
      iexact Hz2
    iapply (Entails.of_eq (pointsTo_congr (chunk_out (m (xLoc d)) fz fb3' fo3' 96 (256 * (L 1).val + 128 * (L 0).val + 32 * (3 : Fin 4).val)
      (k0_off1_eq L 3) (k0_off12_eq L 3) hfb3 (fun i h1 h2 => hfo3 i h1 (by omega)))))
    iexact Hz3
  isplitl [Hi0]; · iexact Hi0
  isplitl [Hi1]; · iexact Hi1
  isplitl [Hi2]; · iexact Hi2
  isplitl [Hi3]; · iexact Hi3
  isplitl [Hq0]; · iexact Hq0
  isplitl [Hq1]; · iexact Hq1
  isplitl [Hq2]; · iexact Hq2
  isplitl [Hq3]; · iexact Hq3
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Kernel.Pf

end
-- ==== Proof.ChunksB.lean ====
/- The rows each task moves, as rectangles. Task (c, s), for a core c < 2 and a subcore s < 16, owns 128
   consecutive rows, in four chunks of 32. Chunk k of its part of the result is rows
   256 s + 128 c + 32 k .. + 32 of the 4096 × 32 result, all 32 columns; chunk k of its part of the
   argument is rows 256 s + 128 c + 32 k + 12288 .. + 32 of the 16384 × 2048 argument, columns 0 .. 127.
   The body spells each chunk's first row through 32-bit arithmetic; here it is the plain number. -/
import proofs.«213435_g4140348473474_cont_8to1_b_470_36_alg».proof.Proof.TileDefsB

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Unit-stride rectangles of one size at equal offsets have the same elements. -/
theorem unit_set_congr {s : Shape} {off off' size : Fin s.rank → Nat} {inb : ∀ a, off a + size a ≤ s.size a}
    {inb' : ∀ a, off' a + size a ≤ s.size a} (h : off = off') :
    (Rect.unit off size inb).set = (Rect.unit off' size inb').set := by
  subst h; rfl

omit [FloatOps F] in
theorem xRect_inb (L : grid0.Coords) (k : Fin 4) :
    ∀ a, (![256 * (L 1).val + 128 * (L 0).val + 32 * k.val + 12288, 0] : Fin 2 → Nat) a + S32x128.size a
      ≤ S16384x2048.size a := by
  intro a
  have h := k0_off1_inb L k a
  rw [k0_off1_eq L k] at h
  exact h

omit [FloatOps F] in
theorem oRect_inb (L : grid0.Coords) (k : Fin 4) :
    ∀ a, (![256 * (L 1).val + 128 * (L 0).val + 32 * k.val, 0] : Fin 2 → Nat) a + S32x32.size a
      ≤ S4096x32.size a := by
  intro a
  have h := k0_off12_inb L k a
  rw [k0_off12_eq L k] at h
  exact h

/-- Chunk `k` of task `L`'s rows of the argument: 32 rows from 256 s + 128 c + 32 k + 12288, columns 0 .. 127. -/
abbrev xRect (L : grid0.Coords) (k : Fin 4) : Rect S16384x2048 :=
  Rect.unit (s := S16384x2048) ![256 * (L 1).val + 128 * (L 0).val + 32 * k.val + 12288, 0] S32x128.size
    (xRect_inb L k)

/-- Chunk `k` of task `L`'s rows of the result: 32 rows from 256 s + 128 c + 32 k, all 32 columns. -/
abbrev oRect (L : grid0.Coords) (k : Fin 4) : Rect S4096x32 :=
  Rect.unit (s := S4096x32) ![256 * (L 1).val + 128 * (L 0).val + 32 * k.val, 0] S32x32.size (oRect_inb L k)

omit [FloatOps F] in
/-- Chunk 0 of a task's rows of the argument is that rectangle. -/
theorem set_xS0 (L : grid0.Coords) : (xS0 L).view.set = (xRect L 0).set := by
  show ((View.whole main_arg0_scv).slice
      (Rect.unit (s := S16384x2048) (k0_off1 L 0#32) S32x128.size (k0_off1_inb L 0))).set = _
  rw [View.set_slice_whole]
  exact unit_set_congr (k0_off1_eq L 0)

omit [FloatOps F] in
/-- Chunk 1 of a task's rows of the argument is that rectangle. -/
theorem set_xS1 (L : grid0.Coords) : (xS1 L).view.set = (xRect L 1).set := by
  show ((View.whole main_arg0_scv).slice
      (Rect.unit (s := S16384x2048) (k0_off1 L 32#32) S32x128.size (k0_off1_inb L 1))).set = _
  rw [View.set_slice_whole]
  exact unit_set_congr (k0_off1_eq L 1)

omit [FloatOps F] in
/-- Chunk 2 of a task's rows of the argument is that rectangle. -/
theorem set_xS2 (L : grid0.Coords) : (xS2 L).view.set = (xRect L 2).set := by
  show ((View.whole main_arg0_scv).slice
      (Rect.unit (s := S16384x2048) (k0_off1 L 64#32) S32x128.size (k0_off1_inb L 2))).set = _
  rw [View.set_slice_whole]
  exact unit_set_congr (k0_off1_eq L 2)

omit [FloatOps F] in
/-- Chunk 3 of a task's rows of the argument is that rectangle. -/
theorem set_xS3 (L : grid0.Coords) : (xS3 L).view.set = (xRect L 3).set := by
  show ((View.whole main_arg0_scv).slice
      (Rect.unit (s := S16384x2048) (k0_off1 L 96#32) S32x128.size (k0_off1_inb L 3))).set = _
  rw [View.set_slice_whole]
  exact unit_set_congr (k0_off1_eq L 3)

omit [FloatOps F] in
/-- Chunk 0 of a task's rows of the result is that rectangle. -/
theorem set_oD0 (L : grid0.Coords) : (oD0 L).view.set = (oRect L 0).set := by
  show ((View.whole main_v0_scv).slice
      (Rect.unit (s := S4096x32) (k0_off12 L 0#32) S32x32.size (k0_off12_inb L 0))).set = _
  rw [View.set_slice_whole]
  exact unit_set_congr (k0_off12_eq L 0)

omit [FloatOps F] in
/-- Chunk 1 of a task's rows of the result is that rectangle. -/
theorem set_oD1 (L : grid0.Coords) : (oD1 L).view.set = (oRect L 1).set := by
  show ((View.whole main_v0_scv).slice
      (Rect.unit (s := S4096x32) (k0_off12 L 32#32) S32x32.size (k0_off12_inb L 1))).set = _
  rw [View.set_slice_whole]
  exact unit_set_congr (k0_off12_eq L 1)

omit [FloatOps F] in
/-- Chunk 2 of a task's rows of the result is that rectangle. -/
theorem set_oD2 (L : grid0.Coords) : (oD2 L).view.set = (oRect L 2).set := by
  show ((View.whole main_v0_scv).slice
      (Rect.unit (s := S4096x32) (k0_off12 L 64#32) S32x32.size (k0_off12_inb L 2))).set = _
  rw [View.set_slice_whole]
  exact unit_set_congr (k0_off12_eq L 2)

omit [FloatOps F] in
/-- Chunk 3 of a task's rows of the result is that rectangle. -/
theorem set_oD3 (L : grid0.Coords) : (oD3 L).view.set = (oRect L 3).set := by
  show ((View.whole main_v0_scv).slice
      (Rect.unit (s := S4096x32) (k0_off12 L 96#32) S32x32.size (k0_off12_inb L 3))).set = _
  rw [View.set_slice_whole]
  exact unit_set_congr (k0_off12_eq L 3)

end Cert.Kernel.Pf

end
-- ==== Proof.ChunksBGeo.lean ====
/- The 128 chunks of the result — task (c, s), chunk k, rows 256 s + 128 c + 32 k .. + 32 — are the 128
   equal parts 32 j .. 32 j + 32 of the 4096 rows, with j = 8 s + 4 c + k running over 0 .. 127 exactly
   once: they are pairwise disjoint and together they are every entry of the result. The 128 chunks of
   the argument are the same rows shifted by 12288, restricted to the first 128 columns: pairwise
   disjoint, and not the whole argument. -/
import proofs.«213435_g4140348473474_cont_8to1_b_470_36_alg».proof.Proof.ChunksB

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The chunks are indexed by core, subcore and chunk number. -/
abbrev ChunkIx : Type := Fin 2 × Fin 16 × Fin 4

/-- The elements of the result that chunk `t` holds. -/
abbrev oSet (t : ChunkIx) : Finset S4096x32.Idx := (oRect (coordsV t.1 t.2.1) t.2.2).set

/-- The elements of the argument that chunk `t` holds. -/
abbrev xSet (t : ChunkIx) : Finset S16384x2048.Idx := (xRect (coordsV t.1 t.2.1) t.2.2).set

omit [FloatOps F] in
/-- Two different chunk indices differ in one of the three numbers. -/
theorem chunkIx_ne {t t' : ChunkIx} (h : t ≠ t') :
    t.1.val ≠ t'.1.val ∨ t.2.1.val ≠ t'.2.1.val ∨ t.2.2.val ≠ t'.2.2.val := by
  by_contra hcon
  simp only [ne_eq, not_or, not_not] at hcon
  exact h (Prod.ext (Fin.ext hcon.1) (Prod.ext (Fin.ext hcon.2.1) (Fin.ext hcon.2.2)))

omit [FloatOps F] in
/-- Different chunks of the result share no row. -/
theorem oSet_disjoint {t t' : ChunkIx} (h : t ≠ t') : Disjoint (oSet t) (oSet t') := by
  refine Rect.unit_disjoint (0 : Fin 2) ?_
  have hne := chunkIx_ne h
  show 256 * t.2.1.val + 128 * t.1.val + 32 * t.2.2.val + 32 ≤ 256 * t'.2.1.val + 128 * t'.1.val + 32 * t'.2.2.val
    ∨ 256 * t'.2.1.val + 128 * t'.1.val + 32 * t'.2.2.val + 32 ≤ 256 * t.2.1.val + 128 * t.1.val + 32 * t.2.2.val
  omega

omit [FloatOps F] in
/-- Different chunks of the argument share no row. -/
theorem xSet_disjoint {t t' : ChunkIx} (h : t ≠ t') : Disjoint (xSet t) (xSet t') := by
  refine Rect.unit_disjoint (0 : Fin 2) ?_
  have hne := chunkIx_ne h
  show 256 * t.2.1.val + 128 * t.1.val + 32 * t.2.2.val + 12288 + 32
      ≤ 256 * t'.2.1.val + 128 * t'.1.val + 32 * t'.2.2.val + 12288
    ∨ 256 * t'.2.1.val + 128 * t'.1.val + 32 * t'.2.2.val + 12288 + 32
      ≤ 256 * t.2.1.val + 128 * t.1.val + 32 * t.2.2.val + 12288
  omega

omit [FloatOps F] in
/-- Every entry of the result lies in a chunk: row r is in chunk (r / 128 mod 2, r / 256, r / 32 mod 4). -/
theorem oSet_cover : (Finset.univ : Finset ChunkIx).biUnion oSet = Finset.univ := by
  ext x
  simp only [Finset.mem_biUnion, Finset.mem_univ, true_and, iff_true]
  have hx0 : (x 0).val < 4096 := (x 0).isLt
  have hx1 : (x 1).val < 32 := (x 1).isLt
  refine ⟨(⟨(x 0).val / 128 % 2, by omega⟩, ⟨(x 0).val / 256, by omega⟩, ⟨(x 0).val / 32 % 4, by omega⟩),
    Rect.mem_set_unit.mpr (Fin.forall_fin_two.mpr ⟨?_, ?_⟩)⟩
  · show 256 * ((x 0).val / 256) + 128 * ((x 0).val / 128 % 2) + 32 * ((x 0).val / 32 % 4) ≤ (x 0).val
      ∧ (x 0).val < 256 * ((x 0).val / 256) + 128 * ((x 0).val / 128 % 2) + 32 * ((x 0).val / 32 % 4) + 32
    omega
  · show 0 ≤ (x 1).val ∧ (x 1).val < 0 + 32
    omega

end Cert.Kernel.Pf

end
-- ==== Proof.ChunksBPts.lean ====
/- Splitting the whole result, and the whole argument, into the 32 tasks' chunks and joining them again.
   Ownership of an array splits along any family of pairwise disjoint sets of its elements. The 128
   chunks of the result are pairwise disjoint and cover it, so owning the result is the same as owning,
   for each core and each subcore, that task's four chunks. The 128 chunks of the argument are pairwise
   disjoint and leave a remainder (every row outside 12288 .. 16383 and every column from 128 on), so
   owning the argument is owning the tasks' chunks together with that remainder. Contents matter only on
   the set owned, so chunks held at contents that agree with one array there join to that array. -/
import proofs.«213435_g4140348473474_cont_8to1_b_470_36_alg».proof.Proof.ChunksBGeo
import Idealize.ShloMosaic.Rules.PointsTo

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A separating conjunction over four indices, written out. -/
theorem bigSep_fin_four (Φ : Fin 4 → sProp 𝕄) :
    bigSep Finset.univ Φ = iprop(Φ 0 ∗ Φ 1 ∗ Φ 2 ∗ Φ 3) := by
  rw [show (Finset.univ : Finset (Fin 4)) = {0, 1, 2, 3} by decide,
    bigSep_insert (by decide), bigSep_insert (by decide), bigSep_insert (by decide), bigSep_singleton]
  rfl

/-- Chunk 0 of the result, held through the task's slice, is the array held on that rectangle. -/
theorem pts_oD0 (d : Dev nD) (L : grid0.Coords) (f : Buf (Elt F) (oLoc d)) :
    ((oD0 L).view.loc (V d (cV L) (jV L)) ↦[(oD0 L).view.set]{fullShare} f : sProp 𝕄)
      = oLoc d ↦[(oRect L 0).set]{fullShare} f := by
  rw [set_oD0]

/-- Chunk 1 of the result, held through the task's slice, is the array held on that rectangle. -/
theorem pts_oD1 (d : Dev nD) (L : grid0.Coords) (f : Buf (Elt F) (oLoc d)) :
    ((oD1 L).view.loc (V d (cV L) (jV L)) ↦[(oD1 L).view.set]{fullShare} f : sProp 𝕄)
      = oLoc d ↦[(oRect L 1).set]{fullShare} f := by
  rw [set_oD1]

/-- Chunk 2 of the result, held through the task's slice, is the array held on that rectangle. -/
theorem pts_oD2 (d : Dev nD) (L : grid0.Coords) (f : Buf (Elt F) (oLoc d)) :
    ((oD2 L).view.loc (V d (cV L) (jV L)) ↦[(oD2 L).view.set]{fullShare} f : sProp 𝕄)
      = oLoc d ↦[(oRect L 2).set]{fullShare} f := by
  rw [set_oD2]

/-- Chunk 3 of the result, held through the task's slice, is the array held on that rectangle. -/
theorem pts_oD3 (d : Dev nD) (L : grid0.Coords) (f : Buf (Elt F) (oLoc d)) :
    ((oD3 L).view.loc (V d (cV L) (jV L)) ↦[(oD3 L).view.set]{fullShare} f : sProp 𝕄)
      = oLoc d ↦[(oRect L 3).set]{fullShare} f := by
  rw [set_oD3]

/-- Chunk 0 of the argument, held through the task's slice, is the array held on that rectangle. -/
theorem pts_xS0 (d : Dev nD) (L : grid0.Coords) (f : Buf (Elt F) (xLoc d)) :
    ((xS0 L).view.loc (V d (cV L) (jV L)) ↦[(xS0 L).view.set]{fullShare} f : sProp 𝕄)
      = xLoc d ↦[(xRect L 0).set]{fullShare} f := by
  rw [set_xS0]

/-- Chunk 1 of the argument, held through the task's slice, is the array held on that rectangle. -/
theorem pts_xS1 (d : Dev nD) (L : grid0.Coords) (f : Buf (Elt F) (xLoc d)) :
    ((xS1 L).view.loc (V d (cV L) (jV L)) ↦[(xS1 L).view.set]{fullShare} f : sProp 𝕄)
      = xLoc d ↦[(xRect L 1).set]{fullShare} f := by
  rw [set_xS1]

/-- Chunk 2 of the argument, held through the task's slice, is the array held on that rectangle. -/
theorem pts_xS2 (d : Dev nD) (L : grid0.Coords) (f : Buf (Elt F) (xLoc d)) :
    ((xS2 L).view.loc (V d (cV L) (jV L)) ↦[(xS2 L).view.set]{fullShare} f : sProp 𝕄)
      = xLoc d ↦[(xRect L 2).set]{fullShare} f := by
  rw [set_xS2]

/-- Chunk 3 of the argument, held through the task's slice, is the array held on that rectangle. -/
theorem pts_xS3 (d : Dev nD) (L : grid0.Coords) (f : Buf (Elt F) (xLoc d)) :
    ((xS3 L).view.loc (V d (cV L) (jV L)) ↦[(xS3 L).view.set]{fullShare} f : sProp 𝕄)
      = xLoc d ↦[(xRect L 3).set]{fullShare} f := by
  rw [set_xS3]

/-- A task's four chunks of the result are the array held on the task's four rectangles. -/
theorem oChunks_eq (d : Dev nD) (L : grid0.Coords) (f : Buf (Elt F) (oLoc d)) :
    oChunks (F := F) d L f
      = bigSep Finset.univ fun k : Fin 4 => (oLoc d ↦[(oRect L k).set]{fullShare} f : sProp 𝕄) := by
  rw [bigSep_fin_four]
  unfold oChunks
  rw [pts_oD0 d L f, pts_oD1 d L f, pts_oD2 d L f, pts_oD3 d L f]

/-- A task's four chunks of the argument are the array held on the task's four rectangles. -/
theorem xChunks_eq (d : Dev nD) (L : grid0.Coords) (f : Buf (Elt F) (xLoc d)) :
    xChunks (F := F) d L f
      = bigSep Finset.univ fun k : Fin 4 => (xLoc d ↦[(xRect L k).set]{fullShare} f : sProp 𝕄) := by
  rw [bigSep_fin_four]
  unfold xChunks
  rw [pts_xS0 d L f, pts_xS1 d L f, pts_xS2 d L f, pts_xS3 d L f]

/-- The result held on the union of all chunks is every task's chunks. -/
theorem oUnion_chunks (d : Dev nD) (f : Buf (Elt F) (oLoc d)) :
    (oLoc d ↦[(Finset.univ : Finset ChunkIx).biUnion oSet]{fullShare} f : sProp 𝕄)
      = bigSep Finset.univ fun c : Fin 2 => bigSep Finset.univ fun i : Fin 16 => oChunks d (coordsV c i) f := by
  rw [pointsTo_biUnion _ _ (fun t _ t' _ h => oSet_disjoint h), bigSep_univ_prod]
  refine bigSep_congr fun c _ => ?_
  rw [bigSep_univ_prod]
  refine bigSep_congr fun i _ => ?_
  exact (oChunks_eq d (coordsV c i) f).symm

/-- The argument held on the union of all chunks is every task's chunks. -/
theorem xUnion_chunks (d : Dev nD) (f : Buf (Elt F) (xLoc d)) :
    (xLoc d ↦[(Finset.univ : Finset ChunkIx).biUnion xSet]{fullShare} f : sProp 𝕄)
      = bigSep Finset.univ fun c : Fin 2 => bigSep Finset.univ fun i : Fin 16 => xChunks d (coordsV c i) f := by
  rw [pointsTo_biUnion _ _ (fun t _ t' _ h => xSet_disjoint h), bigSep_univ_prod]
  refine bigSep_congr fun c _ => ?_
  rw [bigSep_univ_prod]
  refine bigSep_congr fun i _ => ?_
  exact (xChunks_eq d (coordsV c i) f).symm

/-- Owning the whole result is owning every task's four chunks of it. -/
theorem oPts_chunks (d : Dev nD) (f : Buf (Elt F) (oLoc d)) :
    (oLoc d ↦{fullShare} f : sProp 𝕄)
      = bigSep Finset.univ fun c : Fin 2 => bigSep Finset.univ fun i : Fin 16 => oChunks d (coordsV c i) f := by
  rw [← oUnion_chunks d f]
  exact congrArg (fun I => (oLoc d ↦[I]{fullShare} f : sProp 𝕄)) oSet_cover.symm

/-- The part of the argument no task reads: everything outside the 128 chunks. -/
abbrev xRest (d : Dev nD) : Finset (Idx (xLoc d)) :=
  Finset.univ \ (Finset.univ : Finset ChunkIx).biUnion xSet

/-- Owning the whole argument is owning every task's four chunks of it and the remainder. -/
theorem xPts_chunks (d : Dev nD) (f : Buf (Elt F) (xLoc d)) :
    (xLoc d ↦{fullShare} f : sProp 𝕄)
      ⊣⊢ iprop((bigSep Finset.univ fun c : Fin 2 => bigSep Finset.univ fun i : Fin 16 => xChunks d (coordsV c i) f)
          ∗ xLoc d ↦[xRest d]{fullShare} f) := by
  rw [← xUnion_chunks d f]
  exact pointsTo_split_subset (Finset.subset_univ _)

/-- One task's four chunks of the result, each held at contents of its own that agree on the chunk with
    one array `g`, are the task's chunks of `g`. -/
theorem oChunks_congr (d : Dev nD) (L : grid0.Coords) (g h0 h1 h2 h3 : Buf (Elt F) (oLoc d))
    (e0 : ∀ x ∈ (oD0 L).view.set, h0 x = g x) (e1 : ∀ x ∈ (oD1 L).view.set, h1 x = g x)
    (e2 : ∀ x ∈ (oD2 L).view.set, h2 x = g x) (e3 : ∀ x ∈ (oD3 L).view.set, h3 x = g x) :
    (iprop(((oD0 L).view.loc (V d (cV L) (jV L)) ↦[(oD0 L).view.set]{fullShare} h0)
      ∗ ((oD1 L).view.loc (V d (cV L) (jV L)) ↦[(oD1 L).view.set]{fullShare} h1)
      ∗ ((oD2 L).view.loc (V d (cV L) (jV L)) ↦[(oD2 L).view.set]{fullShare} h2)
      ∗ ((oD3 L).view.loc (V d (cV L) (jV L)) ↦[(oD3 L).view.set]{fullShare} h3)) : sProp 𝕄) = oChunks d L g := by
  rw [pointsTo_congr (I := (oD0 L).view.set) (f := h0) (g := g) e0,
    pointsTo_congr (I := (oD1 L).view.set) (f := h1) (g := g) e1,
    pointsTo_congr (I := (oD2 L).view.set) (f := h2) (g := g) e2,
    pointsTo_congr (I := (oD3 L).view.set) (f := h3) (g := g) e3]

/-- Every task's chunks of the result, each held at contents that agree on the chunk with one array `g`,
    join to the whole result held at `g`. -/
theorem oPts_join (d : Dev nD) (g : Buf (Elt F) (oLoc d)) (h : Fin 2 → Fin 16 → Fin 4 → Buf (Elt F) (oLoc d))
    (e0 : ∀ c i, ∀ x ∈ (oD0 (coordsV c i)).view.set, h c i 0 x = g x)
    (e1 : ∀ c i, ∀ x ∈ (oD1 (coordsV c i)).view.set, h c i 1 x = g x)
    (e2 : ∀ c i, ∀ x ∈ (oD2 (coordsV c i)).view.set, h c i 2 x = g x)
    (e3 : ∀ c i, ∀ x ∈ (oD3 (coordsV c i)).view.set, h c i 3 x = g x) :
    (bigSep Finset.univ fun c : Fin 2 => bigSep Finset.univ fun i : Fin 16 =>
      (iprop(((oD0 (coordsV c i)).view.loc (V d (cV (coordsV c i)) (jV (coordsV c i))) ↦[(oD0 (coordsV c i)).view.set]{fullShare} (h c i 0))
      ∗ ((oD1 (coordsV c i)).view.loc (V d (cV (coordsV c i)) (jV (coordsV c i))) ↦[(oD1 (coordsV c i)).view.set]{fullShare} (h c i 1))
      ∗ ((oD2 (coordsV c i)).view.loc (V d (cV (coordsV c i)) (jV (coordsV c i))) ↦[(oD2 (coordsV c i)).view.set]{fullShare} (h c i 2))
      ∗ ((oD3 (coordsV c i)).view.loc (V d (cV (coordsV c i)) (jV (coordsV c i))) ↦[(oD3 (coordsV c i)).view.set]{fullShare} (h c i 3))) : sProp 𝕄))
      = (oLoc d ↦{fullShare} g : sProp 𝕄) := by
  rw [oPts_chunks d g]
  refine bigSep_congr fun c _ => bigSep_congr fun i _ => ?_
  exact oChunks_congr d (coordsV c i) g _ _ _ _ (e0 c i) (e1 c i) (e2 c i) (e3 c i)

end Cert.Kernel.Pf

end
-- ==== Proof.TileSplitB.lean ====
import proofs.«213435_g4140348473474_cont_8to1_b_470_36_alg».proof.Proof.ChunksBPts

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xB" => (Memref.whole Cert.Kernel.cc0_scratch0 : Memref Cert.Kernel.sig Kind.scVector Space.vmem Cert.Kernel.S128x128 EltTy.f32)
local notation "oB" => (Memref.whole Cert.Kernel.cc0_scratch1 : Memref Cert.Kernel.sig Kind.scVector Space.vmem Cert.Kernel.S128x32 EltTy.f32)

/-! ## The two scratch buffers as four chunks of 32 rows -/

omit [FloatOps F] in
theorem xbRect_inb (k : Fin 4) : ∀ a, (![32 * k.val, 0] : Fin 2 → Nat) a + S32x128.size a ≤ S128x128.size a := by
  intro a; have hk := k.isLt
  match a with
  | 0 => show 32 * k.val + 32 ≤ 128; omega
  | 1 => show 0 + 128 ≤ 128; omega
omit [FloatOps F] in
theorem obRect_inb (k : Fin 4) : ∀ a, (![32 * k.val, 0] : Fin 2 → Nat) a + S32x32.size a ≤ S128x32.size a := by
  intro a; have hk := k.isLt
  match a with
  | 0 => show 32 * k.val + 32 ≤ 128; omega
  | 1 => show 0 + 32 ≤ 32; omega

/-- Rows 32k .. 32k+31 of the row scratch. -/
abbrev xbRect (k : Fin 4) : Rect S128x128 := Rect.unit (s := S128x128) ![32 * k.val, 0] S32x128.size (xbRect_inb k)
/-- Rows 32k .. 32k+31 of the result scratch. -/
abbrev obRect (k : Fin 4) : Rect S128x32 := Rect.unit (s := S128x32) ![32 * k.val, 0] S32x32.size (obRect_inb k)

omit [FloatOps F] in
theorem set_xD0 : (xD0).view.set = (xbRect 0).set := by
  show ((View.whole cc0_scratch0).slice (Rect.unit (s := S128x128) ![0, 0] S32x128.size inb_S128x128_S32x128_0_0)).set = _
  rw [View.set_slice_whole]; exact unit_set_congr rfl
omit [FloatOps F] in
theorem set_xD1 : (xD1).view.set = (xbRect 1).set := by
  show ((View.whole cc0_scratch0).slice (Rect.unit (s := S128x128) ![32, 0] S32x128.size inb_S128x128_S32x128_32_0)).set = _
  rw [View.set_slice_whole]; exact unit_set_congr rfl
omit [FloatOps F] in
theorem set_xD2 : (xD2).view.set = (xbRect 2).set := by
  show ((View.whole cc0_scratch0).slice (Rect.unit (s := S128x128) ![64, 0] S32x128.size inb_S128x128_S32x128_64_0)).set = _
  rw [View.set_slice_whole]; exact unit_set_congr rfl
omit [FloatOps F] in
theorem set_xD3 : (xD3).view.set = (xbRect 3).set := by
  show ((View.whole cc0_scratch0).slice (Rect.unit (s := S128x128) ![96, 0] S32x128.size inb_S128x128_S32x128_96_0)).set = _
  rw [View.set_slice_whole]; exact unit_set_congr rfl
omit [FloatOps F] in
theorem set_oS0 : (oS0).view.set = (obRect 0).set := by
  show ((View.whole cc0_scratch1).slice (Rect.unit (s := S128x32) ![0, 0] S32x32.size inb_S128x32_S32x32_0_0)).set = _
  rw [View.set_slice_whole]; exact unit_set_congr rfl
omit [FloatOps F] in
theorem set_oS1 : (oS1).view.set = (obRect 1).set := by
  show ((View.whole cc0_scratch1).slice (Rect.unit (s := S128x32) ![32, 0] S32x32.size inb_S128x32_S32x32_32_0)).set = _
  rw [View.set_slice_whole]; exact unit_set_congr rfl
omit [FloatOps F] in
theorem set_oS2 : (oS2).view.set = (obRect 2).set := by
  show ((View.whole cc0_scratch1).slice (Rect.unit (s := S128x32) ![64, 0] S32x32.size inb_S128x32_S32x32_64_0)).set = _
  rw [View.set_slice_whole]; exact unit_set_congr rfl
omit [FloatOps F] in
theorem set_oS3 : (oS3).view.set = (obRect 3).set := by
  show ((View.whole cc0_scratch1).slice (Rect.unit (s := S128x32) ![96, 0] S32x32.size inb_S128x32_S32x32_96_0)).set = _
  rw [View.set_slice_whole]; exact unit_set_congr rfl

omit [FloatOps F] in
theorem xbRect_disjoint {k k' : Fin 4} (h : k ≠ k') : Disjoint (xbRect k).set (xbRect k').set := by
  refine Rect.unit_disjoint (0 : Fin 2) ?_
  have hne : k.val ≠ k'.val := fun e => h (Fin.ext e)
  show 32 * k.val + 32 ≤ 32 * k'.val ∨ 32 * k'.val + 32 ≤ 32 * k.val
  omega
omit [FloatOps F] in
theorem obRect_disjoint {k k' : Fin 4} (h : k ≠ k') : Disjoint (obRect k).set (obRect k').set := by
  refine Rect.unit_disjoint (0 : Fin 2) ?_
  have hne : k.val ≠ k'.val := fun e => h (Fin.ext e)
  show 32 * k.val + 32 ≤ 32 * k'.val ∨ 32 * k'.val + 32 ≤ 32 * k.val
  omega
omit [FloatOps F] in
theorem xbRect_cover : (Finset.univ : Finset (Fin 4)).biUnion (fun k => (xbRect k).set) = Finset.univ := by
  ext x
  simp only [Finset.mem_biUnion, Finset.mem_univ, true_and, iff_true]
  have hx0 : (x 0).val < 128 := (x 0).isLt
  have hx1 : (x 1).val < 128 := (x 1).isLt
  refine ⟨⟨(x 0).val / 32, by omega⟩, Rect.mem_set_unit.mpr (Fin.forall_fin_two.mpr ⟨?_, ?_⟩)⟩
  · show 32 * ((x 0).val / 32) ≤ (x 0).val ∧ (x 0).val < 32 * ((x 0).val / 32) + 32
    omega
  · show 0 ≤ (x 1).val ∧ (x 1).val < 0 + 128
    omega
omit [FloatOps F] in
theorem obRect_cover : (Finset.univ : Finset (Fin 4)).biUnion (fun k => (obRect k).set) = Finset.univ := by
  ext x
  simp only [Finset.mem_biUnion, Finset.mem_univ, true_and, iff_true]
  have hx0 : (x 0).val < 128 := (x 0).isLt
  have hx1 : (x 1).val < 32 := (x 1).isLt
  refine ⟨⟨(x 0).val / 32, by omega⟩, Rect.mem_set_unit.mpr (Fin.forall_fin_two.mpr ⟨?_, ?_⟩)⟩
  · show 32 * ((x 0).val / 32) ≤ (x 0).val ∧ (x 0).val < 32 * ((x 0).val / 32) + 32
    omega
  · show 0 ≤ (x 1).val ∧ (x 1).val < 0 + 32
    omega

section
variable (d : Dev nD) (L : grid0.Coords)

/-- The row scratch held whole is its four chunks, each held on exactly its slice's elements. -/
theorem xB_chunks (f : Buf (Elt F) ((V d (cV L) (jV L)).loc cc0_scratch0)) :
    (((V d (cV L) (jV L)).loc cc0_scratch0) ↦{fullShare} f : sProp 𝕄)
      = iprop(((xD0).view.loc (V d (cV L) (jV L)) ↦[(xD0).view.set]{fullShare} f) ∗ ((xD1).view.loc (V d (cV L) (jV L)) ↦[(xD1).view.set]{fullShare} f)
          ∗ ((xD2).view.loc (V d (cV L) (jV L)) ↦[(xD2).view.set]{fullShare} f) ∗ ((xD3).view.loc (V d (cV L) (jV L)) ↦[(xD3).view.set]{fullShare} f)) := by
  rw [set_xD0, set_xD1, set_xD2, set_xD3]
  have hu : (((V d (cV L) (jV L)).loc cc0_scratch0) ↦[(Finset.univ : Finset (Fin 4)).biUnion (fun k => (xbRect k).set)]{fullShare} f : sProp 𝕄)
      = iprop((((V d (cV L) (jV L)).loc cc0_scratch0) ↦[(xbRect 0).set]{fullShare} f) ∗ (((V d (cV L) (jV L)).loc cc0_scratch0) ↦[(xbRect 1).set]{fullShare} f)
          ∗ (((V d (cV L) (jV L)).loc cc0_scratch0) ↦[(xbRect 2).set]{fullShare} f) ∗ (((V d (cV L) (jV L)).loc cc0_scratch0) ↦[(xbRect 3).set]{fullShare} f)) := by
    rw [pointsTo_biUnion _ _ (fun k _ k' _ h => xbRect_disjoint h), bigSep_fin_four]
  rw [← hu]
  exact congrArg (fun I => (((V d (cV L) (jV L)).loc cc0_scratch0) ↦[I]{fullShare} f : sProp 𝕄)) xbRect_cover.symm

/-- The result scratch held whole is its four chunks. -/
theorem oB_chunks (f : Buf (Elt F) ((V d (cV L) (jV L)).loc cc0_scratch1)) :
    (((V d (cV L) (jV L)).loc cc0_scratch1) ↦{fullShare} f : sProp 𝕄)
      = iprop(((oS0).view.loc (V d (cV L) (jV L)) ↦[(oS0).view.set]{fullShare} f) ∗ ((oS1).view.loc (V d (cV L) (jV L)) ↦[(oS1).view.set]{fullShare} f)
          ∗ ((oS2).view.loc (V d (cV L) (jV L)) ↦[(oS2).view.set]{fullShare} f) ∗ ((oS3).view.loc (V d (cV L) (jV L)) ↦[(oS3).view.set]{fullShare} f)) := by
  rw [set_oS0, set_oS1, set_oS2, set_oS3]
  have hu : (((V d (cV L) (jV L)).loc cc0_scratch1) ↦[(Finset.univ : Finset (Fin 4)).biUnion (fun k => (obRect k).set)]{fullShare} f : sProp 𝕄)
      = iprop((((V d (cV L) (jV L)).loc cc0_scratch1) ↦[(obRect 0).set]{fullShare} f) ∗ (((V d (cV L) (jV L)).loc cc0_scratch1) ↦[(obRect 1).set]{fullShare} f)
          ∗ (((V d (cV L) (jV L)).loc cc0_scratch1) ↦[(obRect 2).set]{fullShare} f) ∗ (((V d (cV L) (jV L)).loc cc0_scratch1) ↦[(obRect 3).set]{fullShare} f)) := by
    rw [pointsTo_biUnion _ _ (fun k _ k' _ h => obRect_disjoint h), bigSep_fin_four]
  rw [← hu]
  exact congrArg (fun I => (((V d (cV L) (jV L)).loc cc0_scratch1) ↦[I]{fullShare} f : sProp 𝕄)) obRect_cover.symm

/-- Four chunks of the row scratch at any contents are the scratch whole at some contents. -/
theorem xB_join :
    (iprop((∃ f, (xD0).view.loc (V d (cV L) (jV L)) ↦[(xD0).view.set]{fullShare} f) ∗ (∃ f, (xD1).view.loc (V d (cV L) (jV L)) ↦[(xD1).view.set]{fullShare} f)
        ∗ (∃ f, (xD2).view.loc (V d (cV L) (jV L)) ↦[(xD2).view.set]{fullShare} f) ∗ (∃ f, (xD3).view.loc (V d (cV L) (jV L)) ↦[(xD3).view.set]{fullShare} f)) : sProp 𝕄)
      ⊢ iprop(∃ f, ((V d (cV L) (jV L)).loc cc0_scratch0) ↦{fullShare} f) := by
  rw [set_xD0, set_xD1, set_xD2, set_xD3,
    ← bigSep_fin_four (F := F) (fun k => iprop(∃ f : Buf (Elt F) ((V d (cV L) (jV L)).loc cc0_scratch0), ((V d (cV L) (jV L)).loc cc0_scratch0) ↦[(xbRect k).set]{fullShare} f))]
  refine (bigSep_exists_pi Finset.univ (fun k (f : Buf (Elt F) ((V d (cV L) (jV L)).loc cc0_scratch0)) => ((V d (cV L) (jV L)).loc cc0_scratch0) ↦[(xbRect k).set]{fullShare} f)).trans ?_
  iintro ⟨%fs, H⟩
  ihave H' := (pointsTo_biUnion_join Finset.univ (fun k => (xbRect k).set) fs (fs 0) (fun k _ k' _ h => xbRect_disjoint h)) $$ H
  icases H' with ⟨%g, -, Hg⟩
  rw [xbRect_cover]
  iexists g; iexact Hg

/-- Four chunks of the result scratch at any contents are the scratch whole at some contents. -/
theorem oB_join :
    (iprop((∃ f, (oS0).view.loc (V d (cV L) (jV L)) ↦[(oS0).view.set]{fullShare} f) ∗ (∃ f, (oS1).view.loc (V d (cV L) (jV L)) ↦[(oS1).view.set]{fullShare} f)
        ∗ (∃ f, (oS2).view.loc (V d (cV L) (jV L)) ↦[(oS2).view.set]{fullShare} f) ∗ (∃ f, (oS3).view.loc (V d (cV L) (jV L)) ↦[(oS3).view.set]{fullShare} f)) : sProp 𝕄)
      ⊢ iprop(∃ f, ((V d (cV L) (jV L)).loc cc0_scratch1) ↦{fullShare} f) := by
  rw [set_oS0, set_oS1, set_oS2, set_oS3,
    ← bigSep_fin_four (F := F) (fun k => iprop(∃ f : Buf (Elt F) ((V d (cV L) (jV L)).loc cc0_scratch1), ((V d (cV L) (jV L)).loc cc0_scratch1) ↦[(obRect k).set]{fullShare} f))]
  refine (bigSep_exists_pi Finset.univ (fun k (f : Buf (Elt F) ((V d (cV L) (jV L)).loc cc0_scratch1)) => ((V d (cV L) (jV L)).loc cc0_scratch1) ↦[(obRect k).set]{fullShare} f)).trans ?_
  iintro ⟨%fs, H⟩
  ihave H' := (pointsTo_biUnion_join Finset.univ (fun k => (obRect k).set) fs (fs 0) (fun k _ k' _ h => obRect_disjoint h)) $$ H
  icases H' with ⟨%g, -, Hg⟩
  rw [obRect_cover]
  iexists g; iexact Hg

end

end Cert.Kernel.Pf

end
-- ==== Proof.PayB.lean ====
import proofs.«213435_g4140348473474_cont_8to1_b_470_36_alg».proof.Proof.TileValDefsB
import proofs.«213435_g4140348473474_cont_8to1_b_470_36_alg».proof.Proof.ChunksBPts

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the launch handshakes carry

The one SparseCore call hands SparseCore `c` the chunks of its sixteen tasks — of the argument, at its
launch contents, and of the result array, at whatever it holds — and takes them back with the result
chunks at the one whole-array function `scOut` of the argument. A task is handed exactly its own four
chunks of each, so a SparseCore's share is literally the conjunction of its tasks' shares. -/

variable (m : (ℓ : Loc nD τ sig) → Buf (Elt F) ℓ)

/-- What task `(c, i)` is handed: its chunks of the argument, and of the result array as launched. -/
abbrev tileGo (d : Dev nD) (c : Fin 2) (i : Fin 16) : sProp 𝕄 :=
  iprop(xChunks d (coordsV c i) (m (xLoc d)) ∗ oChunks d (coordsV c i) (m (oLoc d)))

/-- What it hands back: the argument's chunks unchanged, the result's at `scOut` of the argument. -/
abbrev tileTd (d : Dev nD) (c : Fin 2) (i : Fin 16) : sProp 𝕄 :=
  iprop(xChunks d (coordsV c i) (m (xLoc d)) ∗ oChunks d (coordsV c i) (scOut (m (xLoc d))))

def P : (K (F := F)).Pay (nD := nD) (Val := Elt F) (Name := ℕ) (U := UU) where
  st := fun q d c => match q with | 0 => bigSep Finset.univ fun i : Fin 16 => tileGo m d (Fin.cast nCore_zero c) i
  dn := fun q d c => match q with | 0 => bigSep Finset.univ fun i : Fin 16 => tileTd m d (Fin.cast nCore_zero c) i
  go := fun q d c i => match q with | 0 => tileGo m d (Fin.cast nCore_zero c) (Fin.cast nSub_zero i)
  td := fun q d c i => match q with | 0 => tileTd m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => tileGo m d (Fin.cast nCore_zero c) i))
  dn q d c := match q with
    | 0 => (inferInstance : BI.Storable (upEmb : UEmb _ 𝕄) (bigSep Finset.univ fun i : Fin 16 => tileTd m d (Fin.cast nCore_zero c) i))
  go q d c i := match q with
    | 0 => (inferInstance : BI.Storable (upEmb : UEmb _ 𝕄) (tileGo m d (Fin.cast nCore_zero c) (Fin.cast nSub_zero i)))
  td q d c i := match q with
    | 0 => (inferInstance : BI.Storable (upEmb : UEmb _ 𝕄) (tileTd m d (Fin.cast nCore_zero c) (Fin.cast nSub_zero i)))

/-- The call's operands, over both SparseCores: the argument's and the result array's chunks of all 32 tasks. -/
theorem st0_eq (d : Dev nD) :
    (bigSep Finset.univ fun c : Fin ((K (F := F)).nCore 0) => (P m).st 0 d c)
      = bigSep Finset.univ fun c : Fin 2 => bigSep Finset.univ fun i : Fin 16 => tileGo m d c i :=
  bigSep_congr fun _ _ => rfl
theorem dn0_eq (d : Dev nD) :
    (bigSep Finset.univ fun c : Fin ((K (F := F)).nCore 0) => (P m).dn 0 d c)
      = bigSep Finset.univ fun c : Fin 2 => bigSep Finset.univ fun i : Fin 16 => tileTd m d c i :=
  bigSep_congr fun _ _ => rfl

end Cert.Kernel.Pf

end
-- ==== Proof.TileOblB.lean ====
import proofs.«213435_g4140348473474_cont_8to1_b_470_36_alg».proof.Proof.TileB
import proofs.«213435_g4140348473474_cont_8to1_b_470_36_alg».proof.Proof.TileSplitB
import proofs.«213435_g4140348473474_cont_8to1_b_470_36_alg».proof.Proof.PayB

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xW" => (Memref.whole Cert.Kernel.main_arg0_scv : Memref Cert.Kernel.sig Kind.scVector Space.hbm Cert.Kernel.S16384x2048 EltTy.f32)
local notation "oW" => (Memref.whole Cert.Kernel.main_v0_scv : Memref Cert.Kernel.sig Kind.scVector Space.hbm Cert.Kernel.S4096x32 EltTy.f32)
local notation "xB" => (Memref.whole Cert.Kernel.cc0_scratch0 : Memref Cert.Kernel.sig Kind.scVector Space.vmem Cert.Kernel.S128x128 EltTy.f32)
local notation "oB" => (Memref.whole Cert.Kernel.cc0_scratch1 : Memref Cert.Kernel.sig Kind.scVector Space.vmem Cert.Kernel.S128x32 EltTy.f32)

/-! ## The task, as the launch theorem asks for it -/

omit [FloatOps F] in
theorem dma_ne {a b : DmaSem sig} (h : a ≠ b) (thr : Thread nD τ) : ((thr, SemLoc.dma a) : GSem nD τ sig) ≠ (thr, SemLoc.dma b) :=
  fun e => h (SemLoc.dma.inj (Prod.mk.inj e).2)

section Tile
variable (m : (ℓ : Loc nD τ sig) → Buf (Elt F) ℓ) (d : Dev nD) (L : grid0.Coords)

omit [FloatOps F] in
/-- The task's eight semaphores are among its own scoped cells: they, at zero, and the rest. -/
theorem ownSems0_V :
    (ownSems0 (V d (cV L) (jV L)) : sProp 𝕄)
      = iprop(semVal ((V d (cV L) (jV L)), SemLoc.dma iSem0) 0
          ∗ semVal ((V d (cV L) (jV L)), SemLoc.dma iSem1) 0
          ∗ semVal ((V d (cV L) (jV L)), SemLoc.dma iSem2) 0
          ∗ semVal ((V d (cV L) (jV L)), SemLoc.dma iSem3) 0
          ∗ semVal ((V d (cV L) (jV L)), SemLoc.dma oSem0) 0
          ∗ semVal ((V d (cV L) (jV L)), SemLoc.dma oSem1) 0
          ∗ semVal ((V d (cV L) (jV L)), SemLoc.dma oSem2) 0
          ∗ semVal ((V d (cV L) (jV L)), SemLoc.dma oSem3) 0
          ∗ bigSep (((((((((ownCells (V d (cV L) (jV L))).erase ((V d (cV L) (jV L)), SemLoc.dma iSem0)).erase ((V d (cV L) (jV L)), SemLoc.dma iSem1)).erase ((V d (cV L) (jV L)), SemLoc.dma iSem2)).erase ((V d (cV L) (jV L)), SemLoc.dma iSem3)).erase ((V d (cV L) (jV L)), SemLoc.dma oSem0)).erase ((V d (cV L) (jV L)), SemLoc.dma oSem1)).erase ((V d (cV L) (jV L)), SemLoc.dma oSem2)).erase ((V d (cV L) (jV L)), SemLoc.dma oSem3)) fun g => semVal g 0) := by
  unfold SparseCore.Cfg.ownSems0
  rw [SparseCore.bigSep_erase' ((mem_ownCells (g := ((V d (cV L) (jV L)), SemLoc.dma iSem0))).mpr ⟨rfl, by show (SemLoc.dma iSem0 : SemLoc sig).isScoped .scVector = true; decide⟩),
    SparseCore.bigSep_erase' (Finset.mem_erase.mpr ⟨dma_ne (by decide) _, (mem_ownCells (g := ((V d (cV L) (jV L)), SemLoc.dma iSem1))).mpr ⟨rfl, by show (SemLoc.dma iSem1 : SemLoc sig).isScoped .scVector = true; decide⟩⟩),
    SparseCore.bigSep_erase' (Finset.mem_erase.mpr ⟨dma_ne (by decide) _, Finset.mem_erase.mpr ⟨dma_ne (by decide) _, (mem_ownCells (g := ((V d (cV L) (jV L)), SemLoc.dma iSem2))).mpr ⟨rfl, by show (SemLoc.dma iSem2 : SemLoc sig).isScoped .scVector = true; decide⟩⟩⟩),
    SparseCore.bigSep_erase' (Finset.mem_erase.mpr ⟨dma_ne (by decide) _, Finset.mem_erase.mpr ⟨dma_ne (by decide) _, Finset.mem_erase.mpr ⟨dma_ne (by decide) _, (mem_ownCells (g := ((V d (cV L) (jV L)), SemLoc.dma iSem3))).mpr ⟨rfl, by show (SemLoc.dma iSem3 : SemLoc sig).isScoped .scVector = true; decide⟩⟩⟩⟩),
    SparseCore.bigSep_erase' (Finset.mem_erase.mpr ⟨dma_ne (by decide) _, Finset.mem_erase.mpr ⟨dma_ne (by decide) _, Finset.mem_erase.mpr ⟨dma_ne (by decide) _, Finset.mem_erase.mpr ⟨dma_ne (by decide) _, (mem_ownCells (g := ((V d (cV L) (jV L)), SemLoc.dma oSem0))).mpr ⟨rfl, by show (SemLoc.dma oSem0 : SemLoc sig).isScoped .scVector = true; decide⟩⟩⟩⟩⟩),
    SparseCore.bigSep_erase' (Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, (mem_ownCells (g := ((V d (cV L) (jV L)), SemLoc.dma oSem1))).mpr ⟨rfl, by show (SemLoc.dma oSem1 : SemLoc sig).isScoped .scVector = true; decide⟩⟩⟩⟩⟩⟩),
    SparseCore.bigSep_erase' (Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, (mem_ownCells (g := ((V d (cV L) (jV L)), SemLoc.dma oSem2))).mpr ⟨rfl, by show (SemLoc.dma oSem2 : SemLoc sig).isScoped .scVector = true; decide⟩⟩⟩⟩⟩⟩⟩),
    SparseCore.bigSep_erase' (Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, Finset.mem_erase.mpr ⟨dma_ne (by decide) _, (mem_ownCells (g := ((V d (cV L) (jV L)), SemLoc.dma oSem3))).mpr ⟨rfl, by show (SemLoc.dma oSem3 : SemLoc sig).isScoped .scVector = true; decide⟩⟩⟩⟩⟩⟩⟩⟩)]

omit [FloatOps F] in
/-- The two scratch buffers are among its own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The task from what the launch hands it: its chunks, its own buffers and semaphores, what it owes. -/
theorem tile_body (hF : (K (F := F)).Facts) (O : CellTallies nD τ sig (HIx 1)) (W : Waits sig (HIx 1)) (hO : ∀ g, O g none = 0) :
    iprop(levAts (K (F := F)).L (K (F := F)).lev ∗ emp ∗ (xChunks d L (m (xLoc d)) ∗ oChunks d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xW (Memref.isWhole_whole _) oW (Memref.isWhole_whole _) xB (Memref.isWhole_whole _) oB (Memref.isWhole_whole _) cc0_scratch2 cc0_scratch3)
          fun _ => iprop((xChunks d L (m (xLoc d)) ∗ oChunks d L (scOut (m (xLoc d)))) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Hz⟩, ⟨⟨%fx, Hxb⟩, ⟨%fo, Hob⟩, Hbufs⟩, ⟨Hi0, Hi1, Hi2, Hi3, Hq0, Hq1, Hq2, Hq3, Hsems⟩, HO⟩
  ihave Hmw := ((K (F := F)).mayWaits_none (thr := (V d (cV L) (jV L))) hO) $$ Hlv
  ihave Hxb' := (Entails.of_eq (xB_chunks (F := F) d L fx)) $$ Hxb
  icases Hxb' with ⟨Hb0, Hb1, Hb2, Hb3⟩
  ihave Hob' := (Entails.of_eq (oB_chunks (F := F) d L fo)) $$ Hob
  icases Hob' with ⟨Ho0, Ho1, Ho2, Ho3⟩
  iapply (wp_wand_r frame _ Set.univ)
  isplitl [Hmw Hx Hz Hb0 Hb1 Hb2 Hb3 Ho0 Ho1 Ho2 Ho3 Hi0 Hi1 Hi2 Hi3 Hq0 Hq1 Hq2 Hq3 HO]
  · iapply (tile_core m d L O W fx fo (m (oLoc d)))
    isplitl [Hmw]; · iexact Hmw
    isplitl [Hx]; · iexact Hx
    isplitl [Hb0]; · iexact Hb0
    isplitl [Hb1]; · iexact Hb1
    isplitl [Hb2]; · iexact Hb2
    isplitl [Hb3]; · iexact Hb3
    isplitl [Ho0]; · iexact Ho0
    isplitl [Ho1]; · iexact Ho1
    isplitl [Ho2]; · iexact Ho2
    isplitl [Ho3]; · iexact Ho3
    isplitl [Hz]; · iexact Hz
    isplitl [Hi0]; · iexact Hi0
    isplitl [Hi1]; · iexact Hi1
    isplitl [Hi2]; · iexact Hi2
    isplitl [Hi3]; · iexact Hi3
    isplitl [Hq0]; · iexact Hq0
    isplitl [Hq1]; · iexact Hq1
    isplitl [Hq2]; · iexact Hq2
    isplitl [Hq3]; · iexact Hq3
    iexact HO
  iintro %_ ⟨Hx, Hb0, Hb1, Hb2, Hb3, Ho0, Ho1, Ho2, Ho3, Hz, Hi0, Hi1, Hi2, Hi3, Hq0, Hq1, Hq2, Hq3, HW⟩
  isplitl [Hx Hz]
  · isplitl [Hx]; · iexact Hx
    iexact Hz
  isplitl [Hb0 Hb1 Hb2 Hb3 Ho0 Ho1 Ho2 Ho3 Hbufs]
  · isplitl [Hb0 Hb1 Hb2 Hb3]
    · iapply (xB_join (F := F) d L)
      isplitl [Hb0]; · iexact Hb0
      isplitl [Hb1]; · iexact Hb1
      isplitl [Hb2]; · iexact Hb2
      iexact Hb3
    isplitl [Ho0 Ho1 Ho2 Ho3]
    · iapply (oB_join (F := F) d L)
      isplitl [Ho0]; · iexact Ho0
      isplitl [Ho1]; · iexact Ho1
      isplitl [Ho2]; · iexact Ho2
      iexact Ho3
    iexact Hbufs
  isplitl [Hi0 Hi1 Hi2 Hi3 Hq0 Hq1 Hq2 Hq3 Hsems]
  · isplitl [Hi0]; · iexact Hi0
    isplitl [Hi1]; · iexact Hi1
    isplitl [Hi2]; · iexact Hi2
    isplitl [Hi3]; · iexact Hi3
    isplitl [Hq0]; · iexact Hq0
    isplitl [Hq1]; · iexact Hq1
    isplitl [Hq2]; · iexact Hq2
    isplitl [Hq3]; · iexact Hq3
    iexact Hsems
  iexact HW

end Tile

/-! ## The launch theorem's obligations -/

variable (m : (ℓ : Loc nD τ sig) → Buf (Elt F) ℓ)

theorem defs₀_vector (c : Fin τ.nSC) (s : Fin τ.nSub) :
    defs₀ (F := F) (.scVector c s) 0 ()
      = SparseCore.onTile hcore0 hsub0 (fun c s => cc0__sc_body (coordsV c s) xW (Memref.isWhole_whole _) oW (Memref.isWhole_whole _)
          xB (Memref.isWhole_whole _) oB (Memref.isWhole_whole _) cc0_scratch2 cc0_scratch3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's share of the call is its tasks' shares, by definition. -/
theorem vecSplit : (K (F := F)).VecSplit' (P m) 0 := by
  intro d c
  show (bigSep Finset.univ fun i : Fin 16 => tileGo m d (Fin.cast nCore_zero c) i) ⊢ |={Set.univ}=> iprop(
      (bigSep Finset.univ fun i : Fin ((K (F := F)).nSub 0) => tileGo m d (Fin.cast nCore_zero c) (Fin.cast nSub_zero i))
      ∗ ((bigSep Finset.univ fun i : Fin ((K (F := F)).nSub 0) => tileTd m d (Fin.cast nCore_zero c) (Fin.cast nSub_zero i))
          -∗ bigSep Finset.univ fun i : Fin 16 => tileTd m d (Fin.cast nCore_zero c) i))
  rw [bigSep_tasks (F := F) (fun i => tileGo m d (Fin.cast nCore_zero c) i), bigSep_tasks (F := F) (fun i => tileTd m d (Fin.cast nCore_zero c) i)]
  iintro H; imodintro
  isplitl [H]; · iexact H
  iintro H; iexact H

end Cert.Kernel.Pf

end
-- ==== Proof.HostTailB.lean ====
import proofs.«213435_g4140348473474_cont_8to1_b_470_36_alg».proof.Proof.CommonB

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The host operations after the two kernels

The TensorCore part's result `Y` is 32 × 12288 (groups by rows 0..12287) and the SparseCore part's `Z`
is 4096 × 32 (rows 12288..16383 by groups). @main transposes `Z`, joins it to `Y` along the second axis
and transposes back: row `r` of the final 16384 × 32 array is column `r` of `Y` for `r < 12288` and row
`r - 12288` of `Z` otherwise. -/

/-- @main's three host operations as one function of the two kernels' results. -/
def hostTail (Y : S32x12288.Idx → Elt F .f32) (Z : S4096x32.Idx → Elt F .f32) : S16384x32.Idx → Elt F .f32 :=
  transpose S16384x32 [1, 0]
    (concatenate S32x16384 1 [⟨S32x12288, Y⟩, ⟨S32x4096, transpose S32x4096 [1, 0] Z transposes_S4096x32_S32x4096_1_0⟩]
      concatenates_S32x12288_S32x4096_S32x16384_d1)
    transposes_S32x16384_S16384x32_1_0

end Cert.Kernel.Pf

end
-- ==== Proof.TcRegionDatB.lean ====
import proofs.«213435_g4140348473474_cont_8to1_b_470_36_alg».proof.Proof.CommonB
import Idealize.ShloMosaic.Lib.Pipeline.Regions
import Idealize.ShloMosaic.Lib.Pipeline.FrameBody

noncomputable section

namespace Cert.Kernel.Pf

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The pipeline of the TensorCore call: the ghost state its staging semaphores need

The pipeline's staging semaphores are cells of a rounds algebra of their own (the component `ER`): the launch funds, per
device, the cells' initial states and the tokens of the transfers the pipeline will issue. -/

/-- The one admissible table contents: the pipeline prefetches no table. -/
abbrev adm : (p : Fin 1) → (pcfgs (F := F) p).Adm := fun p => (cfgs p).toPCfg_adm

/-- What device `d`'s TensorCore needs of the launch to enter the pipeline: its staging cells' ghost state and the
    tokens of its transfers. -/
def TcGhost (d : Dev nD) : sProp 𝕄 :=
  iprop(Pipeline.cellsGhost cfgs (ER (F := F)) 0 d ∗ Pipeline.toksInit cfgs (ER (F := F)) 0 d)

/-- The launch element of the pipeline's rounds funds every device's share. -/
theorem fund_tcGhost :
    BI.own ((ER (F := F)) (initOf (Pipeline.cells cfgs cellOf_inj) (Pipeline.launchToks cfgs cellOf_inj)))
      ⊢ iprop(|==> bigSep Finset.univ fun d : Dev nD => (TcGhost (F := F) d)) := by
  refine (Pipeline.fund_ghost cfgs (ER (F := F)) cellOf_inj).trans (BI.bupd_mono ?_)
  have h1 : ∀ (Φ : Fin 1 → sProp 𝕄), bigSep Finset.univ Φ = Φ 0 := fun Φ => by
    rw [show (Finset.univ : Finset (Fin 1)) = {0} from rfl, BI.bigSep_singleton]
  rw [← bigSep_sep']
  refine BI.bigSep_mono fun d _ => ?_
  rw [h1, h1]; unfold TcGhost; exact BI.Entails.refl _

/-! ## The body's accesses

Every input staging buffer is loaded whole; the output staging buffer, 32 rows of 4096 columns, is stored in eight
pieces of 512 columns, piece `q` computed from input `q`. -/

abbrev rIn : Rect S512x128 := Rect.unit (s := S512x128) ![0, 0] S512x128.size inb_S512x128_S512x128_0_0
abbrev rO0 : Rect S32x4096 := Rect.unit (s := S32x4096) ![0, 0] S32x512.size inb_S32x4096_S32x512_0_0
abbrev rO1 : Rect S32x4096 := Rect.unit (s := S32x4096) ![0, 512] S32x512.size inb_S32x4096_S32x512_0_512
abbrev rO2 : Rect S32x4096 := Rect.unit (s := S32x4096) ![0, 1024] S32x512.size inb_S32x4096_S32x512_0_1024
abbrev rO3 : Rect S32x4096 := Rect.unit (s := S32x4096) ![0, 1536] S32x512.size inb_S32x4096_S32x512_0_1536
abbrev rO4 : Rect S32x4096 := Rect.unit (s := S32x4096) ![0, 2048] S32x512.size inb_S32x4096_S32x512_0_2048
abbrev rO5 : Rect S32x4096 := Rect.unit (s := S32x4096) ![0, 2560] S32x512.size inb_S32x4096_S32x512_0_2560
abbrev rO6 : Rect S32x4096 := Rect.unit (s := S32x4096) ![0, 3072] S32x512.size inb_S32x4096_S32x512_0_3072
abbrev rO7 : Rect S32x4096 := Rect.unit (s := S32x4096) ![0, 3584] S32x512.size inb_S32x4096_S32x512_0_3584

/-- What the body leaves in the output staging buffer, from the eight input blocks: its eight stores as pieces, the
    last store first. -/
def outAt (x0 x1 x2 x3 x4 x5 x6 x7 : Vec F S512x128 .f32) : Vec F S32x4096 .f32 :=
  View.canon [⟨rO7, k1_pay6 (k1_pay7 (F := F)) (View.ld x7 rIn)⟩, ⟨rO6, k1_pay5 (k1_pay7 (F := F)) (View.ld x6 rIn)⟩,
    ⟨rO5, k1_pay4 (k1_pay7 (F := F)) (View.ld x5 rIn)⟩, ⟨rO4, k1_pay3 (k1_pay7 (F := F)) (View.ld x4 rIn)⟩,
    ⟨rO3, k1_pay2 (k1_pay7 (F := F)) (View.ld x3 rIn)⟩, ⟨rO2, k1_pay1 (k1_pay7 (F := F)) (View.ld x2 rIn)⟩,
    ⟨rO1, k1_pay9 (View.ld x1 rIn)⟩, ⟨rO0, k1_pay8 (View.ld x0 rIn)⟩]

/-- The eight pieces tile the buffer, so they cover it. -/
theorem cover_out (p0 p1 p2 p3 p4 p5 p6 p7 : Vec F S32x512 .f32) (y : S32x4096.Idx) :
    ∃ pc ∈ ([⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S32x4096 .f32)), y ∈ pc.1.set :=
  View.cover_of_tiled (s := S32x4096) _ ![32, 512] (by rfl) y

/-! ## The body's triple -/

set_option maxHeartbeats 1000000 in
/-- The body on whole staging memrefs, the inputs' at read contents `x0 … x7` and the output's at anything, runs to the
    continuation holding the inputs' as they were and the output's at `outAt` of them. -/
theorem sound_kernel (c : Dev nD) (E : Set ℕ) (i : grid1.Coords)
    (arg1 : Memref sig .tc .vmem S512x128 .f32) (harg1 : arg1.IsWhole) (arg2 : Memref sig .tc .vmem S512x128 .f32) (harg2 : arg2.IsWhole)
    (arg3 : Memref sig .tc .vmem S512x128 .f32) (harg3 : arg3.IsWhole) (arg4 : Memref sig .tc .vmem S512x128 .f32) (harg4 : arg4.IsWhole)
    (arg5 : Memref sig .tc .vmem S512x128 .f32) (harg5 : arg5.IsWhole) (arg6 : Memref sig .tc .vmem S512x128 .f32) (harg6 : arg6.IsWhole)
    (arg7 : Memref sig .tc .vmem S512x128 .f32) (harg7 : arg7.IsWhole) (arg8 : Memref sig .tc .vmem S512x128 .f32) (harg8 : arg8.IsWhole)
    (arg9 : Memref sig .tc .vmem S32x4096 .f32) (harg9 : arg9.IsWhole)
    (x0 x1 x2 x3 x4 x5 x6 x7 : Vec F S512x128 .f32) (Kc : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (outAt x0 x1 x2 x3 x4 x5 x6 x7)) -∗ Kc ⟨⟩))
      ⊢ wp frame (wpE (defs₀ (F := F)) Variants.none c none) E
          (cc1__tc_body i arg1 harg1 arg2 harg2 arg3 harg3 arg4 harg4 arg5 harg5 arg6 harg6 arg7 harg7 arg8 harg8 arg9 harg9) Kc := by
  simp only [cc1__tc_body_eq_skeleton]; unfold cc1__tc_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H9
  ipureintro
  exact View.read_writes_eq_canon _ _ _ (cover_out _ _ _ _ _ _ _ _)

/-! ## The proof data

Eight input windows stage blocks of ONE array, held at contents `X` (each window at a read share of it); the ninth window
writes the result's array, held at `Y0` before the region. The body keeps every input block in place and leaves
`outAt` of the eight blocks in the output's staging buffer. The thread owes `O` throughout, its recorded pairs
within `B`. -/

section Data

variable (d : Dev nD) (X : S16384x2048.Idx → Elt F .f32) (Y0 : S32x12288.Idx → Elt F .f32)
  (O : CellTallies nD τ sig (HIx 1)) (B : Set (SemLoc sig × HIx 1))

/-- Window `w`'s block at point `t`, read off contents `A` of its array. -/
def iblk (w : Fin cfg1.W) (t : Fin cfg1.N) (A : Buf (Elt F) ((cfg1.win w).arr.view.loc (d : Thread nD τ))) :
    ((cfg1.win w).xblock (cfg1.grid.coords t)).Idx → Elt F (cfg1.win w).elt :=
  ((cfg1.win w).blk t).view.read (Elt F) A

/-- The output's staging buffer after the body at point `t`. -/
def outBlk (t : Fin cfg1.N) : Vec F S32x4096 .f32 :=
  outAt (iblk d 0 t X) (iblk d 1 t X) (iblk d 2 t X) (iblk d 3 t X) (iblk d 4 t X) (iblk d 5 t X) (iblk d 6 t X) (iblk d 7 t X)

def dats : Dat τ (Elt F) (HIx 1) ℕ UU ℕ cfg1 d where
  A w := match w with
    | ⟨0, _⟩ => X
    | ⟨1, _⟩ => X
    | ⟨2, _⟩ => X
    | ⟨3, _⟩ => X
    | ⟨4, _⟩ => X
    | ⟨5, _⟩ => X
    | ⟨6, _⟩ => X
    | ⟨7, _⟩ => X
    | ⟨8, _⟩ => Y0
  after w t := match w with
    | ⟨0, _⟩ => iblk d 0 t X
    | ⟨1, _⟩ => iblk d 1 t X
    | ⟨2, _⟩ => iblk d 2 t X
    | ⟨3, _⟩ => iblk d 3 t X
    | ⟨4, _⟩ => iblk d 4 t X
    | ⟨5, _⟩ => iblk d 5 t X
    | ⟨6, _⟩ => iblk d 6 t X
    | ⟨7, _⟩ => iblk d 7 t X
    | ⟨8, _⟩ => outBlk d X t
  Φ _ := iprop(emp)
  q w := Transfers.shareTokN fullShare w.val
  owed _ := O
  recorded _ := B

theorem after1_0 (t : Fin cfg1.N) : (dats d X Y0 O B).after 0 t = iblk d 0 t X := by dsimp only [dats]
theorem after1_1 (t : Fin cfg1.N) : (dats d X Y0 O B).after 1 t = iblk d 1 t X := by dsimp only [dats]
theorem after1_2 (t : Fin cfg1.N) : (dats d X Y0 O B).after 2 t = iblk d 2 t X := by dsimp only [dats]
theorem after1_3 (t : Fin cfg1.N) : (dats d X Y0 O B).after 3 t = iblk d 3 t X := by dsimp only [dats]
theorem after1_4 (t : Fin cfg1.N) : (dats d X Y0 O B).after 4 t = iblk d 4 t X := by dsimp only [dats]
theorem after1_5 (t : Fin cfg1.N) : (dats d X Y0 O B).after 5 t = iblk d 5 t X := by dsimp only [dats]
theorem after1_6 (t : Fin cfg1.N) : (dats d X Y0 O B).after 6 t = iblk d 6 t X := by dsimp only [dats]
theorem after1_7 (t : Fin cfg1.N) : (dats d X Y0 O B).after 7 t = iblk d 7 t X := by dsimp only [dats]
theorem after1_8 (t : Fin cfg1.N) : (dats d X Y0 O B).after 8 t = outBlk d X t := by dsimp only [dats]

/-- Each input's current staging buffer holds its block at every point: the window is uncut, never idle, and the body
    leaves the block in place. -/
theorem before1_0 (t : Fin cfg1.N) (dd) : (dats d X Y0 O B).before 0 t dd = iblk d 0 t X :=
  ((dats d X Y0 O B).before_in_eq_fetched 0 rfl (fun _ => rfl) (fun _ _ _ => rfl)
    (fun t => by rw [after1_0]; unfold Dat.blockOf iblk; dsimp only [dats]; try rfl) t dd).trans
    (by unfold Dat.fetched Dat.blockOf iblk; dsimp only [dats]; try rfl)
theorem before1_1 (t : Fin cfg1.N) (dd) : (dats d X Y0 O B).before 1 t dd = iblk d 1 t X :=
  ((dats d X Y0 O B).before_in_eq_fetched 1 rfl (fun _ => rfl) (fun _ _ _ => rfl)
    (fun t => by rw [after1_1]; unfold Dat.blockOf iblk; dsimp only [dats]; try rfl) t dd).trans
    (by unfold Dat.fetched Dat.blockOf iblk; dsimp only [dats]; try rfl)
theorem before1_2 (t : Fin cfg1.N) (dd) : (dats d X Y0 O B).before 2 t dd = iblk d 2 t X :=
  ((dats d X Y0 O B).before_in_eq_fetched 2 rfl (fun _ => rfl) (fun _ _ _ => rfl)
    (fun t => by rw [after1_2]; unfold Dat.blockOf iblk; dsimp only [dats]; try rfl) t dd).trans
    (by unfold Dat.fetched Dat.blockOf iblk; dsimp only [dats]; try rfl)
theorem before1_3 (t : Fin cfg1.N) (dd) : (dats d X Y0 O B).before 3 t dd = iblk d 3 t X :=
  ((dats d X Y0 O B).before_in_eq_fetched 3 rfl (fun _ => rfl) (fun _ _ _ => rfl)
    (fun t => by rw [after1_3]; unfold Dat.blockOf iblk; dsimp only [dats]; try rfl) t dd).trans
    (by unfold Dat.fetched Dat.blockOf iblk; dsimp only [dats]; try rfl)
theorem before1_4 (t : Fin cfg1.N) (dd) : (dats d X Y0 O B).before 4 t dd = iblk d 4 t X :=
  ((dats d X Y0 O B).before_in_eq_fetched 4 rfl (fun _ => rfl) (fun _ _ _ => rfl)
    (fun t => by rw [after1_4]; unfold Dat.blockOf iblk; dsimp only [dats]; try rfl) t dd).trans
    (by unfold Dat.fetched Dat.blockOf iblk; dsimp only [dats]; try rfl)
theorem before1_5 (t : Fin cfg1.N) (dd) : (dats d X Y0 O B).before 5 t dd = iblk d 5 t X :=
  ((dats d X Y0 O B).before_in_eq_fetched 5 rfl (fun _ => rfl) (fun _ _ _ => rfl)
    (fun t => by rw [after1_5]; unfold Dat.blockOf iblk; dsimp only [dats]; try rfl) t dd).trans
    (by unfold Dat.fetched Dat.blockOf iblk; dsimp only [dats]; try rfl)
theorem before1_6 (t : Fin cfg1.N) (dd) : (dats d X Y0 O B).before 6 t dd = iblk d 6 t X :=
  ((dats d X Y0 O B).before_in_eq_fetched 6 rfl (fun _ => rfl) (fun _ _ _ => rfl)
    (fun t => by rw [after1_6]; unfold Dat.blockOf iblk; dsimp only [dats]; try rfl) t dd).trans
    (by unfold Dat.fetched Dat.blockOf iblk; dsimp only [dats]; try rfl)
theorem before1_7 (t : Fin cfg1.N) (dd) : (dats d X Y0 O B).before 7 t dd = iblk d 7 t X :=
  ((dats d X Y0 O B).before_in_eq_fetched 7 rfl (fun _ => rfl) (fun _ _ _ => rfl)
    (fun t => by rw [after1_7]; unfold Dat.blockOf iblk; dsimp only [dats]; try rfl) t dd).trans
    (by unfold Dat.fetched Dat.blockOf iblk; dsimp only [dats]; try rfl)

/-! ## The body obligation, at a generic point -/

/-- What the body is called with at point `t`, the windows one by one, -/
def bodyPre (t : Fin cfg1.N) : sProp 𝕄 :=
  iprop((dats d X Y0 O B).Φ t.castSucc ∗ (dats d X Y0 O B).owesAt none t.castSucc
    ∗ (∃ dd, owns (d : Thread nD τ) (st1_0 t) fullShare ((dats d X Y0 O B).before 0 t dd))
    ∗ (∃ dd, owns (d : Thread nD τ) (st1_1 t) fullShare ((dats d X Y0 O B).before 1 t dd))
    ∗ (∃ dd, owns (d : Thread nD τ) (st1_2 t) fullShare ((dats d X Y0 O B).before 2 t dd))
    ∗ (∃ dd, owns (d : Thread nD τ) (st1_3 t) fullShare ((dats d X Y0 O B).before 3 t dd))
    ∗ (∃ dd, owns (d : Thread nD τ) (st1_4 t) fullShare ((dats d X Y0 O B).before 4 t dd))
    ∗ (∃ dd, owns (d : Thread nD τ) (st1_5 t) fullShare ((dats d X Y0 O B).before 5 t dd))
    ∗ (∃ dd, owns (d : Thread nD τ) (st1_6 t) fullShare ((dats d X Y0 O B).before 6 t dd))
    ∗ (∃ dd, owns (d : Thread nD τ) (st1_7 t) fullShare ((dats d X Y0 O B).before 7 t dd))
    ∗ (∃ dd, owns (d : Thread nD τ) (st1_8 t) fullShare ((dats d X Y0 O B).before 8 t dd)))

/-- and what it returns. -/
def bodyPost (t : Fin cfg1.N) : sProp 𝕄 :=
  iprop((dats d X Y0 O B).Φ t.succ ∗ (dats d X Y0 O B).owesAt none t.succ
    ∗ owns (d : Thread nD τ) (st1_0 t) fullShare ((dats d X Y0 O B).after 0 t)
    ∗ owns (d : Thread nD τ) (st1_1 t) fullShare ((dats d X Y0 O B).after 1 t)
    ∗ owns (d : Thread nD τ) (st1_2 t) fullShare ((dats d X Y0 O B).after 2 t)
    ∗ owns (d : Thread nD τ) (st1_3 t) fullShare ((dats d X Y0 O B).after 3 t)
    ∗ owns (d : Thread nD τ) (st1_4 t) fullShare ((dats d X Y0 O B).after 4 t)
    ∗ owns (d : Thread nD τ) (st1_5 t) fullShare ((dats d X Y0 O B).after 5 t)
    ∗ owns (d : Thread nD τ) (st1_6 t) fullShare ((dats d X Y0 O B).after 6 t)
    ∗ owns (d : Thread nD τ) (st1_7 t) fullShare ((dats d X Y0 O B).after 7 t)
    ∗ owns (d : Thread nD τ) (st1_8 t) fullShare ((dats d X Y0 O B).after 8 t))

/-- The body at any point: the inputs' memrefs hold their blocks, so `sound_kernel` applies; the invariant and what
    the thread owes pass through unread. -/
theorem sound_body (t : Fin cfg1.N) :
    bodyPre d X Y0 O B t ⊢ wp frame (wpE (defs₀ (F := F)) Variants.none (d : Thread nD τ) none) Set.univ (bodyAt1 t) (fun _ => bodyPost d X Y0 O B t) := by
  unfold bodyPre bodyPost bodyAt1
  simp only [before1_0, before1_1, before1_2, before1_3, before1_4, before1_5, before1_6, before1_7]
  rw [show (dats d X Y0 O B).Φ t.succ = (dats d X Y0 O B).Φ t.castSucc from rfl,
    show (dats d X Y0 O B).owesAt none t.succ = (dats d X Y0 O B).owesAt none t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel d Set.univ _ _ _ _ _ _ _ _ _ _ _ _ _ _ _ _ _ _ _ (iblk d 0 t X) (iblk d 1 t X) (iblk d 2 t X) (iblk d 3 t X)
    (iblk d 4 t X) (iblk d 5 t X) (iblk d 6 t X) (iblk d 7 t X) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation : BodyObligation (dats d X Y0 O B) (defs₀ (F := F)) Variants.none none Set.univ := fun t => by
  rw [bigSep_W1, bigSep_W1]
  exact sound_body d X Y0 O B t

end Data

end Cert.Kernel.Pf

end
-- ==== Proof.TcRegionB.lean ====
import proofs.«213435_g4140348473474_cont_8to1_b_470_36_alg».proof.Proof.CommonB
import Idealize.ShloMosaic.Lib.Pipeline.Regions
import Idealize.ShloMosaic.Lib.Pipeline.FrameBody
import proofs.«213435_g4140348473474_cont_8to1_b_470_36_alg».proof.Proof.TcRegionDatB

noncomputable section

namespace Cert.Kernel.Pf

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The region

The TensorCore's pipelined call, entered from: the input array whole at `X`, the result's array whole at anything,
and what the thread owes (its recorded pairs within `B`). The eight input windows share the input array: at entry its
full share is split into eight read shares and a remainder that bypasses the region, and at exit they are joined
again. -/

section Region

variable (Xa : Dev nD → S16384x2048.Idx → Elt F .f32) (Ya : Dev nD → S32x12288.Idx → Elt F .f32)
  (O : Dev nD → CellTallies nD τ sig (HIx 1)) (B : Dev nD → Set (SemLoc sig × HIx 1))

/-- The proof data on every device. -/
abbrev pdats : (p : Fin 1) → (c : Dev nD) → Dat τ (Elt F) (HIx 1) ℕ UU ℕ (Pipeline.pin (pcfgs (F := F)) adm p) c :=
  fun _ c => dats c (Xa c) (Ya c) (O c) (B c)

/-- The input array on device `c` at share `q`; -/
abbrev ptArg (c : Dev nD) (q : PosShare TreeShare) (f : S16384x2048.Idx → Elt F .f32) : sProp 𝕄 :=
  ((c : Thread nD τ).loc main_arg0) ↦{q} f
/-- the result's array, whole. -/
abbrev ptOut (c : Dev nD) (f : S32x12288.Idx → Elt F .f32) : sProp 𝕄 :=
  ((c : Thread nD τ).loc main_v1) ↦{fullShare} f

/-- What the result's array holds after the region, as the pipeline's write-backs compute it. -/
def tcOutAt (c : Dev nD) : S32x12288.Idx → Elt F .f32 := (pdats Xa Ya O B 0 c).arrAt 8 cfg1.N

/-- The pipeline's arrays, window by window. -/
theorem arrays1_eq (c : Dev nD) (Fa : (w : Fin cfg1.W) → Buf (Elt F) ((cfg1.win w).arr.view.loc (c : Thread nD τ))) :
    ((pdats Xa Ya O B 0 c).arrays Fa : sProp 𝕄)
      = iprop(ptArg c (Transfers.shareTokN fullShare 0) (Fa 0) ∗ ptArg c (Transfers.shareTokN fullShare 1) (Fa 1)
          ∗ ptArg c (Transfers.shareTokN fullShare 2) (Fa 2) ∗ ptArg c (Transfers.shareTokN fullShare 3) (Fa 3)
          ∗ ptArg c (Transfers.shareTokN fullShare 4) (Fa 4) ∗ ptArg c (Transfers.shareTokN fullShare 5) (Fa 5)
          ∗ ptArg c (Transfers.shareTokN fullShare 6) (Fa 6) ∗ ptArg c (Transfers.shareTokN fullShare 7) (Fa 7)
          ∗ ptOut c (Fa 8)) := by
  unfold Dat.arrays
  rw [bigSep_W1, (arr_whole1 0).set_eq_univ, (arr_whole1 8).set_eq_univ]
  rfl

/-- The full share of the input array is the eight windows' read shares and a remainder. -/
theorem arg_split (c : Dev nD) (f : S16384x2048.Idx → Elt F .f32) :
    (ptArg c fullShare f : sProp 𝕄) ⊣⊢ iprop(ptArg c (Transfers.shareDrop fullShare 8) f
      ∗ ptArg c (Transfers.shareTokN fullShare 0) f ∗ ptArg c (Transfers.shareTokN fullShare 1) f
      ∗ ptArg c (Transfers.shareTokN fullShare 2) f ∗ ptArg c (Transfers.shareTokN fullShare 3) f
      ∗ ptArg c (Transfers.shareTokN fullShare 4) f ∗ ptArg c (Transfers.shareTokN fullShare 5) f
      ∗ ptArg c (Transfers.shareTokN fullShare 6) f ∗ ptArg c (Transfers.shareTokN fullShare 7) f) := by
  have h : (ptArg c fullShare f : sProp 𝕄) ⊣⊢ iprop(ptArg c (Transfers.shareDrop fullShare 8) f
      ∗ bigSep Finset.univ (fun i : Fin 8 => ptArg c (Transfers.shareTok fullShare 8 i) f)) :=
    Transfers.pointsTo_toks fullShare 8
  rw [bigSep_univ_eq_bigSepL [(0 : Fin 8), 1, 2, 3, 4, 5, 6, 7] (by decide) (by decide)] at h
  exact h

theorem arrAt1_0 (c : Dev nD) (n : ℕ) : (pdats Xa Ya O B 0 c).arrAt 0 n = Xa c := ((pdats Xa Ya O B 0 c).arrAt_in 0 rfl n).trans rfl
theorem arrAt1_1 (c : Dev nD) (n : ℕ) : (pdats Xa Ya O B 0 c).arrAt 1 n = Xa c := ((pdats Xa Ya O B 0 c).arrAt_in 1 rfl n).trans rfl
theorem arrAt1_2 (c : Dev nD) (n : ℕ) : (pdats Xa Ya O B 0 c).arrAt 2 n = Xa c := ((pdats Xa Ya O B 0 c).arrAt_in 2 rfl n).trans rfl
theorem arrAt1_3 (c : Dev nD) (n : ℕ) : (pdats Xa Ya O B 0 c).arrAt 3 n = Xa c := ((pdats Xa Ya O B 0 c).arrAt_in 3 rfl n).trans rfl
theorem arrAt1_4 (c : Dev nD) (n : ℕ) : (pdats Xa Ya O B 0 c).arrAt 4 n = Xa c := ((pdats Xa Ya O B 0 c).arrAt_in 4 rfl n).trans rfl
theorem arrAt1_5 (c : Dev nD) (n : ℕ) : (pdats Xa Ya O B 0 c).arrAt 5 n = Xa c := ((pdats Xa Ya O B 0 c).arrAt_in 5 rfl n).trans rfl
theorem arrAt1_6 (c : Dev nD) (n : ℕ) : (pdats Xa Ya O B 0 c).arrAt 6 n = Xa c := ((pdats Xa Ya O B 0 c).arrAt_in 6 rfl n).trans rfl
theorem arrAt1_7 (c : Dev nD) (n : ℕ) : (pdats Xa Ya O B 0 c).arrAt 7 n = Xa c := ((pdats Xa Ya O B 0 c).arrAt_in 7 rfl n).trans rfl

/-- No scoped buffer of the TensorCore but the staging buffers. -/
theorem scopedRestP (c : Dev nD) :
    (Pipeline.scopedRest (Ix := HIx 1) (Name := ℕ) (U := UU) (Lvl := ℕ) (Val := Elt F) (Pipeline.pin (pcfgs (F := F)) adm 0).spec c : sProp 𝕄) = BI.emp :=
  scopedRest1_eq c

variable (lv : GSem nD τ sig → HIx 1 → ℕ)

/-- The waits of the pipeline on its staging semaphores record pairs at the index no protocol unit carries, which sits
    below everything a thread may owe there: the evidence each such wait presents. -/
theorem hwaits1 (hO : ∀ c g, O c g none = 0) (hlv : (K (F := F)).Refines lv) (c : Dev nD) :
    (levAts (K (F := F)).L lv : sProp 𝕄) ⊢ Pipeline.cellsWaits (Pipeline.pin (pcfgs (F := F)) adm) (pdats Xa Ya O B) none 0 c :=
  Pipeline.cellsWaits_intro _ _ _ _ _ fun w s t => SparseCore.Cfg.mayWait_none (K := K (F := F)) _ (hO c) lv hlv

set_option backward.isDefEq.respectTransparency.types false in
/-- THE REGION: its layout, its body obligation, its wait evidence, and the four entailments around its two ends. -/
def reg (hO : ∀ c g, O c g none = 0) (hlv : (K (F := F)).Refines lv) :
    Pipeline.RegionSeg (pcfgs (F := F)) adm (pdats Xa Ya O B) none defs₀ 𝒱₀ (K (F := F)).L lv 0 where
  win := winFacts₀1
  block_pos := block_pos1
  stage_whole := stage_whole1
  K := PEmpty
  osem k := k.elim
  ho := Pipeline.OwnSemFacts.none _
  hbody c := (body_obligation c (Xa c) (Ya c) (O c) (B c)).loose
  hwaits c := hwaits1 Xa Ya O B lv hO hlv c
  pre c := iprop(ptArg c fullShare (Xa c) ∗ ptOut c (Ya c) ∗ Pipeline.owesWithin c (O c) (B c))
  post c := iprop(ptArg c fullShare (Xa c) ∗ ptOut c (tcOutAt Xa Ya O B c) ∗ Pipeline.owesWithin c (O c) (B c ∪ cfg1.waitPairs none))
  X _ := iprop(emp)
  Y _ := iprop(emp)
  Z c := ptArg c (Transfers.shareDrop fullShare 8) (Xa c)
  hentry c := by
    rw [Pipeline.ownSems0_none, arrays1_eq]
    iintro ⟨⟨Ha, Hv, HO⟩, -, -⟩
    ihave H := (arg_split c (Xa c)).1 $$ Ha
    icases H with ⟨Hr, H0, H1, H2, H3, H4, H5, H6, H7⟩
    imodintro
    isplitl [H0 H1 H2 H3 H4 H5 H6 H7 Hv]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact Hv
    isplitr; · unfold Pipeline.prefHeld; rw [show (Finset.univ : Finset (Fin 0)) = ∅ from rfl, BI.bigSep_empty]; iempintro
    isplitl [HO]
    · iapply (Pipeline.owesWithin_mono c (O c) (Set.subset_union_left (s := B c) (t := cfg1.waitPairs none))); iexact HO
    isplitr; · iempintro
    iexact Hr
  hin c := by
    rw [show (pdats Xa Ya O B 0 c).Φ 0 = iprop(emp) from rfl]
    iintro -; iempintro
  hout c := by
    rw [show (pdats Xa Ya O B 0 c).Φ (Fin.last _) = iprop(emp) from rfl, Pipeline.ownSems0_none, scopedRestP]
    iintro -
    isplitr; · iempintro
    isplitr <;> iempintro
  hexit c := by
    rw [arrays1_eq, arrAt1_0, arrAt1_1, arrAt1_2, arrAt1_3, arrAt1_4, arrAt1_5, arrAt1_6, arrAt1_7]
    iintro ⟨⟨H0, H1, H2, H3, H4, H5, H6, H7, Hv⟩, HO, -, Hr⟩
    imodintro
    isplitl [Hr H0 H1 H2 H3 H4 H5 H6 H7]
    · iapply (arg_split c (Xa c)).2
      isplitl [Hr]; · iexact Hr
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [Hv]; · iexact Hv
    iexact HO

theorem reg_pre (hO : ∀ c g, O c g none = 0) (hlv : (K (F := F)).Refines lv) (c : Dev nD) :
    (reg Xa Ya O B lv hO hlv).pre c = iprop(ptArg c fullShare (Xa c) ∗ ptOut c (Ya c) ∗ Pipeline.owesWithin c (O c) (B c)) := rfl
theorem reg_post (hO : ∀ c g, O c g none = 0) (hlv : (K (F := F)).Refines lv) (c : Dev nD) :
    (reg Xa Ya O B lv hO hlv).post c
      = iprop(ptArg c fullShare (Xa c) ∗ ptOut c (tcOutAt Xa Ya O B c) ∗ Pipeline.owesWithin c (O c) (B c ∪ cfg1.waitPairs none)) := rfl

end Region

/-! ## The rule of the region, as the TensorCore's thread of the whole program runs it

The call stands in the program extended by the launch protocol's labels; a proof about it under the pipelines' body
table lifts to the extended table. -/

section Rule

variable (d : Dev nD) (X : S16384x2048.Idx → Elt F .f32) (Y0 : S32x12288.Idx → Elt F .f32)
  (O : CellTallies nD τ sig (HIx 1)) (B : Set (SemLoc sig × HIx 1)) (lv : GSem nD τ sig → HIx 1 → ℕ)

/-- What the result's array holds after the region, as the pipeline's write-backs compute it from `X`
    (over whatever it held before, `Y0`). -/
def tcOutF : S32x12288.Idx → Elt F .f32 := tcOutAt (fun _ => X) (fun _ => Y0) (fun _ => O) (fun _ => B) d

/-- The region's post. -/
abbrev tcPost : sProp 𝕄 :=
  iprop(boundary (d : Thread nD τ) ∗ ptArg d fullShare X ∗ ptOut d (tcOutF d X Y0 O B)
    ∗ Pipeline.owesWithin d O (B ∪ cfg1.waitPairs none))

/-- The call in the program of the pipelines' labels; -/
abbrev callP : Prog (TpuEff nD τ sig (Elt F) (ΛP (F := F)) .tc) PUnit :=
  .op (.customCall (Pipeline.entry (0 : Fin 1)) ()) fun _ => .ret ⟨⟩

/-- lifted to the launch protocol's labels it is the call @main makes. -/
theorem lift_callP : SparseCore.liftProg (Q := 1) (callP (F := F))
    = (Prog.lift (.customCall (SparseCore.inner (Pipeline.entry (0 : Fin 1))) ()) : Prog (TpuEff nD τ sig (Elt F) (SparseCore.Sig (ΛP (F := F)) 1) .tc) PUnit) := rfl

set_option backward.isDefEq.respectTransparency.types false in
/-- The region under the pipelines' body table. -/
theorem tc_region_D (hO : ∀ g, O g none = 0) (hlv : (K (F := F)).Refines lv) :
    iprop(TcGhost (F := F) d ∗ boundary (d : Thread nD τ) ∗ levAts (K (F := F)).L lv
        ∗ ptArg d fullShare X ∗ ptOut d Y0 ∗ Pipeline.owesWithin d O B)
      ⊢ wp frame (wpE (D (F := F)) 𝒱 (d : Thread nD τ) none) Set.univ (callP (F := F)) (fun _ => tcPost d X Y0 O B) := by
  have h := Pipeline.RegionSeg.wp (pcfgs (F := F)) adm (pdats (fun _ => X) (fun _ => Y0) (fun _ => O) (fun _ => B)) none cellOf_inj (ER (F := F)) defs₀ 𝒱₀ (K (F := F)).L lv
    (reg (fun _ => X) (fun _ => Y0) (fun _ => O) (fun _ => B) lv (fun _ => hO) hlv) d none (by intro u hu; cases hu) (α := PUnit) (fun _ => Prog.ret PUnit.unit) (fun _ => tcPost d X Y0 O B)
  rw [reg_pre, reg_post] at h
  refine BIBase.Entails.trans ?_ h
  unfold TcGhost
  iintro ⟨⟨Hcg, Htk⟩, Hb, Hlev, Ha, Hv, Ho⟩
  isplitr
  · iintro ⟨Hb, Ha, Hv, Ho⟩
    rw [wp_ret]
    imodintro
    isplitl [Hb]; · iexact Hb
    isplitl [Ha]; · iexact Ha
    isplitl [Hv]; · iexact Hv
    iexact Ho
  isplitl [Hb]; · iexact Hb
  isplitl [Ha Hv Ho]
  · isplitl [Ha]; · iexact Ha
    isplitl [Hv]; · iexact Hv
    iexact Ho
  isplitl [Hlev]; · iexact Hlev
  isplitl [Hcg]; · iexact Hcg
  iexact Htk

/-- From the pipeline's ghost state, the region boundary, the level facts, the input array whole at `X`, the result's
    array whole at `Y0` and the thread owing `O` (nothing at the index the pipeline's waits use), its recorded pairs
    within `B`: the call runs to the boundary, the input array whole at `X` again, the result's array at what the
    write-backs leave, and the thread owing `O` still, its recorded pairs within `B` and the pipeline's own. -/
theorem tc_region_frame (hO : ∀ g, O g none = 0) (hlv : (K (F := F)).Refines lv) :
    iprop(TcGhost (F := F) d ∗ boundary (d : Thread nD τ) ∗ levAts (K (F := F)).L lv
        ∗ ptArg d fullShare X ∗ ptOut d Y0 ∗ Pipeline.owesWithin d O B)
      ⊢ wp frame (wpE ((K (F := F)).defs (D (F := F))) 𝒱 (SparseCore.T d) none) Set.univ
          (Prog.lift (.customCall (SparseCore.inner (Q := 1) (Pipeline.entry (0 : Fin 1))) ())) (fun _ => tcPost d X Y0 O B) := by
  have h := (K (F := F)).wp_liftProg (Name := ℕ) (U := UU) (D (F := F)) 𝒱 (SparseCore.T d) Set.univ none (callP (F := F)) (fun _ => tcPost d X Y0 O B)
  rw [lift_callP] at h
  exact (tc_region_D d X Y0 O B lv hO hlv).trans h

end Rule

end Cert.Kernel.Pf

end
-- ==== Proof.TcOutB.lean ====
/-
  The result of the TensorCore's pipelined call as one function of the input array.
-/
import proofs.«213435_g4140348473474_cont_8to1_b_470_36_alg».proof.Proof.CommonB
import Idealize.ShloMosaic.Lib.ValueIdx

noncomputable section

namespace Cert.Kernel.Pf

open Cert.Kernel Cert.Kernel.Gen

open Idealize.ShloMosaic

variable {F : FTy → Type} [FloatOps F]

/-- The call's result as one function of the input array: at row `g` and column `col`, the body's product of the
    constant selector with the input's block of rows `512 (col / 512) … + 511` (its first 128 columns), at
    `(g, col % 512)`. -/
def tcOut (X : S16384x2048.Idx → Elt F .f32) : S32x12288.Idx → Elt F .f32 := fun j =>
  k1_pay8 (F := F)
    (fun y : S512x128.Idx => X (ValueIdx.ix2
      (⟨512 * ((j 1).val / 512) + (y 0).val, by
        have h1 : (j 1).val < 12288 := (j 1).isLt
        have h2 : (y 0).val < 512 := (y 0).isLt
        omega⟩ : Fin 16384)
      (⟨(y 1).val, by have h2 : (y 1).val < 128 := (y 1).isLt; omega⟩ : Fin 2048)))
    (ValueIdx.ix2 (⟨(j 0).val, (j 0).isLt⟩ : Fin 32) (⟨(j 1).val % 512, Nat.mod_lt _ (by decide)⟩ : Fin 512))

end Cert.Kernel.Pf

end
-- ==== Proof.TcRegionValB.lean ====
import proofs.«213435_g4140348473474_cont_8to1_b_470_36_alg».proof.Proof.CommonB
import Idealize.ShloMosaic.Lib.Pipeline.Regions
import Idealize.ShloMosaic.Lib.Pipeline.FrameBody
import proofs.«213435_g4140348473474_cont_8to1_b_470_36_alg».proof.Proof.TcRegionB
import proofs.«213435_g4140348473474_cont_8to1_b_470_36_alg».proof.Proof.TcOutB
import Idealize.ShloMosaic.Lib.Pipeline.Value

noncomputable section

namespace Cert.Kernel.Pf

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The result's array after the region, as one function of the input array

Point `t` of the grid writes columns `4096 t … 4096 t + 4095` of the result; within them the `q`-th run of 512 columns is
the body's product of the constant selector with the block of the input array of rows `512 (8 t + q) … + 511`, its
first 128 columns. So column `col` of the result reads block `col / 512` of the input at local column `col % 512`. -/

/-- The printed index maps, decided over the grid. -/
theorem idx_facts : ∀ t : Fin cfg1.N,
    (win1_0.index t (0 : Fin 2) = 8 * t.val + 0 ∧ win1_0.index t (1 : Fin 2) = 0)
    ∧ (win1_1.index t (0 : Fin 2) = 8 * t.val + 1 ∧ win1_1.index t (1 : Fin 2) = 0)
    ∧ (win1_2.index t (0 : Fin 2) = 8 * t.val + 2 ∧ win1_2.index t (1 : Fin 2) = 0)
    ∧ (win1_3.index t (0 : Fin 2) = 8 * t.val + 3 ∧ win1_3.index t (1 : Fin 2) = 0)
    ∧ (win1_4.index t (0 : Fin 2) = 8 * t.val + 4 ∧ win1_4.index t (1 : Fin 2) = 0)
    ∧ (win1_5.index t (0 : Fin 2) = 8 * t.val + 5 ∧ win1_5.index t (1 : Fin 2) = 0)
    ∧ (win1_6.index t (0 : Fin 2) = 8 * t.val + 6 ∧ win1_6.index t (1 : Fin 2) = 0)
    ∧ (win1_7.index t (0 : Fin 2) = 8 * t.val + 7 ∧ win1_7.index t (1 : Fin 2) = 0)
    ∧ (win1_8.index t (0 : Fin 2) = 0 ∧ win1_8.index t (1 : Fin 2) = t.val) :=
  (by decide +kernel : ∀ t : Fin grid1.N, _)

section Val

variable (d : Dev nD) (X : S16384x2048.Idx → Elt F .f32) (Y0 : S32x12288.Idx → Elt F .f32)
  (O : CellTallies nD τ sig (HIx 1)) (B : Set (SemLoc sig × HIx 1))

/-- Every store's payload is the one product. -/
theorem pay1_eq (v : Vec F S512x128 .f32) : k1_pay1 (k1_pay7 (F := F)) v = k1_pay8 v := rfl
theorem pay2_eq (v : Vec F S512x128 .f32) : k1_pay2 (k1_pay7 (F := F)) v = k1_pay8 v := rfl
theorem pay3_eq (v : Vec F S512x128 .f32) : k1_pay3 (k1_pay7 (F := F)) v = k1_pay8 v := rfl
theorem pay4_eq (v : Vec F S512x128 .f32) : k1_pay4 (k1_pay7 (F := F)) v = k1_pay8 v := rfl
theorem pay5_eq (v : Vec F S512x128 .f32) : k1_pay5 (k1_pay7 (F := F)) v = k1_pay8 v := rfl
theorem pay6_eq (v : Vec F S512x128 .f32) : k1_pay6 (k1_pay7 (F := F)) v = k1_pay8 v := rfl
theorem pay9_eq (v : Vec F S512x128 .f32) : k1_pay9 (F := F) v = k1_pay8 v := rfl

/-- One store of the body, read against `tcOut`: the product of the selector with a block `v` that is rows
    `512 (8 t + q) …` of the input, at `x`, is `tcOut X` at row `x 0` and column `4096 t + 512 q + x 1`. -/
theorem piece_val (t : Fin cfg1.N) (q : ℕ) (hq : q < 8) (v : Vec F S512x128 .f32) (x : S32x512.Idx) (j : S32x12288.Idx)
    (hj0 : (j 0).val = (x 0).val) (hj1 : (j 1).val = 4096 * t.val + 512 * q + (x 1).val)
    (hv : ∀ y' : S512x128.Idx, ∃ i : S16384x2048.Idx, v y' = X i ∧ (i 0).val = 512 * (8 * t.val + q) + (y' 0).val ∧ (i 1).val = (y' 1).val) :
    k1_pay8 v x = tcOut X j := by
  have hx1 : (x 1).val < 512 := (x 1).isLt
  unfold tcOut
  congr 1
  · funext y'
    obtain ⟨i, hi, h0, h1⟩ := hv y'
    rw [hi]
    congr 1
    funext a; apply Fin.ext
    match a with
    | ⟨0, _⟩ => show (i 0).val = 512 * ((j 1).val / 512) + (y' 0).val; omega
    | ⟨1, _⟩ => show (i 1).val = (y' 1).val; omega
  · funext a; apply Fin.ext
    match a with
    | ⟨0, _⟩ => show (x 0).val = (j 0).val; omega
    | ⟨1, _⟩ => show (x 1).val = (j 1).val % 512; omega

/-- WHAT POINT `t` WRITES BACK is block `t` of `tcOut X`. -/
theorem flushed8_eq (t : Fin cfg1.N) :
    (dats d X Y0 O B).flushed 8 t = ((cfg1.win 8).blk t).view.read (Elt F) (tcOut X) := by
  show (cfg1.win 8).cut (grid1.coords t) ((dats d X Y0 O B).after 8 t) = _
  rw [after1_8]
  unfold outBlk outAt
  simp only [pay1_eq, pay2_eq, pay3_eq, pay4_eq, pay5_eq, pay6_eq, pay9_eq]
  obtain ⟨⟨a0, b0⟩, ⟨a1, b1⟩, ⟨a2, b2⟩, ⟨a3, b3⟩, ⟨a4, b4⟩, ⟨a5, b5⟩, ⟨a6, b6⟩, ⟨a7, b7⟩, ⟨a8, b8⟩⟩ := idx_facts t
  funext y
  refine (View.canon_apply_of_pieces (((cfg1.win 8).blk t).view.read (Elt F) (tcOut X)) _ ?_ y (cover_out _ _ _ _ _ _ _ _ y))
  intro p hp x
  simp only [List.mem_cons, List.mem_nil_iff, or_false] at hp
  rcases hp with rfl | rfl | rfl | rfl | rfl | rfl | rfl | rfl
  · refine piece_val X t 7 (by decide) _ x _
      (show win1_8.index t (0 : Fin 2) * 32 + 1 * (0 + 1 * (x 0).val) = (x 0).val from by omega)
      (show win1_8.index t (1 : Fin 2) * 4096 + 1 * (3584 + 1 * (x 1).val) = 4096 * t.val + 512 * 7 + (x 1).val from by omega)
      (fun y' => ⟨_, rfl, show win1_7.index t (0 : Fin 2) * 512 + 1 * (0 + 1 * (y' 0).val) = 512 * (8 * t.val + 7) + (y' 0).val from by omega,
        show win1_7.index t (1 : Fin 2) * 128 + 1 * (0 + 1 * (y' 1).val) = (y' 1).val from by omega⟩)
  · refine piece_val X t 6 (by decide) _ x _
      (show win1_8.index t (0 : Fin 2) * 32 + 1 * (0 + 1 * (x 0).val) = (x 0).val from by omega)
      (show win1_8.index t (1 : Fin 2) * 4096 + 1 * (3072 + 1 * (x 1).val) = 4096 * t.val + 512 * 6 + (x 1).val from by omega)
      (fun y' => ⟨_, rfl, show win1_6.index t (0 : Fin 2) * 512 + 1 * (0 + 1 * (y' 0).val) = 512 * (8 * t.val + 6) + (y' 0).val from by omega,
        show win1_6.index t (1 : Fin 2) * 128 + 1 * (0 + 1 * (y' 1).val) = (y' 1).val from by omega⟩)
  · refine piece_val X t 5 (by decide) _ x _
      (show win1_8.index t (0 : Fin 2) * 32 + 1 * (0 + 1 * (x 0).val) = (x 0).val from by omega)
      (show win1_8.index t (1 : Fin 2) * 4096 + 1 * (2560 + 1 * (x 1).val) = 4096 * t.val + 512 * 5 + (x 1).val from by omega)
      (fun y' => ⟨_, rfl, show win1_5.index t (0 : Fin 2) * 512 + 1 * (0 + 1 * (y' 0).val) = 512 * (8 * t.val + 5) + (y' 0).val from by omega,
        show win1_5.index t (1 : Fin 2) * 128 + 1 * (0 + 1 * (y' 1).val) = (y' 1).val from by omega⟩)
  · refine piece_val X t 4 (by decide) _ x _
      (show win1_8.index t (0 : Fin 2) * 32 + 1 * (0 + 1 * (x 0).val) = (x 0).val from by omega)
      (show win1_8.index t (1 : Fin 2) * 4096 + 1 * (2048 + 1 * (x 1).val) = 4096 * t.val + 512 * 4 + (x 1).val from by omega)
      (fun y' => ⟨_, rfl, show win1_4.index t (0 : Fin 2) * 512 + 1 * (0 + 1 * (y' 0).val) = 512 * (8 * t.val + 4) + (y' 0).val from by omega,
        show win1_4.index t (1 : Fin 2) * 128 + 1 * (0 + 1 * (y' 1).val) = (y' 1).val from by omega⟩)
  · refine piece_val X t 3 (by decide) _ x _
      (show win1_8.index t (0 : Fin 2) * 32 + 1 * (0 + 1 * (x 0).val) = (x 0).val from by omega)
      (show win1_8.index t (1 : Fin 2) * 4096 + 1 * (1536 + 1 * (x 1).val) = 4096 * t.val + 512 * 3 + (x 1).val from by omega)
      (fun y' => ⟨_, rfl, show win1_3.index t (0 : Fin 2) * 512 + 1 * (0 + 1 * (y' 0).val) = 512 * (8 * t.val + 3) + (y' 0).val from by omega,
        show win1_3.index t (1 : Fin 2) * 128 + 1 * (0 + 1 * (y' 1).val) = (y' 1).val from by omega⟩)
  · refine piece_val X t 2 (by decide) _ x _
      (show win1_8.index t (0 : Fin 2) * 32 + 1 * (0 + 1 * (x 0).val) = (x 0).val from by omega)
      (show win1_8.index t (1 : Fin 2) * 4096 + 1 * (1024 + 1 * (x 1).val) = 4096 * t.val + 512 * 2 + (x 1).val from by omega)
      (fun y' => ⟨_, rfl, show win1_2.index t (0 : Fin 2) * 512 + 1 * (0 + 1 * (y' 0).val) = 512 * (8 * t.val + 2) + (y' 0).val from by omega,
        show win1_2.index t (1 : Fin 2) * 128 + 1 * (0 + 1 * (y' 1).val) = (y' 1).val from by omega⟩)
  · refine piece_val X t 1 (by decide) _ x _
      (show win1_8.index t (0 : Fin 2) * 32 + 1 * (0 + 1 * (x 0).val) = (x 0).val from by omega)
      (show win1_8.index t (1 : Fin 2) * 4096 + 1 * (512 + 1 * (x 1).val) = 4096 * t.val + 512 * 1 + (x 1).val from by omega)
      (fun y' => ⟨_, rfl, show win1_1.index t (0 : Fin 2) * 512 + 1 * (0 + 1 * (y' 0).val) = 512 * (8 * t.val + 1) + (y' 0).val from by omega,
        show win1_1.index t (1 : Fin 2) * 128 + 1 * (0 + 1 * (y' 1).val) = (y' 1).val from by omega⟩)
  · refine piece_val X t 0 (by decide) _ x _
      (show win1_8.index t (0 : Fin 2) * 32 + 1 * (0 + 1 * (x 0).val) = (x 0).val from by omega)
      (show win1_8.index t (1 : Fin 2) * 4096 + 1 * (0 + 1 * (x 1).val) = 4096 * t.val + 512 * 0 + (x 1).val from by omega)
      (fun y' => ⟨_, rfl, show win1_0.index t (0 : Fin 2) * 512 + 1 * (0 + 1 * (y' 0).val) = 512 * (8 * t.val + 0) + (y' 0).val from by omega,
        show win1_0.index t (1 : Fin 2) * 128 + 1 * (0 + 1 * (y' 1).val) = (y' 1).val from by omega⟩)

/-- An index of the result's array is in point `t`'s block iff each coordinate is in the block's range on its axis. -/
theorem mem_blk8 (t : Fin cfg1.N) (i : S32x12288.Idx) :
    i ∈ ((cfg1.win 8).blk t).view.set ↔ ∀ a : Fin 2, win1_8.index t a * S32x4096.size a ≤ (i a).val ∧ (i a).val < win1_8.index t a * S32x4096.size a + S32x4096.size a := by
  show i ∈ ((View.whole main_v1).slice (win1_8.rect t)).set ↔ _
  rw [View.set_slice_whole, Rect.mem_set_unit]
  exact Iff.rfl

/-- Every run of 4096 columns is SOME point's block. -/
theorem idx_onto8 : ∀ q1 : Fin 3, ∃ t : Fin cfg1.N, win1_8.index t = ![0, q1.val] :=
  (by decide +kernel : ∀ q1 : Fin 3, ∃ t : Fin grid1.N, win1_8.index t = ![0, q1.val])

/-- The three points' blocks cover the result's array. -/
theorem covered8 (i : S32x12288.Idx) : ∃ t : Fin cfg1.N, (cfg1.win 8).flush t = true ∧ i ∈ ((cfg1.win 8).blk t).view.set := by
  have hi0 : (i 0).val < 32 := (i 0).isLt
  have hi1 : (i 1).val < 12288 := (i 1).isLt
  obtain ⟨t, ht⟩ := idx_onto8 ⟨(i 1).val / 4096, by omega⟩
  have q0 : win1_8.index t (0 : Fin 2) = 0 := congrFun ht 0
  have q1 : win1_8.index t (1 : Fin 2) = (i 1).val / 4096 := congrFun ht 1
  refine ⟨t, flush1_8 t, ?_⟩
  rw [mem_blk8]
  intro a
  match a with
  | ⟨0, _⟩ => show win1_8.index t (0 : Fin 2) * 32 ≤ (i 0).val ∧ (i 0).val < win1_8.index t (0 : Fin 2) * 32 + 32; omega
  | ⟨1, _⟩ => show win1_8.index t (1 : Fin 2) * 4096 ≤ (i 1).val ∧ (i 1).val < win1_8.index t (1 : Fin 2) * 4096 + 4096; omega

/-- THE RESULT'S ARRAY after the region is `tcOut X`, whatever it held before. -/
theorem arrAt8_eq : (dats d X Y0 O B).arrAt 8 cfg1.N = tcOut X :=
  (dats d X Y0 O B).arrAt_eq_of_cover 8 (tcOut X) (fun t _ => flushed8_eq d X Y0 O B t) covered8

end Val

/-! ## The rule of the region, the result named -/

section RuleVal

variable (d : Dev nD) (X : S16384x2048.Idx → Elt F .f32) (Y0 : S32x12288.Idx → Elt F .f32)
  (O : CellTallies nD τ sig (HIx 1)) (B : Set (SemLoc sig × HIx 1)) (lv : GSem nD τ sig → HIx 1 → ℕ)

/-- What the write-backs leave in the result's array is `tcOut X`. -/
theorem tcOutF_eq : tcOutF d X Y0 O B = tcOut X := arrAt8_eq d X Y0 O B

/-- THE REGION: from the pipeline's ghost state, the region boundary, the level facts, the input array whole at `X`, the
    result's array whole at anything and the thread owing `O` (nothing at the index the pipeline's waits use), its
    recorded pairs within `B`, the call runs to the boundary, the input array whole at `X` again, the result's array
    whole at `tcOut X`, and the thread owing `O` still, its recorded pairs within `B` and the pipeline's own. -/
theorem tc_region (hO : ∀ g, O g none = 0) (hlv : (K (F := F)).Refines lv) :
    iprop(TcGhost (F := F) d ∗ boundary (d : Thread nD τ) ∗ levAts (K (F := F)).L lv
        ∗ ptArg d fullShare X ∗ ptOut d Y0 ∗ Pipeline.owesWithin d O B)
      ⊢ wp frame (wpE ((K (F := F)).defs (D (F := F))) 𝒱 (SparseCore.T d) none) Set.univ
          (Prog.lift (.customCall (SparseCore.inner (Q := 1) (Pipeline.entry (0 : Fin 1))) ()))
          (fun _ => iprop(boundary (d : Thread nD τ) ∗ ptArg d fullShare X ∗ ptOut d (tcOut X)
            ∗ Pipeline.owesWithin d O (B ∪ cfg1.waitPairs none))) := by
  have h := tc_region_frame d X Y0 O B lv hO hlv
  unfold tcPost at h
  rw [tcOutF_eq] at h
  exact h

end RuleVal

end Cert.Kernel.Pf

end
-- ==== Proof.TcRegionUseB.lean ====
import proofs.«213435_g4140348473474_cont_8to1_b_470_36_alg».proof.Proof.CommonB
import Idealize.ShloMosaic.Lib.Pipeline.Regions
import Idealize.ShloMosaic.Lib.Pipeline.FrameBody
import proofs.«213435_g4140348473474_cont_8to1_b_470_36_alg».proof.Proof.TcRegionDatB

noncomputable section

namespace Cert.Kernel.Pf

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The region inside the launch protocol: what the TensorCore owes around it

Between the launch protocol's calls the TensorCore owes only units at a call's index, and its recorded pairs sit at or
below the level cut of the next call. The pipeline's waits record pairs at the index no call uses, at level zero: they
keep that bound. -/

section Use

variable (d : Dev nD)

/-- The TensorCore owes nothing at the index no call uses. -/
theorem Otc_none (n : ℕ) (g : GSem nD τ sig) : (K (F := F)).Otc d n g none = 0 :=
  Nat.eq_zero_of_not_pos fun h => by
    have h' := (K (F := F)).lev_of_Otc_pos h
    rw [SparseCore.Cfg.lev_none] at h'
    omega

/-- After the last call it owes nothing at all. -/
theorem Otc_last : (K (F := F)).Otc d 1 = 0 := (K (F := F)).Otc_end d (le_refl 1)

/-- The pairs of the TensorCore at or below level `b`. -/
abbrev belowSet (b : ℕ) : Set (SemLoc sig × HIx 1) := {p | (K (F := F)).lev (SparseCore.T d, p.1) p.2 ≤ b}

/-- What the thread owes with its recorded pairs below the cut `b`, as the region takes it; -/
theorem owesWithin_of_WBelow (b : ℕ) (O : CellTallies nD τ sig (HIx 1)) (W : Waits sig (HIx 1)) (hW : (K (F := F)).WBelow (SparseCore.T d) W b) :
    (owes (SparseCore.T d) O W : sProp 𝕄) ⊢ Pipeline.owesWithin d O (belowSet (F := F) d b) := by
  iintro H
  iexists W
  isplitr
  · ipureintro; exact fun p hp => hW p (Finset.mem_coe.mp hp)
  iexact H

/-- and as it gives it back: the pipeline's own pairs are at level zero. -/
theorem WBelow_of_owesWithin (b : ℕ) (O : CellTallies nD τ sig (HIx 1)) :
    (Pipeline.owesWithin d O (belowSet (F := F) d b ∪ cfg1.waitPairs none) : sProp 𝕄)
      ⊢ iprop(∃ W, ⌜(K (F := F)).WBelow (SparseCore.T d) W b⌝ ∗ owes (SparseCore.T d) O W) := by
  iintro ⟨%W, %hW, H⟩
  iexists W
  isplitr
  · ipureintro
    intro p hp
    rcases hW (Finset.mem_coe.mpr hp) with h | ⟨w, s, rfl⟩
    · exact h
    · show (K (F := F)).lev (SparseCore.T d, _) none ≤ b
      rw [SparseCore.Cfg.lev_none]; exact Nat.zero_le _
  iexact H

end Use

end Cert.Kernel.Pf

end
-- ==== Proof.HmainB.lean ====
import proofs.«213435_g4140348473474_cont_8to1_b_470_36_alg».proof.Proof.PayB
import proofs.«213435_g4140348473474_cont_8to1_b_470_36_alg».proof.Proof.HostTailB
import proofs.«213435_g4140348473474_cont_8to1_b_470_36_alg».proof.Proof.TcRegionValB
import proofs.«213435_g4140348473474_cont_8to1_b_470_36_alg».proof.Proof.TcRegionUseB

noncomputable section

namespace Cert.Kernel.Pf

open Cert.Kernel Cert.Kernel.Gen

open Idealize.ShloMosaic Idealize.ShloMosaic.StableHlo
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## @main on the TensorCore

The SparseCore call takes the argument's and the first result array's chunks and hands them back, the result's at
`scOut` of the argument; the pipelined call then fills the second result array with `tcOut` of the argument; three
host operations join the two. -/

abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)

/-- The three host operations, as @main spells them. -/
abbrev opT0 : HloOp τ sig (Elt F) :=
  StableHlo.unary main_v0 main_v2 ((transpose S32x4096 [1, 0] · transposes_S4096x32_S32x4096_1_0) : (⟨S4096x32, .f32⟩ : BufTy).Contents (Elt F) → (⟨S32x4096, .f32⟩ : BufTy).Contents (Elt F))
abbrev opCat : HloOp τ sig (Elt F) :=
  StableHlo.binary main_v1 main_v2 main_v3 ((fun a b => concatenate S32x16384 1 [⟨S32x12288, a⟩, ⟨S32x4096, b⟩] concatenates_S32x12288_S32x4096_S32x16384_d1) : (⟨S32x12288, .f32⟩ : BufTy).Contents (Elt F) → (⟨S32x4096, .f32⟩ : BufTy).Contents (Elt F) → (⟨S32x16384, .f32⟩ : BufTy).Contents (Elt F))
abbrev opT1 : HloOp τ sig (Elt F) :=
  StableHlo.unary main_v3 main_v4 ((transpose S16384x32 [1, 0] · transposes_S32x16384_S16384x32_1_0) : (⟨S32x16384, .f32⟩ : BufTy).Contents (Elt F) → (⟨S16384x32, .f32⟩ : BufTy).Contents (Elt F))

/-- The five result arrays of @main. -/
abbrev S5 : Finset (DevRef τ sig) := {v0', v1', v2', v3', v4'}

omit [FloatOps F] in
theorem held_S5 (d : Dev nD) (W : Valuation τ sig (Elt F)) :
    (held (SparseCore.T d) S5 W : sProp 𝕄)
      = iprop(((SparseCore.T d).loc main_v0 ↦{fullShare} W v0') ∗ ((SparseCore.T d).loc main_v1 ↦{fullShare} W v1')
          ∗ ((SparseCore.T d).loc main_v2 ↦{fullShare} W v2') ∗ ((SparseCore.T d).loc main_v3 ↦{fullShare} W v3')
          ∗ ((SparseCore.T d).loc main_v4 ↦{fullShare} W v4')) := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((xLoc d ↦{fullShare} W main_arg0) ∗ (oLoc d ↦{fullShare} W main_v0) ∗ ((SparseCore.T d).loc main_v1 ↦{fullShare} W main_v1)
          ∗ ((SparseCore.T d).loc main_v2 ↦{fullShare} W main_v2) ∗ ((SparseCore.T d).loc main_v3 ↦{fullShare} W main_v3)
          ∗ ((SparseCore.T d).loc main_v4 ↦{fullShare} W main_v4)) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), bigSep_singleton]

/-- The arrays' contents when the host operations begin: as launched, but the two kernels' results. -/
def Va (d : Dev nD) : Valuation τ sig (Elt F) :=
  Function.update (Function.update (fun b => m (d, b)) v0' (scOut (m (xLoc d)))) v1' (tcOut (m (xLoc d)))

theorem Va_v0 (d : Dev nD) : Va m d v0' = scOut (m (xLoc d)) :=
  (Function.update_of_ne (show v0' ≠ v1' by decide) _ _).trans (Function.update_self _ _ _)
theorem Va_v1 (d : Dev nD) : Va m d v1' = tcOut (m (xLoc d)) := Function.update_self _ _ _
theorem Va_v2 (d : Dev nD) : Va m d v2' = m (d, v2') :=
  (Function.update_of_ne (show v2' ≠ v1' by decide) _ _).trans (Function.update_of_ne (show v2' ≠ v0' by decide) _ _)
theorem Va_v3 (d : Dev nD) : Va m d v3' = m (d, v3') :=
  (Function.update_of_ne (show v3' ≠ v1' by decide) _ _).trans (Function.update_of_ne (show v3' ≠ v0' by decide) _ _)
theorem Va_v4 (d : Dev nD) : Va m d v4' = m (d, v4') :=
  (Function.update_of_ne (show v4' ≠ v1' by decide) _ _).trans (Function.update_of_ne (show v4' ≠ v0' by decide) _ _)

theorem hT0 : (opT0 (F := F)).bufs ⊆ S5 := show ({v0', v2'} : Finset (DevRef τ sig)) ⊆ S5 by decide
theorem hCat : (opCat (F := F)).bufs ⊆ S5 := show ({v1', v2', v3'} : Finset (DevRef τ sig)) ⊆ S5 by decide
theorem hT1 : (opT1 (F := F)).bufs ⊆ S5 := show ({v3', v4'} : Finset (DevRef τ sig)) ⊆ S5 by decide

/-- What the three operations leave in the last array. -/
theorem result_v4 (d : Dev nD) :
    (opT1 (F := F)).result ((opCat (F := F)).result ((opT0 (F := F)).result (Va m d))) v4'
      = hostTail (tcOut (m (xLoc d))) (scOut (m (xLoc d))) := by
  rw [StableHlo.unary_result', StableHlo.binary_result', StableHlo.unary_result_ne (h := show main_v1 ≠ main_v2 by decide),
    StableHlo.unary_result', Va_v0, Va_v1]
  rfl

/-- What @main leaves the claim: the argument at its launch contents, the last array at the host operations' result of
    the two kernels' results. -/
abbrev FIN (d : Dev nD) : sProp 𝕄 :=
  iprop((xLoc d ↦{fullShare} m (xLoc d))
    ∗ ((SparseCore.T d).loc main_v4 ↦{fullShare} hostTail (tcOut (m (xLoc d))) (scOut (m (xLoc d)))))

/-- What the SparseCore call hands back, the two arrays' chunks apart. -/
theorem dn0_split (d : Dev nD) :
    (bigSep Finset.univ fun c : Fin ((K (F := F)).nCore 0) => (P m).dn 0 d c)
      = iprop((bigSep Finset.univ fun c : Fin 2 => bigSep Finset.univ fun i : Fin 16 => xChunks d (coordsV c i) (m (xLoc d)))
          ∗ (bigSep Finset.univ fun c : Fin 2 => bigSep Finset.univ fun i : Fin 16 => oChunks d (coordsV c i) (scOut (m (xLoc d))))) := by
  rw [dn0_eq]; simp only [tileTd, bigSep_sep']
/-- What it takes, the same way. -/
theorem st0_split (d : Dev nD) :
    (bigSep Finset.univ fun c : Fin ((K (F := F)).nCore 0) => (P m).st 0 d c)
      = iprop((bigSep Finset.univ fun c : Fin 2 => bigSep Finset.univ fun i : Fin 16 => xChunks d (coordsV c i) (m (xLoc d)))
          ∗ (bigSep Finset.univ fun c : Fin 2 => bigSep Finset.univ fun i : Fin 16 => oChunks d (coordsV c i) (m (oLoc d)))) := by
  rw [st0_eq]; simp only [tileGo, bigSep_sep']

theorem hmain (ρ : Dev nD → PrngReg) (κ : GSem nD τ sig → ℕ) (d : Dev nD) :
    iprop((K (F := F)).ctx EH (P m) κ ∗ (K (F := F)).tcSt EH d 0 ∗ (K (F := F)).tcRes m ρ d ∗ TcGhost d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hx, H0, H1, H2, H3, H4⟩, -, -⟩, Hg⟩
  -- the SparseCore call: the chunks of the argument and of the first result array, there and back
  ihave Hxs := (xPts_chunks d (m (xLoc d))).1 $$ Hx
  icases Hxs with ⟨Hxc, Hxr⟩
  ihave H0c := (Entails.of_eq (oPts_chunks d (m (oLoc d)))) $$ H0
  iapply ((K (F := F)).wp_run (D (F := F)) 𝒱 (EH := EH) (P := P m) κ d 0) $$ [Hst Hxc H0c Hxr Hb H1 H2 H3 H4 Hg]
  isplitr; · iexact Hctx
  isplitl [Hst]; · iexact Hst
  isplitl [Hxc H0c]
  · rw [st0_split]
    isplitl [Hxc]; · iexact Hxc
    iexact H0c
  iintro ⟨Hst, Hdn⟩
  ihave Hdn' := (Entails.of_eq (dn0_split m d)) $$ Hdn
  icases Hdn' with ⟨Hxc, H0c⟩
  ihave Hx := (xPts_chunks d (m (xLoc d))).2 $$ [Hxc Hxr]
  · isplitl [Hxc] <;> iassumption
  ihave H0 := (Entails.of_eq (oPts_chunks d (scOut (m (xLoc d)))).symm) $$ H0c
  -- the pipelined call: the thread's debts in, the region, the debts back
  ihave Hst' := (Entails.of_eq (show (K (F := F)).tcSt EH d ((0 : Fin 1).val + 1) = _ from by unfold SparseCore.Cfg.tcSt; rfl)) $$ Hst
  icases Hst' with ⟨⟨%W, %hW, HO⟩, Hrest⟩
  ihave Hlev := (SparseCore.Cfg.ctx_levAts (K := K (F := F)) (EH := EH) (P := P m) κ) $$ Hctx
  ihave HOw := (owesWithin_of_WBelow (F := F) d (8 * ((0 : Fin 1).val + 1)) ((K (F := F)).Otc d ((0 : Fin 1).val + 1)) W hW) $$ HO
  iapply (wp_wand_r frame _ _)
  isplitl [Hg Hb Hlev Hx H1 HOw]
  · iapply (tc_region d (m (xLoc d)) (m ((SparseCore.T d).loc main_v1)) ((K (F := F)).Otc d ((0 : Fin 1).val + 1))
      (belowSet (F := F) d (8 * ((0 : Fin 1).val + 1))) (K (F := F)).lev (Otc_none d _) (SparseCore.Cfg.refines_self _))
    isplitl [Hg]; · iexact Hg
    isplitl [Hb]; · iexact Hb
    isplitl [Hlev]; · iexact Hlev
    isplitl [Hx]; · iexact Hx
    isplitl [H1]; · iexact H1
    iexact HOw
  iintro %a ⟨Hb, Hx, H1, HOw⟩
  -- the host operations, over the five result arrays
  iapply (wp_hlo_within 𝒱 (SparseCore.T d) none Set.univ (op := opT0) (S := S5) hT0 (V := Va m d)) $$ [Hb H0 H1 H2 H3 H4]
  · isplitl [Hb]; · iexact Hb
    rw [held_S5, Va_v0, Va_v1, Va_v2, Va_v3, Va_v4]
    isplitl [H0]; · iexact H0
    isplitl [H1]; · iexact H1
    isplitl [H2]; · iexact H2
    isplitl [H3]; · iexact H3
    iexact H4
  iintro ⟨Hb, Hheld⟩
  rw [wp_ret]; imodintro
  iapply (wp_hlo_within 𝒱 (SparseCore.T d) none Set.univ (op := opCat) (S := S5) hCat (V := (opT0 (F := F)).result (Va m d))) $$ [Hb Hheld]
  · isplitl [Hb] <;> iassumption
  iintro ⟨Hb, Hheld⟩
  rw [wp_ret]; imodintro
  iapply (wp_hlo_within 𝒱 (SparseCore.T d) none Set.univ (op := opT1) (S := S5) hT1 (V := (opCat (F := F)).result ((opT0 (F := F)).result (Va m d)))) $$ [Hb Hheld]
  · isplitl [Hb] <;> iassumption
  iintro ⟨Hb, Hheld⟩
  ihave Hh := (Entails.of_eq (held_S5 (F := F) d _)) $$ Hheld
  icases Hh with ⟨-, -, -, -, H4⟩
  rw [result_v4, wp_ret]
  imodintro; imodintro
  isplitl [HOw Hrest]
  · iapply (Entails.of_eq (show (K (F := F)).tcSt EH d 1 = _ from by unfold SparseCore.Cfg.tcSt; rfl).symm)
    isplitl [HOw]
    · iapply (WBelow_of_owesWithin (F := F) d (8 * ((0 : Fin 1).val + 1)) ((K (F := F)).Otc d ((0 : Fin 1).val + 1)))
      iexact HOw
    iexact Hrest
  isplitl [Hx]; · iexact Hx
  iexact H4

end Cert.Kernel.Pf

end
-- ==== Proof.LaunchB.lean ====
import proofs.«213435_g4140348473474_cont_8to1_b_470_36_alg».proof.Proof.TileOblB
import proofs.«213435_g4140348473474_cont_8to1_b_470_36_alg».proof.Proof.HmainB

noncomputable section

namespace Cert.Kernel.Pf

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The launch element: the handshakes' rounds and the pipeline's; the counters start empty -/

variable (m : (ℓ : Loc nD τ sig) → Buf (Elt F) ℓ) (ρ : Dev nD → PrngReg)

def u₀ : UU :=
  (initOf (K (F := F)).hsCells (K (F := F)).hsToks,
    (initOf (Pipeline.cells cfgs cellOf_inj) (Pipeline.launchToks cfgs cellOf_inj), 1))

omit [FloatOps F] in
theorem ownU_split (a : UH) (b : UR) (c : Counters) : (ownU (a, (b, c)) : sProp 𝕄) ⊢ iprop(BI.own (EH a) ∗ BI.own (ER b)) := by
  iintro H
  ihave H' := (ownU_pair (nD := nD) (τ := τ) (sig := sig) (Ix := HIx 1) (Val := Elt F) (Name := ℕ) (Lvl := ℕ) a (b, c)) $$ H
  icases H' with ⟨Ha, Hbc⟩
  ihave H'' := (own_pair_emb (embR (nD := nD) (τ := τ) (sig := sig) (Ix := HIx 1) (Val := Elt F) (Name := ℕ) (Lvl := ℕ) (A := UH) (B := UR × Counters)) b c) $$ Hbc
  icases H'' with ⟨Hb, -⟩
  isplitl [Ha]; · iexact Ha
  iexact Hb

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => TcGhost (F := F) d)
        ∗ bigSep Finset.univ fun thr : Thread nD τ => bigSep Finset.univ fun q : Fin 1 => (P m).x q thr) := by
  unfold u₀
  iintro Hu
  ihave H := (ownU_split _ _ _) $$ Hu
  icases H with ⟨HH, HR⟩
  imod (fund_tcGhost (F := F)) $$ HR with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What the final memory says -/

abbrev vLoc (d : Dev nD) : Loc nD τ sig := (SparseCore.T d).loc main_v4

def fq (d : Dev nD) (s' : Phys nD τ sig (Elt F)) : Prop :=
  s'.mem.mem (xLoc d) = m (xLoc d) ∧ s'.mem.mem (vLoc d) = hostTail (tcOut (m (xLoc d))) (scOut (m (xLoc d)))

theorem hfin (d : Dev nD) (s' : Phys nD τ sig (Elt F)) : iprop(FIN m d ∗ SI s') ⊢ (⌜fq m d s'⌝ : sProp 𝕄) := by
  iintro ⟨⟨Hx, Hv⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := vLoc d) (I := Finset.univ) (q := fullShare) (f := hostTail (tcOut (m (xLoc d))) (scOut (m (xLoc d))))) $$ [HSI Hv]
  · isplitl [HSI] <;> iassumption
  icases H with %h2
  ipureintro; exact ⟨funext fun i => h1 i (Finset.mem_univ i), funext fun i => h2 i (Finset.mem_univ i)⟩

/-! ## The program's run -/

/-- The run's post: on every device the argument is unchanged and the result array holds the host tail of the
    two kernels' results. -/
def QC : PUnit × MemSt nD τ sig (Elt F) → Prop := fun r => ∀ c : Dev nD,
  r.2.mem (vLoc c) = hostTail (tcOut (m (xLoc c))) (scOut (m (xLoc c))) ∧ r.2.mem (xLoc c) = m (xLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => TcGhost (F := F) d) (FIN m) (u₀ (F := F)) (sep_elim_left.trans (hu₀ m)) (hmain m ρ) (fq m) (hfin m) (QC m)
    (fun _ h c => ⟨(h c).2, (h c).1⟩)

end Cert.Kernel.Pf

end
-- ==== Proof.RefRun.lean ====
/-
  The reference program as a straight line, and what its last buffer holds.

  The reference's entry function calls one helper (a column lookup by an index table), which itself calls a
  second helper (an elementwise choice). A call means the callee's body run on the caller's buffers, so the
  entry function is the list of its own operations with the two bodies written out in place: thirty-one
  operations in all. Every buffer then ends at the fold of these operations over the contents at launch, and
  at the result buffer that fold is the composed term `out` below, stated once, in the order the
  operations apply:

    table    the 128 integers of the constant table, as a vector of length 128;
    index    each table entry, shifted by the row length 2048 when it is negative;
    inside   for each of the 128 positions, whether its index lies in [0, 2047];
    taken    row by row, the argument's entry at each of the 128 indices where the index is inside,
             and a fixed other value elsewhere;
    out      `taken` regrouped as 32 groups of 4, each group summed from zero and divided by four.
-/
import proofs.«213435_g4140348473474_cont_8to1_b_470_36_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-! ## The composed term -/

/-- The constant table read as a vector of length 128 (row-major: entry `4 g + j` is the table's `(g, j)`). -/
def table : IVec S128 32 :=
  shapeCast S128 (fun i => lit0 (S32x4.rowMajor i) : IVec S32x4 32) shapeCasts_S32x4_S128

/-- Each entry of the table as a column index: a negative entry counts from the end of a row of 2048. -/
def index : IVec S128 32 :=
  select (cmpi .slt table (broadcastInDim S128 ![] bcast_S_S128 (constantI S_ 32 0#32)))
    (addi table (broadcastInDim S128 ![] bcast_S_S128 (constantI S_ 32 2048#32))) table

/-- The indices as a column of one-entry index vectors. -/
def indexCol : IVec S128x1 32 := broadcastInDim S128x1 ![0] bcast_S128_S128x1_0 index

/-- Position by position: is the index at least 0 and at most 2047? -/
def inside : IVec S128 1 :=
  Host.reduce IntOp.andi
    (andi (cmpi .sge indexCol (broadcastInDim S128x1 ![] bcast_S_S128x1 (constantI S_ 32 0#32)))
      (cmpi .sle indexCol
        (broadcastInDim S128x1 ![0, 1] bcast_S1x1_S128x1_0_1
          (broadcastInDim S1x1 ![1] bcast_S1_S1x1_1 (constantI S1 32 2047#32)))))
    (constantI S_ 1 1#1) reducesTo_S128x1_S128_d1 h_S_

/-- Row by row, the argument's entries at the 128 indices; where an index is not inside, a fixed other value. -/
def taken (x : FVec F S16384x2048 .f32) : FVec F S16384x128 .f32 :=
  select (broadcastInDim S16384x128 ![1] bcast_S128_S16384x128_1 inside)
    (Host.gather gather_S16384x2048_S128x1_S16384x128_0_1_n_n_1_1_163841 x indexCol)
    (broadcastInDim S16384x128 ![] bcast_S_S16384x128 (constant S_ .f32 0x7FC00000#32))

/-- The result: `taken` in 32 groups of 4, each summed from zero, each sum divided by four. -/
def out (x : FVec F S16384x2048 .f32) : FVec F S16384x32 .f32 :=
  Host.divf
    (Host.reduceAdd (shapeCast S16384x32x4 (taken x) shapeCasts_S16384x128_S16384x32x4) (constant S_ .f32 0x00000000#32)
      reducesTo_S16384x32x4_S16384x32_d2 h_S_)
    (broadcastInDim S16384x32 ![] bcast_S_S16384x32 (constant S_ .f32 0x40800000#32))

/-! ## The straight line -/

/-- The entry function's operations in order, the two helpers' bodies in place of their calls: the table and its
    reshape; the lookup's twenty-three (of them the choice between the shifted and the plain index is the inner
    helper's one operation); then the regrouping, the zero, the sum, the constant four, its broadcast and the
    quotient. -/
abbrev ops : List (HloOp τ sig (Elt F)) :=
  [ nullary main_c (fun i => lit0 (S32x4.rowMajor i)),
    reshape main_c main_v0 rfl shapeCasts_S32x4_S128,
    nullary main_call0_c (constantI S_ 32 0#32),
    unary main_call0_c main_call0_v0 (broadcastInDim S128 ![] bcast_S_S128 : (⟨S_, .i32⟩ : BufTy).Contents (Elt F) → (⟨S128, .i32⟩ : BufTy).Contents (Elt F)),
    binary main_v0 main_call0_v0 main_call0_v1 (cmpi .slt : (⟨S128, .i32⟩ : BufTy).Contents (Elt F) → (⟨S128, .i32⟩ : BufTy).Contents (Elt F) → (⟨S128, .i1⟩ : BufTy).Contents (Elt F)),
    nullary main_call0_c_0 (constantI S_ 32 2048#32),
    unary main_call0_c_0 main_call0_v2 (broadcastInDim S128 ![] bcast_S_S128 : (⟨S_, .i32⟩ : BufTy).Contents (Elt F) → (⟨S128, .i32⟩ : BufTy).Contents (Elt F)),
    binary main_v0 main_call0_v2 main_call0_v3 (addi : (⟨S128, .i32⟩ : BufTy).Contents (Elt F) → (⟨S128, .i32⟩ : BufTy).Contents (Elt F) → (⟨S128, .i32⟩ : BufTy).Contents (Elt F)),
    ternary main_call0_v1 main_call0_v3 main_v0 main_call0_v4 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_call0_v4 main_call0_v5 (broadcastInDim S128x1 ![0] bcast_S128_S128x1_0 : (⟨S128, .i32⟩ : BufTy).Contents (Elt F) → (⟨S128x1, .i32⟩ : BufTy).Contents (Elt F)),
    nullary main_call0_c_1 (constantI S1 32 2047#32),
    nullary main_call0_c_2 (constantI S_ 32 0#32),
    unary main_call0_c_2 main_call0_v6 (broadcastInDim S128x1 ![] bcast_S_S128x1 : (⟨S_, .i32⟩ : BufTy).Contents (Elt F) → (⟨S128x1, .i32⟩ : BufTy).Contents (Elt F)),
    binary main_call0_v5 main_call0_v6 main_call0_v7 (cmpi .sge : (⟨S128x1, .i32⟩ : BufTy).Contents (Elt F) → (⟨S128x1, .i32⟩ : BufTy).Contents (Elt F) → (⟨S128x1, .i1⟩ : BufTy).Contents (Elt F)),
    unary main_call0_c_1 main_call0_v8 (broadcastInDim S1x1 ![1] bcast_S1_S1x1_1 : (⟨S1, .i32⟩ : BufTy).Contents (Elt F) → (⟨S1x1, .i32⟩ : BufTy).Contents (Elt F)),
    unary main_call0_v8 main_call0_v9 (broadcastInDim S128x1 ![0, 1] bcast_S1x1_S128x1_0_1 : (⟨S1x1, .i32⟩ : BufTy).Contents (Elt F) → (⟨S128x1, .i32⟩ : BufTy).Contents (Elt F)),
    binary main_call0_v5 main_call0_v9 main_call0_v10 (cmpi .sle : (⟨S128x1, .i32⟩ : BufTy).Contents (Elt F) → (⟨S128x1, .i32⟩ : BufTy).Contents (Elt F) → (⟨S128x1, .i1⟩ : BufTy).Contents (Elt F)),
    binary main_call0_v7 main_call0_v10 main_call0_v11 (andi : (⟨S128x1, .i1⟩ : BufTy).Contents (Elt F) → (⟨S128x1, .i1⟩ : BufTy).Contents (Elt F) → (⟨S128x1, .i1⟩ : BufTy).Contents (Elt F)),
    nullary main_call0_c_3 (constantI S_ 1 1#1),
    binary main_call0_v11 main_call0_c_3 main_call0_v12 ((fun x v => Host.reduce IntOp.andi x v reducesTo_S128x1_S128_d1 h_S_) : (⟨S128x1, .i1⟩ : BufTy).Contents (Elt F) → (⟨S_, .i1⟩ : BufTy).Contents (Elt F) → (⟨S128, .i1⟩ : BufTy).Contents (Elt F)),
    binary main_arg0 main_call0_v5 main_call0_v13 ((fun x i => Host.gather gather_S16384x2048_S128x1_S16384x128_0_1_n_n_1_1_163841 x i) : (⟨S16384x2048, .f32⟩ : BufTy).Contents (Elt F) → (⟨S128x1, .i32⟩ : BufTy).Contents (Elt F) → (⟨S16384x128, .f32⟩ : BufTy).Contents (Elt F)),
    unary main_call0_v12 main_call0_v14 (broadcastInDim S16384x128 ![1] bcast_S128_S16384x128_1 : (⟨S128, .i1⟩ : BufTy).Contents (Elt F) → (⟨S16384x128, .i1⟩ : BufTy).Contents (Elt F)),
    nullary main_call0_cst (constant S_ .f32 0x7FC00000#32),
    unary main_call0_cst main_call0_v15 (broadcastInDim S16384x128 ![] bcast_S_S16384x128 : (⟨S_, .f32⟩ : BufTy).Contents (Elt F) → (⟨S16384x128, .f32⟩ : BufTy).Contents (Elt F)),
    ternary main_call0_v14 main_call0_v13 main_call0_v15 main_v1 (select : (⟨S16384x128, .i1⟩ : BufTy).Contents (Elt F) → (⟨S16384x128, .f32⟩ : BufTy).Contents (Elt F) → (⟨S16384x128, .f32⟩ : BufTy).Contents (Elt F) → (⟨S16384x128, .f32⟩ : BufTy).Contents (Elt F)),
    reshape main_v1 main_v2 rfl shapeCasts_S16384x128_S16384x32x4,
    nullary main_cst (constant S_ .f32 0x00000000#32),
    binary main_v2 main_cst main_v3 ((fun x v => Host.reduceAdd x v reducesTo_S16384x32x4_S16384x32_d2 h_S_) : (⟨S16384x32x4, .f32⟩ : BufTy).Contents (Elt F) → (⟨S_, .f32⟩ : BufTy).Contents (Elt F) → (⟨S16384x32, .f32⟩ : BufTy).Contents (Elt F)),
    nullary main_cst_0 (constant S_ .f32 0x40800000#32),
    unary main_cst_0 main_v4 (broadcastInDim S16384x32 ![] bcast_S_S16384x32 : (⟨S_, .f32⟩ : BufTy).Contents (Elt F) → (⟨S16384x32, .f32⟩ : BufTy).Contents (Elt F)),
    binary main_v3 main_v4 main_v5 (Host.divf : (⟨S16384x32, .f32⟩ : BufTy).Contents (Elt F) → (⟨S16384x32, .f32⟩ : BufTy).Contents (Elt F) → (⟨S16384x32, .f32⟩ : BufTy).Contents (Elt F)) ]

-- thirty-one binds to re-associate
set_option maxRecDepth 1024 in
/-- The entry function is that straight line: the helpers' definitions opened at their calls, both sides are one
    chain of steps once the sequencing is re-associated. A helper states each operation over buffers that carry
    their value's type; at the buffers of this call the two types are the same and the transport between them
    is the identity, so each step is the plain operation listed above. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., nullary_bufs_sub .., binary_bufs_sub .., nullary_bufs_sub .., unary_bufs_sub .., binary_bufs_sub ..⟩

attribute [local irreducible] Host.reduce Host.gather Host.reduceAdd in
set_option maxRecDepth 8192 in
/-- The fold at the result buffer is `out` of the argument's contents: an operation's result is its function's
    value at the buffer it writes and what was there at every other buffer, so the fold at one buffer is the
    operations' functions composed along the buffers they read; that composition is `out`, name by name. The
    sums and the lookup stay closed meanwhile: the equation never looks inside them. -/
theorem out_eq (V : Valuation τ sig (Elt F)) :
    after ops V (main_v5 : DevRef τ sig) = out (V (main_arg0 : DevRef τ sig)) := by
  after_results_simp
  rfl

/-- No operation writes the argument's buffer. -/
theorem arg0_eq (V : Valuation τ sig (Elt F)) :
    after ops V (main_arg0 : DevRef τ sig) = V (main_arg0 : DevRef τ sig) := by
  after_results_simp

/-- On every device, for any float values, from any memory with zero counters: every weakly fair execution of the
    entry function terminates with the result buffer at `out` of the argument's contents at launch, and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = out (m ((c.tc : Thread nD τ).loc main_arg0))
      ∧ r.2.mem ((c.tc : Thread nD τ).loc main_arg0) = m ((c.tc : Thread nD τ).loc main_arg0) :=
  (θ_run defs _ _).mono (fun _ h c => ⟨(h c main_v5).trans (out_eq _), (h c main_arg0).trans (arg0_eq _)⟩)
    (run_seq scopedRefs_eq scopedSems_eq defs main (fun _ => ops) main_eq (fun _ => ops_sub) m ρ)

end Cert.ReferenceIdeal.RefRun

end
-- ==== Proof.Spec.lean ====
/-
  The function both programs compute, stated once over the argument array alone.

  The input is a 16384 × 2048 array; only its first 128 columns are read. Output entry (r, g), for a row
  r and a group g < 32, is the mean of the four consecutive entries 4g, 4g+1, 4g+2, 4g+3 of row r:
  their sum (associated to the left) times the real number 1/4. On the extended reals the product with
  1/4 is the quotient by 4, so this is the reference's "sum of the group, divided by its size"; a
  selector matrix with 1/4 in the four rows of a group and 0 elsewhere gives the same number when every
  entry is finite, because then the product distributes over the sum and the zero terms vanish.
-/
import Idealize.ShloMosaic.PureOps.Ideal
import Idealize.ShloMosaic.Lib.ValueIdx

noncomputable section

namespace Cert.Pool

open Idealize.ShloMosaic

/-- The argument's shape. -/
abbrev SX : Shape := ⟨2, ![16384, 2048]⟩
/-- The result's shape. -/
abbrev SO : Shape := ⟨2, ![16384, 32]⟩

/-- Entry `4g + j` of row `r`: member `j` of group `g`. -/
def cell (r : Fin 16384) (g : Fin 32) (j : Fin 4) : SX.Idx :=
  ValueIdx.ix2 r (⟨4 * g.val + j.val, by omega⟩ : Fin 2048)

/-- The mean of each group of four consecutive entries of a row. -/
def mean4 (x : SX.Idx → EReal) : SO.Idx → EReal := fun i =>
  (x (cell (i 0) (i 1) 0) + x (cell (i 0) (i 1) 1) + x (cell (i 0) (i 1) 2) + x (cell (i 0) (i 1) 3))
    * (((1 / 4 : ℝ)) : EReal)

theorem mean4_apply (x : SX.Idx → EReal) (r : Fin 16384) (g : Fin 32) :
    mean4 x (ValueIdx.ix2 r g) = (x (cell r g 0) + x (cell r g 1) + x (cell r g 2) + x (cell r g 3)) * (((1 / 4 : ℝ)) : EReal) := rfl

end Cert.Pool

end
-- ==== Proof.RefValue.lean ====
/-
  The value of the reference's composed term, entry by entry.

  The constant table lists 0, 1, …, 127 in order, so every index it gives is a column number between 0 and
  2047: no index is shifted, every position is "inside", and the lookup returns, row by row, the argument's
  first 128 columns. Regrouped as 32 groups of 4, group g of row r holds columns 4g, 4g+1, 4g+2, 4g+3; the
  sum from zero of a group is the sum of its four entries, and the quotient by the real number four is, on
  every extended real, the product with one quarter. That is the mean of each group of four.
-/
import proofs.«213435_g4140348473474_cont_8to1_b_470_36_alg».proof.Proof.RefRun
import proofs.«213435_g4140348473474_cont_8to1_b_470_36_alg».proof.Proof.Spec
import Idealize.ShloMosaic.Lib.IdealHost
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
open Idealize.ShloMosaic.TcCoe Idealize.SL.Sem
open scoped BigOperators

/-! ## The index table -/

/-- Entry `i` of the constant table is the integer `i`. -/
theorem lit0_eq : ∀ i : Fin 128, lit0 i = BitVec.ofNat 32 i.val := by decide

/-- Entry `k` of the table read as a vector of length 128 is the integer `k`. -/
theorem table_apply (k : Fin 128) : table (ix1 k) = BitVec.ofNat 32 k.val := by
  unfold table
  rw [shapeCast_apply _ _ (ix1 k) (ix2 (⟨k.val / 4, by omega⟩ : Fin 32) (⟨k.val % 4, by omega⟩ : Fin 4))
    (by rw [Shape.rowMajor_val_two, Shape.rowMajor_val_one]; show k.val / 4 * 4 + k.val % 4 = k.val; omega)]
  refine (lit0_eq _).trans (congrArg (BitVec.ofNat 32) ?_)
  show (S32x4.rowMajor (ix2 (⟨k.val / 4, by omega⟩ : Fin 32) (⟨k.val % 4, by omega⟩ : Fin 4))).val = k.val
  rw [Shape.rowMajor_val_two]; show k.val / 4 * 4 + k.val % 4 = k.val; omega

/-- An integer between 0 and 127 is not negative, so it is kept as it is … -/
theorem keep_eq : ∀ k : Fin 128, Scalar.select (IntOp.cmpi .slt (BitVec.ofNat 32 k.val) 0#32)
    (IntOp.addi (BitVec.ofNat 32 k.val) 2048#32) (BitVec.ofNat 32 k.val) = BitVec.ofNat 32 k.val := by decide

/-- … it lies between 0 and 2047 … -/
theorem inside_eq : ∀ k : Fin 128, IntOp.andi (IntOp.cmpi .sge (BitVec.ofNat 32 k.val) 0#32)
    (IntOp.cmpi .sle (BitVec.ofNat 32 k.val) 2047#32) = 1#1 := by decide

/-- … and read as a signed integer and clamped to a column number, it is itself. -/
theorem clamp_eq : ∀ k : Fin 128, min (BitVec.ofNat 32 k.val).toInt.toNat (2048 - 1) = k.val := by decide

/-- Index `k` is the integer `k`. -/
theorem index_apply (k : Fin 128) : index (ix1 k) = BitVec.ofNat 32 k.val := by
  show Scalar.select (IntOp.cmpi .slt (table (ix1 k)) 0#32) (IntOp.addi (table (ix1 k)) 2048#32) (table (ix1 k)) = _
  rw [table_apply, keep_eq]

/-- The same in the column of one-entry index vectors. -/
theorem indexCol_apply (k : Fin 128) (z : Fin 1) : indexCol (ix2 k z) = BitVec.ofNat 32 k.val := by
  unfold indexCol
  rw [broadcastInDim_apply _ _ _ (ix2 k z) (ix1 k) (fun a => by match a with | ⟨0, _⟩ => rfl), index_apply]

/-- A fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by rw [List.foldl_cons, hf a]; exact foldl_andi_one f hf l

/-- Every position is inside. -/
theorem inside_apply (k : Fin 128) : inside (ix1 k) = 1#1 := by
  unfold inside
  rw [Host.reduce_eq_foldl]
  refine foldl_andi_one _ (fun i => ?_) _
  obtain ⟨a, z, rfl⟩ : ∃ (a : Fin 128) (z : Fin 1), i = ix2 a z := ⟨i 0, i 1, eq_ix2 i⟩
  show IntOp.andi (IntOp.cmpi .sge (indexCol (ix2 a z)) 0#32) (IntOp.cmpi .sle (indexCol (ix2 a z)) 2047#32) = 1#1
  rw [indexCol_apply, inside_eq]

/-! ## The lookup -/

/-- The lookup at row `r` and position `c` reads the argument at row `r` and the column the index at `c` names:
    on the row axis the whole row is the slice, so the result's row coordinate is the argument's; on the column axis
    the slice is one entry wide and starts at the index read as a signed integer, clamped into the row. -/
theorem gather_apply {α : Type} (x : S16384x2048.Idx → α) (idx : IVec S128x1 32) (r : Fin 16384) (c : Fin 128) :
    Host.gather gather_S16384x2048_S128x1_S16384x128_0_1_n_n_1_1_163841 x idx (ix2 r c)
      = x (ix2 r (⟨min (idx (ix2 c (0 : Fin 1))).toInt.toNat (2048 - 1), by omega⟩ : Fin 2048)) := by
  unfold Host.gather
  congr 1
  funext a
  refine Fin.ext ?_
  match a with
  | ⟨0, _⟩ =>
    show gather_S16384x2048_S128x1_S16384x128_0_1_n_n_1_1_163841.start (ix2 r c) idx 0
      + gather_S16384x2048_S128x1_S16384x128_0_1_n_n_1_1_163841.batchCoord (ix2 r c) 0
      + gather_S16384x2048_S128x1_S16384x128_0_1_n_n_1_1_163841.offCoord (ix2 r c) 0 = r.val
    rw [GatherDims.batchCoord_eq_zero _ _ _ List.not_mem_nil]
    unfold GatherDims.start GatherDims.offCoord
    rw [dif_neg (by decide), dif_pos (by decide), Nat.zero_add]
    rfl
  | ⟨1, _⟩ =>
    show gather_S16384x2048_S128x1_S16384x128_0_1_n_n_1_1_163841.start (ix2 r c) idx 1
      + gather_S16384x2048_S128x1_S16384x128_0_1_n_n_1_1_163841.batchCoord (ix2 r c) 1
      + gather_S16384x2048_S128x1_S16384x128_0_1_n_n_1_1_163841.offCoord (ix2 r c) 1 = _
    rw [GatherDims.batchCoord_eq_zero _ _ _ List.not_mem_nil, GatherDims.offCoord_eq_zero _ _ _ (by decide)]
    unfold GatherDims.start
    rw [dif_pos (by decide)]
    have hsi : gather_S16384x2048_S128x1_S16384x128_0_1_n_n_1_1_163841.siIdx (ix2 r c)
        ⟨List.idxOf (1 : Fin 2) gather_S16384x2048_S128x1_S16384x128_0_1_n_n_1_1_163841.startIndexMap,
          List.idxOf_lt_length_iff.2 (by decide)⟩ = ix2 c (0 : Fin 1) := by
      funext b; refine Fin.ext ?_
      match b with
      | ⟨0, _⟩ => rfl
      | ⟨1, _⟩ => rfl
    rw [hsi]
    rfl

/-- Row by row, the lookup returns the argument's first 128 columns. -/
theorem taken_apply {F : FTy → Type} [FloatOps F] (x : FVec F S16384x2048 .f32) (r : Fin 16384) (c : Fin 128) :
    taken x (ix2 r c) = x (ix2 r (⟨c.val, by omega⟩ : Fin 2048)) := by
  unfold taken
  rw [select_apply, broadcastInDim_apply _ _ _ (ix2 r c) (ix1 c) (fun a => by match a with | ⟨0, _⟩ => rfl),
    inside_apply, select_one, gather_apply]
  congr 2
  refine Fin.ext ?_
  show min (indexCol (ix2 c (0 : Fin 1))).toInt.toNat (2048 - 1) = c.val
  rw [indexCol_apply, clamp_eq]

/-! ## The groups of four, their sums and the quotient -/

/-- The word of the constant four is the real number four. -/
theorem four_eq : Ideal.ofBits .f32 0x40800000#32 = ((4 : ℝ) : EReal) := by
  simp [Ideal.ofBits, Ideal.ieee, -EReal.coe_mul]; norm_num

/-- Regrouped, member `j` of group `g` of row `r` is the argument's entry `4 g + j` of that row: the two have the
    same position when the row is read entry by entry. -/
theorem grouped_apply {F : FTy → Type} [FloatOps F] (x : FVec F S16384x2048 .f32) (r : Fin 16384) (g : Fin 32) (j : Fin 4) :
    shapeCast S16384x32x4 (taken x) shapeCasts_S16384x128_S16384x32x4 (ix3 r g j) = x (Cert.Pool.cell r g j) := by
  rw [shapeCast_apply _ _ (ix3 r g j) (ix2 r (⟨4 * g.val + j.val, by omega⟩ : Fin 128))
    (by rw [Shape.rowMajor_val_two, Shape.rowMajor_val_three]
        show r.val * 128 + (4 * g.val + j.val) = (r.val * 32 + g.val) * 4 + j.val
        omega),
    taken_apply]
  rfl

/-- The composed term at row `r` and group `g`: the group's four entries added up, times one quarter. -/
theorem out_apply (x : FVec Ideal S16384x2048 .f32) (r : Fin 16384) (g : Fin 32) :
    out x (ix2 r g)
      = (x (Cert.Pool.cell r g 0) + x (Cert.Pool.cell r g 1) + x (Cert.Pool.cell r g 2) + x (Cert.Pool.cell r g 3))
          * (((1 / 4 : ℝ)) : EReal) := by
  have hR : S16384x32x4.Reduces [2] S16384x32 := by decide
  have e : ∀ j : Fin 4, hR.lift (ix2 r g) j = ix3 r g j := fun j => funext fun a => Fin.ext (by
    match a with
    | ⟨0, _⟩ => rfl
    | ⟨1, _⟩ => rfl
    | ⟨2, _⟩ => rfl)
  unfold out
  rw [hostDivf_apply, hostReduceAdd_apply, Ideal.hostReduceAdd_single _ hR]
  show Ideal.div (Ideal.ofBits .f32 0x00000000#32 + ∑ k : Fin 4, _) (Ideal.ofBits .f32 0x40800000#32) = _
  rw [Ideal.ofBits_zero_f32, zero_add, four_eq, Ideal.div_coe (by norm_num), Fin.sum_univ_four, e, e, e, e,
    grouped_apply, grouped_apply, grouped_apply, grouped_apply]

/-- The composed term is the mean of each group of four. -/
theorem out_eq_mean4 (x : FVec Ideal S16384x2048 .f32) : out x = Cert.Pool.mean4 x := by
  funext i
  obtain ⟨r, g, rfl⟩ : ∃ (r : Fin 16384) (g : Fin 32), i = ix2 r g := ⟨i 0, i 1, eq_ix2 i⟩
  rw [out_apply, Cert.Pool.mean4_apply]

/-! ## The run -/

/-- On every device, from any memory with zero counters: every weakly fair execution of the reference terminates
    with its result buffer at the mean of each group of four of the argument's contents at launch, and the argument
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = Cert.Pool.mean4 (m ((c.tc : Thread nD τ).loc main_arg0))
      ∧ r.2.mem ((c.tc : Thread nD τ).loc main_arg0) = m ((c.tc : Thread nD τ).loc main_arg0) :=
  (θ_run defs _ _).mono (fun _ h c => ⟨(h c).1.trans (out_eq_mean4 _), (h c).2⟩) (RefRun.run (F := Ideal) m ρ)

end Cert.ReferenceIdeal.RefValue

end
-- ==== Proof.PayConst.lean ====
/- The one float literal the averaging arithmetic uses, read as an extended real: the binary32
   pattern with sign 0, biased exponent 125 and zero fraction denotes 2^(125-127) = 1/4. -/
import Idealize.ShloMosaic.PureOps.Ideal
import Idealize.ShloMosaic.PureOps.Ideal.Laws

noncomputable section

namespace Cert.Pool.Pay

open Idealize.ShloMosaic

/-- The pattern `0x3E800000` denotes the real number one quarter. -/
theorem ofBits_quarter : Ideal.ofBits .f32 0x3E800000#32 = (((1 / 4 : ℝ)) : EReal) := by
  simp [Ideal.ofBits, Ideal.ieee, -EReal.coe_mul]; norm_num

/-- The same through the class field a program's constant is spelt with. -/
theorem floatOps_ofBits_quarter :
    FloatOps.ofBits (F := Ideal) .f32 0x3E800000#32 = (((1 / 4 : ℝ)) : EReal) := ofBits_quarter

/-- The all-zero pattern denotes zero, through the class field. -/
theorem floatOps_ofBits_zero : FloatOps.ofBits (F := Ideal) .f32 0x00000000#32 = (0 : EReal) :=
  Ideal.ofBits_zero_f32

end Cert.Pool.Pay

end
-- ==== Proof.PaySc.lean ====
/- The arithmetic each averaging step performs on four gathered 16-lane vectors, read at one lane
   over the extended reals: the three additions associate to the left and the product is with the
   literal one quarter. No finiteness is needed: nothing is reassociated or distributed. -/
import proofs.«213435_g4140348473474_cont_8to1_b_470_36_alg».proof.Proof.Gen.KernelIdeal.Skeleton
import proofs.«213435_g4140348473474_cont_8to1_b_470_36_alg».proof.Proof.PayConst
import Idealize.ShloMosaic.Lib.ValueIdx

noncomputable section

namespace Cert.Pool.Pay

open Idealize.ShloMosaic

/-- The common form: pointwise `((a + b) + c) + d`, then times the splat of the quarter literal. -/
theorem quarter_sum (a b c d : Vec Ideal Cert.KernelIdeal.S16 .f32) (i : Cert.KernelIdeal.S16.Idx) :
    mulf (F := Ideal) (addf (addf (addf a b) c) d)
        (broadcast Cert.KernelIdeal.S16 (Scalar.ofBits (F := Ideal) .f32 0x3E800000#32)) i
      = (a i + b i + c i + d i) * (((1 / 4 : ℝ)) : EReal) := by
  show (a i + b i + c i + d i) * Ideal.ofBits .f32 0x3E800000#32 = _
  rw [ofBits_quarter]

/-- Payload 10 read at a lane: the sum of the four gathered lanes, associated to the left, times one quarter. -/
theorem k0_pay10_apply (a b c d : Vec Ideal Cert.KernelIdeal.S16 .f32) (l : Fin 16) :
    Cert.KernelIdeal.Gen.k0_pay10 (F := Ideal) a b c d (ValueIdx.ix1 l)
      = (a (ValueIdx.ix1 l) + b (ValueIdx.ix1 l) + c (ValueIdx.ix1 l) + d (ValueIdx.ix1 l))
          * (((1 / 4 : ℝ)) : EReal) :=
  quarter_sum a b c d (ValueIdx.ix1 l)

/-- Payload 11 read at a lane: the sum of the four gathered lanes, associated to the left, times one quarter. -/
theorem k0_pay11_apply (a b c d : Vec Ideal Cert.KernelIdeal.S16 .f32) (l : Fin 16) :
    Cert.KernelIdeal.Gen.k0_pay11 (F := Ideal) a b c d (ValueIdx.ix1 l)
      = (a (ValueIdx.ix1 l) + b (ValueIdx.ix1 l) + c (ValueIdx.ix1 l) + d (ValueIdx.ix1 l))
          * (((1 / 4 : ℝ)) : EReal) :=
  quarter_sum a b c d (ValueIdx.ix1 l)

/-- Payload 12 read at a lane: the sum of the four gathered lanes, associated to the left, times one quarter. -/
theorem k0_pay12_apply (a b c d : Vec Ideal Cert.KernelIdeal.S16 .f32) (l : Fin 16) :
    Cert.KernelIdeal.Gen.k0_pay12 (F := Ideal) a b c d (ValueIdx.ix1 l)
      = (a (ValueIdx.ix1 l) + b (ValueIdx.ix1 l) + c (ValueIdx.ix1 l) + d (ValueIdx.ix1 l))
          * (((1 / 4 : ℝ)) : EReal) :=
  quarter_sum a b c d (ValueIdx.ix1 l)

/-- Payload 13 read at a lane: the sum of the four gathered lanes, associated to the left, times one quarter. -/
theorem k0_pay13_apply (a b c d : Vec Ideal Cert.KernelIdeal.S16 .f32) (l : Fin 16) :
    Cert.KernelIdeal.Gen.k0_pay13 (F := Ideal) a b c d (ValueIdx.ix1 l)
      = (a (ValueIdx.ix1 l) + b (ValueIdx.ix1 l) + c (ValueIdx.ix1 l) + d (ValueIdx.ix1 l))
          * (((1 / 4 : ℝ)) : EReal) :=
  quarter_sum a b c d (ValueIdx.ix1 l)

/-- Payload 14 read at a lane: the sum of the four gathered lanes, associated to the left, times one quarter. -/
theorem k0_pay14_apply (a b c d : Vec Ideal Cert.KernelIdeal.S16 .f32) (l : Fin 16) :
    Cert.KernelIdeal.Gen.k0_pay14 (F := Ideal) a b c d (ValueIdx.ix1 l)
      = (a (ValueIdx.ix1 l) + b (ValueIdx.ix1 l) + c (ValueIdx.ix1 l) + d (ValueIdx.ix1 l))
          * (((1 / 4 : ℝ)) : EReal) :=
  quarter_sum a b c d (ValueIdx.ix1 l)

/-- Payload 15 read at a lane: the sum of the four gathered lanes, associated to the left, times one quarter. -/
theorem k0_pay15_apply (a b c d : Vec Ideal Cert.KernelIdeal.S16 .f32) (l : Fin 16) :
    Cert.KernelIdeal.Gen.k0_pay15 (F := Ideal) a b c d (ValueIdx.ix1 l)
      = (a (ValueIdx.ix1 l) + b (ValueIdx.ix1 l) + c (ValueIdx.ix1 l) + d (ValueIdx.ix1 l))
          * (((1 / 4 : ℝ)) : EReal) :=
  quarter_sum a b c d (ValueIdx.ix1 l)

/-- Payload 16 read at a lane: the sum of the four gathered lanes, associated to the left, times one quarter. -/
theorem k0_pay16_apply (a b c d : Vec Ideal Cert.KernelIdeal.S16 .f32) (l : Fin 16) :
    Cert.KernelIdeal.Gen.k0_pay16 (F := Ideal) a b c d (ValueIdx.ix1 l)
      = (a (ValueIdx.ix1 l) + b (ValueIdx.ix1 l) + c (ValueIdx.ix1 l) + d (ValueIdx.ix1 l))
          * (((1 / 4 : ℝ)) : EReal) :=
  quarter_sum a b c d (ValueIdx.ix1 l)

/-- Payload 17 read at a lane: the sum of the four gathered lanes, associated to the left, times one quarter. -/
theorem k0_pay17_apply (a b c d : Vec Ideal Cert.KernelIdeal.S16 .f32) (l : Fin 16) :
    Cert.KernelIdeal.Gen.k0_pay17 (F := Ideal) a b c d (ValueIdx.ix1 l)
      = (a (ValueIdx.ix1 l) + b (ValueIdx.ix1 l) + c (ValueIdx.ix1 l) + d (ValueIdx.ix1 l))
          * (((1 / 4 : ℝ)) : EReal) :=
  quarter_sum a b c d (ValueIdx.ix1 l)

end Cert.Pool.Pay

end
-- ==== Proof.BridgeScI.lean ====
/- The SparseCore part computes the specification on rows 12288 .. 16383. Row R of its 4096 × 32 result
   is computed from row 12288 + R of the argument alone: entry g is the sum, associated to the left, of
   the four entries the gathers fetch for it, times one quarter. For g < 16 the gathers read positions
   4 g + 0, 1, 2, 3 (lane g of the index vectors with offsets 0 .. 3); for g ≥ 16 they read positions
   4 (g - 16) + 64, 65, 66, 67 = 4 g + 0, 1, 2, 3 (lane g - 16 of the vectors with offsets 64 .. 67).
   Either way entry g is the mean of entries 4 g .. 4 g + 3 of the row. No finiteness is needed. -/
import proofs.«213435_g4140348473474_cont_8to1_b_470_36_alg».proof.Proof.TileValDefsI
import proofs.«213435_g4140348473474_cont_8to1_b_470_36_alg».proof.Proof.PaySc
import proofs.«213435_g4140348473474_cont_8to1_b_470_36_alg».proof.Proof.PayIdx
import proofs.«213435_g4140348473474_cont_8to1_b_470_36_alg».proof.Proof.Spec

noncomputable section

namespace Cert.Pool.Bridge

open Idealize.ShloMosaic
open Cert.KernelIdeal Cert.KernelIdeal.Gen Cert.KernelIdeal.Pf
open Cert.Pool.Pay Cert.Pool.Pay.KernelIdeal

/-- A gather out of row `12288 + R` of the argument, read at lane `l`, whose index there is `4 g + j`, is
    member `j` of group `g` of that row. -/
theorem gath_xRowOf (X : Cert.Pool.SX.Idx → EReal) (R : Fin 4096) (idx : IVec S16 32)
    (h : ∀ a x, ((![idx] : Fin 1 → IVec S16 32) a x).toNat < S128.size a) (l : Fin 16) (g : Fin 32) (j : Nat)
    (hj : j < 4) (e : (idx (ValueIdx.ix1 l)).toNat = 4 * g.val + j) :
    gath (F := Ideal) (xRowOf (F := Ideal) X R) (0 : Fin 128) idx h (ValueIdx.ix1 l)
      = X (Cert.Pool.cell ⟨12288 + R.val, by have := R.isLt; omega⟩ g ⟨j, hj⟩) := by
  have hb : (idx (ValueIdx.ix1 l)).toNat < 2048 := by have := g.isLt; omega
  show X (ValueIdx.ix2 (⟨12288 + R.val, _⟩ : Fin 16384) (⟨(idx (ValueIdx.ix1 l)).toNat, hb⟩ : Fin 2048)) = _
  unfold Cert.Pool.cell
  exact congrArg (fun c : Fin 2048 => X (ValueIdx.ix2 (⟨12288 + R.val, by have := R.isLt; omega⟩ : Fin 16384) c))
    (Fin.ext e)

/-- The low half of a result row, entries g < 16. -/
theorem tile_lo (X : Cert.Pool.SX.Idx → EReal) (R : Fin 4096) (g : Fin 32) (hg : g.val < 16) :
    k0_pay10 (F := Ideal)
        (gath (xRowOf (F := Ideal) X R) (0 : Fin 128) k0_pay1 (k0_idx1_inb _ k0_chk1_holds))
        (gath (xRowOf (F := Ideal) X R) (0 : Fin 128) k0_pay2 (k0_idx2_inb _ k0_chk2_holds))
        (gath (xRowOf (F := Ideal) X R) (0 : Fin 128) k0_pay3 (k0_idx3_inb _ k0_chk3_holds))
        (gath (xRowOf (F := Ideal) X R) (0 : Fin 128) k0_pay4 (k0_idx4_inb _ k0_chk4_holds))
        (ValueIdx.ix1 (⟨g.val, hg⟩ : Fin 16))
      = Cert.Pool.mean4 X (ValueIdx.ix2 ⟨12288 + R.val, by have := R.isLt; omega⟩ g) := by
  rw [Cert.Pool.mean4_apply, k0_pay10_apply,
    gath_xRowOf X R k0_pay1 _ ⟨g.val, hg⟩ g 0 (by decide) (k0_pay1_toNat _),
    gath_xRowOf X R k0_pay2 _ ⟨g.val, hg⟩ g 1 (by decide) (k0_pay2_toNat _),
    gath_xRowOf X R k0_pay3 _ ⟨g.val, hg⟩ g 2 (by decide) (k0_pay3_toNat _),
    gath_xRowOf X R k0_pay4 _ ⟨g.val, hg⟩ g 3 (by decide) (k0_pay4_toNat _)]
  rfl

/-- The high half of a result row, entries g ≥ 16. -/
theorem tile_hi (X : Cert.Pool.SX.Idx → EReal) (R : Fin 4096) (g : Fin 32) (hg : ¬g.val < 16)
    (hl : g.val - 16 < 16) :
    k0_pay11 (F := Ideal)
        (gath (xRowOf (F := Ideal) X R) (0 : Fin 128) k0_pay5 (k0_idx5_inb _ k0_chk5_holds))
        (gath (xRowOf (F := Ideal) X R) (0 : Fin 128) k0_pay6 (k0_idx6_inb _ k0_chk6_holds))
        (gath (xRowOf (F := Ideal) X R) (0 : Fin 128) (k0_pay8 k0_pay7 66#32) (k0_idx7_inb _ k0_chk7_holds))
        (gath (xRowOf (F := Ideal) X R) (0 : Fin 128) (k0_pay9 lanes) (k0_idx8_inb _ k0_chk8_holds))
        (ValueIdx.ix1 (⟨g.val - 16, hl⟩ : Fin 16))
      = Cert.Pool.mean4 X (ValueIdx.ix2 ⟨12288 + R.val, by have := R.isLt; omega⟩ g) := by
  have a0 : 4 * (g.val - 16) + 64 = 4 * g.val + 0 := by omega
  have a1 : 4 * (g.val - 16) + 65 = 4 * g.val + 1 := by omega
  have a2 : 4 * (g.val - 16) + 66 = 4 * g.val + 2 := by omega
  have a3 : 4 * (g.val - 16) + 67 = 4 * g.val + 3 := by omega
  rw [Cert.Pool.mean4_apply, k0_pay11_apply,
    gath_xRowOf X R k0_pay5 _ ⟨g.val - 16, hl⟩ g 0 (by decide) ((k0_pay5_toNat _).trans a0),
    gath_xRowOf X R k0_pay6 _ ⟨g.val - 16, hl⟩ g 1 (by decide) ((k0_pay6_toNat _).trans a1),
    gath_xRowOf X R (k0_pay8 k0_pay7 66#32) _ ⟨g.val - 16, hl⟩ g 2 (by decide) ((k0_pay8_toNat _).trans a2),
    gath_xRowOf X R (k0_pay9 lanes) _ ⟨g.val - 16, hl⟩ g 3 (by decide) ((k0_pay9_toNat _).trans a3)]
  rfl

/-- The SparseCore part's result at row R, group g, is the mean of group g of row 12288 + R of the argument. -/
theorem scOut_apply (X : Cert.Pool.SX.Idx → EReal) (R : Fin 4096) (g : Fin 32) :
    scOut (F := Ideal) X (ValueIdx.ix2 R g)
      = Cert.Pool.mean4 X (ValueIdx.ix2 ⟨12288 + R.val, by have := R.isLt; omega⟩ g) := by
  show tileOut (F := Ideal) (xRowOf (F := Ideal) X R) (ValueIdx.ix2 (0 : Fin 128) g) = _
  unfold tileOut
  split
  · rename_i h
    exact tile_lo X R g h
  · rename_i h
    exact tile_hi X R g h _

end Cert.Pool.Bridge

end
-- ==== Proof.BridgeHostI.lean ====
/- The three host operations after the two kernels, read at one entry. The TensorCore part's result Y is
   32 × 12288 (group by row) and the SparseCore part's result Z is 4096 × 32 (row by group). The program
   transposes Z to 32 × 4096, joins it to Y along the second axis into 32 × 16384, and transposes that to
   16384 × 32. So entry (r, g) of the final array is Y (g, r) for r < 12288 and Z (r - 12288, g) otherwise.
   This holds for any element type: nothing here computes with the entries. -/
import proofs.«213435_g4140348473474_cont_8to1_b_470_36_alg».proof.Proof.HostTailI
import Idealize.ShloMosaic.Lib.ValueLayout
import Idealize.ShloMosaic.Lib.Pipeline.Value

noncomputable section

namespace Cert.Pool.Bridge

open Idealize.ShloMosaic
open Cert.KernelIdeal Cert.KernelIdeal.Gen Cert.KernelIdeal.Pf

variable {F : FTy → Type} [FloatOps F]

/-- Entry (r, g) of the final array: column r of Y below row 12288, row r - 12288 of Z from there on. -/
theorem hostTail_apply (Y : S32x12288.Idx → Elt F .f32) (Z : S4096x32.Idx → Elt F .f32) (r : Fin 16384)
    (g : Fin 32) :
    hostTail (F := F) Y Z (ValueIdx.ix2 r g)
      = if h : r.val < 12288 then Y (ValueIdx.ix2 g (⟨r.val, h⟩ : Fin 12288))
        else Z (ValueIdx.ix2 (⟨r.val - 12288, by have := r.isLt; omega⟩ : Fin 4096) g) := by
  unfold hostTail
  rw [ValueIdx.transpose_ix2_apply]
  by_cases h : r.val < 12288
  · rw [dif_pos h]
    exact concatenate_pair_apply_left (t := S32x16384) (s₁ := S32x12288) (s₂ := S32x4096) (1 : Fin 2) Y _ _ (ValueIdx.ix2 g r) rfl
      (ValueIdx.ix2 g (⟨r.val, h⟩ : Fin 12288)) (fun b => match b with | ⟨0, _⟩ => rfl | ⟨1, _⟩ => rfl)
  · rw [dif_neg h]
    refine (concatenate_pair_apply_right (t := S32x16384) (s₁ := S32x12288) (s₂ := S32x4096) (1 : Fin 2) Y _ _ (ValueIdx.ix2 g r) rfl rfl
      (ValueIdx.ix2 g (⟨r.val - 12288, by have := r.isLt; omega⟩ : Fin 4096))
      (fun b => match b with | ⟨0, _⟩ => fun _ => rfl | ⟨1, _⟩ => fun hb => absurd rfl hb)
      (by show r.val - 12288 + 12288 = r.val; omega)).trans ?_
    exact ValueIdx.transpose_ix2_apply Z _ _ _

end Cert.Pool.Bridge

end
-- ==== Proof.PaySel.lean ====
/- The selector matrix. Entry (k, g), for a row k < 128 and a column g < 32, is the literal 1/4 when
   the floor quotient k / 4 equals g and the zero literal otherwise. The program spells the floor
   quotient from the quotient rounded toward zero: it subtracts one when the operands' signs differ and
   the remainder is not zero. For 0 ≤ k < 128 and the divisor 4 both are non-negative, so the correction
   never applies and the rounded quotient is already the floor. The integer part is a finite check over
   the 128 × 32 pairs of lane numbers; the two literals are read as the extended reals 1/4 and 0. -/
import proofs.«213435_g4140348473474_cont_8to1_b_470_36_alg».proof.Proof.Gen.KernelIdeal.Skeleton
import proofs.«213435_g4140348473474_cont_8to1_b_470_36_alg».proof.Proof.PayConst
import Idealize.ShloMosaic.Lib.ValueIdx

noncomputable section

namespace Cert.Pool.Pay

open Idealize.ShloMosaic

/-- The one-bit comparison "floor (k / 4) = g" on 32-bit words, as the chain of integer operations
    that computes it: the quotient toward zero, the sign of each operand as a word in {-1, 0, 1}, the
    remainder, the correction by one, the comparison. -/
def selBit (k g : Nat) : BitVec 1 :=
  let v0 : BitVec 32 := BitVec.ofNat 32 k
  let v1 : BitVec 32 := BitVec.ofNat 32 g
  let v3 : BitVec 32 := IntOp.divsi .vector v0 4#32
  let v6 : BitVec 32 := (IntOp.cmpi .sgt v0 0#32).setWidth 32
  let v9 : BitVec 32 := (IntOp.cmpi .slt v0 0#32).setWidth 32
  let v10 : BitVec 32 := IntOp.subi v6 v9
  let v15 : BitVec 32 :=
    Scalar.subi (Scalar.extui (Scalar.cmpi .sgt 4#32 0#32)) (Scalar.extui (Scalar.cmpi .slt 4#32 0#32))
  let v17 : BitVec 1 := IntOp.cmpi .ne v10 v15
  let v19 : BitVec 32 := IntOp.remsi .vector v0 4#32
  let v21 : BitVec 1 := IntOp.cmpi .ne v19 0#32
  let v22 : BitVec 1 := IntOp.andi v17 v21
  let v24 : BitVec 32 := IntOp.subi v3 1#32
  let v25 : BitVec 32 := Scalar.select v22 v24 v3
  IntOp.cmpi .eq v25 v1

/-- On lane numbers k < 128 and g < 32 the comparison bit is set exactly when k / 4 = g. -/
theorem selBit_spec : ∀ (k : Fin 128) (g : Fin 32),
    selBit k.val g.val = if k.val / 4 = g.val then 1#1 else 0#1 := by
  decide +kernel

/-- The selector read at an index is the choice, by that bit, between the two literals. The row and
    column numbers appear as the one-axis counts `0 * extent + coordinate`. -/
theorem k1_pay7_at (k : Fin 128) (g : Fin 32) :
    Cert.KernelIdeal.Gen.k1_pay7 (F := Ideal) (ValueIdx.ix2 k g)
      = Scalar.select (selBit (0 * 128 + k.val) (0 * 32 + g.val))
          (Ideal.ofBits .f32 0x3E800000#32) (Ideal.ofBits .f32 0x00000000#32) := rfl

/-- Entry (k, g) of the selector: one quarter in the four rows 4g .. 4g+3 of column g, zero elsewhere. -/
theorem sel_apply (k : Fin 128) (g : Fin 32) :
    Cert.KernelIdeal.Gen.k1_pay7 (F := Ideal) (ValueIdx.ix2 k g)
      = if k.val / 4 = g.val then (((1 / 4 : ℝ)) : EReal) else 0 := by
  rw [k1_pay7_at k g]
  simp only [Nat.zero_mul, Nat.zero_add]
  rw [selBit_spec k g]
  by_cases h : k.val / 4 = g.val
  · rw [if_pos h, if_pos h]
    exact (if_pos rfl).trans ofBits_quarter
  · rw [if_neg h, if_neg h]
    exact (if_neg (by decide)).trans Ideal.ofBits_zero_f32

end Cert.Pool.Pay

end
-- ==== Proof.PayTc.lean ====
/- The matrix product against the selector, read at one entry over the extended reals. The product
   contracts the selector's row axis (128 rows) with the second axis of a 512 × 128 block v, into a zero
   accumulator, so entry (g, q) of the 32 × 512 result is the sum over k < 128 of sel(k, g) * v(q, k).
   The selector is 1/4 for the four k with k / 4 = g and 0 otherwise, so the sum has four non-zero terms,
   (1/4) v(q, 4g) + (1/4) v(q, 4g+1) + (1/4) v(q, 4g+2) + (1/4) v(q, 4g+3). When the four entries are real
   numbers this is (v(q, 4g) + v(q, 4g+1) + v(q, 4g+2) + v(q, 4g+3)) * (1/4): on the extended reals the
   product distributes over a sum of finite terms, which is where finiteness is used. -/
import proofs.«213435_g4140348473474_cont_8to1_b_470_36_alg».proof.Proof.Gen.KernelIdeal.Skeleton
import proofs.«213435_g4140348473474_cont_8to1_b_470_36_alg».proof.Proof.PaySel
import Idealize.ShloMosaic.Lib.ValueIdx
import Idealize.ShloMosaic.PureOps.Ideal.Laws

noncomputable section

namespace Cert.Pool.Pay

open Idealize.ShloMosaic

/-- The product's dimension numbers: contract axis 0 of the left operand with axis 1 of the right. -/
abbrev dotSel : DotDims Cert.KernelIdeal.S128x32 Cert.KernelIdeal.S512x128 Cert.KernelIdeal.S32x512 :=
  Cert.KernelIdeal.dot_S128x32_S512x128_S32x512_0_1_1_0_n_n

/-! The operand indices of the product at result index `i` and contraction position `c`, one axis at a time. -/

theorem dotSel_lhs_0 (i : Cert.KernelIdeal.S32x512.Idx) (c : dotSel.contr.Idx) :
    (dotSel.lhsIdx i c 0).val = (c ⟨0, by decide⟩).val :=
  dotSel.lhsIdx_val_of_single rfl i c

theorem dotSel_lhs_1 (i : Cert.KernelIdeal.S32x512.Idx) (c : dotSel.contr.Idx) :
    (dotSel.lhsIdx i c 1).val = (i 0).val := by
  unfold DotDims.lhsIdx
  rw [dif_neg (show ¬(1 : Fin Cert.KernelIdeal.S128x32.rank) ∈ dotSel.lhsBatch by decide),
    dif_pos (show (1 : Fin Cert.KernelIdeal.S128x32.rank) ∈ dotSel.lhsNonContracting by decide)]
  rfl

theorem dotSel_rhs_0 (i : Cert.KernelIdeal.S32x512.Idx) (c : dotSel.contr.Idx) :
    (dotSel.rhsIdx i c 0).val = (i 1).val := by
  unfold DotDims.rhsIdx
  rw [dif_neg (show ¬(0 : Fin Cert.KernelIdeal.S512x128.rank) ∈ dotSel.rhsBatch by decide),
    dif_pos (show (0 : Fin Cert.KernelIdeal.S512x128.rank) ∈ dotSel.rhsNonContracting by decide)]
  rfl

theorem dotSel_rhs_1 (i : Cert.KernelIdeal.S32x512.Idx) (c : dotSel.contr.Idx) :
    (dotSel.rhsIdx i c 1).val = (c ⟨0, by decide⟩).val :=
  dotSel.rhsIdx_val_of_single rfl i c

/-- The product into a zero accumulator at entry (g, q): the sum over the 128 contracted positions of
    the left operand at (k, g) times the right operand at (q, k). -/
theorem matmul_sum (w : FVec Ideal Cert.KernelIdeal.S128x32 .f32) (v : Vec Ideal Cert.KernelIdeal.S512x128 .f32)
    (g : Fin 32) (q : Fin 512) :
    matmul (φ₂ := .f32) dotSel (some .fp32) w v (constant (F := Ideal) Cert.KernelIdeal.S32x512 .f32 0x00000000#32)
        (ValueIdx.ix2 g q)
      = ∑ k : Fin 128, w (ValueIdx.ix2 k g) * v (ValueIdx.ix2 q k) := by
  simp only [matmul]
  rw [Ideal.matmul_constant_zero_apply, ← Equiv.sum_comp (ValueIdx.contrEquiv1 dotSel 128 rfl rfl).symm]
  refine Finset.sum_congr rfl fun k _ => ?_
  have hk := ValueIdx.contrEquiv1_symm_val dotSel 128 rfl rfl k
  have el : dotSel.lhsIdx (ValueIdx.ix2 g q) ((ValueIdx.contrEquiv1 dotSel 128 rfl rfl).symm k)
      = ValueIdx.ix2 k g := funext fun a => Fin.ext (by
    match a with
    | ⟨0, _⟩ => exact (dotSel_lhs_0 _ _).trans hk
    | ⟨1, _⟩ => exact dotSel_lhs_1 _ _)
  have er : dotSel.rhsIdx (ValueIdx.ix2 g q) ((ValueIdx.contrEquiv1 dotSel 128 rfl rfl).symm k)
      = ValueIdx.ix2 q k := funext fun a => Fin.ext (by
    match a with
    | ⟨0, _⟩ => exact dotSel_rhs_0 _ _
    | ⟨1, _⟩ => exact (dotSel_rhs_1 _ _).trans hk)
  rw [el, er]

/-- A sum over k < 128 of terms that vanish unless k / 4 = g has the four terms k = 4g, 4g+1, 4g+2, 4g+3. -/
theorem sum_group {M : Type} [AddCommMonoid M] (f : Fin 128 → M) (g : Fin 32) :
    ∑ k : Fin 128, (if k.val / 4 = g.val then f k else 0)
      = f ⟨4 * g.val + 0, by omega⟩ + f ⟨4 * g.val + 1, by omega⟩ + f ⟨4 * g.val + 2, by omega⟩
          + f ⟨4 * g.val + 3, by omega⟩ := by
  have hS : (Finset.univ.filter fun k : Fin 128 => k.val / 4 = g.val)
      = {(⟨4 * g.val + 0, by omega⟩ : Fin 128), ⟨4 * g.val + 1, by omega⟩, ⟨4 * g.val + 2, by omega⟩,
          ⟨4 * g.val + 3, by omega⟩} := by
    ext k
    simp only [Finset.mem_filter, Finset.mem_univ, true_and, Finset.mem_insert, Finset.mem_singleton,
      Fin.ext_iff]
    omega
  rw [← Finset.sum_filter, hS, Finset.sum_insert, Finset.sum_insert, Finset.sum_insert,
    Finset.sum_singleton, add_assoc, add_assoc]
  · simp only [Finset.mem_singleton, Fin.ext_iff]; omega
  · simp only [Finset.mem_insert, Finset.mem_singleton, Fin.ext_iff]; omega
  · simp only [Finset.mem_insert, Finset.mem_singleton, Fin.ext_iff]; omega

/-- The product of the selector with a block of real numbers, at entry (g, q): the mean of the four
    entries 4g .. 4g+3 of row q of the block. -/
theorem matmul_sel_apply (v : Vec Ideal Cert.KernelIdeal.S512x128 .f32) (hv : ∀ y, ∃ a : ℝ, v y = (a : EReal))
    (g : Fin 32) (q : Fin 512) :
    matmul (φ₂ := .f32) dotSel (some .fp32) (Cert.KernelIdeal.Gen.k1_pay7 (F := Ideal)) v
        (constant (F := Ideal) Cert.KernelIdeal.S32x512 .f32 0x00000000#32) (ValueIdx.ix2 g q)
      = (v (ValueIdx.ix2 q ⟨4 * g.val + 0, by omega⟩) + v (ValueIdx.ix2 q ⟨4 * g.val + 1, by omega⟩)
          + v (ValueIdx.ix2 q ⟨4 * g.val + 2, by omega⟩) + v (ValueIdx.ix2 q ⟨4 * g.val + 3, by omega⟩))
        * (((1 / 4 : ℝ)) : EReal) := by
  rw [matmul_sum]
  simp only [sel_apply, ite_mul, zero_mul]
  rw [sum_group (fun k => (((1 / 4 : ℝ)) : EReal) * v (ValueIdx.ix2 q k)) g]
  obtain ⟨a0, h0⟩ := hv (ValueIdx.ix2 q ⟨4 * g.val + 0, by omega⟩)
  obtain ⟨a1, h1⟩ := hv (ValueIdx.ix2 q ⟨4 * g.val + 1, by omega⟩)
  obtain ⟨a2, h2⟩ := hv (ValueIdx.ix2 q ⟨4 * g.val + 2, by omega⟩)
  obtain ⟨a3, h3⟩ := hv (ValueIdx.ix2 q ⟨4 * g.val + 3, by omega⟩)
  simp only [h0, h1, h2, h3, ← EReal.coe_mul, ← EReal.coe_add]
  congr 1
  ring

/-- Product 1 against the selector, read at an index. -/
theorem k1_pay1_apply (v : Vec Ideal Cert.KernelIdeal.S512x128 .f32) (hv : ∀ y, ∃ a : ℝ, v y = (a : EReal))
    (g : Fin 32) (q : Fin 512) :
    Cert.KernelIdeal.Gen.k1_pay1 (F := Ideal) (Cert.KernelIdeal.Gen.k1_pay7 (F := Ideal)) v (ValueIdx.ix2 g q)
      = (v (ValueIdx.ix2 q ⟨4 * g.val + 0, by omega⟩) + v (ValueIdx.ix2 q ⟨4 * g.val + 1, by omega⟩)
          + v (ValueIdx.ix2 q ⟨4 * g.val + 2, by omega⟩) + v (ValueIdx.ix2 q ⟨4 * g.val + 3, by omega⟩))
        * (((1 / 4 : ℝ)) : EReal) :=
  matmul_sel_apply v hv g q

/-- Product 2 against the selector, read at an index. -/
theorem k1_pay2_apply (v : Vec Ideal Cert.KernelIdeal.S512x128 .f32) (hv : ∀ y, ∃ a : ℝ, v y = (a : EReal))
    (g : Fin 32) (q : Fin 512) :
    Cert.KernelIdeal.Gen.k1_pay2 (F := Ideal) (Cert.KernelIdeal.Gen.k1_pay7 (F := Ideal)) v (ValueIdx.ix2 g q)
      = (v (ValueIdx.ix2 q ⟨4 * g.val + 0, by omega⟩) + v (ValueIdx.ix2 q ⟨4 * g.val + 1, by omega⟩)
          + v (ValueIdx.ix2 q ⟨4 * g.val + 2, by omega⟩) + v (ValueIdx.ix2 q ⟨4 * g.val + 3, by omega⟩))
        * (((1 / 4 : ℝ)) : EReal) :=
  matmul_sel_apply v hv g q

/-- Product 3 against the selector, read at an index. -/
theorem k1_pay3_apply (v : Vec Ideal Cert.KernelIdeal.S512x128 .f32) (hv : ∀ y, ∃ a : ℝ, v y = (a : EReal))
    (g : Fin 32) (q : Fin 512) :
    Cert.KernelIdeal.Gen.k1_pay3 (F := Ideal) (Cert.KernelIdeal.Gen.k1_pay7 (F := Ideal)) v (ValueIdx.ix2 g q)
      = (v (ValueIdx.ix2 q ⟨4 * g.val + 0, by omega⟩) + v (ValueIdx.ix2 q ⟨4 * g.val + 1, by omega⟩)
          + v (ValueIdx.ix2 q ⟨4 * g.val + 2, by omega⟩) + v (ValueIdx.ix2 q ⟨4 * g.val + 3, by omega⟩))
        * (((1 / 4 : ℝ)) : EReal) :=
  matmul_sel_apply v hv g q

/-- Product 4 against the selector, read at an index. -/
theorem k1_pay4_apply (v : Vec Ideal Cert.KernelIdeal.S512x128 .f32) (hv : ∀ y, ∃ a : ℝ, v y = (a : EReal))
    (g : Fin 32) (q : Fin 512) :
    Cert.KernelIdeal.Gen.k1_pay4 (F := Ideal) (Cert.KernelIdeal.Gen.k1_pay7 (F := Ideal)) v (ValueIdx.ix2 g q)
      = (v (ValueIdx.ix2 q ⟨4 * g.val + 0, by omega⟩) + v (ValueIdx.ix2 q ⟨4 * g.val + 1, by omega⟩)
          + v (ValueIdx.ix2 q ⟨4 * g.val + 2, by omega⟩) + v (ValueIdx.ix2 q ⟨4 * g.val + 3, by omega⟩))
        * (((1 / 4 : ℝ)) : EReal) :=
  matmul_sel_apply v hv g q

/-- Product 5 against the selector, read at an index. -/
theorem k1_pay5_apply (v : Vec Ideal Cert.KernelIdeal.S512x128 .f32) (hv : ∀ y, ∃ a : ℝ, v y = (a : EReal))
    (g : Fin 32) (q : Fin 512) :
    Cert.KernelIdeal.Gen.k1_pay5 (F := Ideal) (Cert.KernelIdeal.Gen.k1_pay7 (F := Ideal)) v (ValueIdx.ix2 g q)
      = (v (ValueIdx.ix2 q ⟨4 * g.val + 0, by omega⟩) + v (ValueIdx.ix2 q ⟨4 * g.val + 1, by omega⟩)
          + v (ValueIdx.ix2 q ⟨4 * g.val + 2, by omega⟩) + v (ValueIdx.ix2 q ⟨4 * g.val + 3, by omega⟩))
        * (((1 / 4 : ℝ)) : EReal) :=
  matmul_sel_apply v hv g q

/-- Product 6 against the selector, read at an index. -/
theorem k1_pay6_apply (v : Vec Ideal Cert.KernelIdeal.S512x128 .f32) (hv : ∀ y, ∃ a : ℝ, v y = (a : EReal))
    (g : Fin 32) (q : Fin 512) :
    Cert.KernelIdeal.Gen.k1_pay6 (F := Ideal) (Cert.KernelIdeal.Gen.k1_pay7 (F := Ideal)) v (ValueIdx.ix2 g q)
      = (v (ValueIdx.ix2 q ⟨4 * g.val + 0, by omega⟩) + v (ValueIdx.ix2 q ⟨4 * g.val + 1, by omega⟩)
          + v (ValueIdx.ix2 q ⟨4 * g.val + 2, by omega⟩) + v (ValueIdx.ix2 q ⟨4 * g.val + 3, by omega⟩))
        * (((1 / 4 : ℝ)) : EReal) :=
  matmul_sel_apply v hv g q

/-- Product 8 against the selector, read at an index. -/
theorem k1_pay8_apply (v : Vec Ideal Cert.KernelIdeal.S512x128 .f32) (hv : ∀ y, ∃ a : ℝ, v y = (a : EReal))
    (g : Fin 32) (q : Fin 512) :
    Cert.KernelIdeal.Gen.k1_pay8 (F := Ideal) v (ValueIdx.ix2 g q)
      = (v (ValueIdx.ix2 q ⟨4 * g.val + 0, by omega⟩) + v (ValueIdx.ix2 q ⟨4 * g.val + 1, by omega⟩)
          + v (ValueIdx.ix2 q ⟨4 * g.val + 2, by omega⟩) + v (ValueIdx.ix2 q ⟨4 * g.val + 3, by omega⟩))
        * (((1 / 4 : ℝ)) : EReal) :=
  matmul_sel_apply v hv g q

/-- Product 9 against the selector, read at an index. -/
theorem k1_pay9_apply (v : Vec Ideal Cert.KernelIdeal.S512x128 .f32) (hv : ∀ y, ∃ a : ℝ, v y = (a : EReal))
    (g : Fin 32) (q : Fin 512) :
    Cert.KernelIdeal.Gen.k1_pay9 (F := Ideal) v (ValueIdx.ix2 g q)
      = (v (ValueIdx.ix2 q ⟨4 * g.val + 0, by omega⟩) + v (ValueIdx.ix2 q ⟨4 * g.val + 1, by omega⟩)
          + v (ValueIdx.ix2 q ⟨4 * g.val + 2, by omega⟩) + v (ValueIdx.ix2 q ⟨4 * g.val + 3, by omega⟩))
        * (((1 / 4 : ℝ)) : EReal) :=
  matmul_sel_apply v hv g q

end Cert.Pool.Pay

end
-- ==== Proof.BridgeTcI.lean ====
/- The TensorCore part computes the specification on rows 0 .. 12287, when the argument's entries are real
   numbers. Its 32 × 12288 result, at group g and column col, is the product of the selector with the
   block of 512 rows of the argument that contains row col, read at (g, col mod 512): the mean of entries
   4 g .. 4 g + 3 of row 512 (col / 512) + col mod 512 = col. Finiteness is what the product with the
   selector needs in order to be the mean. -/
import proofs.«213435_g4140348473474_cont_8to1_b_470_36_alg».proof.Proof.TcOutI
import proofs.«213435_g4140348473474_cont_8to1_b_470_36_alg».proof.Proof.PayTc
import proofs.«213435_g4140348473474_cont_8to1_b_470_36_alg».proof.Proof.Spec

noncomputable section

namespace Cert.Pool.Bridge

open Idealize.ShloMosaic
open Cert.KernelIdeal Cert.KernelIdeal.Gen Cert.KernelIdeal.Pf
open Cert.Pool.Pay

/-- The TensorCore part's result at group g, column col, is the mean of group g of row col of the argument. -/
theorem tcOut_apply (X : Cert.Pool.SX.Idx → EReal) (hX : ∀ i, ∃ a : ℝ, X i = (a : EReal)) (g : Fin 32)
    (col : Fin 12288) :
    tcOut (F := Ideal) X (ValueIdx.ix2 g col)
      = Cert.Pool.mean4 X (ValueIdx.ix2 ⟨col.val, by have := col.isLt; omega⟩ g) := by
  have P1 : 512 * (col.val / 512) + col.val % 512 < 16384 := by have := col.isLt; omega
  have P2 : ∀ j : Nat, j < 4 → 4 * g.val + j < 2048 := fun j hj => by have := g.isLt; omega
  have hr : (⟨512 * (col.val / 512) + col.val % 512, P1⟩ : Fin 16384)
      = ⟨col.val, by have := col.isLt; omega⟩ := Fin.ext (Nat.div_add_mod _ _)
  unfold tcOut
  refine (k1_pay8_apply _ (fun y => hX _) _ _).trans ?_
  show (X (ValueIdx.ix2 (⟨512 * (col.val / 512) + col.val % 512, P1⟩ : Fin 16384) (⟨4 * g.val + 0, P2 0 (by decide)⟩ : Fin 2048))
      + X (ValueIdx.ix2 (⟨512 * (col.val / 512) + col.val % 512, P1⟩ : Fin 16384) (⟨4 * g.val + 1, P2 1 (by decide)⟩ : Fin 2048))
      + X (ValueIdx.ix2 (⟨512 * (col.val / 512) + col.val % 512, P1⟩ : Fin 16384) (⟨4 * g.val + 2, P2 2 (by decide)⟩ : Fin 2048))
      + X (ValueIdx.ix2 (⟨512 * (col.val / 512) + col.val % 512, P1⟩ : Fin 16384) (⟨4 * g.val + 3, P2 3 (by decide)⟩ : Fin 2048)))
        * (((1 / 4 : ℝ)) : EReal) = _
  rw [hr]
  rfl

end Cert.Pool.Bridge

end
-- ==== Proof.BridgeI.lean ====
/- The kernel's whole result is the specification. The final 16384 × 32 array takes rows 0 .. 12287 from
   the TensorCore part and rows 12288 .. 16383 from the SparseCore part; each part computes, at its rows,
   the mean of every group of four consecutive entries among the first 128 of the row. So for an argument
   of real numbers the final array is the specification's, entry by entry. -/
import proofs.«213435_g4140348473474_cont_8to1_b_470_36_alg».proof.Proof.BridgeScI
import proofs.«213435_g4140348473474_cont_8to1_b_470_36_alg».proof.Proof.BridgeHostI
import proofs.«213435_g4140348473474_cont_8to1_b_470_36_alg».proof.Proof.BridgeTcI

noncomputable section

namespace Cert.Pool.Bridge

open Idealize.ShloMosaic
open Cert.KernelIdeal Cert.KernelIdeal.Gen Cert.KernelIdeal.Pf

/-- What the program computes from an argument of real numbers is the mean of each group of four. -/
theorem kernel_eq_mean4 (X : Cert.Pool.SX.Idx → EReal) (hX : ∀ i, ∃ a : ℝ, X i = (a : EReal)) :
    hostTail (F := Ideal) (tcOut (F := Ideal) X) (scOut (F := Ideal) X) = Cert.Pool.mean4 X := by
  funext i
  obtain ⟨r, g, rfl⟩ : ∃ (r : Fin 16384) (g : Fin 32), i = ValueIdx.ix2 r g := ⟨i 0, i 1, ValueIdx.eq_ix2 i⟩
  rw [hostTail_apply]
  split
  · rename_i h
    exact tcOut_apply X hX g ⟨r.val, h⟩
  · rename_i h
    have hR : r.val - 12288 < 4096 := by have := r.isLt; omega
    have e : (⟨12288 + (r.val - 12288), by omega⟩ : Fin 16384) = r :=
      Fin.ext (by show 12288 + (r.val - 12288) = r.val; omega)
    exact (scOut_apply X ⟨r.val - 12288, hR⟩ g).trans
      (congrArg (fun r' : Fin 16384 => Cert.Pool.mean4 X (ValueIdx.ix2 r' g)) e)

end Cert.Pool.Bridge

end
-- ==== Proof.Finite.lean ====
/- From the precondition to finiteness. The precondition says that "|x| < +∞" holds at every entry of
   the argument array (a conjunction over all entries that evaluates to true). Over the extended reals
   |x| is max x (-x), which is +∞ exactly at the two infinities, so every entry is a real number. This
   is what licenses distributing the product with 1/4 over a sum of entries. -/
import proofs.«213435_g4140348473474_cont_8to1_b_470_36_alg».proof.Defs
import proofs.«213435_g4140348473474_cont_8to1_b_470_36_alg».proof.Proof.Gen.Pre_finite_inputs
import proofs.«213435_g4140348473474_cont_8to1_b_470_36_alg».proof.Proof.Spec
import Idealize.ShloMosaic.Lib.ReduceAll
import Idealize.ShloMosaic.Lib.ValueIdx

noncomputable section

namespace Cert.Pool.Pay

open Idealize.ShloMosaic Idealize.SL.Sem

/-- The scalar shape has exactly one index. -/
instance subsingleton_scalar_idx : Subsingleton Cert.Pre_finite_inputs.S_.Idx :=
  ⟨fun a b => funext fun d => d.elim0⟩

/-- The pattern with all exponent bits set and zero fraction denotes +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < (⊤ : EReal)) : ∃ a : ℝ, x = (a : EReal) := by
  induction x using EReal.rec with
  | bot => simp at h
  | coe a => exact ⟨a, rfl⟩
  | top => simp at h

/-- The ordered "less than" comparison answers the bit 1 only when the strict inequality holds. -/
theorem lt_of_cmp_olt (x y : EReal) (h : Ideal.cmp .olt x y = 1#1) : x < y := by
  unfold Ideal.cmp at h
  by_contra hn
  simp [hn] at h

/-- An extended real that compares "|x| < +∞" true is a real number. -/
theorem real_of_cmp (x : EReal)
    (h : Ideal.cmp .olt (max x (-x)) (Ideal.ofBits .f32 0x7F800000#32) = 1#1) : ∃ a : ℝ, x = (a : EReal) := by
  have h3 := lt_of_cmp_olt _ _ h
  rw [ofBits_inf] at h3
  exact real_of_abs_lt_top _ h3

/-- Under the precondition every entry of the argument array, on every device, is a real number. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) (i : Cert.Pool.SX.Idx) :
    ∃ a : ℝ, m ((c.tc : Thread Cert.KernelIdeal.nD Cert.KernelIdeal.τ).loc Cert.KernelIdeal.main_arg0) i
      = (a : EReal) := by
  have h0 := congrFun (h c) ValueIdx.ix0
  dsimp only [Cert.Pre_finite_inputs.fn] at h0
  have h1 := Host.reduce_andi_all _ _ _ _ _ h0 i
  exact real_of_cmp (m ((c.tc : Thread Cert.KernelIdeal.nD Cert.KernelIdeal.τ).loc Cert.KernelIdeal.main_arg0) i) h1

end Cert.Pool.Pay

end
-- ==== Proof.lean ====
/-
  Every conjunct of the claim, from the three runs.

  The kernel computes, for a 16384 × 2048 input of which only the first 128 columns are read, the mean of
  each group of four consecutive entries of a row: rows 0 .. 12287 on the TensorCore, by a product with a
  128 × 32 selector matrix holding 1/4 in the four rows of a group and 0 elsewhere; rows 12288 .. 16383 on
  the vector subcores, each of 32 tasks gathering the four members of sixteen groups at a time, adding
  them and scaling by 1/4; @main joins the two parts by transposes and a concatenation. The reference
  gathers the first 128 columns, reshapes them in groups of four, sums each group and divides by 4.

  Both kernel programs (the words' and the extended reals') run to the end with the argument unchanged
  and the result array at the host tail of the two parts' results: the same run theorem at the two float
  instances. At the extended reals the product with 1/4 is the quotient by 4, and for finite entries the
  selector's sum distributes: the host tail is the specification `mean4`, which the reference's run also
  ends at. Nothing was rewritten between the two kernel programs, so the idealization claim is trivial.
-/
import proofs.«213435_g4140348473474_cont_8to1_b_470_36_alg».proof.Defs
import proofs.«213435_g4140348473474_cont_8to1_b_470_36_alg».proof.Proof.Gen.Kernel
import proofs.«213435_g4140348473474_cont_8to1_b_470_36_alg».proof.Proof.Gen.Kernel.Skeleton
import proofs.«213435_g4140348473474_cont_8to1_b_470_36_alg».proof.Proof.Gen.Kernel.Launch
import proofs.«213435_g4140348473474_cont_8to1_b_470_36_alg».proof.Proof.Gen.Kernel.Points
import proofs.«213435_g4140348473474_cont_8to1_b_470_36_alg».proof.Proof.Gen.KernelIdeal
import proofs.«213435_g4140348473474_cont_8to1_b_470_36_alg».proof.Proof.Gen.KernelIdeal.Skeleton
import proofs.«213435_g4140348473474_cont_8to1_b_470_36_alg».proof.Proof.Gen.KernelIdeal.Launch
import proofs.«213435_g4140348473474_cont_8to1_b_470_36_alg».proof.Proof.Gen.KernelIdeal.Points
import proofs.«213435_g4140348473474_cont_8to1_b_470_36_alg».proof.Proof.Gen.ReferenceIdeal
import proofs.«213435_g4140348473474_cont_8to1_b_470_36_alg».proof.Proof.Gen.Pre_finite_inputs
import proofs.«213435_g4140348473474_cont_8to1_b_470_36_alg».proof.Proof.LaunchI
import proofs.«213435_g4140348473474_cont_8to1_b_470_36_alg».proof.Proof.LaunchB
import proofs.«213435_g4140348473474_cont_8to1_b_470_36_alg».proof.Proof.RefValue
import proofs.«213435_g4140348473474_cont_8to1_b_470_36_alg».proof.Proof.BridgeI
import proofs.«213435_g4140348473474_cont_8to1_b_470_36_alg».proof.Proof.Finite
import Idealize.ShloMosaic.Adequacy
import Idealize.ShloMosaic.Init

noncomputable section

namespace Cert.Proof

open Idealize.ShloMosaic Idealize.SL.Sem

/-- The word-level kernel runs to the end and leaves its argument as it found it. -/
theorem frame_p : Cert.frame_Kernel := fun m ρ _ =>
  (θ_run Cert.Kernel.defs _ _).mono (fun _ h c => (h c).2) (Cert.Kernel.Pf.run_main (F := Bits) m ρ)

/-- So does the kernel read over the extended reals. -/
theorem frame_pi : Cert.frame_KernelIdeal := fun m ρ _ =>
  (θ_run Cert.KernelIdeal.defs _ _).mono (fun _ h c => (h c).2) (Cert.KernelIdeal.Pf.run_main (F := Ideal) m ρ)

/-- The reference runs to the end and leaves its argument as it found it: its run with the value dropped. -/
theorem frame_ri : Cert.frame_ReferenceIdeal := fun m ρ _ =>
  (θ_run Cert.ReferenceIdeal.defs _ _).mono (fun _ h c => (h c).2) (Cert.ReferenceIdeal.RefValue.run m ρ)

/-- No operation was rewritten between the two kernel programs. -/
theorem preserves : Cert.preserves_Kernel_KernelIdeal := trivial

/-- Over the extended reals, on finite inputs, the kernel's result and the reference's are both the mean of each
    group of four consecutive entries of a row. -/
theorem algebraic : Cert.algebraic_KernelIdeal_ReferenceIdeal := by
  intro m ρ m' ρ' hpre hagree
  refine ⟨fun c => Cert.Pool.mean4 (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩)
      (Cert.KernelIdeal.Pf.run_main (F := Ideal) m ρ)
    exact Cert.Pool.Bridge.kernel_eq_mean4 _ (fun i => Cert.Pool.Pay.finite_of_pre m hpre c i)
  · refine (θ_run Cert.ReferenceIdeal.defs _ _).mono (fun _ h c => ⟨(h c).1.trans ?_, (h c).2⟩)
      (Cert.ReferenceIdeal.RefValue.run m' ρ')
    rw [hagree c]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
